-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x192 : Shape := ⟨3, ![4096, 2, 192]⟩
abbrev S4096 : Shape := ⟨1, ![4096]⟩
abbrev S_ : Shape := ⟨0, ![]⟩

class Facts : Prop where
  bcast_S_S4096x2x192 : S_.BroadcastsInDim S4096x2x192 (![] : Fin 0 → Fin S4096x2x192.rank)
  reducesTo_S4096x2x192_S_d0_1_2 : S4096x2x192.ReducesTo [0, 1, 2] S_
  h_S_ : 0 < S_.numel

variable [Facts]

def fn {F : FTy → Type} [FloatOps F] (main_arg0 : FVec F S4096x2x192 .f32) (main_arg1 : IVec S4096 32) : IVec S_ 1 :=
  let main_v0 : FVec F S4096x2x192 .f32 := Host.absf main_arg0
  let main_cst : FVec F S_ .f32 := constant S_ .f32 0x7F800000#32
  let main_v1 : FVec F S4096x2x192 .f32 := broadcastInDim S4096x2x192 ![] bcast_S_S4096x2x192 main_cst
  let main_v2 : IVec S4096x2x192 1 := cmpf .olt main_v0 main_v1
  let main_c : IVec S_ 1 := constantI S_ 1 1#1
  let main_v3 : IVec S_ 1 := (fun x v => Host.reduce IntOp.andi x v reducesTo_S4096x2x192_S_d0_1_2 h_S_) main_v2 main_c
  main_v3
-- ==== Kernel.lean ====
abbrev S4096x2x192 : Shape := ⟨3, ![4096, 2, 192]⟩
abbrev S4096 : Shape := ⟨1, ![4096]⟩
abbrev S8192x192 : Shape := ⟨2, ![8192, 192]⟩
abbrev S4096x2 : Shape := ⟨2, ![4096, 2]⟩
abbrev S8192 : Shape := ⟨1, ![8192]⟩
abbrev S8192x1 : Shape := ⟨2, ![8192, 1]⟩
abbrev S1x8192 : Shape := ⟨2, ![1, 8192]⟩
abbrev S192x8192 : Shape := ⟨2, ![192, 8192]⟩
abbrev S192x192 : Shape := ⟨2, ![192, 192]⟩
abbrev S_ : Shape := ⟨0, ![]⟩
abbrev S512x192 : Shape := ⟨2, ![512, 192]⟩
abbrev S1024x192 : Shape := ⟨2, ![1024, 192]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩

abbrev nBuf : Space → Nat
  | .hbm => 39
  | .vmem => 38
  | .smem => 0
  | _ => 0

abbrev bufTy : (tb : Table) → Fin (tcTables nBuf tb) → BufTy
  | .hbm, ⟨0, _⟩ => ⟨S4096x2x192, .f32⟩
  | .hbm, ⟨1, _⟩ => ⟨S4096, .i32⟩
  | .hbm, ⟨2, _⟩ => ⟨S8192x192, .f32⟩
  | .hbm, ⟨3, _⟩ => ⟨S4096x2, .i32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S192x8192, .f32⟩
  | .hbm, ⟨8, _⟩ => ⟨S192x192, .f32⟩
  | .hbm, ⟨9, _⟩ => ⟨S8192x192, .f32⟩
  | .hbm, ⟨10, _⟩ => ⟨S8192x192, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1, .f32⟩
  | .hbm, ⟨31, _⟩ => ⟨S8192x1, .i1⟩
  | .hbm, ⟨32, _⟩ => ⟨S8192x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x192, .f32⟩
  | .local _ .vmem, ⟨1, _⟩ => ⟨S512x192, .f32⟩
  | .local _ .vmem, ⟨2, _⟩ => ⟨S1024x192, .f32⟩
  | .local _ .vmem, ⟨3, _⟩ => ⟨S1024x192, .f32⟩
  | .local _ .vmem, ⟨4, _⟩ => ⟨S512x1, .i32⟩
  | .local _ .vmem, ⟨5, _⟩ => ⟨S512x1, .i32⟩
  | .local _ .vmem, ⟨6, _⟩ => ⟨S1x1024, .i32⟩
  | .local _ .vmem, ⟨7, _⟩ => ⟨S1x1024, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x192, .f32⟩
  | .local _ .vmem, ⟨17, _⟩ => ⟨S512x192, .f32⟩
  | .local _ .vmem, ⟨18, _⟩ => ⟨S1024x192, .f32⟩
  | .local _ .vmem, ⟨19, _⟩ => ⟨S1024x192, .f32⟩
  | .local _ .vmem, ⟨20, _⟩ => ⟨S512x1, .i32⟩
  | .local _ .vmem, ⟨21, _⟩ => ⟨S512x1, .i32⟩
  | .local _ .vmem, ⟨22, _⟩ => ⟨S1x1024, .i32⟩
  | .local _ .vmem, ⟨23, _⟩ => ⟨S1x1024, .i32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | _, _ => ⟨S4096x2x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v17_0 : Ref sig .tc := ⟨.hbm, 23, rfl⟩
abbrev main_v17_1 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc1_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_25 : BitVec 32 := 0#32
  let v45 : BitVec 1 := Scalar.cmpi .ne v44 c0_i32_25
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v99 : BitVec 1 := Scalar.cmpi .eq arg1 c7_i32
  let v100 : BitVec 32 := Scalar.extui v99
  let c0_i32_53 : BitVec 32 := 0#32
  let v101 : BitVec 1 := Scalar.cmpi .ne v100 c0_i32_53
  v101

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  shapeCasts_S4096x2x192_S8192x192 : S4096x2x192.ShapeCasts S8192x192
  bcast_S4096_S4096x2_0 : S4096.BroadcastsInDim S4096x2 (![0] : Fin 1 → Fin S4096x2.rank)
  shapeCasts_S4096x2_S8192 : S4096x2.ShapeCasts S8192
  shapeCasts_S8192_S8192x1 : S8192.ShapeCasts S8192x1
  shapeCasts_S8192_S1x8192 : S8192.ShapeCasts S1x8192
  transposes_S8192x192_S192x8192_1_0 : S8192x192.Transposes [1, 0] S192x8192
  reducesTo_S8192x192_S8192_d1 : S8192x192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  natLt_1_32 : 1 < 32
  reducesTo_S8192x1_S_d0_1 : S8192x1.ReducesTo [0, 1] S_
  dot_S192x8192_S8192x192_S192x192_1_0_0_1_n_n_wf : DotDims.WF S192x8192 S8192x192 S192x192 [1] [0] [0] [1] [] []
  dot_S8192x192_S192x192_S8192x192_1_0_0_1_n_n_wf : DotDims.WF S8192x192 S192x192 S8192x192 [1] [0] [0] [1] [] []
  dot_S512x192_S1024x192_S512x1024_1_1_0_0_n_n_wf : DotDims.WF S512x192 S1024x192 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x192.size a ≤ S8192x192.size a
  hwx0_0 : ∀ i : grid0.Coords, EltTy.bits .f32 = 32 ∨ (Rect.block (s := S8192x192) S512x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S8192x192.size a
  hwx0_1 : ∀ i : grid0.Coords, EltTy.bits .f32 = 32 ∨ (Rect.block (s := S8192x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x192.size a ≤ S8192x192.size a
  hwx1_0 : ∀ i : grid1.Coords, EltTy.bits .f32 = 32 ∨ (Rect.block (s := S8192x192) S512x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x192.size a ≤ S8192x192.size a
  hwx1_1 : ∀ i : grid1.Coords, EltTy.bits .f32 = 32 ∨ (Rect.block (s := S8192x192) S1024x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S8192x1.size a
  hwx1_7 : ∀ i : grid1.Coords, EltTy.bits .f32 = 32 ∨ (Rect.block (s := S8192x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S8192x1.size a
  hwx1_8 : ∀ i : grid1.Coords, EltTy.bits .f32 = 32 ∨ (Rect.block (s := S8192x1) S512x1.size (cc1_transform_8 i) (hinb1_8 i)).WholeWords (EltTy.packing .f32)

variable [Facts₀]

def dot_S192x8192_S8192x192_S192x192_1_0_0_1_n_n : DotDims S192x8192 S8192x192 S192x192 where
  lhsContracting := [1]
  rhsContracting := [0]
  lhsNonContracting := [0]
  rhsNonContracting := [1]
  lhsBatch := []
  rhsBatch := []
  wf := dot_S192x8192_S8192x192_S192x192_1_0_0_1_n_n_wf
def dot_S8192x192_S192x192_S8192x192_1_0_0_1_n_n : DotDims S8192x192 S192x192 S8192x192 where
  lhsContracting := [1]
  rhsContracting := [0]
  lhsNonContracting := [0]
  rhsNonContracting := [1]
  lhsBatch := []
  rhsBatch := []
  wf := dot_S8192x192_S192x192_S8192x192_1_0_0_1_n_n_wf
def dot_S512x192_S1024x192_S512x1024_1_1_0_0_n_n : DotDims S512x192 S1024x192 S512x1024 where
  lhsContracting := [1]
  rhsContracting := [1]
  lhsNonContracting := [0]
  rhsNonContracting := [0]
  lhsBatch := []
  rhsBatch := []
  wf := dot_S512x192_S1024x192_S512x1024_1_1_0_0_n_n_wf

abbrev win0_0 : Pipeline.Window sig grid0 :=
  Pipeline.Window.ofSpec (Memref.whole main_v0) S512x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v0) S512x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16_0) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16_1) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v17_0) S512x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v17_1) S512x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4096x2x192 : Shape := ⟨3, ![4096, 2, 192]⟩
abbrev S4096 : Shape := ⟨1, ![4096]⟩
abbrev S4096x2 : Shape := ⟨2, ![4096, 2]⟩
abbrev S8192 : Shape := ⟨1, ![8192]⟩
abbrev S8192x192 : Shape := ⟨2, ![8192, 192]⟩
abbrev S192x8192 : Shape := ⟨2, ![192, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 110
  | .vmem => 0
  | .smem => 0
  | _ => 0

abbrev bufTy : (tb : Table) → Fin (tcTables nBuf tb) → BufTy
  | .hbm, ⟨0, _⟩ => ⟨S4096x2x192, .f32⟩
  | .hbm, ⟨1, _⟩ => ⟨S4096, .i32⟩
  | .hbm, ⟨2, _⟩ => ⟨S4096x2, .i32⟩
  | .hbm, ⟨3, _⟩ => ⟨S8192, .i32⟩
  | .hbm, ⟨4, _⟩ => ⟨S8192x192, .f32⟩
  | .hbm, ⟨5, _⟩ => ⟨S192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .i1⟩
  | .hbm, ⟨45, _⟩ => ⟨S8192x8192, .i1⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .i1⟩
  | .hbm, ⟨52, _⟩ => ⟨S8192x8192, .i1⟩
  | .hbm, ⟨53, _⟩ => ⟨S_, .i1⟩
  | .hbm, ⟨54, _⟩ => ⟨S8192, .i1⟩
  | .hbm, ⟨55, _⟩ => ⟨S_, .i1⟩
  | .hbm, ⟨56, _⟩ => ⟨S8192, .i1⟩
  | .hbm, ⟨57, _⟩ => ⟨S8192, .i1⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S8192, .f32⟩
  | .hbm, ⟨96, _⟩ => ⟨S8192, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192, .i1⟩
  | .hbm, ⟨102, _⟩ => ⟨S8192, .i32⟩
  | .hbm, ⟨103, _⟩ => ⟨S_, .i32⟩
  | .hbm, ⟨104, _⟩ => ⟨S_, .i32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S4096x2x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_14 : Ref sig .tc := ⟨.hbm, 78, rfl⟩
abbrev main_call4_v0 : Ref sig .tc := ⟨.hbm, 79, rfl⟩
abbrev main_call4_v1 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_cst_16 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_17 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_18 : Ref sig .tc := ⟨.hbm, 93, rfl⟩
abbrev main_call5_v0 : Ref sig .tc := ⟨.hbm, 94, rfl⟩
abbrev main_call5_v1 : Ref sig .tc := ⟨.hbm, 95, rfl⟩
abbrev main_v59 : Ref sig .tc := ⟨.hbm, 96, rfl⟩
abbrev main_cst_19 : Ref sig .tc := ⟨.hbm, 97, rfl⟩
abbrev main_v60 : Ref sig .tc := ⟨.hbm, 98, rfl⟩
abbrev main_cst_20 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_21 : Ref sig .tc := ⟨.hbm, 103, rfl⟩
abbrev main_v64 : Ref sig .tc := ⟨.hbm, 104, rfl⟩
abbrev main_v65 : Ref sig .tc := ⟨.hbm, 105, rfl⟩
abbrev main_cst_22 : Ref sig .tc := ⟨.hbm, 106, rfl⟩
abbrev main_v66 : Ref sig .tc := ⟨.hbm, 107, rfl⟩
abbrev main_cst_23 : Ref sig .tc := ⟨.hbm, 108, rfl⟩
abbrev main_v67 : Ref sig .tc := ⟨.hbm, 109, rfl⟩

abbrev nD : Nat := 1
abbrev τ : Topo := Topo.v7x

variable {F : FTy → Type} [FloatOps F]

class Facts₀ : Prop where
  bcast_S4096_S4096x2_0 : S4096.BroadcastsInDim S4096x2 (![0] : Fin 1 → Fin S4096x2.rank)
  shapeCasts_S4096x2_S8192 : S4096x2.ShapeCasts S8192
  shapeCasts_S4096x2x192_S8192x192 : S4096x2x192.ShapeCasts S8192x192
  transposes_S8192x192_S192x8192_1_0 : S8192x192.Transposes [1, 0] S192x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S8192 : S_.BroadcastsInDim S8192 (![] : Fin 0 → Fin S8192.rank)
  reducesTo_S8192_S_d0 : S8192.ReducesTo [0] S_
  natLt_1_32 : 1 < 32
  dot_S8192x192_S192x8192_S8192x8192_1_0_0_1_n_n_wf : DotDims.WF S8192x192 S192x8192 S8192x8192 [1] [0] [0] [1] [] []

variable [Facts₀]

def dot_S8192x192_S192x8192_S8192x8192_1_0_0_1_n_n : DotDims S8192x192 S192x8192 S8192x8192 where
  lhsContracting := [1]
  rhsContracting := [0]
  lhsNonContracting := [0]
  rhsNonContracting := [1]
  lhsBatch := []
  rhsBatch := []
  wf := dot_S8192x192_S192x8192_S8192x8192_1_0_0_1_n_n_wf

class Facts : Prop extends Facts₀ where

variable [Facts]
-- ==== Proof.BitsStatsBase.lean ====
/-
  (For the program as printed, read at any float instance.) The first kernel region (the row statistics: per row of a 512-row tile the least similarity among same-label
  columns below the cut-off and the greatest among other-label columns, folded over the eight 1024-column tiles
  of the row): what its body's runs share. The grid is 16 x 8, the column coordinate innermost; the two scratch
  accumulators are reset at column tile 0 and copied to the two outputs at column tile 7.
-/
import proofs.«151531_j1219770712681_2_alg».proof.Proof.Gen.Kernel.Launch
import proofs.«151531_j1219770712681_2_alg».proof.Proof.Gen.Kernel.Skeleton
import proofs.«151531_j1219770712681_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The column tile is the first one: the accumulators are reset. -/
abbrev condFirst (i : grid0.Coords) : Prop := (Scalar.cmpi .ne (Scalar.extui (Scalar.cmpi .eq (BitVec.ofNat 32 (i 1).val) 0#32)) 0#32) = 1#1
/-- It is so at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The column tile is the last one: the accumulators are copied out. -/
abbrev condLast (i : grid0.Coords) : Prop := k0_cond2 i = 1#1
/-- It is so at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The two accumulators, whole scoped buffers of the kernel's own. -/
abbrev accMin : Memref sig .tc .vmem S512x1 .f32 := Memref.whole cc0_scratch0
abbrev accMax : Memref sig .tc .vmem S512x1 .f32 := Memref.whole cc0_scratch1

end Cert.Kernel.Stats

end
-- ==== Proof.BitsStatsFirst.lean ====
/-
  (For the program as printed, read at any float instance.) The first kernel region's body at the first column tile of a row tile: both accumulators are reset (to +inf and
  to -inf), then folded with this tile's row minimum and row maximum; the two outputs are not touched.
-/
import proofs.«151531_j1219770712681_2_alg».proof.Proof.BitsStatsBase

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two accumulators end with (last store first), found by running the body, with the run itself:
    on whole staging memrefs, the inputs at their contents, the outputs handed back untouched, the accumulators at
    anything. -/
noncomputable def runFirst (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : condFirst i) (hc1 : ¬condLast i)
    (x0 : Vec F S512x192 .f32) (x1 : Vec F S1024x192 .f32) (x2 : Vec F S512x1 .i32) (x3 : Vec F S1x1024 .i32) (x4 : Vec F S512x1 .f32) :
    Σ' (LS0 : List (View.Piece (Elt F) S512x1 .f32)), { LS1 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.Kernel.Stats

end
-- ==== Proof.BitsStatsMid.lean ====
/-
  (For the program as printed, read at any float instance.) The first kernel region's body at a column tile that is neither the first nor the last: both accumulators are
  read at what the tile before left and stored back folded with this tile's row minimum and row maximum; the two
  outputs are not touched.
-/
import proofs.«151531_j1219770712681_2_alg».proof.Proof.BitsStatsBase

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two accumulators end with (last store first), found by running the body, with the run itself:
    on whole staging memrefs, the inputs at their contents, the outputs handed back untouched, the accumulators at
    the contents `a0`, `a1` the tile before left. -/
noncomputable def runMid (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : ¬condLast i)
    (x0 : Vec F S512x192 .f32) (x1 : Vec F S1024x192 .f32) (x2 : Vec F S512x1 .i32) (x3 : Vec F S1x1024 .i32) (x4 : Vec F S512x1 .f32) (a0 a1 : Vec F S512x1 .f32) :
    Σ' (LS0 : List (View.Piece (Elt F) S512x1 .f32)), { LS1 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare a0 ∗ owns (c : Thread nD τ) arg10 fullShare a1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.Kernel.Stats

end
-- ==== Proof.BitsStatsLast.lean ====
/-
  (For the program as printed, read at any float instance.) The first kernel region's body at the last column tile of a row tile: both accumulators are read at what the
  tile before left, stored back folded with this tile's row minimum and row maximum, and copied to the two outputs.
-/
import proofs.«151531_j1219770712681_2_alg».proof.Proof.BitsStatsBase

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two outputs and the two accumulators end with (last store first), found by running the body, with
    the run itself: on whole staging memrefs, the inputs at their contents, the outputs at anything, the accumulators
    at the contents `a0`, `a1` the tile before left. -/
noncomputable def runLast (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : condLast i)
    (x0 : Vec F S512x192 .f32) (x1 : Vec F S1024x192 .f32) (x2 : Vec F S512x1 .i32) (x3 : Vec F S1x1024 .i32) (x4 : Vec F S512x1 .f32) (a0 a1 : Vec F S512x1 .f32) :
    Σ' (L5 : List (View.Piece (Elt F) S512x1 .f32)) (L6 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare a0 ∗ owns (c : Thread nD τ) arg10 fullShare a1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [HS0]
    · iexists _; iexact HS0
    iexists _; iexact HS1

end Cert.Kernel.Stats

end
-- ==== Proof.BitsStatsFrame.lean ====
/-
  (For the program as printed, read at any float instance.) The first kernel region's runs at a point and what its buffers hold after each point, at any contents `V` of the
  core's buffers when the region is entered. After the body at a point the two accumulators hold: at the first
  column tile of a row tile the reset values folded with that tile; at a later column tile what the tile before left
  folded with this tile. The two outputs are stored (with the accumulators' final values) at the last column tile
  only, and written back there; at the other points their staging buffers are handed back as found.
-/
import proofs.«151531_j1219770712681_2_alg».proof.Proof.BitsStatsFirst
import proofs.«151531_j1219770712681_2_alg».proof.Proof.BitsStatsMid
import proofs.«151531_j1219770712681_2_alg».proof.Proof.BitsStatsLast

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg0.N) : Memref sig .tc .vmem S512x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)

/-- The accumulators and one staging buffer of each output, as views: contents are stated through them. -/
abbrev VS0 : View sig .tc .vmem S512x1 .f32 := accMin.view
abbrev VS1 : View sig .tc .vmem S512x1 .f32 := accMax.view
abbrev VO0 : View sig .tc .vmem S512x1 .f32 := (Memref.whole cc0_stg5_0 : Memref sig .tc .vmem S512x1 .f32).view
abbrev VO1 : View sig .tc .vmem S512x1 .f32 := (Memref.whole cc0_stg6_0 : Memref sig .tc .vmem S512x1 .f32).view

/-! ## Where the outputs are idle -/

theorem live_in : ∀ (w : Fin cfg0.W), w.val < 5 → ∀ t : Fin cfg0.N, cfg0.idle w (grid0.coords t) = false := by decide +kernel
theorem idleO0 : ∀ t : Fin cfg0.N, ¬condLast (grid0.coords t) → cfg0.idle 5 (grid0.coords t) = true := by decide +kernel
theorem idleO1 : ∀ t : Fin cfg0.N, ¬condLast (grid0.coords t) → cfg0.idle 6 (grid0.coords t) = true := by decide +kernel
theorem noFlushO0 : ∀ t : Fin cfg0.N, ¬condLast (grid0.coords t) → (cfg0.win 5).flush t = false := by decide +kernel
theorem noFlushO1 : ∀ t : Fin cfg0.N, ¬condLast (grid0.coords t) → (cfg0.win 6).flush t = false := by decide +kernel
theorem liveO0 : ∀ t : Fin cfg0.N, condLast (grid0.coords t) → cfg0.idle 5 (grid0.coords t) = false := by decide +kernel
theorem liveO1 : ∀ t : Fin cfg0.N, condLast (grid0.coords t) → cfg0.idle 6 (grid0.coords t) = false := by decide +kernel

/-! ## The body's runs at a point -/

/-- The run at a first column tile, at the point's memrefs and input blocks. -/
abbrev firstAt (c : Dev nD) (t : Fin cfg0.N) (h0 : t.val % 8 = 0) (h1 : ¬t.val % 8 = 7) :=
  runFirst (F := F) c (grid0.coords t) (ms0 t) (hs0 t) (ms1 t) (hs1 t) (ms2 t) (hs2 t) (ms3 t) (hs3 t) (ms4 t) (hs4 t) (ms5 t) (hs5 t) (ms6 t) (hs6 t) accMin (Memref.isWhole_whole _) accMax (Memref.isWhole_whole _) ((hcondFirst t).mpr h0) (fun h => h1 ((hcondLast t).mp h)) (iblk V c 0 t) (iblk V c 1 t) (iblk V c 2 t) (iblk V c 3 t) (iblk V c 4 t)
/-- The run at a middle column tile, over the accumulators' contents. -/
abbrev midAt (c : Dev nD) (t : Fin cfg0.N) (h0 : ¬t.val % 8 = 0) (h1 : ¬t.val % 8 = 7) (a0 a1 : Vec F S512x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) accMin (Memref.isWhole_whole _) accMax (Memref.isWhole_whole _) (fun h => h0 ((hcondFirst t).mp h)) (fun h => h1 ((hcondLast t).mp h)) (iblk V c 0 t) (iblk V c 1 t) (iblk V c 2 t) (iblk V c 3 t) (iblk V c 4 t) a0 a1
/-- The run at a last column tile, over the accumulators' contents. -/
abbrev lastAt (c : Dev nD) (t : Fin cfg0.N) (h0 : ¬t.val % 8 = 0) (h1 : t.val % 8 = 7) (a0 a1 : Vec F S512x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) accMin (Memref.isWhole_whole _) accMax (Memref.isWhole_whole _) (fun h => h0 ((hcondFirst t).mp h)) ((hcondLast t).mpr h1) (iblk V c 0 t) (iblk V c 1 t) (iblk V c 2 t) (iblk V c 3 t) (iblk V c 4 t) a0 a1

/-- Each run's pieces for a buffer tile it (one whole-buffer store last), so they cover it. -/
theorem coverFirst0 (c : Dev nD) (t : Fin cfg0.N) (h0 : t.val % 8 = 0) (h1 : ¬t.val % 8 = 7) (y : S512x1.Idx) :
    ∃ pc ∈ (firstAt V c t h0 h1).1, y ∈ pc.1.set := View.cover_of_tiledL _ S512x1.size (by sl_kernel_rfl) y
theorem coverMid0 (c : Dev nD) (t : Fin cfg0.N) (h0 : ¬t.val % 8 = 0) (h1 : ¬t.val % 8 = 7) (a0 a1 : Vec F S512x1 .f32) (y : S512x1.Idx) :
    ∃ pc ∈ (midAt V c t h0 h1 a0 a1).1, y ∈ pc.1.set := View.cover_of_tiledL _ S512x1.size (by sl_kernel_rfl) y
theorem coverLast0 (c : Dev nD) (t : Fin cfg0.N) (h0 : ¬t.val % 8 = 0) (h1 : t.val % 8 = 7) (a0 a1 : Vec F S512x1 .f32) (y : S512x1.Idx) :
    ∃ pc ∈ (lastAt V c t h0 h1 a0 a1).2.2.1, y ∈ pc.1.set := View.cover_of_tiledL _ S512x1.size (by sl_kernel_rfl) y
theorem coverFirst1 (c : Dev nD) (t : Fin cfg0.N) (h0 : t.val % 8 = 0) (h1 : ¬t.val % 8 = 7) (y : S512x1.Idx) :
    ∃ pc ∈ (firstAt V c t h0 h1).2.1, y ∈ pc.1.set := View.cover_of_tiledL _ S512x1.size (by sl_kernel_rfl) y
theorem coverMid1 (c : Dev nD) (t : Fin cfg0.N) (h0 : ¬t.val % 8 = 0) (h1 : ¬t.val % 8 = 7) (a0 a1 : Vec F S512x1 .f32) (y : S512x1.Idx) :
    ∃ pc ∈ (midAt V c t h0 h1 a0 a1).2.1, y ∈ pc.1.set := View.cover_of_tiledL _ S512x1.size (by sl_kernel_rfl) y
theorem coverLast1 (c : Dev nD) (t : Fin cfg0.N) (h0 : ¬t.val % 8 = 0) (h1 : t.val % 8 = 7) (a0 a1 : Vec F S512x1 .f32) (y : S512x1.Idx) :
    ∃ pc ∈ (lastAt V c t h0 h1 a0 a1).2.2.2.1, y ∈ pc.1.set := View.cover_of_tiledL _ S512x1.size (by sl_kernel_rfl) y
theorem coverLastO0 (c : Dev nD) (t : Fin cfg0.N) (h0 : ¬t.val % 8 = 0) (h1 : t.val % 8 = 7) (a0 a1 : Vec F S512x1 .f32) (y : S512x1.Idx) :
    ∃ pc ∈ (lastAt V c t h0 h1 a0 a1).1, y ∈ pc.1.set := View.cover_of_tiledL _ S512x1.size (by sl_kernel_rfl) y
theorem coverLastO1 (c : Dev nD) (t : Fin cfg0.N) (h0 : ¬t.val % 8 = 0) (h1 : t.val % 8 = 7) (a0 a1 : Vec F S512x1 .f32) (y : S512x1.Idx) :
    ∃ pc ∈ (lastAt V c t h0 h1 a0 a1).2.1, y ∈ pc.1.set := View.cover_of_tiledL _ S512x1.size (by sl_kernel_rfl) y

/-! ## What the accumulators and the outputs hold after each point -/

set_option maxHeartbeats 4000000 in
/-- The accumulators after the body at position `n`: the case the position's column tile selects, a later
    tile's over what the position before left. -/
def accAt (c : Dev nD) : (n : ℕ) → n < cfg0.N → Vec F S512x1 .f32 × Vec F S512x1 .f32
  | 0, hn => (VS0.read (Elt F) (VS0.writes (Elt F) VS0.junk (firstAt V c ⟨0, hn⟩ (Nat.zero_mod _) (by show ¬ 0 % 8 = 7; decide)).1),
        VS1.read (Elt F) (VS1.writes (Elt F) VS1.junk (firstAt V c ⟨0, hn⟩ (Nat.zero_mod _) (by show ¬ 0 % 8 = 7; decide)).2.1))
  | n + 1, hn =>
    if h0 : (n + 1) % 8 = 0 then
      if h1 : (n + 1) % 8 = 7 then False.elim (by omega)
      else (VS0.read (Elt F) (VS0.writes (Elt F) VS0.junk (firstAt V c ⟨n + 1, hn⟩ h0 h1).1),
        VS1.read (Elt F) (VS1.writes (Elt F) VS1.junk (firstAt V c ⟨n + 1, hn⟩ h0 h1).2.1))
    else
      if h1 : (n + 1) % 8 = 7 then
        (VS0.read (Elt F) (VS0.writes (Elt F) VS0.junk (lastAt V c ⟨n + 1, hn⟩ h0 h1 (accAt c n (Nat.lt_of_succ_lt hn)).1 (accAt c n (Nat.lt_of_succ_lt hn)).2).2.2.1),
        VS1.read (Elt F) (VS1.writes (Elt F) VS1.junk (lastAt V c ⟨n + 1, hn⟩ h0 h1 (accAt c n (Nat.lt_of_succ_lt hn)).1 (accAt c n (Nat.lt_of_succ_lt hn)).2).2.2.2.1))
      else
        (VS0.read (Elt F) (VS0.writes (Elt F) VS0.junk (midAt V c ⟨n + 1, hn⟩ h0 h1 (accAt c n (Nat.lt_of_succ_lt hn)).1 (accAt c n (Nat.lt_of_succ_lt hn)).2).1),
        VS1.read (Elt F) (VS1.writes (Elt F) VS1.junk (midAt V c ⟨n + 1, hn⟩ h0 h1 (accAt c n (Nat.lt_of_succ_lt hn)).1 (accAt c n (Nat.lt_of_succ_lt hn)).2).2.1))

/-- The accumulators' contents the body finds at a point that is not a first column tile. -/
abbrev accBefore (c : Dev nD) (t : Fin cfg0.N) : Vec F S512x1 .f32 × Vec F S512x1 .f32 :=
  accAt V c (t.val - 1) (Nat.lt_of_le_of_lt (Nat.sub_le _ _) t.isLt)

set_option maxHeartbeats 4000000 in
theorem accAt_first (c : Dev nD) (t : Fin cfg0.N) (h0 : t.val % 8 = 0) (h1 : ¬t.val % 8 = 7) :
    accAt V c t.val t.isLt = (VS0.read (Elt F) (VS0.writes (Elt F) VS0.junk (firstAt V c t h0 h1).1),
        VS1.read (Elt F) (VS1.writes (Elt F) VS1.junk (firstAt V c t h0 h1).2.1)) := by
  obtain ⟨n, hn⟩ := t
  cases n with
  | zero => exact rfl
  | succ n => exact (dif_pos h0).trans ((dif_neg h1).trans rfl)

set_option maxHeartbeats 4000000 in
theorem accAt_mid (c : Dev nD) (t : Fin cfg0.N) (h0 : ¬t.val % 8 = 0) (h1 : ¬t.val % 8 = 7) :
    accAt V c t.val t.isLt = (VS0.read (Elt F) (VS0.writes (Elt F) VS0.junk (midAt V c t h0 h1 (accBefore V c t).1 (accBefore V c t).2).1),
        VS1.read (Elt F) (VS1.writes (Elt F) VS1.junk (midAt V c t h0 h1 (accBefore V c t).1 (accBefore V c t).2).2.1)) := by
  obtain ⟨n, hn⟩ := t
  cases n with
  | zero => exact absurd (Nat.zero_mod _) h0
  | succ n => exact (dif_neg h0).trans ((dif_neg h1).trans rfl)

set_option maxHeartbeats 4000000 in
theorem accAt_last (c : Dev nD) (t : Fin cfg0.N) (h0 : ¬t.val % 8 = 0) (h1 : t.val % 8 = 7) :
    accAt V c t.val t.isLt = (VS0.read (Elt F) (VS0.writes (Elt F) VS0.junk (lastAt V c t h0 h1 (accBefore V c t).1 (accBefore V c t).2).2.2.1),
        VS1.read (Elt F) (VS1.writes (Elt F) VS1.junk (lastAt V c t h0 h1 (accBefore V c t).1 (accBefore V c t).2).2.2.2.1)) := by
  obtain ⟨n, hn⟩ := t
  cases n with
  | zero => exact absurd (Nat.zero_mod _) h0
  | succ n => exact (dif_neg h0).trans ((dif_pos h1).trans rfl)

set_option maxHeartbeats 4000000 in
/-- The two outputs' staging buffers after the body at point `t`: at a last column tile the run's pieces read
    back; elsewhere a placeholder nothing consults (the window is idle there and not written back). -/
def outAt (c : Dev nD) (t : Fin cfg0.N) : Vec F S512x1 .f32 × Vec F S512x1 .f32 :=
  if h0 : t.val % 8 = 0 then (VO0.junk, VO1.junk)
  else if h1 : t.val % 8 = 7 then
    (VO0.read (Elt F) (VO0.writes (Elt F) VO0.junk (lastAt V c t h0 h1 (accBefore V c t).1 (accBefore V c t).2).1),
      VO1.read (Elt F) (VO1.writes (Elt F) VO1.junk (lastAt V c t h0 h1 (accBefore V c t).1 (accBefore V c t).2).2.1))
  else (VO0.junk, VO1.junk)

set_option maxHeartbeats 4000000 in
theorem outAt_last (c : Dev nD) (t : Fin cfg0.N) (h0 : ¬t.val % 8 = 0) (h1 : t.val % 8 = 7) :
    outAt V c t = (VO0.read (Elt F) (VO0.writes (Elt F) VO0.junk (lastAt V c t h0 h1 (accBefore V c t).1 (accBefore V c t).2).1),
      VO1.read (Elt F) (VO1.writes (Elt F) VO1.junk (lastAt V c t h0 h1 (accBefore V c t).1 (accBefore V c t).2).2.1)) :=
  (dif_neg h0).trans (dif_pos h1)

end Cert.Kernel.Stats

end
-- ==== Proof.BitsStatsBody.lean ====
/-
  (For the program as printed, read at any float instance.) The first kernel region's proof data and the body obligation at every point: the invariant between points holds
  the two accumulators at what the point before left (anything before the first point), the other scoped buffers at
  anything, and the generator register.
-/
import proofs.«151531_j1219770712681_2_alg».proof.Proof.BitsStatsFrame

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The core's scoped buffers that this region neither stages nor accumulates in, each whole at some contents. -/
def otherScoped (c : Dev nD) : sProp 𝕄 :=
  bigSep ((((Finset.univ.filter fun b : Ref sig .tc => b.isScoped) \ Finset.univ.image (Pipeline.stageRef spec0)).erase cc0_scratch0).erase cc0_scratch1)
    fun b => iprop(∃ f : Buf (Elt F) ((c.tc : Thread nD τ).loc b), ((c.tc : Thread nD τ).loc b) ↦{fullShare} f)

/-- The class's invariant with the accumulators split off as memrefs owned at some contents. -/
theorem PhiA_eq (c : Dev nD) :
    (Pipeline.ΦA spec0 c : sProp 𝕄)
      = iprop(((∃ d, owns (c : Thread nD τ) accMin fullShare d) ∗ (∃ d, owns (c : Thread nD τ) accMax fullShare d) ∗ otherScoped (F := F) c) ∗ (∃ r, prngReg c r)) := by
  unfold Pipeline.ΦA Pipeline.scopedRest otherScoped
  rw [bigSep_erase (i := cc0_scratch0) (by decide), bigSep_erase (i := cc0_scratch1) (by decide)]
  simp only [accMin, accMax, owns_whole]
  try rfl

/-- The invariant before position `n`. -/
def PhiS (c : Dev nD) : (n : ℕ) → n ≤ cfg0.N → sProp 𝕄
  | 0, _ => Pipeline.ΦA spec0 c
  | n + 1, hn => iprop((owns (c : Thread nD τ) accMin fullShare (accAt V c n hn).1 ∗ owns (c : Thread nD τ) accMax fullShare (accAt V c n hn).2 ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) accMin fullShare (accAt V c n hn).1 ∗ owns (c : Thread nD τ) accMax fullShare (accAt V c n hn).2 ∗ otherScoped (F := F) c) ∗ (∃ r, prngReg c r)) := rfl

theorem PhiS_pos (c : Dev nD) (n : ℕ) (h : n ≤ cfg0.N) (hz : n ≠ 0) :
    PhiS V c n h = iprop((owns (c : Thread nD τ) accMin fullShare (accAt V c (n - 1) (by omega)).1 ∗ owns (c : Thread nD τ) accMax fullShare (accAt V c (n - 1) (by omega)).2 ∗ otherScoped (F := F) c) ∗ (∃ r, prngReg c r)) := by
  cases n with
  | zero => exact absurd rfl hz
  | succ n => rfl

/-! ## The proof data -/

/-- The region's proof data on core `c`: the arrays as the region finds them; after the body each input's buffer at
    its block, the outputs' at `outAt`; the invariant `PhiS`; the row matrix, which two windows read, held by halves. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outAt V c t).1
    | ⟨6, _⟩ => (outAt V c t).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem afterO0 (c : Dev nD) (t : Fin cfg0.N) : (dat V c).after 5 t = (outAt V c t).1 := by dsimp only [dat]
theorem afterO1 (c : Dev nD) (t : Fin cfg0.N) : (dat V c).after 6 t = (outAt V c t).2 := by dsimp only [dat]

theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

theorem leaves_in (c : Dev nD) (t : Fin cfg0.N) :
    (dat V c).leavesExact 0 t = owns (c : Thread nD τ) (ms0 t) fullShare (iblk V c 0 t)
    ∧ (dat V c).leavesExact 1 t = owns (c : Thread nD τ) (ms1 t) fullShare (iblk V c 1 t)
    ∧ (dat V c).leavesExact 2 t = owns (c : Thread nD τ) (ms2 t) fullShare (iblk V c 2 t)
    ∧ (dat V c).leavesExact 3 t = owns (c : Thread nD τ) (ms3 t) fullShare (iblk V c 3 t)
    ∧ (dat V c).leavesExact 4 t = owns (c : Thread nD τ) (ms4 t) fullShare (iblk V c 4 t) := by
  refine ⟨?_, ?_, ?_, ?_, ?_⟩
  · unfold Dat.leavesExact; rw [live_in 0 (by decide) t, after0]
  · unfold Dat.leavesExact; rw [live_in 1 (by decide) t, after1]
  · unfold Dat.leavesExact; rw [live_in 2 (by decide) t, after2]
  · unfold Dat.leavesExact; rw [live_in 3 (by decide) t, after3]
  · unfold Dat.leavesExact; rw [live_in 4 (by decide) t, after4]

set_option maxHeartbeats 9600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).owesAt () t.succ = (dat V c).owesAt () t.castSucc from rfl]
  rw [show (dat V c).Φ t.succ = PhiS V c (t.val + 1) t.isLt from rfl, PhiS_succ]
  obtain ⟨hl0, hl1, hl2, hl3, hl4⟩ := leaves_in V c t
  rw [hl0, hl1, hl2, hl3, hl4]
  by_cases h0 : t.val % 8 = 0
  · have h1 : ¬t.val % 8 = 7 := by omega
    have hnl : ¬condLast (grid0.coords t) := fun h => h1 ((hcondLast t).mp h)
    rw [Dat.leavesExact_idle (dat V c) 5 t (idleO0 t hnl) (noFlushO0 t hnl), Dat.leavesExact_idle (dat V c) 6 t (idleO1 t hnl) (noFlushO1 t hnl)]
    rw [accAt_first V c t h0 h1]
    dsimp only
    by_cases hz : t.val = 0
    · rw [Phi_castSucc V c t, PhiS_zero V c _ _ hz, PhiA_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt V c t h0 h1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [Phi_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt V c t h0 h1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h1 : t.val % 8 = 7
    · have hl : condLast (grid0.coords t) := (hcondLast t).mpr h1
      rw [show (dat V c).leavesExact 5 t = owns (c : Thread nD τ) (ms5 t) fullShare ((dat V c).after 5 t) from by
        unfold Dat.leavesExact; rw [liveO0 t hl], afterO0]
      rw [show (dat V c).leavesExact 6 t = owns (c : Thread nD τ) (ms6 t) fullShare ((dat V c).after 6 t) from by
        unfold Dat.leavesExact; rw [liveO1 t hl], afterO1]
      rw [accAt_last V c t h0 h1, outAt_last V c t h0 h1]
      dsimp only
      rw [Phi_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverLast0 V c t h0 h1 _ _)
          isplitl [HS1]
          · unfold owns; iexists _; isplitr
            swap; · iexact HS1
            ipureintro; exact View.read_writes_of_cover _ _ _ _ _ (coverLast1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverLastO0 V c t h0 h1 _ _)
      unfold owns; iexists _; isplitr
      swap; · iexact H6
      ipureintro; exact View.read_writes_of_cover _ _ _ _ _ (coverLastO1 V c t h0 h1 _ _)
    · have hnl : ¬condLast (grid0.coords t) := fun h => h1 ((hcondLast t).mp h)
      rw [Dat.leavesExact_idle (dat V c) 5 t (idleO0 t hnl) (noFlushO0 t hnl), Dat.leavesExact_idle (dat V c) 6 t (idleO1 t hnl) (noFlushO1 t hnl)]
      rw [accAt_mid V c t h0 h1]
      dsimp only
      rw [Phi_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((midAt V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverMid0 V c t h0 h1 _ _)
          isplitl [HS1]
          · unfold owns; iexists _; isplitr
            swap; · iexact HS1
            ipureintro; exact View.read_writes_of_cover _ _ _ _ _ (coverMid1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulators' contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HS0, HS1, HR⟩, Hg⟩
  isplitr [Hg]
  · isplitl [HS0]; · iexists _; iexact HS0
    isplitl [HS1]; · iexists _; iexact HS1
    iexact HR
  iexact Hg

end Cert.Kernel.Stats

end
-- ==== Proof.BitsStatsArrays.lean ====
/-
  (For the program as printed, read at any float instance.) The first kernel region's seven windows read six buffers: the row matrix is read by two windows (the row tile and the column tile), each holding half of it.
-/
import proofs.«151531_j1219770712681_2_alg».proof.Proof.BitsStatsBody

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop((((c : Thread nD τ).loc main_v0) ↦{fullShare} G main_v0) ∗ (((c : Thread nD τ).loc main_v3) ↦{fullShare} G main_v3) ∗ (((c : Thread nD τ).loc main_v4) ↦{fullShare} G main_v4) ∗ (((c : Thread nD τ).loc main_v15) ↦{fullShare} G main_v15) ∗ (((c : Thread nD τ).loc main_v16_0) ↦{fullShare} G main_v16_0) ∗ (((c : Thread nD τ).loc main_v16_1) ↦{fullShare} G main_v16_1)) := by
  unfold Pipeline.arrBufs
  rw [show Finset.univ.image (Pipeline.arrRef spec0) = ({main_v0, main_v3, main_v4, main_v15, main_v16_0, main_v16_1} : Finset (Ref sig .tc)) from by decide]
  rw [bigSep_insert (by decide), bigSep_insert (by decide), bigSep_insert (by decide), bigSep_insert (by decide), bigSep_insert (by decide), bigSep_singleton]
  rfl

/-- The windows' arrays at the proof data's shares are the distinct buffers behind them, each whole at the full
    share: the two half shares of the row matrix join. -/
theorem arrays_iff (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    (dat V c).arrays A ⊣⊢ (Pipeline.arrBufs (Ix := Unit) (Name := ℕ) (U := UR sig nD τ) (Lvl := ℕ) spec0 c G : sProp 𝕄) := by
  have e1 : (dat V c).arrays A = bigSep Finset.univ fun w : Fin 7 => ((((c : Thread nD τ).loc (Pipeline.arrRef spec0 w)) ↦{(dat V c).share w} G (Pipeline.arrRef spec0 w)) : sProp 𝕄) := by
    unfold Dat.arrays
    exact bigSep_congr fun w _ => by rw [(arr_whole0 w).set_eq_univ, hA]
  rw [e1, bigSep_W0, arrBufs_eq]
  rw [show (dat V c).share 0 = fullShare.left from rfl, show (dat V c).share 1 = fullShare.right from rfl,
    show (dat V c).share 2 = fullShare from rfl, show (dat V c).share 3 = fullShare from rfl, show (dat V c).share 4 = fullShare from rfl, show (dat V c).share 5 = fullShare from rfl, show (dat V c).share 6 = fullShare from rfl]
  constructor
  · iintro ⟨H0, H1, H2, H3, H4, H5, H6⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    iexact H6
  · iintro ⟨B0, B1, B2, B3, B4, B5⟩
    ihave B0' := (pointsTo_share (PosShare.mem_left_op_right fullShare)).1 $$ B0
    icases B0' with ⟨H0, H1⟩
    isplitl [H0]; · iexact H0
    isplitl [H1]; · iexact H1
    isplitl [B1]; · iexact B1
    isplitl [B2]; · iexact B2
    isplitl [B3]; · iexact B3
    isplitl [B4]; · iexact B4
    iexact B5

end Cert.Kernel.Stats

end
-- ==== Proof.BitsLossBase.lean ====
/-
  (For the program as printed, read at any float instance.) The second kernel region (the row losses: per row of a 512-row tile the sums of the kept positive and negative
  exponentials and whether any column was kept, folded over the eight 1024-column tiles of the row): what its
  body's runs share. The grid is 16 x 8, the column coordinate innermost; the four scratch accumulators are reset
  at column tile 0 and the two outputs computed from them at column tile 7.
-/
import proofs.«151531_j1219770712681_2_alg».proof.Proof.Gen.Kernel.Launch
import proofs.«151531_j1219770712681_2_alg».proof.Proof.Gen.Kernel.Skeleton
import proofs.«151531_j1219770712681_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The column tile is the first one: the accumulators are reset. -/
abbrev condFirst (i : grid1.Coords) : Prop := (Scalar.cmpi .ne (Scalar.extui (Scalar.cmpi .eq (BitVec.ofNat 32 (i 1).val) 0#32)) 0#32) = 1#1
/-- It is so at the points ≡ 0 (mod 8). -/
theorem hcondFirst : ∀ t : Fin cfg1.N, condFirst (grid1.coords t) ↔ t.val % 8 = 0 :=
  (by decide +kernel : ∀ t : Fin grid1.N, condFirst (grid1.coords t) ↔ t.val % 8 = 0)

/-- The column tile is the last one: the outputs are computed. -/
abbrev condLast (i : grid1.Coords) : Prop := k1_cond2 i = 1#1
/-- It is so at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-- The four accumulators, whole scoped buffers of the kernel's own: the sum of the kept positive exponentials,
    of the kept negative ones, and the two flags "a negative was kept", "a positive was kept". -/
abbrev accPos : Memref sig .tc .vmem S512x1 .f32 := Memref.whole cc1_scratch0
abbrev accNeg : Memref sig .tc .vmem S512x1 .f32 := Memref.whole cc1_scratch1
abbrev accHasNeg : Memref sig .tc .vmem S512x1 .f32 := Memref.whole cc1_scratch2
abbrev accHasPos : Memref sig .tc .vmem S512x1 .f32 := Memref.whole cc1_scratch3

end Cert.Kernel.Loss

end
-- ==== Proof.BitsLossFirst.lean ====
/-
  (For the program as printed, read at any float instance.) The second kernel region's body at the first column tile of a row tile: the four accumulators are reset to zero, then the two sums are
  increased by this tile's kept exponentials and the two flags raised where this tile keeps a column; the two outputs
  are not touched.
-/
import proofs.«151531_j1219770712681_2_alg».proof.Proof.BitsLossBase

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces each buffer the body stores into ends with (last store first), found by running the body, with the
    run itself, on whole staging memrefs. -/
noncomputable def runFirst (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : condFirst i) (hc1 : ¬condLast i)
    (x0 : Vec F S512x192 .f32) (x1 : Vec F S1024x192 .f32) (x2 : Vec F S512x1 .i32) (x3 : Vec F S1x1024 .i32) (x4 x5 x6 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7; obtain rfl := harg10.eq_unread hf8

    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    isplitl [HS1]
    · iexists _; iexact HS1
    isplitl [HS2]
    · iexists _; iexact HS2
    iexists _; iexact HS3

end Cert.Kernel.Loss

end
-- ==== Proof.BitsLossMid.lean ====
/-
  (For the program as printed, read at any float instance.) The second kernel region's body at a column tile that is neither the first nor the last: the four accumulators are read at what the tile before
  left and stored back updated with this tile; the two outputs are not touched.
-/
import proofs.«151531_j1219770712681_2_alg».proof.Proof.BitsLossBase

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces each buffer the body stores into ends with (last store first), found by running the body, with the
    run itself, on whole staging memrefs. -/
noncomputable def runMid (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : ¬condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8
            ∗ owns (c : Thread nD τ) arg11 fullShare a0 ∗ owns (c : Thread nD τ) arg12 fullShare a1 ∗ owns (c : Thread nD τ) arg13 fullShare a2 ∗ owns (c : Thread nD τ) arg14 fullShare a3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7; obtain rfl := harg10.eq_unread hf8
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    isplitl [HS1]
    · iexists _; iexact HS1
    isplitl [HS2]
    · iexists _; iexact HS2
    iexists _; iexact HS3

end Cert.Kernel.Loss

end
-- ==== Proof.BitsLossLast.lean ====
/-
  (For the program as printed, read at any float instance.) The second kernel region's body at the last column tile of a row tile: the four accumulators are read at what the tile before left, updated with
  this tile, and the two outputs are computed from them (the row loss where both flags are up, else zero; the
  "a negative was kept" flag).
-/
import proofs.«151531_j1219770712681_2_alg».proof.Proof.BitsLossBase

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces each buffer the body stores into ends with (last store first), found by running the body, with the
    run itself, on whole staging memrefs. -/
noncomputable def runLast (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    Σ' (L7 : List (View.Piece (Elt F) S512x1 .f32)) (L8 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ owns (c : Thread nD τ) arg11 fullShare a0 ∗ owns (c : Thread nD τ) arg12 fullShare a1 ∗ owns (c : Thread nD τ) arg13 fullShare a2 ∗ owns (c : Thread nD τ) arg14 fullShare a3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6

    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    iexists _; iexact HS3

end Cert.Kernel.Loss

end
-- ==== Proof.BitsLossFrame.lean ====
/-
  (For the program as printed, read at any float instance.) The second kernel region's runs at a point and what its buffers hold after each point, at any contents `V` of the
  core's buffers when the region is entered. After the body at a point the four accumulators hold: at the first
  column tile of a row tile zero updated with that tile; at a later column tile what the tile before left updated
  with this tile. The two outputs are stored (from the accumulators' final values) at the last column tile only, and
  written back there; at the other points their staging buffers are handed back as found.
-/
import proofs.«151531_j1219770712681_2_alg».proof.Proof.BitsLossFirst
import proofs.«151531_j1219770712681_2_alg».proof.Proof.BitsLossMid
import proofs.«151531_j1219770712681_2_alg».proof.Proof.BitsLossLast

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S512x192 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x192 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x1 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x1 .f32 := win1_8.stage (cfg1.slots t 8)
abbrev hs8 (t : Fin cfg1.N) : (ms8 t).IsWhole := hstage1_8 ((cfg1.slots t 8).cast nbuf1_8)

/-- The accumulators and one staging buffer of each output, as views: contents are stated through them. -/
abbrev VS0 : View sig .tc .vmem S512x1 .f32 := accPos.view
abbrev VS1 : View sig .tc .vmem S512x1 .f32 := accNeg.view
abbrev VS2 : View sig .tc .vmem S512x1 .f32 := accHasNeg.view
abbrev VS3 : View sig .tc .vmem S512x1 .f32 := accHasPos.view
abbrev VO0 : View sig .tc .vmem S512x1 .f32 := (Memref.whole cc1_stg7_0 : Memref sig .tc .vmem S512x1 .f32).view
abbrev VO1 : View sig .tc .vmem S512x1 .f32 := (Memref.whole cc1_stg8_0 : Memref sig .tc .vmem S512x1 .f32).view

/-! ## Where the outputs are idle -/

theorem live_in : ∀ (w : Fin cfg1.W), w.val < 7 → ∀ t : Fin cfg1.N, cfg1.idle w (grid1.coords t) = false := by decide +kernel
theorem idleO0 : ∀ t : Fin cfg1.N, ¬condLast (grid1.coords t) → cfg1.idle 7 (grid1.coords t) = true := by decide +kernel
theorem idleO1 : ∀ t : Fin cfg1.N, ¬condLast (grid1.coords t) → cfg1.idle 8 (grid1.coords t) = true := by decide +kernel
theorem noFlushO0 : ∀ t : Fin cfg1.N, ¬condLast (grid1.coords t) → (cfg1.win 7).flush t = false := by decide +kernel
theorem noFlushO1 : ∀ t : Fin cfg1.N, ¬condLast (grid1.coords t) → (cfg1.win 8).flush t = false := by decide +kernel
theorem liveO0 : ∀ t : Fin cfg1.N, condLast (grid1.coords t) → cfg1.idle 7 (grid1.coords t) = false := by decide +kernel
theorem liveO1 : ∀ t : Fin cfg1.N, condLast (grid1.coords t) → cfg1.idle 8 (grid1.coords t) = false := by decide +kernel

/-! ## The body's runs at a point -/

/-- The run at a first column tile, at the point's memrefs and input blocks. -/
abbrev firstAt (c : Dev nD) (t : Fin cfg1.N) (h0 : t.val % 8 = 0) (h1 : ¬t.val % 8 = 7) :=
  runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accPos (Memref.isWhole_whole _) accNeg (Memref.isWhole_whole _) accHasNeg (Memref.isWhole_whole _) accHasPos (Memref.isWhole_whole _) ((hcondFirst t).mpr h0) (fun h => h1 ((hcondLast t).mp h)) (iblk V c 0 t) (iblk V c 1 t) (iblk V c 2 t) (iblk V c 3 t) (iblk V c 4 t) (iblk V c 5 t) (iblk V c 6 t)
/-- The run at a middle column tile, over the accumulators' contents. -/
abbrev midAt (c : Dev nD) (t : Fin cfg1.N) (h0 : ¬t.val % 8 = 0) (h1 : ¬t.val % 8 = 7) (a0 a1 a2 a3 : Vec F S512x1 .f32) :=
  runMid (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accPos (Memref.isWhole_whole _) accNeg (Memref.isWhole_whole _) accHasNeg (Memref.isWhole_whole _) accHasPos (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) a0 a1 a2 a3
/-- The run at a last column tile, over the accumulators' contents. -/
abbrev lastAt (c : Dev nD) (t : Fin cfg1.N) (h0 : ¬t.val % 8 = 0) (h1 : t.val % 8 = 7) (a0 a1 a2 a3 : Vec F S512x1 .f32) :=
  runLast (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accPos (Memref.isWhole_whole _) accNeg (Memref.isWhole_whole _) accHasNeg (Memref.isWhole_whole _) accHasPos (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) a0 a1 a2 a3

/-- Each run's pieces for a buffer tile it (one whole-buffer store last), so they cover it. -/
theorem coverFirst0 (c : Dev nD) (t : Fin cfg1.N) (h0 : t.val % 8 = 0) (h1 : ¬t.val % 8 = 7) (y : S512x1.Idx) :
    ∃ pc ∈ (firstAt V c t h0 h1).1, y ∈ pc.1.set := View.cover_of_tiledL _ S512x1.size (by sl_kernel_rfl) y
theorem coverMid0 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).1, y ∈ pc.1.set := View.cover_of_tiledL _ S512x1.size (by sl_kernel_rfl) y
theorem coverLast0 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.1, y ∈ pc.1.set := View.cover_of_tiledL _ S512x1.size (by sl_kernel_rfl) y
theorem coverFirst1 (c : Dev nD) (t : Fin cfg1.N) (h0 : t.val % 8 = 0) (h1 : ¬t.val % 8 = 7) (y : S512x1.Idx) :
    ∃ pc ∈ (firstAt V c t h0 h1).2.1, y ∈ pc.1.set := View.cover_of_tiledL _ S512x1.size (by sl_kernel_rfl) y
theorem coverMid1 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).2.1, y ∈ pc.1.set := View.cover_of_tiledL _ S512x1.size (by sl_kernel_rfl) y
theorem coverLast1 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.2.1, y ∈ pc.1.set := View.cover_of_tiledL _ S512x1.size (by sl_kernel_rfl) y
theorem coverFirst2 (c : Dev nD) (t : Fin cfg1.N) (h0 : t.val % 8 = 0) (h1 : ¬t.val % 8 = 7) (y : S512x1.Idx) :
    ∃ pc ∈ (firstAt V c t h0 h1).2.2.1, y ∈ pc.1.set := View.cover_of_tiledL _ S512x1.size (by sl_kernel_rfl) y
theorem coverMid2 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).2.2.1, y ∈ pc.1.set := View.cover_of_tiledL _ S512x1.size (by sl_kernel_rfl) y
theorem coverLast2 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.2.2.1, y ∈ pc.1.set := View.cover_of_tiledL _ S512x1.size (by sl_kernel_rfl) y
theorem coverFirst3 (c : Dev nD) (t : Fin cfg1.N) (h0 : t.val % 8 = 0) (h1 : ¬t.val % 8 = 7) (y : S512x1.Idx) :
    ∃ pc ∈ (firstAt V c t h0 h1).2.2.2.1, y ∈ pc.1.set := View.cover_of_tiledL _ S512x1.size (by sl_kernel_rfl) y
theorem coverMid3 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).2.2.2.1, y ∈ pc.1.set := View.cover_of_tiledL _ S512x1.size (by sl_kernel_rfl) y
theorem coverLast3 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.2.2.2.1, y ∈ pc.1.set := View.cover_of_tiledL _ S512x1.size (by sl_kernel_rfl) y
theorem coverLastO0 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).1, y ∈ pc.1.set := View.cover_of_tiledL _ S512x1.size (by sl_kernel_rfl) y
theorem coverLastO1 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.1, y ∈ pc.1.set := View.cover_of_tiledL _ S512x1.size (by sl_kernel_rfl) y

/-! ## What the accumulators and the outputs hold after each point -/

set_option maxHeartbeats 4000000 in
/-- The accumulators after the body at position `n`: the case the position's column tile selects, a later
    tile's over what the position before left. -/
def accAt (c : Dev nD) : (n : ℕ) → n < cfg1.N → Vec F S512x1 .f32 × Vec F S512x1 .f32 × Vec F S512x1 .f32 × Vec F S512x1 .f32
  | 0, hn => (VS0.read (Elt F) (VS0.writes (Elt F) VS0.junk (firstAt V c ⟨0, hn⟩ (Nat.zero_mod _) (by show ¬ 0 % 8 = 7; decide)).1),
        VS1.read (Elt F) (VS1.writes (Elt F) VS1.junk (firstAt V c ⟨0, hn⟩ (Nat.zero_mod _) (by show ¬ 0 % 8 = 7; decide)).2.1),
        VS2.read (Elt F) (VS2.writes (Elt F) VS2.junk (firstAt V c ⟨0, hn⟩ (Nat.zero_mod _) (by show ¬ 0 % 8 = 7; decide)).2.2.1),
        VS3.read (Elt F) (VS3.writes (Elt F) VS3.junk (firstAt V c ⟨0, hn⟩ (Nat.zero_mod _) (by show ¬ 0 % 8 = 7; decide)).2.2.2.1))
  | n + 1, hn =>
    if h0 : (n + 1) % 8 = 0 then
      if h1 : (n + 1) % 8 = 7 then False.elim (by omega)
      else (VS0.read (Elt F) (VS0.writes (Elt F) VS0.junk (firstAt V c ⟨n + 1, hn⟩ h0 h1).1),
        VS1.read (Elt F) (VS1.writes (Elt F) VS1.junk (firstAt V c ⟨n + 1, hn⟩ h0 h1).2.1),
        VS2.read (Elt F) (VS2.writes (Elt F) VS2.junk (firstAt V c ⟨n + 1, hn⟩ h0 h1).2.2.1),
        VS3.read (Elt F) (VS3.writes (Elt F) VS3.junk (firstAt V c ⟨n + 1, hn⟩ h0 h1).2.2.2.1))
    else
      if h1 : (n + 1) % 8 = 7 then
        (VS0.read (Elt F) (VS0.writes (Elt F) VS0.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.1),
        VS1.read (Elt F) (VS1.writes (Elt F) VS1.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.1),
        VS2.read (Elt F) (VS2.writes (Elt F) VS2.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.2.1),
        VS3.read (Elt F) (VS3.writes (Elt F) VS3.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.2.2.1))
      else
        (VS0.read (Elt F) (VS0.writes (Elt F) VS0.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).1),
        VS1.read (Elt F) (VS1.writes (Elt F) VS1.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.1),
        VS2.read (Elt F) (VS2.writes (Elt F) VS2.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.1),
        VS3.read (Elt F) (VS3.writes (Elt F) VS3.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.1))

/-- The accumulators' contents the body finds at a point that is not a first column tile. -/
abbrev accBefore (c : Dev nD) (t : Fin cfg1.N) : Vec F S512x1 .f32 × Vec F S512x1 .f32 × Vec F S512x1 .f32 × Vec F S512x1 .f32 :=
  accAt V c (t.val - 1) (Nat.lt_of_le_of_lt (Nat.sub_le _ _) t.isLt)

set_option maxHeartbeats 4000000 in
theorem accAt_first (c : Dev nD) (t : Fin cfg1.N) (h0 : t.val % 8 = 0) (h1 : ¬t.val % 8 = 7) :
    accAt V c t.val t.isLt = (VS0.read (Elt F) (VS0.writes (Elt F) VS0.junk (firstAt V c t h0 h1).1),
        VS1.read (Elt F) (VS1.writes (Elt F) VS1.junk (firstAt V c t h0 h1).2.1),
        VS2.read (Elt F) (VS2.writes (Elt F) VS2.junk (firstAt V c t h0 h1).2.2.1),
        VS3.read (Elt F) (VS3.writes (Elt F) VS3.junk (firstAt V c t h0 h1).2.2.2.1)) := by
  obtain ⟨n, hn⟩ := t
  cases n with
  | zero => exact rfl
  | succ n => exact (dif_pos h0).trans ((dif_neg h1).trans rfl)

set_option maxHeartbeats 4000000 in
theorem accAt_mid (c : Dev nD) (t : Fin cfg1.N) (h0 : ¬t.val % 8 = 0) (h1 : ¬t.val % 8 = 7) :
    accAt V c t.val t.isLt = (VS0.read (Elt F) (VS0.writes (Elt F) VS0.junk (midAt V c t h0 h1 (accBefore V c t).1 (accBefore V c t).2.1 (accBefore V c t).2.2.1 (accBefore V c t).2.2.2).1),
        VS1.read (Elt F) (VS1.writes (Elt F) VS1.junk (midAt V c t h0 h1 (accBefore V c t).1 (accBefore V c t).2.1 (accBefore V c t).2.2.1 (accBefore V c t).2.2.2).2.1),
        VS2.read (Elt F) (VS2.writes (Elt F) VS2.junk (midAt V c t h0 h1 (accBefore V c t).1 (accBefore V c t).2.1 (accBefore V c t).2.2.1 (accBefore V c t).2.2.2).2.2.1),
        VS3.read (Elt F) (VS3.writes (Elt F) VS3.junk (midAt V c t h0 h1 (accBefore V c t).1 (accBefore V c t).2.1 (accBefore V c t).2.2.1 (accBefore V c t).2.2.2).2.2.2.1)) := by
  obtain ⟨n, hn⟩ := t
  cases n with
  | zero => exact absurd (Nat.zero_mod _) h0
  | succ n => exact (dif_neg h0).trans ((dif_neg h1).trans rfl)

set_option maxHeartbeats 4000000 in
theorem accAt_last (c : Dev nD) (t : Fin cfg1.N) (h0 : ¬t.val % 8 = 0) (h1 : t.val % 8 = 7) :
    accAt V c t.val t.isLt = (VS0.read (Elt F) (VS0.writes (Elt F) VS0.junk (lastAt V c t h0 h1 (accBefore V c t).1 (accBefore V c t).2.1 (accBefore V c t).2.2.1 (accBefore V c t).2.2.2).2.2.1),
        VS1.read (Elt F) (VS1.writes (Elt F) VS1.junk (lastAt V c t h0 h1 (accBefore V c t).1 (accBefore V c t).2.1 (accBefore V c t).2.2.1 (accBefore V c t).2.2.2).2.2.2.1),
        VS2.read (Elt F) (VS2.writes (Elt F) VS2.junk (lastAt V c t h0 h1 (accBefore V c t).1 (accBefore V c t).2.1 (accBefore V c t).2.2.1 (accBefore V c t).2.2.2).2.2.2.2.1),
        VS3.read (Elt F) (VS3.writes (Elt F) VS3.junk (lastAt V c t h0 h1 (accBefore V c t).1 (accBefore V c t).2.1 (accBefore V c t).2.2.1 (accBefore V c t).2.2.2).2.2.2.2.2.1)) := by
  obtain ⟨n, hn⟩ := t
  cases n with
  | zero => exact absurd (Nat.zero_mod _) h0
  | succ n => exact (dif_neg h0).trans ((dif_pos h1).trans rfl)

set_option maxHeartbeats 4000000 in
/-- The two outputs' staging buffers after the body at point `t`: at a last column tile the run's pieces read
    back; elsewhere a placeholder nothing consults (the window is idle there and not written back). -/
def outAt (c : Dev nD) (t : Fin cfg1.N) : Vec F S512x1 .f32 × Vec F S512x1 .f32 :=
  if h0 : t.val % 8 = 0 then (VO0.junk, VO1.junk)
  else if h1 : t.val % 8 = 7 then
    (VO0.read (Elt F) (VO0.writes (Elt F) VO0.junk (lastAt V c t h0 h1 (accBefore V c t).1 (accBefore V c t).2.1 (accBefore V c t).2.2.1 (accBefore V c t).2.2.2).1),
      VO1.read (Elt F) (VO1.writes (Elt F) VO1.junk (lastAt V c t h0 h1 (accBefore V c t).1 (accBefore V c t).2.1 (accBefore V c t).2.2.1 (accBefore V c t).2.2.2).2.1))
  else (VO0.junk, VO1.junk)

set_option maxHeartbeats 4000000 in
theorem outAt_last (c : Dev nD) (t : Fin cfg1.N) (h0 : ¬t.val % 8 = 0) (h1 : t.val % 8 = 7) :
    outAt V c t = (VO0.read (Elt F) (VO0.writes (Elt F) VO0.junk (lastAt V c t h0 h1 (accBefore V c t).1 (accBefore V c t).2.1 (accBefore V c t).2.2.1 (accBefore V c t).2.2.2).1),
      VO1.read (Elt F) (VO1.writes (Elt F) VO1.junk (lastAt V c t h0 h1 (accBefore V c t).1 (accBefore V c t).2.1 (accBefore V c t).2.2.1 (accBefore V c t).2.2.2).2.1)) :=
  (dif_neg h0).trans (dif_pos h1)

end Cert.Kernel.Loss

end
-- ==== Proof.BitsLossBody.lean ====
/-
  (For the program as printed, read at any float instance.) The second kernel region's proof data and the body obligation at every point: the invariant between points holds
  the four accumulators at what the point before left (anything before the first point), the other scoped buffers at
  anything, and the generator register.
-/
import proofs.«151531_j1219770712681_2_alg».proof.Proof.BitsLossFrame

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The core's scoped buffers that this region neither stages nor accumulates in, each whole at some contents. -/
def otherScoped (c : Dev nD) : sProp 𝕄 :=
  bigSep ((((((Finset.univ.filter fun b : Ref sig .tc => b.isScoped) \ Finset.univ.image (Pipeline.stageRef spec1)).erase cc1_scratch0).erase cc1_scratch1).erase cc1_scratch2).erase cc1_scratch3)
    fun b => iprop(∃ f : Buf (Elt F) ((c.tc : Thread nD τ).loc b), ((c.tc : Thread nD τ).loc b) ↦{fullShare} f)

/-- The class's invariant with the accumulators split off as memrefs owned at some contents. -/
theorem PhiA_eq (c : Dev nD) :
    (Pipeline.ΦA spec1 c : sProp 𝕄)
      = iprop(((∃ d, owns (c : Thread nD τ) accPos fullShare d) ∗ (∃ d, owns (c : Thread nD τ) accNeg fullShare d) ∗ (∃ d, owns (c : Thread nD τ) accHasNeg fullShare d) ∗ (∃ d, owns (c : Thread nD τ) accHasPos fullShare d) ∗ otherScoped (F := F) c) ∗ (∃ r, prngReg c r)) := by
  unfold Pipeline.ΦA Pipeline.scopedRest otherScoped
  rw [bigSep_erase (i := cc1_scratch0) (by decide), bigSep_erase (i := cc1_scratch1) (by decide), bigSep_erase (i := cc1_scratch2) (by decide), bigSep_erase (i := cc1_scratch3) (by decide)]
  simp only [accPos, accNeg, accHasNeg, accHasPos, owns_whole]
  try rfl

/-- The invariant before position `n`. -/
def PhiS (c : Dev nD) : (n : ℕ) → n ≤ cfg1.N → sProp 𝕄
  | 0, _ => Pipeline.ΦA spec1 c
  | n + 1, hn => iprop((owns (c : Thread nD τ) accPos fullShare (accAt V c n hn).1 ∗ owns (c : Thread nD τ) accNeg fullShare (accAt V c n hn).2.1 ∗ owns (c : Thread nD τ) accHasNeg fullShare (accAt V c n hn).2.2.1 ∗ owns (c : Thread nD τ) accHasPos fullShare (accAt V c n hn).2.2.2 ∗ otherScoped (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) accPos fullShare (accAt V c n hn).1 ∗ owns (c : Thread nD τ) accNeg fullShare (accAt V c n hn).2.1 ∗ owns (c : Thread nD τ) accHasNeg fullShare (accAt V c n hn).2.2.1 ∗ owns (c : Thread nD τ) accHasPos fullShare (accAt V c n hn).2.2.2 ∗ otherScoped (F := F) c) ∗ (∃ r, prngReg c r)) := rfl

theorem PhiS_pos (c : Dev nD) (n : ℕ) (h : n ≤ cfg1.N) (hz : n ≠ 0) :
    PhiS V c n h = iprop((owns (c : Thread nD τ) accPos fullShare (accAt V c (n - 1) (by omega)).1 ∗ owns (c : Thread nD τ) accNeg fullShare (accAt V c (n - 1) (by omega)).2.1 ∗ owns (c : Thread nD τ) accHasNeg fullShare (accAt V c (n - 1) (by omega)).2.2.1 ∗ owns (c : Thread nD τ) accHasPos fullShare (accAt V c (n - 1) (by omega)).2.2.2 ∗ otherScoped (F := F) c) ∗ (∃ r, prngReg c r)) := by
  cases n with
  | zero => exact absurd rfl hz
  | succ n => rfl

/-! ## The proof data -/

/-- The region's proof data on core `c`: the arrays as the region finds them; after the body each input's buffer at
    its block, the outputs' at `outAt`; the invariant `PhiS`; the row matrix, which two windows read, held by halves. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outAt V c t).1
    | ⟨8, _⟩ => (outAt V c t).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem afterO0 (c : Dev nD) (t : Fin cfg1.N) : (dat V c).after 7 t = (outAt V c t).1 := by dsimp only [dat]
theorem afterO1 (c : Dev nD) (t : Fin cfg1.N) : (dat V c).after 8 t = (outAt V c t).2 := by dsimp only [dat]

theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d
theorem before4 (c : Dev nD) (t : Fin cfg1.N) (d) : (dat V c).before 4 t d = iblk V c 4 t :=
  before_in4 V (dat V c) (A_eq V c 4) (after4 V c) t d
theorem before5 (c : Dev nD) (t : Fin cfg1.N) (d) : (dat V c).before 5 t d = iblk V c 5 t :=
  before_in5 V (dat V c) (A_eq V c 5) (after5 V c) t d
theorem before6 (c : Dev nD) (t : Fin cfg1.N) (d) : (dat V c).before 6 t d = iblk V c 6 t :=
  before_in6 V (dat V c) (A_eq V c 6) (after6 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem leaves_in (c : Dev nD) (t : Fin cfg1.N) :
    (dat V c).leavesExact 0 t = owns (c : Thread nD τ) (ms0 t) fullShare (iblk V c 0 t)
    ∧ (dat V c).leavesExact 1 t = owns (c : Thread nD τ) (ms1 t) fullShare (iblk V c 1 t)
    ∧ (dat V c).leavesExact 2 t = owns (c : Thread nD τ) (ms2 t) fullShare (iblk V c 2 t)
    ∧ (dat V c).leavesExact 3 t = owns (c : Thread nD τ) (ms3 t) fullShare (iblk V c 3 t)
    ∧ (dat V c).leavesExact 4 t = owns (c : Thread nD τ) (ms4 t) fullShare (iblk V c 4 t)
    ∧ (dat V c).leavesExact 5 t = owns (c : Thread nD τ) (ms5 t) fullShare (iblk V c 5 t)
    ∧ (dat V c).leavesExact 6 t = owns (c : Thread nD τ) (ms6 t) fullShare (iblk V c 6 t) := by
  refine ⟨?_, ?_, ?_, ?_, ?_, ?_, ?_⟩
  · unfold Dat.leavesExact; rw [live_in 0 (by decide) t, after0]
  · unfold Dat.leavesExact; rw [live_in 1 (by decide) t, after1]
  · unfold Dat.leavesExact; rw [live_in 2 (by decide) t, after2]
  · unfold Dat.leavesExact; rw [live_in 3 (by decide) t, after3]
  · unfold Dat.leavesExact; rw [live_in 4 (by decide) t, after4]
  · unfold Dat.leavesExact; rw [live_in 5 (by decide) t, after5]
  · unfold Dat.leavesExact; rw [live_in 6 (by decide) t, after6]

set_option maxHeartbeats 9600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = PhiS V c (t.val + 1) t.isLt from rfl, PhiS_succ]
  obtain ⟨hl0, hl1, hl2, hl3, hl4, hl5, hl6⟩ := leaves_in V c t
  rw [hl0, hl1, hl2, hl3, hl4, hl5, hl6]
  by_cases h0 : t.val % 8 = 0
  · have h1 : ¬t.val % 8 = 7 := by omega
    have hnl : ¬condLast (grid1.coords t) := fun h => h1 ((hcondLast t).mp h)
    rw [Dat.leavesExact_idle (dat V c) 7 t (idleO0 t hnl) (noFlushO0 t hnl), Dat.leavesExact_idle (dat V c) 8 t (idleO1 t hnl) (noFlushO1 t hnl)]
    rw [accAt_first V c t h0 h1]
    dsimp only
    by_cases hz : t.val = 0
    · rw [Phi_castSucc V c t, PhiS_zero V c _ _ hz, PhiA_eq]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      iintro ⟨H0, H1, H2, H3, H4, H5, H6, H7, H8, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          isplitl [HS2]
          · unfold owns; iexists _; isplitr
            swap; · iexact HS2
            ipureintro; exact View.read_writes_of_cover _ _ _ _ _ (coverFirst2 V c t h0 h1)
          isplitl [HS3]
          · unfold owns; iexists _; isplitr
            swap; · iexact HS3
            ipureintro; exact View.read_writes_of_cover _ _ _ _ _ (coverFirst3 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [Phi_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          isplitl [HS2]
          · unfold owns; iexists _; isplitr
            swap; · iexact HS2
            ipureintro; exact View.read_writes_of_cover _ _ _ _ _ (coverFirst2 V c t h0 h1)
          isplitl [HS3]
          · unfold owns; iexists _; isplitr
            swap; · iexact HS3
            ipureintro; exact View.read_writes_of_cover _ _ _ _ _ (coverFirst3 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h1 : t.val % 8 = 7
    · have hl : condLast (grid1.coords t) := (hcondLast t).mpr h1
      rw [show (dat V c).leavesExact 7 t = owns (c : Thread nD τ) (ms7 t) fullShare ((dat V c).after 7 t) from by
        unfold Dat.leavesExact; rw [liveO0 t hl], afterO0]
      rw [show (dat V c).leavesExact 8 t = owns (c : Thread nD τ) (ms8 t) fullShare ((dat V c).after 8 t) from by
        unfold Dat.leavesExact; rw [liveO1 t hl], afterO1]
      rw [accAt_last V c t h0 h1, outAt_last V c t h0 h1]
      dsimp only
      rw [Phi_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt V c t h0 h1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%e8, H8⟩, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverLast0 V c t h0 h1 _ _ _ _)
          isplitl [HS1]
          · unfold owns; iexists _; isplitr
            swap; · iexact HS1
            ipureintro; exact View.read_writes_of_cover _ _ _ _ _ (coverLast1 V c t h0 h1 _ _ _ _)
          isplitl [HS2]
          · unfold owns; iexists _; isplitr
            swap; · iexact HS2
            ipureintro; exact View.read_writes_of_cover _ _ _ _ _ (coverLast2 V c t h0 h1 _ _ _ _)
          isplitl [HS3]
          · unfold owns; iexists _; isplitr
            swap; · iexact HS3
            ipureintro; exact View.read_writes_of_cover _ _ _ _ _ (coverLast3 V c t h0 h1 _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLastO0 V c t h0 h1 _ _ _ _)
      unfold owns; iexists _; isplitr
      swap; · iexact H8
      ipureintro; exact View.read_writes_of_cover _ _ _ _ _ (coverLastO1 V c t h0 h1 _ _ _ _)
    · have hnl : ¬condLast (grid1.coords t) := fun h => h1 ((hcondLast t).mp h)
      rw [Dat.leavesExact_idle (dat V c) 7 t (idleO0 t hnl) (noFlushO0 t hnl), Dat.leavesExact_idle (dat V c) 8 t (idleO1 t hnl) (noFlushO1 t hnl)]
      rw [accAt_mid V c t h0 h1]
      dsimp only
      rw [Phi_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt V c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      iintro ⟨H0, H1, H2, H3, H4, H5, H6, H7, H8, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverMid0 V c t h0 h1 _ _ _ _)
          isplitl [HS1]
          · unfold owns; iexists _; isplitr
            swap; · iexact HS1
            ipureintro; exact View.read_writes_of_cover _ _ _ _ _ (coverMid1 V c t h0 h1 _ _ _ _)
          isplitl [HS2]
          · unfold owns; iexists _; isplitr
            swap; · iexact HS2
            ipureintro; exact View.read_writes_of_cover _ _ _ _ _ (coverMid2 V c t h0 h1 _ _ _ _)
          isplitl [HS3]
          · unfold owns; iexists _; isplitr
            swap; · iexact HS3
            ipureintro; exact View.read_writes_of_cover _ _ _ _ _ (coverMid3 V c t h0 h1 _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

set_option maxHeartbeats 4000000 in
/-- The library's body obligation, at every point. -/
theorem body_obligation (c : Dev nD) : BodyObligation (dat (F := F) V c) (defs₀ (F := F)) Variants.none () Set.univ := fun t => by
  rw [bigSep_W1, bigSep_W1]
  exact sound_body V c t

set_option maxHeartbeats 4000000 in
/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

set_option maxHeartbeats 4000000 in
/-- After the last point the invariant gives the class's back: the accumulators' contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨HS0, HS1, HS2, HS3, HR⟩, Hg⟩
  isplitr [Hg]
  · isplitl [HS0]; · iexists _; iexact HS0
    isplitl [HS1]; · iexists _; iexact HS1
    isplitl [HS2]; · iexists _; iexact HS2
    isplitl [HS3]; · iexists _; iexact HS3
    iexact HR
  iexact Hg

end Cert.Kernel.Loss

end
-- ==== Proof.BitsLossArrays.lean ====
/-
  (For the program as printed, read at any float instance.) The second kernel region's nine windows read eight buffers: the row matrix is read by two windows (the row tile and the column tile), each holding half of it.
-/
import proofs.«151531_j1219770712681_2_alg».proof.Proof.BitsLossBody

set_option maxRecDepth 16384

noncomputable section

namespace Cert.Kernel.Loss

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v0) ↦{fullShare} G main_v0) ∗ (((c : Thread nD τ).loc main_v3) ↦{fullShare} G main_v3) ∗ (((c : Thread nD τ).loc main_v4) ↦{fullShare} G main_v4) ∗ (((c : Thread nD τ).loc main_v15) ↦{fullShare} G main_v15) ∗ (((c : Thread nD τ).loc main_v16_0) ↦{fullShare} G main_v16_0) ∗ (((c : Thread nD τ).loc main_v16_1) ↦{fullShare} G main_v16_1) ∗ (((c : Thread nD τ).loc main_v17_0) ↦{fullShare} G main_v17_0) ∗ (((c : Thread nD τ).loc main_v17_1) ↦{fullShare} G main_v17_1)) := by
  unfold Pipeline.arrBufs
  rw [show Finset.univ.image (Pipeline.arrRef spec1) = ({main_v0, main_v3, main_v4, main_v15, main_v16_0, main_v16_1, main_v17_0, main_v17_1} : Finset (Ref sig .tc)) from by decide]
  rw [bigSep_insert (by decide), bigSep_insert (by decide), bigSep_insert (by decide), bigSep_insert (by decide), bigSep_insert (by decide), bigSep_insert (by decide), bigSep_insert (by decide), bigSep_singleton]
  rfl

/-- The windows' arrays at the proof data's shares are the distinct buffers behind them, each whole at the full
    share: the two half shares of the row matrix join. -/
theorem arrays_iff (c : Dev nD) (G : (b : Ref sig .tc) → Buf (Elt F) ((c : Thread nD τ).loc b))
    (A : (w : Fin cfg1.W) → Buf (Elt F) ((cfg1.win w).arr.view.loc (c : Thread nD τ))) (hA : ∀ w, A w = G (Pipeline.arrRef spec1 w)) :
    (dat V c).arrays A ⊣⊢ (Pipeline.arrBufs (Ix := Unit) (Name := ℕ) (U := UR sig nD τ) (Lvl := ℕ) spec1 c G : sProp 𝕄) := by
  have e1 : (dat V c).arrays A = bigSep Finset.univ fun w : Fin 9 => ((((c : Thread nD τ).loc (Pipeline.arrRef spec1 w)) ↦{(dat V c).share w} G (Pipeline.arrRef spec1 w)) : sProp 𝕄) := by
    unfold Dat.arrays
    exact bigSep_congr fun w _ => by rw [(arr_whole1 w).set_eq_univ, hA]
  rw [e1, bigSep_W1, arrBufs_eq]
  rw [show (dat V c).share 0 = fullShare.left from rfl, show (dat V c).share 1 = fullShare.right from rfl,
    show (dat V c).share 2 = fullShare from rfl, show (dat V c).share 3 = fullShare from rfl, show (dat V c).share 4 = fullShare from rfl, show (dat V c).share 5 = fullShare from rfl, show (dat V c).share 6 = fullShare from rfl, show (dat V c).share 7 = fullShare from rfl, show (dat V c).share 8 = fullShare from rfl]
  constructor
  · iintro ⟨H0, H1, H2, H3, H4, H5, H6, H7, H8⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    isplitl [H7]; · iexact H7
    iexact H8
  · iintro ⟨B0, B1, B2, B3, B4, B5, B6, B7⟩
    ihave B0' := (pointsTo_share (PosShare.mem_left_op_right fullShare)).1 $$ B0
    icases B0' with ⟨H0, H1⟩
    isplitl [H0]; · iexact H0
    isplitl [H1]; · iexact H1
    isplitl [B1]; · iexact B1
    isplitl [B2]; · iexact B2
    isplitl [B3]; · iexact B3
    isplitl [B4]; · iexact B4
    isplitl [B5]; · iexact B5
    isplitl [B6]; · iexact B6
    iexact B7

end Cert.Kernel.Loss

end
-- ==== Proof.BitsMainRun.lean ====
/-
  (For the program as printed, read at any float instance.) The whole run of the program's @main: nineteen host operations (the row matrix and the labels laid out, the rows'
  norms through the Gram matrix), the first kernel region (the row statistics), the second kernel region (the row
  losses), fourteen host operations (the two means). Every unscoped buffer's contents at the end are named: the
  launch contents, then each host stretch's operations applied, each region's two output arrays at what its
  write-backs leave.
-/
import proofs.«151531_j1219770712681_2_alg».proof.Proof.Gen.Kernel.Regions
import proofs.«151531_j1219770712681_2_alg».proof.Proof.BitsStatsArrays
import proofs.«151531_j1219770712681_2_alg».proof.Proof.BitsLossArrays

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- The core's buffers when the first region is entered, read at the TensorCore's references. -/
abbrev V1r (c : Dev nD) (b : Ref sig .tc) : Buf (Elt F) ((c : Thread nD τ).loc b) := V1 m c b

/-- What the first region leaves in a buffer: its two output arrays at what the write-backs leave. -/
def outsStats (c : Dev nD) (r : Ref sig .tc) : Buf (Elt F) ((c : Thread nD τ).loc r) :=
  if h : r = main_v16_0 then h ▸ ((Stats.dat (V1r m) c).arrAt 5 cfg0.N : Buf (Elt F) ((c : Thread nD τ).loc main_v16_0))
  else if h : r = main_v16_1 then h ▸ ((Stats.dat (V1r m) c).arrAt 6 cfg0.N : Buf (Elt F) ((c : Thread nD τ).loc main_v16_1))
  else m ((c : Thread nD τ).loc r)

/-- The core's buffers when the second region is entered. -/
abbrev V2r (c : Dev nD) (b : Ref sig .tc) : Buf (Elt F) ((c : Thread nD τ).loc b) := V2 m (fun _ r c => outsStats m c r) c b

/-- What the second region leaves in a buffer. -/
def outsLoss (c : Dev nD) (r : Ref sig .tc) : Buf (Elt F) ((c : Thread nD τ).loc r) :=
  if h : r = main_v17_0 then h ▸ ((Loss.dat (V2r m) c).arrAt 7 cfg1.N : Buf (Elt F) ((c : Thread nD τ).loc main_v17_0))
  else if h : r = main_v17_1 then h ▸ ((Loss.dat (V2r m) c).arrAt 8 cfg1.N : Buf (Elt F) ((c : Thread nD τ).loc main_v17_1))
  else m ((c : Thread nD τ).loc r)

/-- What the regions leave, by the item that leaves it. -/
def outs : Outs (F := F) := fun J r c => if J = 2 then outsStats m c r else outsLoss m c r

set_option maxHeartbeats 8000000 in
theorem outs_stats0 (c : Dev nD) : outs m 2 main_v16_0 c = (Stats.dat (V1r m) c).arrAt 5 cfg0.N := rfl
set_option maxHeartbeats 8000000 in
theorem outs_stats1 (c : Dev nD) : outs m 2 main_v16_1 c = (Stats.dat (V1r m) c).arrAt 6 cfg0.N := rfl
set_option maxHeartbeats 8000000 in
theorem outs_loss0 (c : Dev nD) : outs m 3 main_v17_0 c = (Loss.dat (V2r m) c).arrAt 7 cfg1.N := rfl
set_option maxHeartbeats 8000000 in
theorem outs_loss1 (c : Dev nD) : outs m 3 main_v17_1 c = (Loss.dat (V2r m) c).arrAt 8 cfg1.N := rfl
set_option maxHeartbeats 8000000 in
theorem V2_outs (c : Dev nD) : V2 m (outs m) c = V2 m (fun _ r c => outsStats m c r) c := rfl

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => Stats.dat (V1r m) c
  | ⟨1, _⟩ => fun c => Loss.dat (V2r m) c

abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The arrays at the regions' exits -/

set_option maxHeartbeats 8000000 in
theorem hF0 (c : Dev nD) : ∀ w : Fin cfg0.W, (Stats.dat (V1r m) c).arrAt w cfg0.N = V2 m (outs m) c (Pipeline.arrRef spec0 w)
  | ⟨0, _⟩ => ((Stats.dat (V1r m) c).arrAt_in 0 rfl _).trans ((Stats.A_eq (V1r m) c 0).trans (V2_of m (outs m) c main_v0 (by decide)).symm)
  | ⟨1, _⟩ => ((Stats.dat (V1r m) c).arrAt_in 1 rfl _).trans ((Stats.A_eq (V1r m) c 1).trans (V2_of m (outs m) c main_v0 (by decide)).symm)
  | ⟨2, _⟩ => ((Stats.dat (V1r m) c).arrAt_in 2 rfl _).trans ((Stats.A_eq (V1r m) c 2).trans (V2_of m (outs m) c main_v3 (by decide)).symm)
  | ⟨3, _⟩ => ((Stats.dat (V1r m) c).arrAt_in 3 rfl _).trans ((Stats.A_eq (V1r m) c 3).trans (V2_of m (outs m) c main_v4 (by decide)).symm)
  | ⟨4, _⟩ => ((Stats.dat (V1r m) c).arrAt_in 4 rfl _).trans ((Stats.A_eq (V1r m) c 4).trans (V2_of m (outs m) c main_v15 (by decide)).symm)
  | ⟨5, _⟩ => by
    show _ = V2 m (outs m) c main_v16_0
    simp only [V2, Function.update_of_ne (StableHlo.devRef_ne_of_ne (by decide : main_v16_0 ≠ main_v16_1) : (Proc.devRef .tc main_v16_0 : DevRef τ sig) ≠ Proc.devRef .tc main_v16_1), Function.update_self]
    rfl
  | ⟨6, _⟩ => by
    show _ = V2 m (outs m) c main_v16_1
    simp only [V2, Function.update_self]
    rfl

set_option maxHeartbeats 8000000 in
theorem hrest0 (c : Dev nD) (b : Ref sig .tc) (hb : b ∉ Finset.univ.image (Pipeline.arrRef spec0)) : V2 m (outs m) c b = V1 m c b :=
  V2_of m (outs m) c b (by
    intro h
    simp only [List.mem_cons, List.mem_nil_iff, or_false] at h
    rcases h with rfl | rfl
    · exact hb (Finset.mem_image.mpr ⟨5, Finset.mem_univ _, rfl⟩)
    · exact hb (Finset.mem_image.mpr ⟨6, Finset.mem_univ _, rfl⟩))

set_option maxHeartbeats 8000000 in
theorem hF1 (c : Dev nD) : ∀ w : Fin cfg1.W, (Loss.dat (V2r m) c).arrAt w cfg1.N = V3 m (outs m) c (Pipeline.arrRef spec1 w)
  | ⟨0, _⟩ => ((Loss.dat (V2r m) c).arrAt_in 0 rfl _).trans ((Loss.A_eq (V2r m) c 0).trans (V3_of m (outs m) c main_v0 (by decide)).symm)
  | ⟨1, _⟩ => ((Loss.dat (V2r m) c).arrAt_in 1 rfl _).trans ((Loss.A_eq (V2r m) c 1).trans (V3_of m (outs m) c main_v0 (by decide)).symm)
  | ⟨2, _⟩ => ((Loss.dat (V2r m) c).arrAt_in 2 rfl _).trans ((Loss.A_eq (V2r m) c 2).trans (V3_of m (outs m) c main_v3 (by decide)).symm)
  | ⟨3, _⟩ => ((Loss.dat (V2r m) c).arrAt_in 3 rfl _).trans ((Loss.A_eq (V2r m) c 3).trans (V3_of m (outs m) c main_v4 (by decide)).symm)
  | ⟨4, _⟩ => ((Loss.dat (V2r m) c).arrAt_in 4 rfl _).trans ((Loss.A_eq (V2r m) c 4).trans (V3_of m (outs m) c main_v15 (by decide)).symm)
  | ⟨5, _⟩ => ((Loss.dat (V2r m) c).arrAt_in 5 rfl _).trans ((Loss.A_eq (V2r m) c 5).trans (V3_of m (outs m) c main_v16_0 (by decide)).symm)
  | ⟨6, _⟩ => ((Loss.dat (V2r m) c).arrAt_in 6 rfl _).trans ((Loss.A_eq (V2r m) c 6).trans (V3_of m (outs m) c main_v16_1 (by decide)).symm)
  | ⟨7, _⟩ => by
    show _ = V3 m (outs m) c main_v17_0
    simp only [V3, Function.update_of_ne (StableHlo.devRef_ne_of_ne (by decide : main_v17_0 ≠ main_v17_1) : (Proc.devRef .tc main_v17_0 : DevRef τ sig) ≠ Proc.devRef .tc main_v17_1), Function.update_self]
    rfl
  | ⟨8, _⟩ => by
    show _ = V3 m (outs m) c main_v17_1
    simp only [V3, Function.update_self]
    rfl

set_option maxHeartbeats 8000000 in
theorem hrest1 (c : Dev nD) (b : Ref sig .tc) (hb : b ∉ Finset.univ.image (Pipeline.arrRef spec1)) : V3 m (outs m) c b = V2 m (outs m) c b :=
  V3_of m (outs m) c b (by
    intro h
    simp only [List.mem_cons, List.mem_nil_iff, or_false] at h
    rcases h with rfl | rfl
    · exact hb (Finset.mem_image.mpr ⟨7, Finset.mem_univ _, rfl⟩)
    · exact hb (Finset.mem_image.mpr ⟨8, Finset.mem_univ _, rfl⟩))

theorem split_bufs0 (c : Dev nD) (G : (b : Ref sig .tc) → Buf (Elt F) ((c : Thread nD τ).loc b)) :
    (unscopedBufs c G : sProp 𝕄) = iprop(Pipeline.arrBufs spec0 c G ∗ Pipeline.unscopedRest spec0 c G) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

theorem split_bufs1 (c : Dev nD) (G : (b : Ref sig .tc) → Buf (Elt F) ((c : Thread nD τ).loc b)) :
    (unscopedBufs c G : sProp 𝕄) = iprop(Pipeline.arrBufs spec1 c G ∗ Pipeline.unscopedRest spec1 c G) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-! ## The regions as segments -/

set_option backward.isDefEq.respectTransparency.types false in
/-- The first region over the thread state: entered from every unscoped buffer at the contents after the first host
    stretch, left at those contents with its two output arrays at what its write-backs leave. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Stats.body_obligation (V1r m) c).loose
  hwaits := Pipeline.hwaits_of_owed_zero _ _ _ _ L lv 0 fun _ _ => rfl
  pre c := iprop(StableHlo.held (c : Thread nD τ) (Pipeline.ucRefs τ sig) (V1 m c) ∗ R (F := F) c)
  post c := iprop(StableHlo.held (c : Thread nD τ) (Pipeline.ucRefs τ sig) (V2 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit : (unscopedBufs c (V1r m c) : sProp 𝕄) ⊢ iprop((pdats m 0 c).arrays ((pdats m 0 c).arrAt · 0) ∗ Pipeline.unscopedRest spec0 c (V1r m c)) := by
      rw [split_bufs0]
      exact sep_mono (Stats.arrays_iff (V1r m) c (V1r m c) _ (fun w => Stats.A_eq (V1r m) c w)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (Stats.hin (V1r m) c)
    unfold Pipeline.ΦA
    iintro ⟨Hp, -, Hr⟩
    isplitl [Hr]; · iexact Hr
    iexact Hp
  hout c := by
    rw [Pipeline.ownSems0_none]
    refine (Stats.hout (V1r m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1r m c))
        ⊢ (unscopedBufs c (fun b => V2 m (outs m) c b) : sProp 𝕄) := by
      rw [split_bufs0]
      refine sep_mono (Stats.arrays_iff (V1r m) c (fun b => V2 m (outs m) c b) _ (hF0 m c)).1 (Entails.of_eq ?_)
      unfold Pipeline.unscopedRest
      exact bigSep_congr fun b hb => by
        show (((c.tc : Thread nD τ).loc b) ↦{fullShare} V1 m c b : sProp 𝕄) = (((c.tc : Thread nD τ).loc b) ↦{fullShare} V2 m (outs m) c b)
        rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from what the first left, left with its two output arrays at
    what its write-backs leave. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Loss.body_obligation (V2r m) c).loose
  hwaits := Pipeline.hwaits_of_owed_zero _ _ _ _ L lv 1 fun _ _ => rfl
  pre c := iprop(StableHlo.held (c : Thread nD τ) (Pipeline.ucRefs τ sig) (V2 m (fun _ r c => outsStats m c r) c) ∗ R (F := F) c)
  post c := iprop(StableHlo.held (c : Thread nD τ) (Pipeline.ucRefs τ sig) (V3 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit : (unscopedBufs c (V2r m c) : sProp 𝕄) ⊢ iprop((pdats m 1 c).arrays ((pdats m 1 c).arrAt · 0) ∗ Pipeline.unscopedRest spec1 c (V2r m c)) := by
      rw [split_bufs1]
      exact sep_mono (Loss.arrays_iff (V2r m) c (V2r m c) _ (fun w => Loss.A_eq (V2r m) c w)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (Loss.hin (V2r m) c)
    unfold Pipeline.ΦA
    iintro ⟨Hp, -, Hr⟩
    isplitl [Hr]; · iexact Hr
    iexact Hp
  hout c := by
    rw [Pipeline.ownSems0_none]
    refine (Loss.hout (V2r m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2r m c))
        ⊢ (unscopedBufs c (fun b => V3 m (outs m) c b) : sProp 𝕄) := by
      rw [split_bufs1]
      refine sep_mono (Loss.arrays_iff (V2r m) c (fun b => V3 m (outs m) c b) _ (hF1 m c)).1 (Entails.of_eq ?_)
      unfold Pipeline.unscopedRest
      exact bigSep_congr fun b hb => by
        show (((c.tc : Thread nD τ).loc b) ↦{fullShare} V2 m (fun _ r c => outsStats m c r) c b : sProp 𝕄) = (((c.tc : Thread nD τ).loc b) ↦{fullShare} V3 m (outs m) c b)
        rw [hrest1 m c b (Finset.mem_sdiff.mp hb).2, V2_outs]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- The run, given the regions' records: every weakly fair execution of @main terminates, nothing faulting, and every
    unscoped buffer ends at what the last valuation names. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

/-- What the launch deals one core makes the state that rides beside its buffers. -/
theorem hE0_core (c : Dev nD) : iprop(unscopedSems0 c ∗ owes (c : Thread nD τ) (0 : CellTallies nD τ sig Unit) ∅
      ∗ Pipeline.launchCred (fun _ => 0 : Dev nD → CellTallies nD τ sig Unit) c ∗ prngReg c (ρ c) ∗ (iprop(emp) : sProp 𝕄)) ⊢ R (F := F) c := by
  iintro ⟨-, HO, -, Hp, -⟩
  isplitl [Hp]; · iexists _; iexact Hp
  iexists ∅; iexact HO

/-- What the launch deals every core makes the state that rides beside the buffers. -/
theorem hE0 : iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c)) ∗ levAts L lv)
      ⊢ (|={Set.univ}=> bigSep Finset.univ (E (F := F) 0) : sProp 𝕄) := by
  iintro ⟨H, -⟩
  imodintro
  iapply (show (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c))
      ⊢ (bigSep Finset.univ (E (F := F) 0) : sProp 𝕄) from bigSep_mono fun c _ => hE0_core ρ c)
  iexact H

set_option backward.isDefEq.respectTransparency.types false in
/-- THE RUN: from any memory with zero counters every weakly fair execution of @main terminates, nothing faulting,
    and every unscoped buffer ends at the contents the last valuation names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) :=
  run_cond m emb₁ () 𝒱₀ L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E (hE0 ρ) (fun c => by iintro ⟨-, H⟩; iexact H)
    (reg0 m) (fun c => .rfl) (fun c => .rfl) (reg1 m) (fun c => BIBase.Entails.of_eq (by rw [V2_outs]; rfl)) (fun c => .rfl)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V4_main_arg0 m (outs m) c),
     (h c _ (mem_uc main_arg1 (by decide))).trans (V4_main_arg1 m (outs m) c)⟩) (run_all m ρ)

end Cert.Kernel.Run

end
-- ==== Proof.StatsBase.lean ====
/-
  The first kernel region (the row statistics: per row of a 512-row tile the least similarity among same-label
  columns below the cut-off and the greatest among other-label columns, folded over the eight 1024-column tiles
  of the row): what its body's runs share. The grid is 16 x 8, the column coordinate innermost; the two scratch
  accumulators are reset at column tile 0 and copied to the two outputs at column tile 7.
-/
import proofs.«151531_j1219770712681_2_alg».proof.Proof.Gen.KernelIdeal.Launch
import proofs.«151531_j1219770712681_2_alg».proof.Proof.Gen.KernelIdeal.Skeleton
import proofs.«151531_j1219770712681_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The column tile is the first one: the accumulators are reset. -/
abbrev condFirst (i : grid0.Coords) : Prop := (Scalar.cmpi .ne (Scalar.extui (Scalar.cmpi .eq (BitVec.ofNat 32 (i 1).val) 0#32)) 0#32) = 1#1
/-- It is so at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)

/-- The column tile is the last one: the accumulators are copied out. -/
abbrev condLast (i : grid0.Coords) : Prop := k0_cond2 i = 1#1
/-- It is so at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The two accumulators, whole scoped buffers of the kernel's own. -/
abbrev accMin : Memref sig .tc .vmem S512x1 .f32 := Memref.whole cc0_scratch0
abbrev accMax : Memref sig .tc .vmem S512x1 .f32 := Memref.whole cc0_scratch1

end Cert.KernelIdeal.Stats

end
-- ==== Proof.StatsFirst.lean ====
/-
  The first kernel region's body at the first column tile of a row tile: both accumulators are reset (to +inf and
  to -inf), then folded with this tile's row minimum and row maximum; the two outputs are not touched.
-/
import proofs.«151531_j1219770712681_2_alg».proof.Proof.StatsBase

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two accumulators end with (last store first), found by running the body, with the run itself:
    on whole staging memrefs, the inputs at their contents, the outputs handed back untouched, the accumulators at
    anything. -/
noncomputable def runFirst (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : condFirst i) (hc1 : ¬condLast i)
    (x0 : Vec F S512x192 .f32) (x1 : Vec F S1024x192 .f32) (x2 : Vec F S512x1 .i32) (x3 : Vec F S1x1024 .i32) (x4 : Vec F S512x1 .f32) :
    Σ' (LS0 : List (View.Piece (Elt F) S512x1 .f32)), { LS1 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.KernelIdeal.Stats

end
-- ==== Proof.StatsMid.lean ====
/-
  The first kernel region's body at a column tile that is neither the first nor the last: both accumulators are
  read at what the tile before left and stored back folded with this tile's row minimum and row maximum; the two
  outputs are not touched.
-/
import proofs.«151531_j1219770712681_2_alg».proof.Proof.StatsBase

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two accumulators end with (last store first), found by running the body, with the run itself:
    on whole staging memrefs, the inputs at their contents, the outputs handed back untouched, the accumulators at
    the contents `a0`, `a1` the tile before left. -/
noncomputable def runMid (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : ¬condLast i)
    (x0 : Vec F S512x192 .f32) (x1 : Vec F S1024x192 .f32) (x2 : Vec F S512x1 .i32) (x3 : Vec F S1x1024 .i32) (x4 : Vec F S512x1 .f32) (a0 a1 : Vec F S512x1 .f32) :
    Σ' (LS0 : List (View.Piece (Elt F) S512x1 .f32)), { LS1 : List (View.Piece (Elt F) S512x1 .f32) //
      ∀ (xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare xi6
            ∗ owns (c : Thread nD τ) arg9 fullShare a0 ∗ owns (c : Thread nD τ) arg10 fullShare a1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; iexact HS0
    iexists _; iexact HS1

end Cert.KernelIdeal.Stats

end
-- ==== Proof.StatsLast.lean ====
/-
  The first kernel region's body at the last column tile of a row tile: both accumulators are read at what the
  tile before left, stored back folded with this tile's row minimum and row maximum, and copied to the two outputs.
-/
import proofs.«151531_j1219770712681_2_alg».proof.Proof.StatsBase

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the two outputs and the two accumulators end with (last store first), found by running the body, with
    the run itself: on whole staging memrefs, the inputs at their contents, the outputs at anything, the accumulators
    at the contents `a0`, `a1` the tile before left. -/
noncomputable def runLast (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : condLast i)
    (x0 : Vec F S512x192 .f32) (x1 : Vec F S1024x192 .f32) (x2 : Vec F S512x1 .i32) (x3 : Vec F S1x1024 .i32) (x4 : Vec F S512x1 .f32) (a0 a1 : Vec F S512x1 .f32) :
    Σ' (L5 : List (View.Piece (Elt F) S512x1 .f32)) (L6 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ owns (c : Thread nD τ) arg9 fullShare a0 ∗ owns (c : Thread nD τ) arg10 fullShare a1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]
    · iexists _; iexact H6
    isplitl [HS0]
    · iexists _; iexact HS0
    iexists _; iexact HS1

end Cert.KernelIdeal.Stats

end
-- ==== Proof.StatsFrame.lean ====
/-
  The first kernel region's runs at a point and what its buffers hold after each point, at any contents `V` of the
  core's buffers when the region is entered. After the body at a point the two accumulators hold: at the first
  column tile of a row tile the reset values folded with that tile; at a later column tile what the tile before left
  folded with this tile. The two outputs are stored (with the accumulators' final values) at the last column tile
  only, and written back there; at the other points their staging buffers are handed back as found.
-/
import proofs.«151531_j1219770712681_2_alg».proof.Proof.StatsFirst
import proofs.«151531_j1219770712681_2_alg».proof.Proof.StatsMid
import proofs.«151531_j1219770712681_2_alg».proof.Proof.StatsLast

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg0.N) : Memref sig .tc .vmem S512x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x1 .f32 := win0_6.stage (cfg0.slots t 6)
abbrev hs6 (t : Fin cfg0.N) : (ms6 t).IsWhole := hstage0_6 ((cfg0.slots t 6).cast nbuf0_6)

/-- The accumulators and one staging buffer of each output, as views: contents are stated through them. -/
abbrev VS0 : View sig .tc .vmem S512x1 .f32 := accMin.view
abbrev VS1 : View sig .tc .vmem S512x1 .f32 := accMax.view
abbrev VO0 : View sig .tc .vmem S512x1 .f32 := (Memref.whole cc0_stg5_0 : Memref sig .tc .vmem S512x1 .f32).view
abbrev VO1 : View sig .tc .vmem S512x1 .f32 := (Memref.whole cc0_stg6_0 : Memref sig .tc .vmem S512x1 .f32).view

/-! ## Where the outputs are idle -/

theorem live_in : ∀ (w : Fin cfg0.W), w.val < 5 → ∀ t : Fin cfg0.N, cfg0.idle w (grid0.coords t) = false := by decide +kernel
theorem idleO0 : ∀ t : Fin cfg0.N, ¬condLast (grid0.coords t) → cfg0.idle 5 (grid0.coords t) = true := by decide +kernel
theorem idleO1 : ∀ t : Fin cfg0.N, ¬condLast (grid0.coords t) → cfg0.idle 6 (grid0.coords t) = true := by decide +kernel
theorem noFlushO0 : ∀ t : Fin cfg0.N, ¬condLast (grid0.coords t) → (cfg0.win 5).flush t = false := by decide +kernel
theorem noFlushO1 : ∀ t : Fin cfg0.N, ¬condLast (grid0.coords t) → (cfg0.win 6).flush t = false := by decide +kernel
theorem liveO0 : ∀ t : Fin cfg0.N, condLast (grid0.coords t) → cfg0.idle 5 (grid0.coords t) = false := by decide +kernel
theorem liveO1 : ∀ t : Fin cfg0.N, condLast (grid0.coords t) → cfg0.idle 6 (grid0.coords t) = false := by decide +kernel

/-! ## The body's runs at a point -/

/-- The run at a first column tile, at the point's memrefs and input blocks. -/
abbrev firstAt (c : Dev nD) (t : Fin cfg0.N) (h0 : t.val % 8 = 0) (h1 : ¬t.val % 8 = 7) :=
  runFirst (F := F) c (grid0.coords t) (ms0 t) (hs0 t) (ms1 t) (hs1 t) (ms2 t) (hs2 t) (ms3 t) (hs3 t) (ms4 t) (hs4 t) (ms5 t) (hs5 t) (ms6 t) (hs6 t) accMin (Memref.isWhole_whole _) accMax (Memref.isWhole_whole _) ((hcondFirst t).mpr h0) (fun h => h1 ((hcondLast t).mp h)) (iblk V c 0 t) (iblk V c 1 t) (iblk V c 2 t) (iblk V c 3 t) (iblk V c 4 t)
/-- The run at a middle column tile, over the accumulators' contents. -/
abbrev midAt (c : Dev nD) (t : Fin cfg0.N) (h0 : ¬t.val % 8 = 0) (h1 : ¬t.val % 8 = 7) (a0 a1 : Vec F S512x1 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) accMin (Memref.isWhole_whole _) accMax (Memref.isWhole_whole _) (fun h => h0 ((hcondFirst t).mp h)) (fun h => h1 ((hcondLast t).mp h)) (iblk V c 0 t) (iblk V c 1 t) (iblk V c 2 t) (iblk V c 3 t) (iblk V c 4 t) a0 a1
/-- The run at a last column tile, over the accumulators' contents. -/
abbrev lastAt (c : Dev nD) (t : Fin cfg0.N) (h0 : ¬t.val % 8 = 0) (h1 : t.val % 8 = 7) (a0 a1 : Vec F S512x1 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) accMin (Memref.isWhole_whole _) accMax (Memref.isWhole_whole _) (fun h => h0 ((hcondFirst t).mp h)) ((hcondLast t).mpr h1) (iblk V c 0 t) (iblk V c 1 t) (iblk V c 2 t) (iblk V c 3 t) (iblk V c 4 t) a0 a1

/-- Each run's pieces for a buffer tile it (one whole-buffer store last), so they cover it. -/
theorem coverFirst0 (c : Dev nD) (t : Fin cfg0.N) (h0 : t.val % 8 = 0) (h1 : ¬t.val % 8 = 7) (y : S512x1.Idx) :
    ∃ pc ∈ (firstAt V c t h0 h1).1, y ∈ pc.1.set := View.cover_of_tiledL _ S512x1.size (by sl_kernel_rfl) y
theorem coverMid0 (c : Dev nD) (t : Fin cfg0.N) (h0 : ¬t.val % 8 = 0) (h1 : ¬t.val % 8 = 7) (a0 a1 : Vec F S512x1 .f32) (y : S512x1.Idx) :
    ∃ pc ∈ (midAt V c t h0 h1 a0 a1).1, y ∈ pc.1.set := View.cover_of_tiledL _ S512x1.size (by sl_kernel_rfl) y
theorem coverLast0 (c : Dev nD) (t : Fin cfg0.N) (h0 : ¬t.val % 8 = 0) (h1 : t.val % 8 = 7) (a0 a1 : Vec F S512x1 .f32) (y : S512x1.Idx) :
    ∃ pc ∈ (lastAt V c t h0 h1 a0 a1).2.2.1, y ∈ pc.1.set := View.cover_of_tiledL _ S512x1.size (by sl_kernel_rfl) y
theorem coverFirst1 (c : Dev nD) (t : Fin cfg0.N) (h0 : t.val % 8 = 0) (h1 : ¬t.val % 8 = 7) (y : S512x1.Idx) :
    ∃ pc ∈ (firstAt V c t h0 h1).2.1, y ∈ pc.1.set := View.cover_of_tiledL _ S512x1.size (by sl_kernel_rfl) y
theorem coverMid1 (c : Dev nD) (t : Fin cfg0.N) (h0 : ¬t.val % 8 = 0) (h1 : ¬t.val % 8 = 7) (a0 a1 : Vec F S512x1 .f32) (y : S512x1.Idx) :
    ∃ pc ∈ (midAt V c t h0 h1 a0 a1).2.1, y ∈ pc.1.set := View.cover_of_tiledL _ S512x1.size (by sl_kernel_rfl) y
theorem coverLast1 (c : Dev nD) (t : Fin cfg0.N) (h0 : ¬t.val % 8 = 0) (h1 : t.val % 8 = 7) (a0 a1 : Vec F S512x1 .f32) (y : S512x1.Idx) :
    ∃ pc ∈ (lastAt V c t h0 h1 a0 a1).2.2.2.1, y ∈ pc.1.set := View.cover_of_tiledL _ S512x1.size (by sl_kernel_rfl) y
theorem coverLastO0 (c : Dev nD) (t : Fin cfg0.N) (h0 : ¬t.val % 8 = 0) (h1 : t.val % 8 = 7) (a0 a1 : Vec F S512x1 .f32) (y : S512x1.Idx) :
    ∃ pc ∈ (lastAt V c t h0 h1 a0 a1).1, y ∈ pc.1.set := View.cover_of_tiledL _ S512x1.size (by sl_kernel_rfl) y
theorem coverLastO1 (c : Dev nD) (t : Fin cfg0.N) (h0 : ¬t.val % 8 = 0) (h1 : t.val % 8 = 7) (a0 a1 : Vec F S512x1 .f32) (y : S512x1.Idx) :
    ∃ pc ∈ (lastAt V c t h0 h1 a0 a1).2.1, y ∈ pc.1.set := View.cover_of_tiledL _ S512x1.size (by sl_kernel_rfl) y

/-! ## What the accumulators and the outputs hold after each point -/

set_option maxHeartbeats 4000000 in
/-- The accumulators after the body at position `n`: the case the position's column tile selects, a later
    tile's over what the position before left. -/
def accAt (c : Dev nD) : (n : ℕ) → n < cfg0.N → Vec F S512x1 .f32 × Vec F S512x1 .f32
  | 0, hn => (VS0.read (Elt F) (VS0.writes (Elt F) VS0.junk (firstAt V c ⟨0, hn⟩ (Nat.zero_mod _) (by show ¬ 0 % 8 = 7; decide)).1),
        VS1.read (Elt F) (VS1.writes (Elt F) VS1.junk (firstAt V c ⟨0, hn⟩ (Nat.zero_mod _) (by show ¬ 0 % 8 = 7; decide)).2.1))
  | n + 1, hn =>
    if h0 : (n + 1) % 8 = 0 then
      if h1 : (n + 1) % 8 = 7 then False.elim (by omega)
      else (VS0.read (Elt F) (VS0.writes (Elt F) VS0.junk (firstAt V c ⟨n + 1, hn⟩ h0 h1).1),
        VS1.read (Elt F) (VS1.writes (Elt F) VS1.junk (firstAt V c ⟨n + 1, hn⟩ h0 h1).2.1))
    else
      if h1 : (n + 1) % 8 = 7 then
        (VS0.read (Elt F) (VS0.writes (Elt F) VS0.junk (lastAt V c ⟨n + 1, hn⟩ h0 h1 (accAt c n (Nat.lt_of_succ_lt hn)).1 (accAt c n (Nat.lt_of_succ_lt hn)).2).2.2.1),
        VS1.read (Elt F) (VS1.writes (Elt F) VS1.junk (lastAt V c ⟨n + 1, hn⟩ h0 h1 (accAt c n (Nat.lt_of_succ_lt hn)).1 (accAt c n (Nat.lt_of_succ_lt hn)).2).2.2.2.1))
      else
        (VS0.read (Elt F) (VS0.writes (Elt F) VS0.junk (midAt V c ⟨n + 1, hn⟩ h0 h1 (accAt c n (Nat.lt_of_succ_lt hn)).1 (accAt c n (Nat.lt_of_succ_lt hn)).2).1),
        VS1.read (Elt F) (VS1.writes (Elt F) VS1.junk (midAt V c ⟨n + 1, hn⟩ h0 h1 (accAt c n (Nat.lt_of_succ_lt hn)).1 (accAt c n (Nat.lt_of_succ_lt hn)).2).2.1))

/-- The accumulators' contents the body finds at a point that is not a first column tile. -/
abbrev accBefore (c : Dev nD) (t : Fin cfg0.N) : Vec F S512x1 .f32 × Vec F S512x1 .f32 :=
  accAt V c (t.val - 1) (Nat.lt_of_le_of_lt (Nat.sub_le _ _) t.isLt)

set_option maxHeartbeats 4000000 in
theorem accAt_first (c : Dev nD) (t : Fin cfg0.N) (h0 : t.val % 8 = 0) (h1 : ¬t.val % 8 = 7) :
    accAt V c t.val t.isLt = (VS0.read (Elt F) (VS0.writes (Elt F) VS0.junk (firstAt V c t h0 h1).1),
        VS1.read (Elt F) (VS1.writes (Elt F) VS1.junk (firstAt V c t h0 h1).2.1)) := by
  obtain ⟨n, hn⟩ := t
  cases n with
  | zero => exact rfl
  | succ n => exact (dif_pos h0).trans ((dif_neg h1).trans rfl)

set_option maxHeartbeats 4000000 in
theorem accAt_mid (c : Dev nD) (t : Fin cfg0.N) (h0 : ¬t.val % 8 = 0) (h1 : ¬t.val % 8 = 7) :
    accAt V c t.val t.isLt = (VS0.read (Elt F) (VS0.writes (Elt F) VS0.junk (midAt V c t h0 h1 (accBefore V c t).1 (accBefore V c t).2).1),
        VS1.read (Elt F) (VS1.writes (Elt F) VS1.junk (midAt V c t h0 h1 (accBefore V c t).1 (accBefore V c t).2).2.1)) := by
  obtain ⟨n, hn⟩ := t
  cases n with
  | zero => exact absurd (Nat.zero_mod _) h0
  | succ n => exact (dif_neg h0).trans ((dif_neg h1).trans rfl)

set_option maxHeartbeats 4000000 in
theorem accAt_last (c : Dev nD) (t : Fin cfg0.N) (h0 : ¬t.val % 8 = 0) (h1 : t.val % 8 = 7) :
    accAt V c t.val t.isLt = (VS0.read (Elt F) (VS0.writes (Elt F) VS0.junk (lastAt V c t h0 h1 (accBefore V c t).1 (accBefore V c t).2).2.2.1),
        VS1.read (Elt F) (VS1.writes (Elt F) VS1.junk (lastAt V c t h0 h1 (accBefore V c t).1 (accBefore V c t).2).2.2.2.1)) := by
  obtain ⟨n, hn⟩ := t
  cases n with
  | zero => exact absurd (Nat.zero_mod _) h0
  | succ n => exact (dif_neg h0).trans ((dif_pos h1).trans rfl)

set_option maxHeartbeats 4000000 in
/-- The two outputs' staging buffers after the body at point `t`: at a last column tile the run's pieces read
    back; elsewhere a placeholder nothing consults (the window is idle there and not written back). -/
def outAt (c : Dev nD) (t : Fin cfg0.N) : Vec F S512x1 .f32 × Vec F S512x1 .f32 :=
  if h0 : t.val % 8 = 0 then (VO0.junk, VO1.junk)
  else if h1 : t.val % 8 = 7 then
    (VO0.read (Elt F) (VO0.writes (Elt F) VO0.junk (lastAt V c t h0 h1 (accBefore V c t).1 (accBefore V c t).2).1),
      VO1.read (Elt F) (VO1.writes (Elt F) VO1.junk (lastAt V c t h0 h1 (accBefore V c t).1 (accBefore V c t).2).2.1))
  else (VO0.junk, VO1.junk)

set_option maxHeartbeats 4000000 in
theorem outAt_last (c : Dev nD) (t : Fin cfg0.N) (h0 : ¬t.val % 8 = 0) (h1 : t.val % 8 = 7) :
    outAt V c t = (VO0.read (Elt F) (VO0.writes (Elt F) VO0.junk (lastAt V c t h0 h1 (accBefore V c t).1 (accBefore V c t).2).1),
      VO1.read (Elt F) (VO1.writes (Elt F) VO1.junk (lastAt V c t h0 h1 (accBefore V c t).1 (accBefore V c t).2).2.1)) :=
  (dif_neg h0).trans (dif_pos h1)

end Cert.KernelIdeal.Stats

end
-- ==== Proof.StatsBody.lean ====
/-
  The first kernel region's proof data and the body obligation at every point: the invariant between points holds
  the two accumulators at what the point before left (anything before the first point), the other scoped buffers at
  anything, and the generator register.
-/
import proofs.«151531_j1219770712681_2_alg».proof.Proof.StatsFrame

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The core's scoped buffers that this region neither stages nor accumulates in, each whole at some contents. -/
def otherScoped (c : Dev nD) : sProp 𝕄 :=
  bigSep ((((Finset.univ.filter fun b : Ref sig .tc => b.isScoped) \ Finset.univ.image (Pipeline.stageRef spec0)).erase cc0_scratch0).erase cc0_scratch1)
    fun b => iprop(∃ f : Buf (Elt F) ((c.tc : Thread nD τ).loc b), ((c.tc : Thread nD τ).loc b) ↦{fullShare} f)

/-- The class's invariant with the accumulators split off as memrefs owned at some contents. -/
theorem PhiA_eq (c : Dev nD) :
    (Pipeline.ΦA spec0 c : sProp 𝕄)
      = iprop(((∃ d, owns (c : Thread nD τ) accMin fullShare d) ∗ (∃ d, owns (c : Thread nD τ) accMax fullShare d) ∗ otherScoped (F := F) c) ∗ (∃ r, prngReg c r)) := by
  unfold Pipeline.ΦA Pipeline.scopedRest otherScoped
  rw [bigSep_erase (i := cc0_scratch0) (by decide), bigSep_erase (i := cc0_scratch1) (by decide)]
  simp only [accMin, accMax, owns_whole]
  try rfl

/-- The invariant before position `n`. -/
def PhiS (c : Dev nD) : (n : ℕ) → n ≤ cfg0.N → sProp 𝕄
  | 0, _ => Pipeline.ΦA spec0 c
  | n + 1, hn => iprop((owns (c : Thread nD τ) accMin fullShare (accAt V c n hn).1 ∗ owns (c : Thread nD τ) accMax fullShare (accAt V c n hn).2 ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) accMin fullShare (accAt V c n hn).1 ∗ owns (c : Thread nD τ) accMax fullShare (accAt V c n hn).2 ∗ otherScoped (F := F) c) ∗ (∃ r, prngReg c r)) := rfl

theorem PhiS_pos (c : Dev nD) (n : ℕ) (h : n ≤ cfg0.N) (hz : n ≠ 0) :
    PhiS V c n h = iprop((owns (c : Thread nD τ) accMin fullShare (accAt V c (n - 1) (by omega)).1 ∗ owns (c : Thread nD τ) accMax fullShare (accAt V c (n - 1) (by omega)).2 ∗ otherScoped (F := F) c) ∗ (∃ r, prngReg c r)) := by
  cases n with
  | zero => exact absurd rfl hz
  | succ n => rfl

/-! ## The proof data -/

/-- The region's proof data on core `c`: the arrays as the region finds them; after the body each input's buffer at
    its block, the outputs' at `outAt`; the invariant `PhiS`; the row matrix, which two windows read, held by halves. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outAt V c t).1
    | ⟨6, _⟩ => (outAt V c t).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem afterO0 (c : Dev nD) (t : Fin cfg0.N) : (dat V c).after 5 t = (outAt V c t).1 := by dsimp only [dat]
theorem afterO1 (c : Dev nD) (t : Fin cfg0.N) : (dat V c).after 6 t = (outAt V c t).2 := by dsimp only [dat]

theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

theorem leaves_in (c : Dev nD) (t : Fin cfg0.N) :
    (dat V c).leavesExact 0 t = owns (c : Thread nD τ) (ms0 t) fullShare (iblk V c 0 t)
    ∧ (dat V c).leavesExact 1 t = owns (c : Thread nD τ) (ms1 t) fullShare (iblk V c 1 t)
    ∧ (dat V c).leavesExact 2 t = owns (c : Thread nD τ) (ms2 t) fullShare (iblk V c 2 t)
    ∧ (dat V c).leavesExact 3 t = owns (c : Thread nD τ) (ms3 t) fullShare (iblk V c 3 t)
    ∧ (dat V c).leavesExact 4 t = owns (c : Thread nD τ) (ms4 t) fullShare (iblk V c 4 t) := by
  refine ⟨?_, ?_, ?_, ?_, ?_⟩
  · unfold Dat.leavesExact; rw [live_in 0 (by decide) t, after0]
  · unfold Dat.leavesExact; rw [live_in 1 (by decide) t, after1]
  · unfold Dat.leavesExact; rw [live_in 2 (by decide) t, after2]
  · unfold Dat.leavesExact; rw [live_in 3 (by decide) t, after3]
  · unfold Dat.leavesExact; rw [live_in 4 (by decide) t, after4]

set_option maxHeartbeats 9600000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat V c).owesAt () t.succ = (dat V c).owesAt () t.castSucc from rfl]
  rw [show (dat V c).Φ t.succ = PhiS V c (t.val + 1) t.isLt from rfl, PhiS_succ]
  obtain ⟨hl0, hl1, hl2, hl3, hl4⟩ := leaves_in V c t
  rw [hl0, hl1, hl2, hl3, hl4]
  by_cases h0 : t.val % 8 = 0
  · have h1 : ¬t.val % 8 = 7 := by omega
    have hnl : ¬condLast (grid0.coords t) := fun h => h1 ((hcondLast t).mp h)
    rw [Dat.leavesExact_idle (dat V c) 5 t (idleO0 t hnl) (noFlushO0 t hnl), Dat.leavesExact_idle (dat V c) 6 t (idleO1 t hnl) (noFlushO1 t hnl)]
    rw [accAt_first V c t h0 h1]
    dsimp only
    by_cases hz : t.val = 0
    · rw [Phi_castSucc V c t, PhiS_zero V c _ _ hz, PhiA_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt V c t h0 h1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [Phi_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((firstAt V c t h0 h1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hz : t.val ≠ 0 := fun h => h0 (by rw [h])
    by_cases h1 : t.val % 8 = 7
    · have hl : condLast (grid0.coords t) := (hcondLast t).mpr h1
      rw [show (dat V c).leavesExact 5 t = owns (c : Thread nD τ) (ms5 t) fullShare ((dat V c).after 5 t) from by
        unfold Dat.leavesExact; rw [liveO0 t hl], afterO0]
      rw [show (dat V c).leavesExact 6 t = owns (c : Thread nD τ) (ms6 t) fullShare ((dat V c).after 6 t) from by
        unfold Dat.leavesExact; rw [liveO1 t hl], afterO1]
      rw [accAt_last V c t h0 h1, outAt_last V c t h0 h1]
      dsimp only
      rw [Phi_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((lastAt V c t h0 h1 _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, ⟨%e5, H5⟩, ⟨%e6, H6⟩, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverLast0 V c t h0 h1 _ _)
          isplitl [HS1]
          · unfold owns; iexists _; isplitr
            swap; · iexact HS1
            ipureintro; exact View.read_writes_of_cover _ _ _ _ _ (coverLast1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverLastO0 V c t h0 h1 _ _)
      unfold owns; iexists _; isplitr
      swap; · iexact H6
      ipureintro; exact View.read_writes_of_cover _ _ _ _ _ (coverLastO1 V c t h0 h1 _ _)
    · have hnl : ¬condLast (grid0.coords t) := fun h => h1 ((hcondLast t).mp h)
      rw [Dat.leavesExact_idle (dat V c) 5 t (idleO0 t hnl) (noFlushO0 t hnl), Dat.leavesExact_idle (dat V c) 6 t (idleO1 t hnl) (noFlushO1 t hnl)]
      rw [accAt_mid V c t h0 h1]
      dsimp only
      rw [Phi_castSucc V c t, PhiS_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((midAt V c t h0 h1 _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (coverMid0 V c t h0 h1 _ _)
          isplitl [HS1]
          · unfold owns; iexists _; isplitr
            swap; · iexact HS1
            ipureintro; exact View.read_writes_of_cover _ _ _ _ _ (coverMid1 V c t h0 h1 _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulators' contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HS0, HS1, HR⟩, Hg⟩
  isplitr [Hg]
  · isplitl [HS0]; · iexists _; iexact HS0
    isplitl [HS1]; · iexists _; iexact HS1
    iexact HR
  iexact Hg

end Cert.KernelIdeal.Stats

end
-- ==== Proof.StatsArrays.lean ====
/-
  The first kernel region's seven windows read six buffers: the row matrix is read by two windows (the row tile and the column tile), each holding half of it.
-/
import proofs.«151531_j1219770712681_2_alg».proof.Proof.StatsBody

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop((((c : Thread nD τ).loc main_v0) ↦{fullShare} G main_v0) ∗ (((c : Thread nD τ).loc main_v3) ↦{fullShare} G main_v3) ∗ (((c : Thread nD τ).loc main_v4) ↦{fullShare} G main_v4) ∗ (((c : Thread nD τ).loc main_v15) ↦{fullShare} G main_v15) ∗ (((c : Thread nD τ).loc main_v16_0) ↦{fullShare} G main_v16_0) ∗ (((c : Thread nD τ).loc main_v16_1) ↦{fullShare} G main_v16_1)) := by
  unfold Pipeline.arrBufs
  rw [show Finset.univ.image (Pipeline.arrRef spec0) = ({main_v0, main_v3, main_v4, main_v15, main_v16_0, main_v16_1} : Finset (Ref sig .tc)) from by decide]
  rw [bigSep_insert (by decide), bigSep_insert (by decide), bigSep_insert (by decide), bigSep_insert (by decide), bigSep_insert (by decide), bigSep_singleton]
  rfl

/-- The windows' arrays at the proof data's shares are the distinct buffers behind them, each whole at the full
    share: the two half shares of the row matrix join. -/
theorem arrays_iff (c : Dev nD) (G : (b : Ref sig .tc) → Buf (Elt F) ((c : Thread nD τ).loc b))
    (A : (w : Fin cfg0.W) → Buf (Elt F) ((cfg0.win w).arr.view.loc (c : Thread nD τ))) (hA : ∀ w, A w = G (Pipeline.arrRef spec0 w)) :
    (dat V c).arrays A ⊣⊢ (Pipeline.arrBufs (Ix := Unit) (Name := ℕ) (U := UR sig nD τ) (Lvl := ℕ) spec0 c G : sProp 𝕄) := by
  have e1 : (dat V c).arrays A = bigSep Finset.univ fun w : Fin 7 => ((((c : Thread nD τ).loc (Pipeline.arrRef spec0 w)) ↦{(dat V c).share w} G (Pipeline.arrRef spec0 w)) : sProp 𝕄) := by
    unfold Dat.arrays
    exact bigSep_congr fun w _ => by rw [(arr_whole0 w).set_eq_univ, hA]
  rw [e1, bigSep_W0, arrBufs_eq]
  rw [show (dat V c).share 0 = fullShare.left from rfl, show (dat V c).share 1 = fullShare.right from rfl,
    show (dat V c).share 2 = fullShare from rfl, show (dat V c).share 3 = fullShare from rfl, show (dat V c).share 4 = fullShare from rfl, show (dat V c).share 5 = fullShare from rfl, show (dat V c).share 6 = fullShare from rfl]
  constructor
  · iintro ⟨H0, H1, H2, H3, H4, H5, H6⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    iexact H6
  · iintro ⟨B0, B1, B2, B3, B4, B5⟩
    ihave B0' := (pointsTo_share (PosShare.mem_left_op_right fullShare)).1 $$ B0
    icases B0' with ⟨H0, H1⟩
    isplitl [H0]; · iexact H0
    isplitl [H1]; · iexact H1
    isplitl [B1]; · iexact B1
    isplitl [B2]; · iexact B2
    isplitl [B3]; · iexact B3
    isplitl [B4]; · iexact B4
    iexact B5

end Cert.KernelIdeal.Stats

end
-- ==== Proof.LossBase.lean ====
/-
  The second kernel region (the row losses: per row of a 512-row tile the sums of the kept positive and negative
  exponentials and whether any column was kept, folded over the eight 1024-column tiles of the row): what its
  body's runs share. The grid is 16 x 8, the column coordinate innermost; the four scratch accumulators are reset
  at column tile 0 and the two outputs computed from them at column tile 7.
-/
import proofs.«151531_j1219770712681_2_alg».proof.Proof.Gen.KernelIdeal.Launch
import proofs.«151531_j1219770712681_2_alg».proof.Proof.Gen.KernelIdeal.Skeleton
import proofs.«151531_j1219770712681_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The column tile is the first one: the accumulators are reset. -/
abbrev condFirst (i : grid1.Coords) : Prop := (Scalar.cmpi .ne (Scalar.extui (Scalar.cmpi .eq (BitVec.ofNat 32 (i 1).val) 0#32)) 0#32) = 1#1
/-- It is so at the points ≡ 0 (mod 8). -/
theorem hcondFirst : ∀ t : Fin cfg1.N, condFirst (grid1.coords t) ↔ t.val % 8 = 0 :=
  (by decide +kernel : ∀ t : Fin grid1.N, condFirst (grid1.coords t) ↔ t.val % 8 = 0)

/-- The column tile is the last one: the outputs are computed. -/
abbrev condLast (i : grid1.Coords) : Prop := k1_cond2 i = 1#1
/-- It is so at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-- The four accumulators, whole scoped buffers of the kernel's own: the sum of the kept positive exponentials,
    of the kept negative ones, and the two flags "a negative was kept", "a positive was kept". -/
abbrev accPos : Memref sig .tc .vmem S512x1 .f32 := Memref.whole cc1_scratch0
abbrev accNeg : Memref sig .tc .vmem S512x1 .f32 := Memref.whole cc1_scratch1
abbrev accHasNeg : Memref sig .tc .vmem S512x1 .f32 := Memref.whole cc1_scratch2
abbrev accHasPos : Memref sig .tc .vmem S512x1 .f32 := Memref.whole cc1_scratch3

end Cert.KernelIdeal.Loss

end
-- ==== Proof.LossFirst.lean ====
/-
  The second kernel region's body at the first column tile of a row tile: the four accumulators are reset to zero, then the two sums are
  increased by this tile's kept exponentials and the two flags raised where this tile keeps a column; the two outputs
  are not touched.
-/
import proofs.«151531_j1219770712681_2_alg».proof.Proof.LossBase

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces each buffer the body stores into ends with (last store first), found by running the body, with the
    run itself, on whole staging memrefs. -/
noncomputable def runFirst (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : condFirst i) (hc1 : ¬condLast i)
    (x0 : Vec F S512x192 .f32) (x1 : Vec F S1024x192 .f32) (x2 : Vec F S512x1 .i32) (x3 : Vec F S1x1024 .i32) (x4 x5 x6 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7; obtain rfl := harg10.eq_unread hf8

    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    isplitl [HS1]
    · iexists _; iexact HS1
    isplitl [HS2]
    · iexists _; iexact HS2
    iexists _; iexact HS3

end Cert.KernelIdeal.Loss

end
-- ==== Proof.LossMid.lean ====
/-
  The second kernel region's body at a column tile that is neither the first nor the last: the four accumulators are read at what the tile before
  left and stored back updated with this tile; the two outputs are not touched.
-/
import proofs.«151531_j1219770712681_2_alg».proof.Proof.LossBase

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces each buffer the body stores into ends with (last store first), found by running the body, with the
    run itself, on whole staging memrefs. -/
noncomputable def runMid (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : ¬condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi7 xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xi7 ∗ owns (c : Thread nD τ) arg10 fullShare xi8
            ∗ owns (c : Thread nD τ) arg11 fullShare a0 ∗ owns (c : Thread nD τ) arg12 fullShare a1 ∗ owns (c : Thread nD τ) arg13 fullShare a2 ∗ owns (c : Thread nD τ) arg14 fullShare a3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ owns (c : Thread nD τ) arg9 fullShare xi7 ∗ owns (c : Thread nD τ) arg10 fullShare xi8
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun xi7 xi8 E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7; obtain rfl := harg10.eq_unread hf8
    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · iexists _; iexact HS0
    isplitl [HS1]
    · iexists _; iexact HS1
    isplitl [HS2]
    · iexists _; iexact HS2
    iexists _; iexact HS3

end Cert.KernelIdeal.Loss

end
-- ==== Proof.LossLast.lean ====
/-
  The second kernel region's body at the last column tile of a row tile: the four accumulators are read at what the tile before left, updated with
  this tile, and the two outputs are computed from them (the row loss where both flags are up, else zero; the
  "a negative was kept" flag).
-/
import proofs.«151531_j1219770712681_2_alg».proof.Proof.LossBase

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The pieces each buffer the body stores into ends with (last store first), found by running the body, with the
    run itself, on whole staging memrefs. -/
noncomputable def runLast (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    Σ' (L7 : List (View.Piece (Elt F) S512x1 .f32)) (L8 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d)
            ∗ owns (c : Thread nD τ) arg11 fullShare a0 ∗ owns (c : Thread nD τ) arg12 fullShare a1 ∗ owns (c : Thread nD τ) arg13 fullShare a2 ∗ owns (c : Thread nD τ) arg14 fullShare a3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6

    obtain rfl := harg11.eq_unread hfs0; obtain rfl := harg12.eq_unread hfs1; obtain rfl := harg13.eq_unread hfs2; obtain rfl := harg14.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [H8]
    · iexists _; iexact H8
    isplitl [HS0]
    · iexists _; iexact HS0
    isplitl [HS1]
    · iexists _; iexact HS1
    isplitl [HS2]
    · iexists _; iexact HS2
    iexists _; iexact HS3

end Cert.KernelIdeal.Loss

end
-- ==== Proof.LossFrame.lean ====
/-
  The second kernel region's runs at a point and what its buffers hold after each point, at any contents `V` of the
  core's buffers when the region is entered. After the body at a point the four accumulators hold: at the first
  column tile of a row tile zero updated with that tile; at a later column tile what the tile before left updated
  with this tile. The two outputs are stored (from the accumulators' final values) at the last column tile only, and
  written back there; at the other points their staging buffers are handed back as found.
-/
import proofs.«151531_j1219770712681_2_alg».proof.Proof.LossFirst
import proofs.«151531_j1219770712681_2_alg».proof.Proof.LossMid
import proofs.«151531_j1219770712681_2_alg».proof.Proof.LossLast

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and staging memrefs -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev ms0 (t : Fin cfg1.N) : Memref sig .tc .vmem S512x192 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x192 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x1 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x1 .f32 := win1_8.stage (cfg1.slots t 8)
abbrev hs8 (t : Fin cfg1.N) : (ms8 t).IsWhole := hstage1_8 ((cfg1.slots t 8).cast nbuf1_8)

/-- The accumulators and one staging buffer of each output, as views: contents are stated through them. -/
abbrev VS0 : View sig .tc .vmem S512x1 .f32 := accPos.view
abbrev VS1 : View sig .tc .vmem S512x1 .f32 := accNeg.view
abbrev VS2 : View sig .tc .vmem S512x1 .f32 := accHasNeg.view
abbrev VS3 : View sig .tc .vmem S512x1 .f32 := accHasPos.view
abbrev VO0 : View sig .tc .vmem S512x1 .f32 := (Memref.whole cc1_stg7_0 : Memref sig .tc .vmem S512x1 .f32).view
abbrev VO1 : View sig .tc .vmem S512x1 .f32 := (Memref.whole cc1_stg8_0 : Memref sig .tc .vmem S512x1 .f32).view

/-! ## Where the outputs are idle -/

theorem live_in : ∀ (w : Fin cfg1.W), w.val < 7 → ∀ t : Fin cfg1.N, cfg1.idle w (grid1.coords t) = false := by decide +kernel
theorem idleO0 : ∀ t : Fin cfg1.N, ¬condLast (grid1.coords t) → cfg1.idle 7 (grid1.coords t) = true := by decide +kernel
theorem idleO1 : ∀ t : Fin cfg1.N, ¬condLast (grid1.coords t) → cfg1.idle 8 (grid1.coords t) = true := by decide +kernel
theorem noFlushO0 : ∀ t : Fin cfg1.N, ¬condLast (grid1.coords t) → (cfg1.win 7).flush t = false := by decide +kernel
theorem noFlushO1 : ∀ t : Fin cfg1.N, ¬condLast (grid1.coords t) → (cfg1.win 8).flush t = false := by decide +kernel
theorem liveO0 : ∀ t : Fin cfg1.N, condLast (grid1.coords t) → cfg1.idle 7 (grid1.coords t) = false := by decide +kernel
theorem liveO1 : ∀ t : Fin cfg1.N, condLast (grid1.coords t) → cfg1.idle 8 (grid1.coords t) = false := by decide +kernel

/-! ## The body's runs at a point -/

/-- The run at a first column tile, at the point's memrefs and input blocks. -/
abbrev firstAt (c : Dev nD) (t : Fin cfg1.N) (h0 : t.val % 8 = 0) (h1 : ¬t.val % 8 = 7) :=
  runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accPos (Memref.isWhole_whole _) accNeg (Memref.isWhole_whole _) accHasNeg (Memref.isWhole_whole _) accHasPos (Memref.isWhole_whole _) ((hcondFirst t).mpr h0) (fun h => h1 ((hcondLast t).mp h)) (iblk V c 0 t) (iblk V c 1 t) (iblk V c 2 t) (iblk V c 3 t) (iblk V c 4 t) (iblk V c 5 t) (iblk V c 6 t)
/-- The run at a middle column tile, over the accumulators' contents. -/
abbrev midAt (c : Dev nD) (t : Fin cfg1.N) (h0 : ¬t.val % 8 = 0) (h1 : ¬t.val % 8 = 7) (a0 a1 a2 a3 : Vec F S512x1 .f32) :=
  runMid (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accPos (Memref.isWhole_whole _) accNeg (Memref.isWhole_whole _) accHasNeg (Memref.isWhole_whole _) accHasPos (Memref.isWhole_whole _) (fun h => h0 ((hcondFirst t).mp h)) (fun h => h1 ((hcondLast t).mp h)) (iblk V c 0 t) (iblk V c 1 t) (iblk V c 2 t) (iblk V c 3 t) (iblk V c 4 t) (iblk V c 5 t) (iblk V c 6 t) a0 a1 a2 a3
/-- The run at a last column tile, over the accumulators' contents. -/
abbrev lastAt (c : Dev nD) (t : Fin cfg1.N) (h0 : ¬t.val % 8 = 0) (h1 : t.val % 8 = 7) (a0 a1 a2 a3 : Vec F S512x1 .f32) :=
  runLast (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accPos (Memref.isWhole_whole _) accNeg (Memref.isWhole_whole _) accHasNeg (Memref.isWhole_whole _) accHasPos (Memref.isWhole_whole _) (fun h => h0 ((hcondFirst t).mp h)) ((hcondLast t).mpr h1) (iblk V c 0 t) (iblk V c 1 t) (iblk V c 2 t) (iblk V c 3 t) (iblk V c 4 t) (iblk V c 5 t) (iblk V c 6 t) a0 a1 a2 a3

/-- Each run's pieces for a buffer tile it (one whole-buffer store last), so they cover it. -/
theorem coverFirst0 (c : Dev nD) (t : Fin cfg1.N) (h0 : t.val % 8 = 0) (h1 : ¬t.val % 8 = 7) (y : S512x1.Idx) :
    ∃ pc ∈ (firstAt V c t h0 h1).1, y ∈ pc.1.set := View.cover_of_tiledL _ S512x1.size (by sl_kernel_rfl) y
theorem coverMid0 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).1, y ∈ pc.1.set := View.cover_of_tiledL _ S512x1.size (by sl_kernel_rfl) y
theorem coverLast0 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.1, y ∈ pc.1.set := View.cover_of_tiledL _ S512x1.size (by sl_kernel_rfl) y
theorem coverFirst1 (c : Dev nD) (t : Fin cfg1.N) (h0 : t.val % 8 = 0) (h1 : ¬t.val % 8 = 7) (y : S512x1.Idx) :
    ∃ pc ∈ (firstAt V c t h0 h1).2.1, y ∈ pc.1.set := View.cover_of_tiledL _ S512x1.size (by sl_kernel_rfl) y
theorem coverMid1 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).2.1, y ∈ pc.1.set := View.cover_of_tiledL _ S512x1.size (by sl_kernel_rfl) y
theorem coverLast1 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.2.1, y ∈ pc.1.set := View.cover_of_tiledL _ S512x1.size (by sl_kernel_rfl) y
theorem coverFirst2 (c : Dev nD) (t : Fin cfg1.N) (h0 : t.val % 8 = 0) (h1 : ¬t.val % 8 = 7) (y : S512x1.Idx) :
    ∃ pc ∈ (firstAt V c t h0 h1).2.2.1, y ∈ pc.1.set := View.cover_of_tiledL _ S512x1.size (by sl_kernel_rfl) y
theorem coverMid2 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).2.2.1, y ∈ pc.1.set := View.cover_of_tiledL _ S512x1.size (by sl_kernel_rfl) y
theorem coverLast2 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.2.2.1, y ∈ pc.1.set := View.cover_of_tiledL _ S512x1.size (by sl_kernel_rfl) y
theorem coverFirst3 (c : Dev nD) (t : Fin cfg1.N) (h0 : t.val % 8 = 0) (h1 : ¬t.val % 8 = 7) (y : S512x1.Idx) :
    ∃ pc ∈ (firstAt V c t h0 h1).2.2.2.1, y ∈ pc.1.set := View.cover_of_tiledL _ S512x1.size (by sl_kernel_rfl) y
theorem coverMid3 (c : Dev nD) (t : Fin cfg1.N) (h0 : ¬t.val % 8 = 0) (h1 : ¬t.val % 8 = 7) (a0 a1 a2 a3 : Vec F S512x1 .f32) (y : S512x1.Idx) :
    ∃ pc ∈ (midAt V c t h0 h1 a0 a1 a2 a3).2.2.2.1, y ∈ pc.1.set := View.cover_of_tiledL _ S512x1.size (by sl_kernel_rfl) y
theorem coverLast3 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.2.2.2.2.1, y ∈ pc.1.set := View.cover_of_tiledL _ S512x1.size (by sl_kernel_rfl) y
theorem coverLastO0 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).1, y ∈ pc.1.set := View.cover_of_tiledL _ S512x1.size (by sl_kernel_rfl) y
theorem coverLastO1 (c : Dev nD) (t : Fin cfg1.N) (h0 : ¬t.val % 8 = 0) (h1 : t.val % 8 = 7) (a0 a1 a2 a3 : Vec F S512x1 .f32) (y : S512x1.Idx) :
    ∃ pc ∈ (lastAt V c t h0 h1 a0 a1 a2 a3).2.1, y ∈ pc.1.set := View.cover_of_tiledL _ S512x1.size (by sl_kernel_rfl) y

/-! ## What the accumulators and the outputs hold after each point -/

set_option maxHeartbeats 4000000 in
/-- The accumulators after the body at position `n`: the case the position's column tile selects, a later
    tile's over what the position before left. -/
def accAt (c : Dev nD) : (n : ℕ) → n < cfg1.N → Vec F S512x1 .f32 × Vec F S512x1 .f32 × Vec F S512x1 .f32 × Vec F S512x1 .f32
  | 0, hn => (VS0.read (Elt F) (VS0.writes (Elt F) VS0.junk (firstAt V c ⟨0, hn⟩ (Nat.zero_mod _) (by show ¬ 0 % 8 = 7; decide)).1),
        VS1.read (Elt F) (VS1.writes (Elt F) VS1.junk (firstAt V c ⟨0, hn⟩ (Nat.zero_mod _) (by show ¬ 0 % 8 = 7; decide)).2.1),
        VS2.read (Elt F) (VS2.writes (Elt F) VS2.junk (firstAt V c ⟨0, hn⟩ (Nat.zero_mod _) (by show ¬ 0 % 8 = 7; decide)).2.2.1),
        VS3.read (Elt F) (VS3.writes (Elt F) VS3.junk (firstAt V c ⟨0, hn⟩ (Nat.zero_mod _) (by show ¬ 0 % 8 = 7; decide)).2.2.2.1))
  | n + 1, hn =>
    if h0 : (n + 1) % 8 = 0 then
      if h1 : (n + 1) % 8 = 7 then False.elim (by omega)
      else (VS0.read (Elt F) (VS0.writes (Elt F) VS0.junk (firstAt V c ⟨n + 1, hn⟩ h0 h1).1),
        VS1.read (Elt F) (VS1.writes (Elt F) VS1.junk (firstAt V c ⟨n + 1, hn⟩ h0 h1).2.1),
        VS2.read (Elt F) (VS2.writes (Elt F) VS2.junk (firstAt V c ⟨n + 1, hn⟩ h0 h1).2.2.1),
        VS3.read (Elt F) (VS3.writes (Elt F) VS3.junk (firstAt V c ⟨n + 1, hn⟩ h0 h1).2.2.2.1))
    else
      if h1 : (n + 1) % 8 = 7 then
        (VS0.read (Elt F) (VS0.writes (Elt F) VS0.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.1),
        VS1.read (Elt F) (VS1.writes (Elt F) VS1.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.1),
        VS2.read (Elt F) (VS2.writes (Elt F) VS2.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.2.1),
        VS3.read (Elt F) (VS3.writes (Elt F) VS3.junk (lastAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.2.2.1))
      else
        (VS0.read (Elt F) (VS0.writes (Elt F) VS0.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).1),
        VS1.read (Elt F) (VS1.writes (Elt F) VS1.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.1),
        VS2.read (Elt F) (VS2.writes (Elt F) VS2.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.1),
        VS3.read (Elt F) (VS3.writes (Elt F) VS3.junk (midAt V c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2).2.2.2.1))

/-- The accumulators' contents the body finds at a point that is not a first column tile. -/
abbrev accBefore (c : Dev nD) (t : Fin cfg1.N) : Vec F S512x1 .f32 × Vec F S512x1 .f32 × Vec F S512x1 .f32 × Vec F S512x1 .f32 :=
  accAt V c (t.val - 1) (Nat.lt_of_le_of_lt (Nat.sub_le _ _) t.isLt)

set_option maxHeartbeats 4000000 in
theorem accAt_first (c : Dev nD) (t : Fin cfg1.N) (h0 : t.val % 8 = 0) (h1 : ¬t.val % 8 = 7) :
    accAt V c t.val t.isLt = (VS0.read (Elt F) (VS0.writes (Elt F) VS0.junk (firstAt V c t h0 h1).1),
        VS1.read (Elt F) (VS1.writes (Elt F) VS1.junk (firstAt V c t h0 h1).2.1),
        VS2.read (Elt F) (VS2.writes (Elt F) VS2.junk (firstAt V c t h0 h1).2.2.1),
        VS3.read (Elt F) (VS3.writes (Elt F) VS3.junk (firstAt V c t h0 h1).2.2.2.1)) := by
  obtain ⟨n, hn⟩ := t
  cases n with
  | zero => exact rfl
  | succ n => exact (dif_pos h0).trans ((dif_neg h1).trans rfl)

set_option maxHeartbeats 4000000 in
theorem accAt_mid (c : Dev nD) (t : Fin cfg1.N) (h0 : ¬t.val % 8 = 0) (h1 : ¬t.val % 8 = 7) :
    accAt V c t.val t.isLt = (VS0.read (Elt F) (VS0.writes (Elt F) VS0.junk (midAt V c t h0 h1 (accBefore V c t).1 (accBefore V c t).2.1 (accBefore V c t).2.2.1 (accBefore V c t).2.2.2).1),
        VS1.read (Elt F) (VS1.writes (Elt F) VS1.junk (midAt V c t h0 h1 (accBefore V c t).1 (accBefore V c t).2.1 (accBefore V c t).2.2.1 (accBefore V c t).2.2.2).2.1),
        VS2.read (Elt F) (VS2.writes (Elt F) VS2.junk (midAt V c t h0 h1 (accBefore V c t).1 (accBefore V c t).2.1 (accBefore V c t).2.2.1 (accBefore V c t).2.2.2).2.2.1),
        VS3.read (Elt F) (VS3.writes (Elt F) VS3.junk (midAt V c t h0 h1 (accBefore V c t).1 (accBefore V c t).2.1 (accBefore V c t).2.2.1 (accBefore V c t).2.2.2).2.2.2.1)) := by
  obtain ⟨n, hn⟩ := t
  cases n with
  | zero => exact absurd (Nat.zero_mod _) h0
  | succ n => exact (dif_neg h0).trans ((dif_neg h1).trans rfl)

set_option maxHeartbeats 4000000 in
theorem accAt_last (c : Dev nD) (t : Fin cfg1.N) (h0 : ¬t.val % 8 = 0) (h1 : t.val % 8 = 7) :
    accAt V c t.val t.isLt = (VS0.read (Elt F) (VS0.writes (Elt F) VS0.junk (lastAt V c t h0 h1 (accBefore V c t).1 (accBefore V c t).2.1 (accBefore V c t).2.2.1 (accBefore V c t).2.2.2).2.2.1),
        VS1.read (Elt F) (VS1.writes (Elt F) VS1.junk (lastAt V c t h0 h1 (accBefore V c t).1 (accBefore V c t).2.1 (accBefore V c t).2.2.1 (accBefore V c t).2.2.2).2.2.2.1),
        VS2.read (Elt F) (VS2.writes (Elt F) VS2.junk (lastAt V c t h0 h1 (accBefore V c t).1 (accBefore V c t).2.1 (accBefore V c t).2.2.1 (accBefore V c t).2.2.2).2.2.2.2.1),
        VS3.read (Elt F) (VS3.writes (Elt F) VS3.junk (lastAt V c t h0 h1 (accBefore V c t).1 (accBefore V c t).2.1 (accBefore V c t).2.2.1 (accBefore V c t).2.2.2).2.2.2.2.2.1)) := by
  obtain ⟨n, hn⟩ := t
  cases n with
  | zero => exact absurd (Nat.zero_mod _) h0
  | succ n => exact (dif_neg h0).trans ((dif_pos h1).trans rfl)

set_option maxHeartbeats 4000000 in
/-- The two outputs' staging buffers after the body at point `t`: at a last column tile the run's pieces read
    back; elsewhere a placeholder nothing consults (the window is idle there and not written back). -/
def outAt (c : Dev nD) (t : Fin cfg1.N) : Vec F S512x1 .f32 × Vec F S512x1 .f32 :=
  if h0 : t.val % 8 = 0 then (VO0.junk, VO1.junk)
  else if h1 : t.val % 8 = 7 then
    (VO0.read (Elt F) (VO0.writes (Elt F) VO0.junk (lastAt V c t h0 h1 (accBefore V c t).1 (accBefore V c t).2.1 (accBefore V c t).2.2.1 (accBefore V c t).2.2.2).1),
      VO1.read (Elt F) (VO1.writes (Elt F) VO1.junk (lastAt V c t h0 h1 (accBefore V c t).1 (accBefore V c t).2.1 (accBefore V c t).2.2.1 (accBefore V c t).2.2.2).2.1))
  else (VO0.junk, VO1.junk)

set_option maxHeartbeats 4000000 in
theorem outAt_last (c : Dev nD) (t : Fin cfg1.N) (h0 : ¬t.val % 8 = 0) (h1 : t.val % 8 = 7) :
    outAt V c t = (VO0.read (Elt F) (VO0.writes (Elt F) VO0.junk (lastAt V c t h0 h1 (accBefore V c t).1 (accBefore V c t).2.1 (accBefore V c t).2.2.1 (accBefore V c t).2.2.2).1),
      VO1.read (Elt F) (VO1.writes (Elt F) VO1.junk (lastAt V c t h0 h1 (accBefore V c t).1 (accBefore V c t).2.1 (accBefore V c t).2.2.1 (accBefore V c t).2.2.2).2.1)) :=
  (dif_neg h0).trans (dif_pos h1)

end Cert.KernelIdeal.Loss

end
-- ==== Proof.LossBody.lean ====
/-
  The second kernel region's proof data and the body obligation at every point: the invariant between points holds
  the four accumulators at what the point before left (anything before the first point), the other scoped buffers at
  anything, and the generator register.
-/
import proofs.«151531_j1219770712681_2_alg».proof.Proof.LossFrame

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

/-- The core's scoped buffers that this region neither stages nor accumulates in, each whole at some contents. -/
def otherScoped (c : Dev nD) : sProp 𝕄 :=
  bigSep ((((((Finset.univ.filter fun b : Ref sig .tc => b.isScoped) \ Finset.univ.image (Pipeline.stageRef spec1)).erase cc1_scratch0).erase cc1_scratch1).erase cc1_scratch2).erase cc1_scratch3)
    fun b => iprop(∃ f : Buf (Elt F) ((c.tc : Thread nD τ).loc b), ((c.tc : Thread nD τ).loc b) ↦{fullShare} f)

/-- The class's invariant with the accumulators split off as memrefs owned at some contents. -/
theorem PhiA_eq (c : Dev nD) :
    (Pipeline.ΦA spec1 c : sProp 𝕄)
      = iprop(((∃ d, owns (c : Thread nD τ) accPos fullShare d) ∗ (∃ d, owns (c : Thread nD τ) accNeg fullShare d) ∗ (∃ d, owns (c : Thread nD τ) accHasNeg fullShare d) ∗ (∃ d, owns (c : Thread nD τ) accHasPos fullShare d) ∗ otherScoped (F := F) c) ∗ (∃ r, prngReg c r)) := by
  unfold Pipeline.ΦA Pipeline.scopedRest otherScoped
  rw [bigSep_erase (i := cc1_scratch0) (by decide), bigSep_erase (i := cc1_scratch1) (by decide), bigSep_erase (i := cc1_scratch2) (by decide), bigSep_erase (i := cc1_scratch3) (by decide)]
  simp only [accPos, accNeg, accHasNeg, accHasPos, owns_whole]
  try rfl

/-- The invariant before position `n`. -/
def PhiS (c : Dev nD) : (n : ℕ) → n ≤ cfg1.N → sProp 𝕄
  | 0, _ => Pipeline.ΦA spec1 c
  | n + 1, hn => iprop((owns (c : Thread nD τ) accPos fullShare (accAt V c n hn).1 ∗ owns (c : Thread nD τ) accNeg fullShare (accAt V c n hn).2.1 ∗ owns (c : Thread nD τ) accHasNeg fullShare (accAt V c n hn).2.2.1 ∗ owns (c : Thread nD τ) accHasPos fullShare (accAt V c n hn).2.2.2 ∗ otherScoped (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) accPos fullShare (accAt V c n hn).1 ∗ owns (c : Thread nD τ) accNeg fullShare (accAt V c n hn).2.1 ∗ owns (c : Thread nD τ) accHasNeg fullShare (accAt V c n hn).2.2.1 ∗ owns (c : Thread nD τ) accHasPos fullShare (accAt V c n hn).2.2.2 ∗ otherScoped (F := F) c) ∗ (∃ r, prngReg c r)) := rfl

theorem PhiS_pos (c : Dev nD) (n : ℕ) (h : n ≤ cfg1.N) (hz : n ≠ 0) :
    PhiS V c n h = iprop((owns (c : Thread nD τ) accPos fullShare (accAt V c (n - 1) (by omega)).1 ∗ owns (c : Thread nD τ) accNeg fullShare (accAt V c (n - 1) (by omega)).2.1 ∗ owns (c : Thread nD τ) accHasNeg fullShare (accAt V c (n - 1) (by omega)).2.2.1 ∗ owns (c : Thread nD τ) accHasPos fullShare (accAt V c (n - 1) (by omega)).2.2.2 ∗ otherScoped (F := F) c) ∗ (∃ r, prngReg c r)) := by
  cases n with
  | zero => exact absurd rfl hz
  | succ n => rfl

/-! ## The proof data -/

/-- The region's proof data on core `c`: the arrays as the region finds them; after the body each input's buffer at
    its block, the outputs' at `outAt`; the invariant `PhiS`; the row matrix, which two windows read, held by halves. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outAt V c t).1
    | ⟨8, _⟩ => (outAt V c t).2
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem afterO0 (c : Dev nD) (t : Fin cfg1.N) : (dat V c).after 7 t = (outAt V c t).1 := by dsimp only [dat]
theorem afterO1 (c : Dev nD) (t : Fin cfg1.N) : (dat V c).after 8 t = (outAt V c t).2 := by dsimp only [dat]

theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d
theorem before4 (c : Dev nD) (t : Fin cfg1.N) (d) : (dat V c).before 4 t d = iblk V c 4 t :=
  before_in4 V (dat V c) (A_eq V c 4) (after4 V c) t d
theorem before5 (c : Dev nD) (t : Fin cfg1.N) (d) : (dat V c).before 5 t d = iblk V c 5 t :=
  before_in5 V (dat V c) (A_eq V c 5) (after5 V c) t d
theorem before6 (c : Dev nD) (t : Fin cfg1.N) (d) : (dat V c).before 6 t d = iblk V c 6 t :=
  before_in6 V (dat V c) (A_eq V c 6) (after6 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

theorem leaves_in (c : Dev nD) (t : Fin cfg1.N) :
    (dat V c).leavesExact 0 t = owns (c : Thread nD τ) (ms0 t) fullShare (iblk V c 0 t)
    ∧ (dat V c).leavesExact 1 t = owns (c : Thread nD τ) (ms1 t) fullShare (iblk V c 1 t)
    ∧ (dat V c).leavesExact 2 t = owns (c : Thread nD τ) (ms2 t) fullShare (iblk V c 2 t)
    ∧ (dat V c).leavesExact 3 t = owns (c : Thread nD τ) (ms3 t) fullShare (iblk V c 3 t)
    ∧ (dat V c).leavesExact 4 t = owns (c : Thread nD τ) (ms4 t) fullShare (iblk V c 4 t)
    ∧ (dat V c).leavesExact 5 t = owns (c : Thread nD τ) (ms5 t) fullShare (iblk V c 5 t)
    ∧ (dat V c).leavesExact 6 t = owns (c : Thread nD τ) (ms6 t) fullShare (iblk V c 6 t) := by
  refine ⟨?_, ?_, ?_, ?_, ?_, ?_, ?_⟩
  · unfold Dat.leavesExact; rw [live_in 0 (by decide) t, after0]
  · unfold Dat.leavesExact; rw [live_in 1 (by decide) t, after1]
  · unfold Dat.leavesExact; rw [live_in 2 (by decide) t, after2]
  · unfold Dat.leavesExact; rw [live_in 3 (by decide) t, after3]
  · unfold Dat.leavesExact; rw [live_in 4 (by decide) t, after4]
  · unfold Dat.leavesExact; rw [live_in 5 (by decide) t, after5]
  · unfold Dat.leavesExact; rw [live_in 6 (by decide) t, after6]

set_option maxHeartbeats 9600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = PhiS V c (t.val + 1) t.isLt from rfl, PhiS_succ]
  obtain ⟨hl0, hl1, hl2, hl3, hl4, hl5, hl6⟩ := leaves_in V c t
  rw [hl0, hl1, hl2, hl3, hl4, hl5, hl6]
  by_cases h0 : t.val % 8 = 0
  · have h1 : ¬t.val % 8 = 7 := by omega
    have hnl : ¬condLast (grid1.coords t) := fun h => h1 ((hcondLast t).mp h)
    rw [Dat.leavesExact_idle (dat V c) 7 t (idleO0 t hnl) (noFlushO0 t hnl), Dat.leavesExact_idle (dat V c) 8 t (idleO1 t hnl) (noFlushO1 t hnl)]
    rw [accAt_first V c t h0 h1]
    dsimp only
    by_cases hz : t.val = 0
    · rw [Phi_castSucc V c t, PhiS_zero V c _ _ hz, PhiA_eq]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      iintro ⟨H0, H1, H2, H3, H4, H5, H6, H7, H8, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          isplitl [HS2]
          · unfold owns; iexists _; isplitr
            swap; · iexact HS2
            ipureintro; exact View.read_writes_of_cover _ _ _ _ _ (coverFirst2 V c t h0 h1)
          isplitl [HS3]
          · unfold owns; iexists _; isplitr
            swap; · iexact HS3
            ipureintro; exact View.read_writes_of_cover _ _ _ _ _ (coverFirst3 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [Phi_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt V c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverFirst0 V c t h0 h1)
          isplitl [HS1]
          · unfold owns; iexists _; isplitr
            swap; · iexact HS1
            ipureintro; exact View.read_writes_of_cover _ _ _ _ _ (coverFirst1 V c t h0 h1)
          isplitl [HS2]
          · unfold owns; iexists _; isplitr
            swap; · iexact HS2
            ipureintro; exact View.read_writes_of_cover _ _ _ _ _ (coverFirst2 V c t h0 h1)
          isplitl [HS3]
          · unfold owns; iexists _; isplitr
            swap; · iexact HS3
            ipureintro; exact View.read_writes_of_cover _ _ _ _ _ (coverFirst3 V c t h0 h1)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h1 : t.val % 8 = 7
    · have hl : condLast (grid1.coords t) := (hcondLast t).mpr h1
      rw [show (dat V c).leavesExact 7 t = owns (c : Thread nD τ) (ms7 t) fullShare ((dat V c).after 7 t) from by
        unfold Dat.leavesExact; rw [liveO0 t hl], afterO0]
      rw [show (dat V c).leavesExact 8 t = owns (c : Thread nD τ) (ms8 t) fullShare ((dat V c).after 8 t) from by
        unfold Dat.leavesExact; rw [liveO1 t hl], afterO1]
      rw [accAt_last V c t h0 h1, outAt_last V c t h0 h1]
      dsimp only
      rw [Phi_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt V c t h0 h1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%e8, H8⟩, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverLast0 V c t h0 h1 _ _ _ _)
          isplitl [HS1]
          · unfold owns; iexists _; isplitr
            swap; · iexact HS1
            ipureintro; exact View.read_writes_of_cover _ _ _ _ _ (coverLast1 V c t h0 h1 _ _ _ _)
          isplitl [HS2]
          · unfold owns; iexists _; isplitr
            swap; · iexact HS2
            ipureintro; exact View.read_writes_of_cover _ _ _ _ _ (coverLast2 V c t h0 h1 _ _ _ _)
          isplitl [HS3]
          · unfold owns; iexists _; isplitr
            swap; · iexact HS3
            ipureintro; exact View.read_writes_of_cover _ _ _ _ _ (coverLast3 V c t h0 h1 _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverLastO0 V c t h0 h1 _ _ _ _)
      unfold owns; iexists _; isplitr
      swap; · iexact H8
      ipureintro; exact View.read_writes_of_cover _ _ _ _ _ (coverLastO1 V c t h0 h1 _ _ _ _)
    · have hnl : ¬condLast (grid1.coords t) := fun h => h1 ((hcondLast t).mp h)
      rw [Dat.leavesExact_idle (dat V c) 7 t (idleO0 t hnl) (noFlushO0 t hnl), Dat.leavesExact_idle (dat V c) 8 t (idleO1 t hnl) (noFlushO1 t hnl)]
      rw [accAt_mid V c t h0 h1]
      dsimp only
      rw [Phi_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt V c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      isplitl [HS3]; · iexact HS3
      iintro ⟨H0, H1, H2, H3, H4, H5, H6, H7, H8, ⟨%es0, HS0⟩, ⟨%es1, HS1⟩, ⟨%es2, HS2⟩, ⟨%es3, HS3⟩⟩
      isplitl [HS0 HS1 HS2 HS3 HR Hg]
      · isplitr [Hg]
        · isplitl [HS0]
          · unfold owns; iexists _; isplitr
            swap; · iexact HS0
            ipureintro; exact View.read_writes_of_cover _ _ _ _ _ (coverMid0 V c t h0 h1 _ _ _ _)
          isplitl [HS1]
          · unfold owns; iexists _; isplitr
            swap; · iexact HS1
            ipureintro; exact View.read_writes_of_cover _ _ _ _ _ (coverMid1 V c t h0 h1 _ _ _ _)
          isplitl [HS2]
          · unfold owns; iexists _; isplitr
            swap; · iexact HS2
            ipureintro; exact View.read_writes_of_cover _ _ _ _ _ (coverMid2 V c t h0 h1 _ _ _ _)
          isplitl [HS3]
          · unfold owns; iexists _; isplitr
            swap; · iexact HS3
            ipureintro; exact View.read_writes_of_cover _ _ _ _ _ (coverMid3 V c t h0 h1 _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

set_option maxHeartbeats 4000000 in
/-- The library's body obligation, at every point. -/
theorem body_obligation (c : Dev nD) : BodyObligation (dat (F := F) V c) (defs₀ (F := F)) Variants.none () Set.univ := fun t => by
  rw [bigSep_W1, bigSep_W1]
  exact sound_body V c t

set_option maxHeartbeats 4000000 in
/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

set_option maxHeartbeats 4000000 in
/-- After the last point the invariant gives the class's back: the accumulators' contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA_eq]
  iintro ⟨⟨HS0, HS1, HS2, HS3, HR⟩, Hg⟩
  isplitr [Hg]
  · isplitl [HS0]; · iexists _; iexact HS0
    isplitl [HS1]; · iexists _; iexact HS1
    isplitl [HS2]; · iexists _; iexact HS2
    isplitl [HS3]; · iexists _; iexact HS3
    iexact HR
  iexact Hg

end Cert.KernelIdeal.Loss

end
-- ==== Proof.LossArrays.lean ====
/-
  The second kernel region's nine windows read eight buffers: the row matrix is read by two windows (the row tile and the column tile), each holding half of it.
-/
import proofs.«151531_j1219770712681_2_alg».proof.Proof.LossBody

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v0) ↦{fullShare} G main_v0) ∗ (((c : Thread nD τ).loc main_v3) ↦{fullShare} G main_v3) ∗ (((c : Thread nD τ).loc main_v4) ↦{fullShare} G main_v4) ∗ (((c : Thread nD τ).loc main_v15) ↦{fullShare} G main_v15) ∗ (((c : Thread nD τ).loc main_v16_0) ↦{fullShare} G main_v16_0) ∗ (((c : Thread nD τ).loc main_v16_1) ↦{fullShare} G main_v16_1) ∗ (((c : Thread nD τ).loc main_v17_0) ↦{fullShare} G main_v17_0) ∗ (((c : Thread nD τ).loc main_v17_1) ↦{fullShare} G main_v17_1)) := by
  unfold Pipeline.arrBufs
  rw [show Finset.univ.image (Pipeline.arrRef spec1) = ({main_v0, main_v3, main_v4, main_v15, main_v16_0, main_v16_1, main_v17_0, main_v17_1} : Finset (Ref sig .tc)) from by decide]
  rw [bigSep_insert (by decide), bigSep_insert (by decide), bigSep_insert (by decide), bigSep_insert (by decide), bigSep_insert (by decide), bigSep_insert (by decide), bigSep_insert (by decide), bigSep_singleton]
  rfl

/-- The windows' arrays at the proof data's shares are the distinct buffers behind them, each whole at the full
    share: the two half shares of the row matrix join. -/
theorem arrays_iff (c : Dev nD) (G : (b : Ref sig .tc) → Buf (Elt F) ((c : Thread nD τ).loc b))
    (A : (w : Fin cfg1.W) → Buf (Elt F) ((cfg1.win w).arr.view.loc (c : Thread nD τ))) (hA : ∀ w, A w = G (Pipeline.arrRef spec1 w)) :
    (dat V c).arrays A ⊣⊢ (Pipeline.arrBufs (Ix := Unit) (Name := ℕ) (U := UR sig nD τ) (Lvl := ℕ) spec1 c G : sProp 𝕄) := by
  have e1 : (dat V c).arrays A = bigSep Finset.univ fun w : Fin 9 => ((((c : Thread nD τ).loc (Pipeline.arrRef spec1 w)) ↦{(dat V c).share w} G (Pipeline.arrRef spec1 w)) : sProp 𝕄) := by
    unfold Dat.arrays
    exact bigSep_congr fun w _ => by rw [(arr_whole1 w).set_eq_univ, hA]
  rw [e1, bigSep_W1, arrBufs_eq]
  rw [show (dat V c).share 0 = fullShare.left from rfl, show (dat V c).share 1 = fullShare.right from rfl,
    show (dat V c).share 2 = fullShare from rfl, show (dat V c).share 3 = fullShare from rfl, show (dat V c).share 4 = fullShare from rfl, show (dat V c).share 5 = fullShare from rfl, show (dat V c).share 6 = fullShare from rfl, show (dat V c).share 7 = fullShare from rfl, show (dat V c).share 8 = fullShare from rfl]
  constructor
  · iintro ⟨H0, H1, H2, H3, H4, H5, H6, H7, H8⟩
    isplitl [H0 H1]
    · iapply (pointsTo_share (PosShare.mem_left_op_right fullShare)).2
      isplitl [H0]; · iexact H0
      iexact H1
    isplitl [H2]; · iexact H2
    isplitl [H3]; · iexact H3
    isplitl [H4]; · iexact H4
    isplitl [H5]; · iexact H5
    isplitl [H6]; · iexact H6
    isplitl [H7]; · iexact H7
    iexact H8
  · iintro ⟨B0, B1, B2, B3, B4, B5, B6, B7⟩
    ihave B0' := (pointsTo_share (PosShare.mem_left_op_right fullShare)).1 $$ B0
    icases B0' with ⟨H0, H1⟩
    isplitl [H0]; · iexact H0
    isplitl [H1]; · iexact H1
    isplitl [B1]; · iexact B1
    isplitl [B2]; · iexact B2
    isplitl [B3]; · iexact B3
    isplitl [B4]; · iexact B4
    isplitl [B5]; · iexact B5
    isplitl [B6]; · iexact B6
    iexact B7

end Cert.KernelIdeal.Loss

end
-- ==== Proof.MainRun.lean ====
/-
  The whole run of the program's @main: nineteen host operations (the row matrix and the labels laid out, the rows'
  norms through the Gram matrix), the first kernel region (the row statistics), the second kernel region (the row
  losses), fourteen host operations (the two means). Every unscoped buffer's contents at the end are named: the
  launch contents, then each host stretch's operations applied, each region's two output arrays at what its
  write-backs leave.
-/
import proofs.«151531_j1219770712681_2_alg».proof.Proof.Gen.KernelIdeal.Regions
import proofs.«151531_j1219770712681_2_alg».proof.Proof.StatsArrays
import proofs.«151531_j1219770712681_2_alg».proof.Proof.LossArrays

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- The core's buffers when the first region is entered, read at the TensorCore's references. -/
abbrev V1r (c : Dev nD) (b : Ref sig .tc) : Buf (Elt F) ((c : Thread nD τ).loc b) := V1 m c b

/-- What the first region leaves in a buffer: its two output arrays at what the write-backs leave. -/
def outsStats (c : Dev nD) (r : Ref sig .tc) : Buf (Elt F) ((c : Thread nD τ).loc r) :=
  if h : r = main_v16_0 then h ▸ ((Stats.dat (V1r m) c).arrAt 5 cfg0.N : Buf (Elt F) ((c : Thread nD τ).loc main_v16_0))
  else if h : r = main_v16_1 then h ▸ ((Stats.dat (V1r m) c).arrAt 6 cfg0.N : Buf (Elt F) ((c : Thread nD τ).loc main_v16_1))
  else m ((c : Thread nD τ).loc r)

/-- The core's buffers when the second region is entered. -/
abbrev V2r (c : Dev nD) (b : Ref sig .tc) : Buf (Elt F) ((c : Thread nD τ).loc b) := V2 m (fun _ r c => outsStats m c r) c b

/-- What the second region leaves in a buffer. -/
def outsLoss (c : Dev nD) (r : Ref sig .tc) : Buf (Elt F) ((c : Thread nD τ).loc r) :=
  if h : r = main_v17_0 then h ▸ ((Loss.dat (V2r m) c).arrAt 7 cfg1.N : Buf (Elt F) ((c : Thread nD τ).loc main_v17_0))
  else if h : r = main_v17_1 then h ▸ ((Loss.dat (V2r m) c).arrAt 8 cfg1.N : Buf (Elt F) ((c : Thread nD τ).loc main_v17_1))
  else m ((c : Thread nD τ).loc r)

/-- What the regions leave, by the item that leaves it. -/
def outs : Outs (F := F) := fun J r c => if J = 2 then outsStats m c r else outsLoss m c r

set_option maxHeartbeats 8000000 in
theorem outs_stats0 (c : Dev nD) : outs m 2 main_v16_0 c = (Stats.dat (V1r m) c).arrAt 5 cfg0.N := rfl
set_option maxHeartbeats 8000000 in
theorem outs_stats1 (c : Dev nD) : outs m 2 main_v16_1 c = (Stats.dat (V1r m) c).arrAt 6 cfg0.N := rfl
set_option maxHeartbeats 8000000 in
theorem outs_loss0 (c : Dev nD) : outs m 3 main_v17_0 c = (Loss.dat (V2r m) c).arrAt 7 cfg1.N := rfl
set_option maxHeartbeats 8000000 in
theorem outs_loss1 (c : Dev nD) : outs m 3 main_v17_1 c = (Loss.dat (V2r m) c).arrAt 8 cfg1.N := rfl
set_option maxHeartbeats 8000000 in
theorem V2_outs (c : Dev nD) : V2 m (outs m) c = V2 m (fun _ r c => outsStats m c r) c := rfl

/-! ## The proof data family and what rides beside the buffers -/

/-- Both pipelines' proof data, each at its region's entry contents. -/
def pdats : (p : Fin 2) → (c : Dev nD) → Dat τ (Elt F) Unit ℕ (UR sig nD τ) ℕ (cfgs p) c
  | ⟨0, _⟩ => fun c => Stats.dat (V1r m) c
  | ⟨1, _⟩ => fun c => Loss.dat (V2r m) c

abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The arrays at the regions' exits -/

set_option maxHeartbeats 8000000 in
theorem hF0 (c : Dev nD) : ∀ w : Fin cfg0.W, (Stats.dat (V1r m) c).arrAt w cfg0.N = V2 m (outs m) c (Pipeline.arrRef spec0 w)
  | ⟨0, _⟩ => ((Stats.dat (V1r m) c).arrAt_in 0 rfl _).trans ((Stats.A_eq (V1r m) c 0).trans (V2_of m (outs m) c main_v0 (by decide)).symm)
  | ⟨1, _⟩ => ((Stats.dat (V1r m) c).arrAt_in 1 rfl _).trans ((Stats.A_eq (V1r m) c 1).trans (V2_of m (outs m) c main_v0 (by decide)).symm)
  | ⟨2, _⟩ => ((Stats.dat (V1r m) c).arrAt_in 2 rfl _).trans ((Stats.A_eq (V1r m) c 2).trans (V2_of m (outs m) c main_v3 (by decide)).symm)
  | ⟨3, _⟩ => ((Stats.dat (V1r m) c).arrAt_in 3 rfl _).trans ((Stats.A_eq (V1r m) c 3).trans (V2_of m (outs m) c main_v4 (by decide)).symm)
  | ⟨4, _⟩ => ((Stats.dat (V1r m) c).arrAt_in 4 rfl _).trans ((Stats.A_eq (V1r m) c 4).trans (V2_of m (outs m) c main_v15 (by decide)).symm)
  | ⟨5, _⟩ => by
    show _ = V2 m (outs m) c main_v16_0
    simp only [V2, Function.update_of_ne (StableHlo.devRef_ne_of_ne (by decide : main_v16_0 ≠ main_v16_1) : (Proc.devRef .tc main_v16_0 : DevRef τ sig) ≠ Proc.devRef .tc main_v16_1), Function.update_self]
    rfl
  | ⟨6, _⟩ => by
    show _ = V2 m (outs m) c main_v16_1
    simp only [V2, Function.update_self]
    rfl

set_option maxHeartbeats 8000000 in
theorem hrest0 (c : Dev nD) (b : Ref sig .tc) (hb : b ∉ Finset.univ.image (Pipeline.arrRef spec0)) : V2 m (outs m) c b = V1 m c b :=
  V2_of m (outs m) c b (by
    intro h
    simp only [List.mem_cons, List.mem_nil_iff, or_false] at h
    rcases h with rfl | rfl
    · exact hb (Finset.mem_image.mpr ⟨5, Finset.mem_univ _, rfl⟩)
    · exact hb (Finset.mem_image.mpr ⟨6, Finset.mem_univ _, rfl⟩))

set_option maxHeartbeats 8000000 in
theorem hF1 (c : Dev nD) : ∀ w : Fin cfg1.W, (Loss.dat (V2r m) c).arrAt w cfg1.N = V3 m (outs m) c (Pipeline.arrRef spec1 w)
  | ⟨0, _⟩ => ((Loss.dat (V2r m) c).arrAt_in 0 rfl _).trans ((Loss.A_eq (V2r m) c 0).trans (V3_of m (outs m) c main_v0 (by decide)).symm)
  | ⟨1, _⟩ => ((Loss.dat (V2r m) c).arrAt_in 1 rfl _).trans ((Loss.A_eq (V2r m) c 1).trans (V3_of m (outs m) c main_v0 (by decide)).symm)
  | ⟨2, _⟩ => ((Loss.dat (V2r m) c).arrAt_in 2 rfl _).trans ((Loss.A_eq (V2r m) c 2).trans (V3_of m (outs m) c main_v3 (by decide)).symm)
  | ⟨3, _⟩ => ((Loss.dat (V2r m) c).arrAt_in 3 rfl _).trans ((Loss.A_eq (V2r m) c 3).trans (V3_of m (outs m) c main_v4 (by decide)).symm)
  | ⟨4, _⟩ => ((Loss.dat (V2r m) c).arrAt_in 4 rfl _).trans ((Loss.A_eq (V2r m) c 4).trans (V3_of m (outs m) c main_v15 (by decide)).symm)
  | ⟨5, _⟩ => ((Loss.dat (V2r m) c).arrAt_in 5 rfl _).trans ((Loss.A_eq (V2r m) c 5).trans (V3_of m (outs m) c main_v16_0 (by decide)).symm)
  | ⟨6, _⟩ => ((Loss.dat (V2r m) c).arrAt_in 6 rfl _).trans ((Loss.A_eq (V2r m) c 6).trans (V3_of m (outs m) c main_v16_1 (by decide)).symm)
  | ⟨7, _⟩ => by
    show _ = V3 m (outs m) c main_v17_0
    simp only [V3, Function.update_of_ne (StableHlo.devRef_ne_of_ne (by decide : main_v17_0 ≠ main_v17_1) : (Proc.devRef .tc main_v17_0 : DevRef τ sig) ≠ Proc.devRef .tc main_v17_1), Function.update_self]
    rfl
  | ⟨8, _⟩ => by
    show _ = V3 m (outs m) c main_v17_1
    simp only [V3, Function.update_self]
    rfl

set_option maxHeartbeats 8000000 in
theorem hrest1 (c : Dev nD) (b : Ref sig .tc) (hb : b ∉ Finset.univ.image (Pipeline.arrRef spec1)) : V3 m (outs m) c b = V2 m (outs m) c b :=
  V3_of m (outs m) c b (by
    intro h
    simp only [List.mem_cons, List.mem_nil_iff, or_false] at h
    rcases h with rfl | rfl
    · exact hb (Finset.mem_image.mpr ⟨7, Finset.mem_univ _, rfl⟩)
    · exact hb (Finset.mem_image.mpr ⟨8, Finset.mem_univ _, rfl⟩))

theorem split_bufs0 (c : Dev nD) (G : (b : Ref sig .tc) → Buf (Elt F) ((c : Thread nD τ).loc b)) :
    (unscopedBufs c G : sProp 𝕄) = iprop(Pipeline.arrBufs spec0 c G ∗ Pipeline.unscopedRest spec0 c G) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

theorem split_bufs1 (c : Dev nD) (G : (b : Ref sig .tc) → Buf (Elt F) ((c : Thread nD τ).loc b)) :
    (unscopedBufs c G : sProp 𝕄) = iprop(Pipeline.arrBufs spec1 c G ∗ Pipeline.unscopedRest spec1 c G) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-! ## The regions as segments -/

set_option backward.isDefEq.respectTransparency.types false in
/-- The first region over the thread state: entered from every unscoped buffer at the contents after the first host
    stretch, left at those contents with its two output arrays at what its write-backs leave. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Stats.body_obligation (V1r m) c).loose
  hwaits := Pipeline.hwaits_of_owed_zero _ _ _ _ L lv 0 fun _ _ => rfl
  pre c := iprop(StableHlo.held (c : Thread nD τ) (Pipeline.ucRefs τ sig) (V1 m c) ∗ R (F := F) c)
  post c := iprop(StableHlo.held (c : Thread nD τ) (Pipeline.ucRefs τ sig) (V2 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit : (unscopedBufs c (V1r m c) : sProp 𝕄) ⊢ iprop((pdats m 0 c).arrays ((pdats m 0 c).arrAt · 0) ∗ Pipeline.unscopedRest spec0 c (V1r m c)) := by
      rw [split_bufs0]
      exact sep_mono (Stats.arrays_iff (V1r m) c (V1r m c) _ (fun w => Stats.A_eq (V1r m) c w)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (Stats.hin (V1r m) c)
    unfold Pipeline.ΦA
    iintro ⟨Hp, -, Hr⟩
    isplitl [Hr]; · iexact Hr
    iexact Hp
  hout c := by
    rw [Pipeline.ownSems0_none]
    refine (Stats.hout (V1r m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1r m c))
        ⊢ (unscopedBufs c (fun b => V2 m (outs m) c b) : sProp 𝕄) := by
      rw [split_bufs0]
      refine sep_mono (Stats.arrays_iff (V1r m) c (fun b => V2 m (outs m) c b) _ (hF0 m c)).1 (Entails.of_eq ?_)
      unfold Pipeline.unscopedRest
      exact bigSep_congr fun b hb => by
        show (((c.tc : Thread nD τ).loc b) ↦{fullShare} V1 m c b : sProp 𝕄) = (((c.tc : Thread nD τ).loc b) ↦{fullShare} V2 m (outs m) c b)
        rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from what the first left, left with its two output arrays at
    what its write-backs leave. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Loss.body_obligation (V2r m) c).loose
  hwaits := Pipeline.hwaits_of_owed_zero _ _ _ _ L lv 1 fun _ _ => rfl
  pre c := iprop(StableHlo.held (c : Thread nD τ) (Pipeline.ucRefs τ sig) (V2 m (fun _ r c => outsStats m c r) c) ∗ R (F := F) c)
  post c := iprop(StableHlo.held (c : Thread nD τ) (Pipeline.ucRefs τ sig) (V3 m (outs m) c) ∗ R (F := F) c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit : (unscopedBufs c (V2r m c) : sProp 𝕄) ⊢ iprop((pdats m 1 c).arrays ((pdats m 1 c).arrAt · 0) ∗ Pipeline.unscopedRest spec1 c (V2r m c)) := by
      rw [split_bufs1]
      exact sep_mono (Loss.arrays_iff (V2r m) c (V2r m c) _ (fun w => Loss.A_eq (V2r m) c w)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (Loss.hin (V2r m) c)
    unfold Pipeline.ΦA
    iintro ⟨Hp, -, Hr⟩
    isplitl [Hr]; · iexact Hr
    iexact Hp
  hout c := by
    rw [Pipeline.ownSems0_none]
    refine (Loss.hout (V2r m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2r m c))
        ⊢ (unscopedBufs c (fun b => V3 m (outs m) c b) : sProp 𝕄) := by
      rw [split_bufs1]
      refine sep_mono (Loss.arrays_iff (V2r m) c (fun b => V3 m (outs m) c b) _ (hF1 m c)).1 (Entails.of_eq ?_)
      unfold Pipeline.unscopedRest
      exact bigSep_congr fun b hb => by
        show (((c.tc : Thread nD τ).loc b) ↦{fullShare} V2 m (fun _ r c => outsStats m c r) c b : sProp 𝕄) = (((c.tc : Thread nD τ).loc b) ↦{fullShare} V3 m (outs m) c b)
        rw [hrest1 m c b (Finset.mem_sdiff.mp hb).2, V2_outs]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- The run, given the regions' records: every weakly fair execution of @main terminates, nothing faulting, and every
    unscoped buffer ends at what the last valuation names. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

/-- What the launch deals one core makes the state that rides beside its buffers. -/
theorem hE0_core (c : Dev nD) : iprop(unscopedSems0 c ∗ owes (c : Thread nD τ) (0 : CellTallies nD τ sig Unit) ∅
      ∗ Pipeline.launchCred (fun _ => 0 : Dev nD → CellTallies nD τ sig Unit) c ∗ prngReg c (ρ c) ∗ (iprop(emp) : sProp 𝕄)) ⊢ R (F := F) c := by
  iintro ⟨-, HO, -, Hp, -⟩
  isplitl [Hp]; · iexists _; iexact Hp
  iexists ∅; iexact HO

/-- What the launch deals every core makes the state that rides beside the buffers. -/
theorem hE0 : iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c)) ∗ levAts L lv)
      ⊢ (|={Set.univ}=> bigSep Finset.univ (E (F := F) 0) : sProp 𝕄) := by
  iintro ⟨H, -⟩
  imodintro
  iapply (show (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (fun _ : Dev nD => (iprop(emp) : sProp 𝕄)) c))
      ⊢ (bigSep Finset.univ (E (F := F) 0) : sProp 𝕄) from bigSep_mono fun c _ => hE0_core ρ c)
  iexact H

set_option backward.isDefEq.respectTransparency.types false in
/-- THE RUN: from any memory with zero counters every weakly fair execution of @main terminates, nothing faulting,
    and every unscoped buffer ends at the contents the last valuation names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V4 m (outs m) c b) :=
  run_cond m emb₁ () 𝒱₀ L lv (fun _ _ => rfl) ρ (outs m) (pdats m) (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E (hE0 ρ) (fun c => by iintro ⟨-, H⟩; iexact H)
    (reg0 m) (fun c => .rfl) (fun c => .rfl) (reg1 m) (fun c => BIBase.Entails.of_eq (by rw [V2_outs]; rfl)) (fun c => .rfl)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V4_main_arg0 m (outs m) c),
     (h c _ (mem_uc main_arg1 (by decide))).trans (V4_main_arg1 m (outs m) c)⟩) (run_all m ρ)

end Cert.KernelIdeal.Run

end
-- ==== Proof.Spec.lean ====
/-
  The two programs' results as functions of the row matrix and the labels, on the extended reals.

  The data: N = 8192 rows x_i of D = 192 extended reals, a label per row. With sim i j = <x_i, x_j>, each row of sim
  is divided by the larger of its Euclidean norm and a small constant to give S. A column j of row i is a POSITIVE when
  the labels agree and S i j is below a cut-off, a NEGATIVE when the labels differ. minPos i is the least positive S of
  row i (top if none), maxNeg i the greatest negative S (bottom if none). A negative is KEPT when it exceeds
  minPos i - margin, a positive when it is below maxNeg i + margin. The row loss is
  1/2 log1p (sum over kept positives of exp (-2 (S - 1/2))) + 0.02 log1p (sum over kept negatives of exp (50 (S - 1/2)))
  where both kinds are kept and 0 elsewhere; the results are the mean row loss and 100/N times the number of rows with no
  kept negative.

  `Ref` states this as the reference computes it. `Ker` states it as the kernel computes it: the squared norm of row i of
  sim through the Gram matrix G = xᵀx (sum_d (x_i G)_d (x_i)_d, clamped at 0 below), S as the product with the
  reciprocal of the norm, the exponents clamped above at 40, and every row reduction folded over eight column tiles of
  1024 columns from the fold's neutral element; the "any column kept" flags as 0/1 numbers folded by max.
-/
import Idealize.ShloMosaic.PureOps.Ideal

noncomputable section

namespace Cert.Spec

open Idealize.ShloMosaic
open scoped Classical

/-- The float constants, each the extended real its binary32 word denotes. -/
def cEps : EReal := Ideal.ofBits .f32 0x2B8CBCCC#32      -- 1e-12 rounded
def cCut : EReal := Ideal.ofBits .f32 0x3F7FFF58#32      -- 0.99999 rounded
def cMargin : EReal := Ideal.ofBits .f32 0x3DCCCCCD#32   -- 0.1 rounded
def cHalf : EReal := Ideal.ofBits .f32 0x3F000000#32     -- 0.5
def cM2 : EReal := Ideal.ofBits .f32 0xC0000000#32       -- -2
def cFifty : EReal := Ideal.ofBits .f32 0x42480000#32    -- 50
def cC02 : EReal := Ideal.ofBits .f32 0x3CA3D70A#32      -- 0.02 rounded
def cN : EReal := Ideal.ofBits .f32 0x46000000#32        -- 8192
def cHundred : EReal := Ideal.ofBits .f32 0x42C80000#32  -- 100
def cForty : EReal := Ideal.ofBits .f32 0x42200000#32    -- 40
def cOne : EReal := Ideal.ofBits .f32 0x3F800000#32      -- 1

variable (x : Fin 8192 → Fin 192 → EReal) (lab : Fin 8192 → BitVec 32)

/-- The similarity of rows i and j. -/
def sim (i j : Fin 8192) : EReal := ∑ d : Fin 192, x i d * x j d
/-- Rows i and j carry one label. -/
def same (i j : Fin 8192) : Prop := lab i = lab j

/-! ## What follows from a normalised similarity `S` (shared by both forms up to the points named in the header) -/

section FromS
variable (S : Fin 8192 → Fin 8192 → EReal)

def pos (i j : Fin 8192) : Prop := same lab i j ∧ S i j < cCut
def neg (i j : Fin 8192) : Prop := ¬ same lab i j
def posTerm (i j : Fin 8192) : EReal := if pos lab S i j then S i j else ⊤
def negTerm (i j : Fin 8192) : EReal := if neg lab i j then S i j else ⊥
end FromS

namespace Ref

def nrm (i : Fin 8192) : EReal := max (Ideal.sqrt (∑ j : Fin 8192, sim x i j * sim x i j)) cEps
def S (i j : Fin 8192) : EReal := Ideal.div (sim x i j) (nrm x i)
def minPos (i : Fin 8192) : EReal := Finset.univ.inf fun j => posTerm lab (S x) i j
def maxNeg (i : Fin 8192) : EReal := Finset.univ.sup fun j => negTerm lab (S x) i j
def negKeep (i j : Fin 8192) : Prop := neg lab i j ∧ minPos x lab i - cMargin < S x i j
def posKeep (i j : Fin 8192) : Prop := pos lab (S x) i j ∧ S x i j < maxNeg x lab i + cMargin
def posSum (i : Fin 8192) : EReal := ∑ j : Fin 8192, if posKeep x lab i j then Ideal.exp (cM2 * (S x i j - cHalf)) else 0
def negSum (i : Fin 8192) : EReal := ∑ j : Fin 8192, if negKeep x lab i j then Ideal.exp (cFifty * (S x i j - cHalf)) else 0
def hasNeg (i : Fin 8192) : Prop := ∃ j, negKeep x lab i j
def hasPos (i : Fin 8192) : Prop := ∃ j, posKeep x lab i j
def rowLoss (i : Fin 8192) : EReal :=
  if hasNeg x lab i ∧ hasPos x lab i then cHalf * Ideal.log1p (posSum x lab i) + cC02 * Ideal.log1p (negSum x lab i) else 0
/-- The first result: the mean row loss. -/
def loss : EReal := Ideal.div (∑ i : Fin 8192, rowLoss x lab i) cN
/-- The second result: the percentage of rows with no kept negative. -/
def prec1 : EReal := Ideal.div ((((Finset.univ.filter fun i : Fin 8192 => ¬ hasNeg x lab i).card : ℝ) : EReal) * cHundred) cN

end Ref

namespace Ker

/-- Column k of column tile b. -/
def col (b : Fin 8) (k : Fin 1024) : Fin 8192 := ⟨b.val * 1024 + k.val, by omega⟩

def gram (e d : Fin 192) : EReal := ∑ k : Fin 8192, x k e * x k d
def hrow (i : Fin 8192) (d : Fin 192) : EReal := ∑ e : Fin 192, x i e * gram x e d
def nrm (i : Fin 8192) : EReal := max (Ideal.sqrt (max (∑ d : Fin 192, hrow x i d * x i d) 0)) cEps
def S (i j : Fin 8192) : EReal := sim x i j * Ideal.div cOne (nrm x i)

/-- The first pass: the two accumulators of row i after column tile b. -/
def accMin (i : Fin 8192) : ℕ → EReal
  | 0 => min ⊤ (Finset.univ.inf fun k : Fin 1024 => posTerm lab (S x) i (col 0 k))
  | b + 1 => min (accMin i b) (if h : b + 1 < 8 then Finset.univ.inf fun k : Fin 1024 => posTerm lab (S x) i (col ⟨b + 1, h⟩ k) else ⊤)
def accMax (i : Fin 8192) : ℕ → EReal
  | 0 => max ⊥ (Finset.univ.sup fun k : Fin 1024 => negTerm lab (S x) i (col 0 k))
  | b + 1 => max (accMax i b) (if h : b + 1 < 8 then Finset.univ.sup fun k : Fin 1024 => negTerm lab (S x) i (col ⟨b + 1, h⟩ k) else ⊥)
def minPos (i : Fin 8192) : EReal := accMin x lab i 7
def maxNeg (i : Fin 8192) : EReal := accMax x lab i 7

def negKeep (i j : Fin 8192) : Prop := neg lab i j ∧ minPos x lab i - cMargin < S x i j
def posKeep (i j : Fin 8192) : Prop := pos lab (S x) i j ∧ S x i j < maxNeg x lab i + cMargin
def posVal (i j : Fin 8192) : EReal := if posKeep x lab i j then Ideal.exp (min (cM2 * (S x i j - cHalf)) cForty) else 0
def negVal (i j : Fin 8192) : EReal := if negKeep x lab i j then Ideal.exp (min (cFifty * (S x i j - cHalf)) cForty) else 0
/-- 1 where some column of the tile satisfies `P`, else 0: the greatest of the 0/1 indicators compared with 0. -/
def flag (P : Fin 8192 → Prop) (b : Fin 8) : EReal :=
  if (0 : EReal) < max ⊥ (Finset.univ.sup fun k : Fin 1024 => if P (col b k) then cOne else (0 : EReal)) then 1 else 0

/-- The second pass: the four accumulators of row i after column tile b. -/
def accPos (i : Fin 8192) : ℕ → EReal
  | 0 => 0 + (0 + ∑ k : Fin 1024, posVal x lab i (col 0 k))
  | b + 1 => accPos i b + (if h : b + 1 < 8 then 0 + ∑ k : Fin 1024, posVal x lab i (col ⟨b + 1, h⟩ k) else 0)
def accNeg (i : Fin 8192) : ℕ → EReal
  | 0 => 0 + (0 + ∑ k : Fin 1024, negVal x lab i (col 0 k))
  | b + 1 => accNeg i b + (if h : b + 1 < 8 then 0 + ∑ k : Fin 1024, negVal x lab i (col ⟨b + 1, h⟩ k) else 0)
def accHasNeg (i : Fin 8192) : ℕ → EReal
  | 0 => max 0 (flag (negKeep x lab i) 0)
  | b + 1 => max (accHasNeg i b) (if h : b + 1 < 8 then flag (negKeep x lab i) ⟨b + 1, h⟩ else 0)
def accHasPos (i : Fin 8192) : ℕ → EReal
  | 0 => max 0 (flag (posKeep x lab i) 0)
  | b + 1 => max (accHasPos i b) (if h : b + 1 < 8 then flag (posKeep x lab i) ⟨b + 1, h⟩ else 0)

def rowLoss (i : Fin 8192) : EReal :=
  if (0 : EReal) < accHasNeg x lab i 7 ∧ (0 : EReal) < accHasPos x lab i 7 then
    cHalf * Ideal.log1p (accPos x lab i 7) + cC02 * Ideal.log1p (accNeg x lab i 7) else 0
def hasNegOut (i : Fin 8192) : EReal := accHasNeg x lab i 7
def loss : EReal := Ideal.div (0 + ∑ i : Fin 8192, rowLoss x lab i) cN
def prec1 : EReal := Ideal.div ((0 + ∑ i : Fin 8192, if hasNegOut x lab i < cHalf then (1 : EReal) else 0) * cHundred) cN

end Ker

/-- Every entry is a real number. -/
def Finite : Prop := ∀ i d, x i d ≠ ⊤ ∧ x i d ≠ ⊥

end Cert.Spec

end
-- ==== Proof.SpecArgs.lean ====
/-
  How the two programs' argument arrays give the row matrix and the labels: row i of the 8192 x 192 matrix is the
  (i / 2, i % 2) row of the 4096 x 2 x 192 array (the row-major flattening of its two leading axes), and row i's label is
  label i / 2 (each label repeated twice).
-/
import Idealize.ShloMosaic.Lib.ValueIdx

noncomputable section

namespace Cert.Spec

open Idealize.ShloMosaic Idealize.ShloMosaic.ValueIdx

/-- The row matrix from the feature array. -/
def rowsOf (a : (⟨3, ![4096, 2, 192]⟩ : Shape).Idx → EReal) : Fin 8192 → Fin 192 → EReal :=
  fun i d => a (ix3 (⟨i.val / 2, by omega⟩ : Fin 4096) (⟨i.val % 2, by omega⟩ : Fin 2) d)

/-- The row labels from the label array. -/
def labelsOf (l : (⟨1, ![4096]⟩ : Shape).Idx → BitVec 32) : Fin 8192 → BitVec 32 :=
  fun i => l (ix1 (⟨i.val / 2, by omega⟩ : Fin 4096))

end Cert.Spec

end
-- ==== Proof.RefSim.lean ====
/-
  The reference's similarity matrix read at coordinates: the rows of the reshaped feature array, their inner
  products, each row's Euclidean norm floored at the small constant, and the normalised similarity.
-/
import proofs.«151531_j1219770712681_2_alg».proof.Proof.Gen.ReferenceIdeal.Read
import proofs.«151531_j1219770712681_2_alg».proof.Proof.Spec
import proofs.«151531_j1219770712681_2_alg».proof.Proof.SpecArgs

noncomputable section

namespace Cert.ReferenceIdeal.RefValue

open Cert.ReferenceIdeal Cert.ReferenceIdeal.Read Idealize.ShloMosaic Idealize.ShloMosaic.ValueIdx Cert.Spec

variable (x0 : S4096x2x192.Idx → EReal)

/-- Row i of the reshaped array is the (i / 2, i % 2) row of the argument. -/
theorem rows_at (i : Fin 8192) (d : Fin 192) : val_main_v2 (F := Ideal) x0 (ix2 i d) = rowsOf x0 i d := by
  rw [val_main_v2_apply]
  unfold rowsOf
  refine congrArg x0 (funext fun a => Fin.ext ?_)
  match a with
  | ⟨0, _⟩ => show (i.val * 192 + d.val) / 384 = i.val / 2; omega
  | ⟨1, _⟩ => show (i.val * 192 + d.val) / 192 % 2 = i.val % 2; omega
  | ⟨2, _⟩ => show (i.val * 192 + d.val) % 192 = d.val; omega

/-- The product with the transpose is the matrix of inner products. -/
theorem sim_at (i j : Fin 8192) : val_main_v4 (F := Ideal) x0 (ix2 i j) = sim (rowsOf x0) i j := by
  rw [val_main_v4_apply]
  unfold sim
  refine Finset.sum_congr rfl fun k _ => ?_
  rw [val_main_v3_apply]
  have e1 : lidx_main_v4 (ix2 i j) k = ix2 i k :=
    funext fun a => Fin.ext (by match a with | ⟨0, _⟩ => rfl | ⟨1, _⟩ => rfl)
  have e2 : idx_main_v3 (ridx_main_v4 (ix2 i j) k) = ix2 j k :=
    funext fun a => Fin.ext (by match a with | ⟨0, _⟩ => rfl | ⟨1, _⟩ => rfl)
  rw [e1, e2, rows_at, rows_at]

/-- The sum of squares of row i, from zero. -/
theorem sumsq_at (i : Fin 8192) :
    val_main_call0_v1 (F := Ideal) x0 (ix1 i) = ∑ j : Fin 8192, sim (rowsOf x0) i j * sim (rowsOf x0) i j := by
  rw [val_main_call0_v1_apply, val_main_call0_cst_apply, Ideal.ofBits_def, Ideal.ofBits_zero_f32, zero_add]
  refine Finset.sum_congr rfl fun k _ => ?_
  have e : idx_main_call0_v1 (ix1 i) k = ix2 i k :=
    funext fun a => Fin.ext (by match a with | ⟨0, _⟩ => rfl | ⟨1, _⟩ => rfl)
  rw [e, val_main_call0_v0_apply, sim_at, Ideal.mulf_def]

/-- The floored norm of row i. -/
theorem nrm_at (i : Fin 8192) (z : Fin 1) : val_main_v7 (F := Ideal) x0 (ix2 i z) = Ref.nrm (rowsOf x0) i := by
  rw [val_main_v7_apply, val_main_v5_apply, val_main_call0_v2_apply, val_main_v6_apply, val_main_cst_apply]
  have e : idx_main_call0_v2 (ix2 i z) = ix1 i :=
    funext fun a => Fin.ext (by match a with | ⟨0, _⟩ => rfl)
  rw [e, sumsq_at, Ideal.maximumf_def, Ideal.hostUnary_sqrt_def, Ideal.ofBits_def]
  rfl

/-- The normalised similarity. -/
theorem S_at (i j : Fin 8192) : val_main_v9 (F := Ideal) x0 (ix2 i j) = Ref.S (rowsOf x0) i j := by
  rw [val_main_v9_apply, val_main_v8_apply, sim_at]
  have e : idx_main_v8 (ix2 i j) = ix2 i (0 : Fin 1) :=
    funext fun a => Fin.ext (by match a with | ⟨0, _⟩ => rfl | ⟨1, _⟩ => rfl)
  rw [e, nrm_at, Ideal.hostDivf_def]
  rfl

end Cert.ReferenceIdeal.RefValue

end
-- ==== Proof.RefFolds.lean ====
/-
  Folds over a finite index set read as lattice operations, existence and counting: the fold of min from the top
  element is the infimum, of max from the bottom element the supremum, of "or" over one-bit words from 0 is 1 exactly
  when some word is 1, and the wrapping 32-bit sum of zero-extended one-bit words is the number of 1 words. Also the
  two order comparisons on the extended reals as one-bit words.
-/
import Idealize.ShloMosaic.PureOps.Ideal.Laws
import Idealize.ShloMosaic.PureOps.Reduce
import Idealize.ShloMosaic.Lib.Affine
import Idealize.ShloMosaic.Lib.ValueIdx

noncomputable section

namespace Cert.ReferenceIdeal.RefValue

open Idealize.ShloMosaic Idealize.ShloMosaic.ValueIdx

/-- "Less than" as a one-bit word. -/
theorem cmp_olt (a b : EReal) : FloatOps.cmpf (F := Ideal) (φ := .f32) .olt a b = 1#1 ↔ a < b := by
  show BitVec.ofBool (decide (a < b)) = 1#1 ↔ a < b
  by_cases h : a < b <;> simp [h]

/-- "Greater than" as a one-bit word. -/
theorem cmp_ogt (a b : EReal) : FloatOps.cmpf (F := Ideal) (φ := .f32) .ogt a b = 1#1 ↔ b < a := by
  show BitVec.ofBool (decide (b < a)) = 1#1 ↔ b < a
  by_cases h : b < a <;> simp [h]

/-- A select on a one-bit word that is 1 exactly when P holds is the conditional on P. -/
theorem select_of_iff {α : Type} {c : BitVec 1} {P : Prop} [Decidable P] (h : c = 1#1 ↔ P) (a b : α) :
    Scalar.select c a b = if P then a else b := by
  by_cases hP : P
  · rw [if_pos hP, h.mpr hP, select_one]
  · rw [if_neg hP, eq_zero_of_ne_one (fun hc => hP (h.mp hc)), select_zero]

variable {ι : Type} [DecidableEq ι]

theorem fold_min_eq_inf (s : Finset ι) (f : ι → EReal) : s.fold min ⊤ f = s.inf f := by
  induction s using Finset.induction_on with
  | empty => rw [Finset.fold_empty, Finset.inf_empty]
  | insert a s ha ih => rw [Finset.fold_insert ha, Finset.inf_insert, ih]

theorem fold_max_eq_sup (s : Finset ι) (f : ι → EReal) : s.fold max ⊥ f = s.sup f := by
  induction s using Finset.induction_on with
  | empty => rw [Finset.fold_empty, Finset.sup_empty]
  | insert a s ha ih => rw [Finset.fold_insert ha, Finset.sup_insert, ih]

theorem fold_ori_eq_one (s : Finset ι) (g : ι → BitVec 1) : s.fold IntOp.ori 0#1 g = 1#1 ↔ ∃ k ∈ s, g k = 1#1 := by
  induction s using Finset.induction_on with
  | empty => rw [Finset.fold_empty]; simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.1 hk with rfl | hk
      · exact Or.inl h
      · exact Or.inr ⟨k, hk, h⟩

/-- The wrapping sum of zero-extended bits is the number of set bits, as a word. -/
theorem fold_addi_count (s : Finset ι) (b : ι → BitVec 1) :
    s.fold IntOp.addi 0#32 (fun k => (b k).setWidth 32) = BitVec.ofNat 32 (s.filter fun k => b k = 1#1).card := by
  induction s using Finset.induction_on with
  | empty => rw [Finset.fold_empty]; rfl
  | insert a s ha ih =>
    rw [Finset.fold_insert ha, ih, Finset.filter_insert]
    rcases BitVec.eq_zero_or_eq_one (b a) with h | h
    · rw [if_neg (by rw [h]; decide), h]
      show (0#1).setWidth 32 + BitVec.ofNat 32 _ = _
      simp
    · rw [if_pos h, Finset.card_insert_of_notMem (fun hm => ha (Finset.mem_filter.1 hm).1), h]
      show (1#1).setWidth 32 + BitVec.ofNat 32 _ = _
      apply BitVec.eq_of_toNat_eq
      simp [BitVec.toNat_add, Nat.add_comm]

end Cert.ReferenceIdeal.RefValue

end
-- ==== Proof.RefMasks.lean ====
/-
  The reference's masks and row extremes read at coordinates: the repeated labels, the "same label" bit (the program
  compares label j with label i), the positive and negative bits, the masked similarities with the infinities in the
  unmasked places, and each row's least positive and greatest negative similarity as the infimum and supremum over
  the row's columns.
-/
import proofs.«151531_j1219770712681_2_alg».proof.Proof.RefSim
import proofs.«151531_j1219770712681_2_alg».proof.Proof.RefFolds

noncomputable section

namespace Cert.ReferenceIdeal.RefValue

open Cert.ReferenceIdeal Cert.ReferenceIdeal.Read Idealize.ShloMosaic Idealize.ShloMosaic.ValueIdx Cert.Spec
open scoped Classical

/-- A reduction of the square array over its columns, at row i, is the fold over the row's columns. -/
theorem reduce_row {α : Type} (f : α → α → α) [Std.Commutative f] [Std.Associative f] (y : S8192x8192.Idx → α)
    (init : S_.Idx → α) (h' : S8192x8192.ReducesTo [(1 : Fin S8192x8192.rank)] S8192) (hu : 0 < S_.numel) (i : Fin 8192) :
    Host.reduce f y init h' hu (ix1 i) = (Finset.univ : Finset (Fin 8192)).fold f (init ix0) (fun k => y (ix2 i k)) := by
  rw [Host.reduce_eq_fold_single f y init h' (by decide) hu]
  have e0 : Shape.Idx.first hu = (ix0 : S_.Idx) := funext fun a => a.elim0
  rw [e0]
  exact congrArg (fun g => (Finset.univ : Finset (Fin 8192)).fold f (init ix0) g)
    (funext fun k => congrArg y (funext fun a => Fin.ext (by match a with | ⟨0, _⟩ => rfl | ⟨1, _⟩ => rfl)))

theorem ofBits_pinf : Ideal.ofBits .f32 0x7F800000#32 = ⊤ := by simp [Ideal.ofBits, Ideal.ieee]
theorem ofBits_ninf : Ideal.ofBits .f32 0xFF800000#32 = ⊥ := by simp [Ideal.ofBits, Ideal.ieee]

variable (x0 : S4096x2x192.Idx → EReal) (x1 : S4096.Idx → BitVec 32)

/-- Row i's label is label i / 2. -/
theorem lab_at (i : Fin 8192) : val_main_v1 (F := Ideal) x1 (ix1 i) = labelsOf x1 i := by
  rw [val_main_v1_apply, val_main_v0_apply]
  unfold labelsOf
  exact congrArg x1 (funext fun a => Fin.ext (by match a with | ⟨0, _⟩ => rfl))

/-- The "same label" bit. -/
theorem same_at (i j : Fin 8192) : val_main_v14 (F := Ideal) x1 (ix2 i j) = 1#1 ↔ same (labelsOf x1) i j := by
  rw [val_main_v14_apply, IntOp.cmpi_eq, val_main_v12_apply, val_main_v10_apply, val_main_v13_apply, val_main_v11_apply]
  have e1 : idx_main_v10 (idx_main_v12 (ix2 i j)) = ix1 j :=
    funext fun a => Fin.ext (by match a with | ⟨0, _⟩ => rfl)
  have e2 : idx_main_v11 (idx_main_v13 (ix2 i j)) = ix1 i :=
    funext fun a => Fin.ext (by match a with | ⟨0, _⟩ => rfl)
  rw [e1, e2, lab_at, lab_at]
  exact eq_comm

/-- The positive bit. -/
theorem pos_at (i j : Fin 8192) :
    val_main_v17 (F := Ideal) x0 x1 (ix2 i j) = 1#1 ↔ pos (labelsOf x1) (Ref.S (rowsOf x0)) i j := by
  rw [val_main_v17_apply, IntOp.andi_eq_one, same_at, val_main_v16_apply, cmp_olt, S_at, val_main_v15_apply,
    val_main_cst_0_apply, Ideal.ofBits_def]
  rfl

/-- The negative bit. -/
theorem neg_at (i j : Fin 8192) : val_main_v18 (F := Ideal) x1 (ix2 i j) = 1#1 ↔ neg (labelsOf x1) i j := by
  rw [val_main_v18_apply, IntOp.not_eq_one, same_at]
  rfl

/-- The similarity where positive, the top element elsewhere. -/
theorem posTerm_at (i j : Fin 8192) :
    val_main_v19 (F := Ideal) x0 x1 (ix2 i j) = posTerm (labelsOf x1) (Ref.S (rowsOf x0)) i j := by
  rw [val_main_v19_apply, select_of_iff (pos_at x0 x1 i j), S_at, val_main_call1_v1_apply, val_main_call1_v0_apply,
    val_main_cst_1_apply, Ideal.ofBits_def, ofBits_pinf]
  rfl

/-- The similarity where negative, the bottom element elsewhere. -/
theorem negTerm_at (i j : Fin 8192) :
    val_main_v21 (F := Ideal) x0 x1 (ix2 i j) = negTerm (labelsOf x1) (Ref.S (rowsOf x0)) i j := by
  rw [val_main_v21_apply, select_of_iff (neg_at x1 i j), S_at, val_main_call2_v1_apply, val_main_call2_v0_apply,
    val_main_cst_3_apply, Ideal.ofBits_def, ofBits_ninf]
  rfl

/-- Row i's least positive similarity. -/
theorem minPos_at (i : Fin 8192) :
    val_main_v20 (F := Ideal) x0 x1 (ix1 i) = Ref.minPos (rowsOf x0) (labelsOf x1) i := by
  unfold val_main_v20
  rw [reduce_row, val_main_cst_2_apply, Ideal.ofBits_def, ofBits_pinf]
  simp only [posTerm_at]
  exact fold_min_eq_inf Finset.univ _

/-- Row i's greatest negative similarity. -/
theorem maxNeg_at (i : Fin 8192) :
    val_main_v22 (F := Ideal) x0 x1 (ix1 i) = Ref.maxNeg (rowsOf x0) (labelsOf x1) i := by
  unfold val_main_v22
  rw [reduce_row, val_main_cst_4_apply, Ideal.ofBits_def, ofBits_ninf]
  simp only [negTerm_at]
  exact fold_max_eq_sup Finset.univ _

end Cert.ReferenceIdeal.RefValue

end
-- ==== Proof.RefKeep.lean ====
/-
  The reference's kept pairs read at coordinates: a negative is kept when it exceeds the row's least positive less the
  margin, a positive when it is below the row's greatest negative plus the margin; whether a row keeps any; and the two
  row sums of exponentials over the kept pairs.
-/
import proofs.«151531_j1219770712681_2_alg».proof.Proof.RefMasks

noncomputable section

namespace Cert.ReferenceIdeal.RefValue

open Cert.ReferenceIdeal Cert.ReferenceIdeal.Read Idealize.ShloMosaic Idealize.ShloMosaic.ValueIdx Cert.Spec
open scoped Classical

variable (x0 : S4096x2x192.Idx → EReal) (x1 : S4096.Idx → BitVec 32)

/-- The kept-negative bit. -/
theorem negKeep_at (i j : Fin 8192) :
    val_main_v28 (F := Ideal) x0 x1 (ix2 i j) = 1#1 ↔ Ref.negKeep (rowsOf x0) (labelsOf x1) i j := by
  rw [val_main_v28_apply, IntOp.andi_eq_one, neg_at, val_main_v27_apply, cmp_ogt, S_at, val_main_v26_apply,
    val_main_v25_apply, val_main_v24_apply]
  have e : idx_main_v25 (idx_main_v26 (ix2 i j)) = ix1 i :=
    funext fun a => Fin.ext (by match a with | ⟨0, _⟩ => rfl)
  rw [e, minPos_at, val_main_v23_apply, val_main_cst_5_apply, Ideal.subf_def, Ideal.ofBits_def]
  rfl

/-- The kept-positive bit. -/
theorem posKeep_at (i j : Fin 8192) :
    val_main_v34 (F := Ideal) x0 x1 (ix2 i j) = 1#1 ↔ Ref.posKeep (rowsOf x0) (labelsOf x1) i j := by
  rw [val_main_v34_apply, IntOp.andi_eq_one, pos_at, val_main_v33_apply, cmp_olt, S_at, val_main_v32_apply,
    val_main_v31_apply, val_main_v30_apply]
  have e : idx_main_v31 (idx_main_v32 (ix2 i j)) = ix1 i :=
    funext fun a => Fin.ext (by match a with | ⟨0, _⟩ => rfl)
  rw [e, maxNeg_at, val_main_v29_apply, val_main_cst_6_apply, Ideal.addf_def, Ideal.ofBits_def]
  rfl

/-- Row i keeps some negative. -/
theorem hasNeg_at (i : Fin 8192) :
    val_main_v35 (F := Ideal) x0 x1 (ix1 i) = 1#1 ↔ Ref.hasNeg (rowsOf x0) (labelsOf x1) i := by
  unfold val_main_v35
  rw [reduce_row, val_main_c_apply, fold_ori_eq_one]
  unfold Ref.hasNeg
  constructor
  · rintro ⟨k, _, h⟩; exact ⟨k, (negKeep_at x0 x1 i k).mp h⟩
  · rintro ⟨k, h⟩; exact ⟨k, Finset.mem_univ k, (negKeep_at x0 x1 i k).mpr h⟩

/-- Row i keeps some positive. -/
theorem hasPos_at (i : Fin 8192) :
    val_main_v36 (F := Ideal) x0 x1 (ix1 i) = 1#1 ↔ Ref.hasPos (rowsOf x0) (labelsOf x1) i := by
  unfold val_main_v36
  rw [reduce_row, val_main_c_7_apply, fold_ori_eq_one]
  unfold Ref.hasPos
  constructor
  · rintro ⟨k, _, h⟩; exact ⟨k, (posKeep_at x0 x1 i k).mp h⟩
  · rintro ⟨k, h⟩; exact ⟨k, Finset.mem_univ k, (posKeep_at x0 x1 i k).mpr h⟩

/-- The sum over row i's kept positives. -/
theorem posSum_at (i : Fin 8192) :
    val_main_v44 (F := Ideal) x0 x1 (ix1 i) = Ref.posSum (rowsOf x0) (labelsOf x1) i := by
  rw [val_main_v44_apply, val_main_cst_11_apply, Ideal.ofBits_def, Ideal.ofBits_zero_f32, zero_add]
  unfold Ref.posSum
  refine Finset.sum_congr rfl fun k _ => ?_
  have e : idx_main_v44 (ix1 i) k = ix2 i k :=
    funext fun a => Fin.ext (by match a with | ⟨0, _⟩ => rfl | ⟨1, _⟩ => rfl)
  rw [e, val_main_v43_apply, select_of_iff (posKeep_at x0 x1 i k), val_main_v42_apply, val_main_v41_apply,
    val_main_v40_apply, val_main_cst_9_apply, val_main_v39_apply, S_at, val_main_v38_apply, val_main_cst_8_apply,
    val_main_call3_v1_apply, val_main_call3_v0_apply, val_main_cst_10_apply, Ideal.hostUnary_exp_def, Ideal.mulf_def,
    Ideal.subf_def]
  simp only [Ideal.ofBits_def, Ideal.ofBits_zero_f32]
  rfl

/-- The sum over row i's kept negatives. -/
theorem negSum_at (i : Fin 8192) :
    val_main_v51 (F := Ideal) x0 x1 (ix1 i) = Ref.negSum (rowsOf x0) (labelsOf x1) i := by
  rw [val_main_v51_apply, val_main_cst_15_apply, Ideal.ofBits_def, Ideal.ofBits_zero_f32, zero_add]
  unfold Ref.negSum
  refine Finset.sum_congr rfl fun k _ => ?_
  have e : idx_main_v51 (ix1 i) k = ix2 i k :=
    funext fun a => Fin.ext (by match a with | ⟨0, _⟩ => rfl | ⟨1, _⟩ => rfl)
  rw [e, val_main_v50_apply, select_of_iff (negKeep_at x0 x1 i k), val_main_v49_apply, val_main_v48_apply,
    val_main_v47_apply, val_main_cst_13_apply, val_main_v46_apply, S_at, val_main_v45_apply, val_main_cst_12_apply,
    val_main_call4_v1_apply, val_main_call4_v0_apply, val_main_cst_14_apply, Ideal.hostUnary_exp_def, Ideal.mulf_def,
    Ideal.subf_def]
  simp only [Ideal.ofBits_def, Ideal.ofBits_zero_f32]
  rfl

end Cert.ReferenceIdeal.RefValue

end
-- ==== Proof.RefResults.lean ====
/-
  The reference's two results: the row loss where a row keeps both kinds and zero elsewhere, its mean over the rows;
  and the number of rows that keep no negative, counted by a 32-bit sum of at most 8192 zero-or-one words (which does
  not wrap), converted to a real, times one hundred, over the number of rows.
-/
import proofs.«151531_j1219770712681_2_alg».proof.Proof.RefKeep

noncomputable section

namespace Cert.ReferenceIdeal.RefValue

open Cert.ReferenceIdeal Cert.ReferenceIdeal.Read Idealize.ShloMosaic Idealize.ShloMosaic.ValueIdx Cert.Spec
open scoped Classical

/-- A sum over a rank-1 index set is the sum over its coordinate. -/
theorem sum_idx1 {M : Type} [AddCommMonoid M] {n : Nat} (f : (⟨1, ![n]⟩ : Shape).Idx → M) :
    ∑ j, f j = ∑ a : Fin n, f (ix1 a) :=
  Fintype.sum_equiv ⟨fun j => (j 0 : Fin n), ix1, fun j => (eq_ix1 j).symm, fun _ => rfl⟩ _ _
    (fun j => congrArg f (eq_ix1 j))

/-- A rank-1 index set is its coordinate's range. -/
def idxEquiv1 {n : Nat} : (⟨1, ![n]⟩ : Shape).Idx ≃ Fin n :=
  ⟨fun j => (j 0 : Fin n), ix1, fun j => (eq_ix1 j).symm, fun _ => rfl⟩

/-- A reduction of the vector over its one axis, into a scalar, is the fold over its coordinates: every index drops
    to the scalar's one index. -/
theorem reduce_vec {α : Type} (f : α → α → α) [Std.Commutative f] [Std.Associative f] (y : S8192.Idx → α)
    (init : S_.Idx → α) (h' : S8192.ReducesTo [(0 : Fin S8192.rank)] S_) (hu : 0 < S_.numel) (j : S_.Idx) :
    Host.reduce f y init h' hu j = (Finset.univ : Finset (Fin 8192)).fold f (init ix0) (fun k => y (ix1 k)) := by
  rw [Host.reduce_eq_fold f y init h' hu j]
  have e0 : Shape.Idx.first hu = (ix0 : S_.Idx) := funext fun a => a.elim0
  have hf : (Finset.univ.filter fun i : S8192.Idx => h'.drop i = j) = Finset.univ :=
    Finset.filter_true_of_mem (fun i _ => funext fun b => b.elim0)
  have hm : (Finset.univ : Finset S8192.Idx) = (Finset.univ : Finset (Fin 8192)).map (idxEquiv1 (n := 8192)).symm.toEmbedding :=
    (Finset.map_univ_equiv _).symm
  rw [e0, hf, hm, Finset.fold_map]
  rfl

variable (x0 : S4096x2x192.Idx → EReal) (x1 : S4096.Idx → BitVec 32)

/-- Row i keeps both kinds. -/
theorem valid_at (i : Fin 8192) :
    val_main_v37 (F := Ideal) x0 x1 (ix1 i) = 1#1 ↔
      (Ref.hasNeg (rowsOf x0) (labelsOf x1) i ∧ Ref.hasPos (rowsOf x0) (labelsOf x1) i) := by
  rw [val_main_v37_apply, IntOp.andi_eq_one, hasNeg_at, hasPos_at]

/-- The row loss. -/
theorem rowLoss_at (i : Fin 8192) :
    val_main_v59 (F := Ideal) x0 x1 (ix1 i) = Ref.rowLoss (rowsOf x0) (labelsOf x1) i := by
  rw [val_main_v59_apply, select_of_iff (valid_at x0 x1 i), val_main_v58_apply, val_main_v54_apply, val_main_v57_apply,
    val_main_v53_apply, val_main_v56_apply, val_main_v52_apply, val_main_v55_apply, posSum_at, negSum_at,
    val_main_cst_16_apply, val_main_cst_17_apply, val_main_call5_v1_apply, val_main_call5_v0_apply, val_main_cst_18_apply]
  simp only [Ideal.ofBits_def, Ideal.ofBits_zero_f32, Ideal.addf_def, Ideal.mulf_def, Ideal.hostUnary_log1p_def]
  rfl

/-- The first result: the mean row loss. -/
theorem loss_at (j : S_.Idx) :
    val_main_v61 (F := Ideal) x0 x1 j = Ref.loss (rowsOf x0) (labelsOf x1) := by
  rw [val_main_v61_apply, val_main_v60_apply, val_main_cst_19_apply, val_main_cst_20_apply, Ideal.hostDivf_def,
    Ideal.ofBits_def, Ideal.ofBits_zero_f32, zero_add, sum_idx1]
  simp only [rowLoss_at]
  rfl

/-- The number of rows keeping no negative, as a word. -/
theorem count_at (j : S_.Idx) :
    val_main_v64 (F := Ideal) x0 x1 j
      = BitVec.ofNat 32 (Finset.univ.filter fun i : Fin 8192 => ¬ Ref.hasNeg (rowsOf x0) (labelsOf x1) i).card := by
  unfold val_main_v64
  rw [reduce_vec, val_main_c_21_apply]
  have e : (fun k : Fin 8192 => val_main_v63 (F := Ideal) x0 x1 (ix1 k))
      = fun k => (~~~(val_main_v35 (F := Ideal) x0 x1 (ix1 k))).setWidth 32 := rfl
  rw [e, fold_addi_count]
  refine congrArg (fun s : Finset (Fin 8192) => BitVec.ofNat 32 s.card) (Finset.filter_congr fun k _ => ?_)
  rw [IntOp.not_eq_one, hasNeg_at]

/-- A count of at most 8192 read back from its word as a signed integer. -/
theorem toInt_ofNat_small (n : Nat) (hn : n ≤ 8192) : (BitVec.ofNat 32 n).toInt = (n : Int) := by
  have h1 : (BitVec.ofNat 32 n).toNat = n := by rw [BitVec.toNat_ofNat]; omega
  rw [BitVec.toInt_eq_toNat_of_lt (by omega), h1]

/-- The second result: the percentage of rows keeping no negative. -/
theorem prec1_at (j : S_.Idx) :
    val_main_v67 (F := Ideal) x0 x1 j = Ref.prec1 (rowsOf x0) (labelsOf x1) := by
  rw [val_main_v67_apply, val_main_v66_apply, val_main_v65_apply, count_at, val_main_cst_22_apply, val_main_cst_23_apply,
    Ideal.hostDivf_def, Ideal.mulf_def]
  have hc : (Finset.univ.filter fun i : Fin 8192 => ¬ Ref.hasNeg (rowsOf x0) (labelsOf x1) i).card ≤ 8192 :=
    (Finset.card_le_univ _).trans (by simp)
  show Ideal.div ((((BitVec.ofNat 32 _).toInt : ℝ) : EReal) * _) _ = _
  rw [toInt_ofNat_small _ hc, Int.cast_natCast]
  rfl

end Cert.ReferenceIdeal.RefValue

end
-- ==== Proof.RefValue.lean ====
/-
  The reference's run: every weakly fair execution terminates with the two result scalars at the mean row loss and
  the percentage of rows keeping no negative, as functions of the row matrix and the row labels read off the two
  argument arrays, and with the arguments unchanged.
-/
import proofs.«151531_j1219770712681_2_alg».proof.Proof.RefResults

noncomputable section

open Idealize.ShloMosaic Idealize.ShloMosaic.TcCoe Idealize.SL.Sem

namespace Cert.ReferenceIdeal.RefValue

open Cert.ReferenceIdeal Cert.ReferenceIdeal.Gen Cert.ReferenceIdeal.Value

/-- The run's first result term is the mean row loss. -/
theorem loss_eq (m : (ℓ : Loc nD τ sig) → Buf (Elt Ideal) ℓ) (c : Dev nD) :
    res_main_v61 (F := Ideal) m c = (fun _ => Cert.Spec.Ref.loss
      (Cert.Spec.rowsOf (m ((c.tc : Thread nD τ).loc main_arg0))) (Cert.Spec.labelsOf (m ((c.tc : Thread nD τ).loc main_arg1)))) := by
  rw [Cert.ReferenceIdeal.Read.val_main_v61_eq]
  exact funext fun j => loss_at _ _ j

/-- The run's second result term is the percentage of rows keeping no negative. -/
theorem prec1_eq (m : (ℓ : Loc nD τ sig) → Buf (Elt Ideal) ℓ) (c : Dev nD) :
    res_main_v67 (F := Ideal) m c = (fun _ => Cert.Spec.Ref.prec1
      (Cert.Spec.rowsOf (m ((c.tc : Thread nD τ).loc main_arg0))) (Cert.Spec.labelsOf (m ((c.tc : Thread nD τ).loc main_arg1)))) := by
  rw [Cert.ReferenceIdeal.Read.val_main_v67_eq]
  exact funext fun j => prec1_at _ _ j

theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
        r.2.mem ((c.tc : Thread nD τ).loc main_v61) = (fun _ => Cert.Spec.Ref.loss (Cert.Spec.rowsOf (m ((c.tc : Thread nD τ).loc main_arg0))) (Cert.Spec.labelsOf (m ((c.tc : Thread nD τ).loc main_arg1))))
      ∧ r.2.mem ((c.tc : Thread nD τ).loc main_v67) = (fun _ => Cert.Spec.Ref.prec1 (Cert.Spec.rowsOf (m ((c.tc : Thread nD τ).loc main_arg0))) (Cert.Spec.labelsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono
    (fun _ h c => ⟨(h c).1.trans (loss_eq m c), (h c).2.1.trans (prec1_eq m c), (h c).2.2.1, (h c).2.2.2⟩)
    (Cert.ReferenceIdeal.Value.run (F := Ideal) m ρ)

end Cert.ReferenceIdeal.RefValue

end
-- ==== Proof.SpecBridgeConsts.lean ====
/-
  The values of the binary32 words that the comparison of the two forms needs: 1, 1/2, -2, 50, 40 exactly, and a
  positive real for the small constant under the norm.
-/
import proofs.«151531_j1219770712681_2_alg».proof.Proof.Spec

noncomputable section

namespace Cert.Spec

open Idealize.ShloMosaic

theorem cOne_eq : cOne = 1 := by
  unfold cOne; simp [Ideal.ofBits, Ideal.ieee, -EReal.coe_mul]; norm_num

theorem cHalf_eq : cHalf = ((1 / 2 : ℝ) : EReal) := by
  unfold cHalf; simp [Ideal.ofBits, Ideal.ieee, -EReal.coe_mul]; norm_num

theorem cM2_eq : cM2 = ((-2 : ℝ) : EReal) := by
  unfold cM2; simp [Ideal.ofBits, Ideal.ieee, -EReal.coe_mul]; norm_num

theorem cFifty_eq : cFifty = ((50 : ℝ) : EReal) := by
  unfold cFifty; simp [Ideal.ofBits, Ideal.ieee, -EReal.coe_mul]; norm_num

theorem cForty_eq : cForty = ((40 : ℝ) : EReal) := by
  unfold cForty; simp [Ideal.ofBits, Ideal.ieee, -EReal.coe_mul]; norm_num

theorem cEps_pos : ∃ ε : ℝ, 0 < ε ∧ cEps = (ε : EReal) := by
  unfold cEps; simp [Ideal.ofBits, Ideal.ieee, -EReal.coe_mul]

end Cert.Spec

end
-- ==== Proof.LibERealSum.lean ====
/-
  The coercion from the reals to the extended reals commutes with finite sums.
-/
import Mathlib.Data.EReal.Operations
import Mathlib.Algebra.BigOperators.Group.Finset.Basic

namespace Cert.Lib

/-- The coercion of a finite sum of reals is the sum of the coercions. -/
theorem ereal_coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a finite sum of products of reals is the sum of the products of the coercions. -/
theorem ereal_coe_sum_mul {ι : Type*} (s : Finset ι) (f g : ι → ℝ) :
    ((∑ i ∈ s, f i * g i : ℝ) : EReal) = ∑ i ∈ s, (f i : EReal) * (g i : EReal) := by
  rw [ereal_coe_sum]
  exact Finset.sum_congr rfl fun i _ => EReal.coe_mul _ _

end Cert.Lib
-- ==== Proof.LibGram.lean ====
/-
  Real-number facts about the rows of a matrix `r` and their inner products `s i j = ∑ d, r i d * r j d`.

  The Gram identity: the squared Euclidean norm of row `i` of `r rᵀ` can be computed through `G = rᵀ r`, as
  `∑ d, (r_i G)_d (r_i)_d`. Each entry of a row is at most the row's Euclidean norm in absolute value, so a row
  divided by the larger of its norm and any positive number has entries in [-1, 1].
-/
import Mathlib.Analysis.SpecialFunctions.Pow.Real
import Mathlib.Algebra.Order.BigOperators.Group.Finset

namespace Cert.Lib

section Gram
variable {ι δ : Type*} [Fintype ι] [Fintype δ] (r : ι → δ → ℝ)

/-- Row `i` times the Gram matrix: `∑ e, r i e * G e d = ∑ k, s i k * r k d`. -/
theorem row_mul_gram (i : ι) (d : δ) :
    ∑ e, r i e * ∑ k, r k e * r k d = ∑ k, (∑ e, r i e * r k e) * r k d := by
  simp only [Finset.mul_sum, Finset.sum_mul]
  rw [Finset.sum_comm]
  exact Finset.sum_congr rfl fun k _ => Finset.sum_congr rfl fun e _ => by ring

/-- Pairing `∑ k, s k * r k d` with row `i` gives `∑ k, s k * (inner product of rows i and k)`. -/
theorem pair_with_row (s : ι → ℝ) (i : ι) :
    ∑ d, (∑ k, s k * r k d) * r i d = ∑ k, s k * ∑ d, r i d * r k d := by
  simp only [Finset.mul_sum, Finset.sum_mul]
  rw [Finset.sum_comm]
  exact Finset.sum_congr rfl fun k _ => Finset.sum_congr rfl fun d _ => by ring

/-- The Gram identity. -/
theorem gram_identity (i : ι) :
    ∑ d, (∑ e, r i e * ∑ k, r k e * r k d) * r i d
      = ∑ j, (∑ d, r i d * r j d) * (∑ d, r i d * r j d) := by
  simp only [row_mul_gram]
  exact pair_with_row r (fun k => ∑ e, r i e * r k e) i

end Gram

section Bound
variable {ι : Type*} [Fintype ι]

/-- A sum of squares is nonnegative. -/
theorem sum_mul_self_nonneg (s : ι → ℝ) : 0 ≤ ∑ j, s j * s j :=
  Finset.sum_nonneg fun j _ => mul_self_nonneg (s j)

/-- Each entry is at most the larger of the Euclidean norm and `ε` in absolute value. -/
theorem abs_le_max_sqrt (s : ι → ℝ) (ε : ℝ) (j : ι) : |s j| ≤ max (Real.sqrt (∑ j, s j * s j)) ε := by
  refine le_trans ?_ (le_max_left _ _)
  apply Real.abs_le_sqrt
  rw [sq]
  exact Finset.single_le_sum (f := fun j => s j * s j) (fun k _ => mul_self_nonneg (s k)) (Finset.mem_univ j)

/-- Each entry divided by the larger of the Euclidean norm and a positive `ε` lies in [-1, 1]. -/
theorem abs_div_max_sqrt_le_one (s : ι → ℝ) {ε : ℝ} (hε : 0 < ε) (j : ι) :
    |s j / max (Real.sqrt (∑ j, s j * s j)) ε| ≤ 1 := by
  have hn : 0 < max (Real.sqrt (∑ j, s j * s j)) ε := lt_of_lt_of_le hε (le_max_right _ _)
  rw [abs_div, abs_of_pos hn]
  exact (div_le_one hn).mpr (abs_le_max_sqrt s ε j)

end Bound

end Cert.Lib
-- ==== Proof.SpecBridgeSim.lean ====
/-
  Both forms' normalised similarity for a matrix of real entries.

  With x i d the coercion of a real r i d, sim is the coercion of the real inner product s i j = ∑ d, r i d * r j d;
  both squared norms are the coercion of q i = ∑ j, (s i j)², the kernel's by the Gram identity; both norms are the
  coercion of n i = max (√(q i)) ε with ε > 0 the small constant; and both normalised similarities are the coercion of
  s i j / n i, a real in [-1, 1].
-/
import proofs.«151531_j1219770712681_2_alg».proof.Proof.Spec
import proofs.«151531_j1219770712681_2_alg».proof.Proof.SpecBridgeConsts
import proofs.«151531_j1219770712681_2_alg».proof.Proof.LibERealSum
import proofs.«151531_j1219770712681_2_alg».proof.Proof.LibGram

noncomputable section

namespace Cert.Spec

open Idealize.ShloMosaic

/-- The real inner product of rows i and j. -/
def rsim (r : Fin 8192 → Fin 192 → ℝ) (i j : Fin 8192) : ℝ := ∑ d, r i d * r j d
/-- The sum of the squares of row i of the real inner products. -/
def rq (r : Fin 8192 → Fin 192 → ℝ) (i : Fin 8192) : ℝ := ∑ j, rsim r i j * rsim r i j
/-- The larger of the Euclidean norm of row i of the real inner products and ε. -/
def rnrm (r : Fin 8192 → Fin 192 → ℝ) (ε : ℝ) (i : Fin 8192) : ℝ := max (Real.sqrt (rq r i)) ε

theorem rq_nonneg (r : Fin 8192 → Fin 192 → ℝ) (i : Fin 8192) : 0 ≤ rq r i := Cert.Lib.sum_mul_self_nonneg _

theorem rnrm_pos (r : Fin 8192 → Fin 192 → ℝ) {ε : ℝ} (hε : 0 < ε) (i : Fin 8192) : 0 < rnrm r ε i :=
  lt_of_lt_of_le hε (le_max_right _ _)

section
variable (x : Fin 8192 → Fin 192 → EReal) (r : Fin 8192 → Fin 192 → ℝ) (hx : ∀ i d, x i d = ((r i d : ℝ) : EReal))
include hx

theorem sim_coe (i j : Fin 8192) : sim x i j = ((rsim r i j : ℝ) : EReal) := by
  unfold sim rsim
  rw [Cert.Lib.ereal_coe_sum_mul]
  exact Finset.sum_congr rfl fun d _ => by rw [hx, hx]

/-- The reference's squared norm. -/
theorem Ref.sumsq_coe (i : Fin 8192) : ∑ j : Fin 8192, sim x i j * sim x i j = ((rq r i : ℝ) : EReal) := by
  unfold rq
  rw [Cert.Lib.ereal_coe_sum_mul]
  exact Finset.sum_congr rfl fun j _ => by rw [sim_coe x r hx]

theorem Ker.gram_coe (e d : Fin 192) : Ker.gram x e d = ((∑ k, r k e * r k d : ℝ) : EReal) := by
  unfold Ker.gram
  rw [Cert.Lib.ereal_coe_sum_mul]
  exact Finset.sum_congr rfl fun k _ => by rw [hx, hx]

theorem Ker.hrow_coe (i : Fin 8192) (d : Fin 192) :
    Ker.hrow x i d = ((∑ e, r i e * ∑ k, r k e * r k d : ℝ) : EReal) := by
  unfold Ker.hrow
  rw [Cert.Lib.ereal_coe_sum_mul]
  exact Finset.sum_congr rfl fun e _ => by rw [hx, Ker.gram_coe x r hx]

/-- The kernel's squared norm, through the Gram matrix. -/
theorem Ker.sumsq_coe (i : Fin 8192) : ∑ d : Fin 192, Ker.hrow x i d * x i d = ((rq r i : ℝ) : EReal) := by
  have h := Cert.Lib.gram_identity r i
  unfold rq rsim
  rw [← h, Cert.Lib.ereal_coe_sum_mul]
  exact Finset.sum_congr rfl fun d _ => by rw [hx, Ker.hrow_coe x r hx]

variable (ε : ℝ) (hε : 0 < ε) (hc : cEps = ((ε : ℝ) : EReal))
include hε hc

theorem Ref.nrm_coe (i : Fin 8192) : Ref.nrm x i = ((rnrm r ε i : ℝ) : EReal) := by
  unfold Ref.nrm rnrm
  rw [Ref.sumsq_coe x r hx, Ideal.sqrt_coe, if_neg (not_lt.mpr (rq_nonneg r i)), hc]
  exact (EReal.coe_strictMono.monotone.map_max).symm

theorem Ker.nrm_coe (i : Fin 8192) : Ker.nrm x i = ((rnrm r ε i : ℝ) : EReal) := by
  unfold Ker.nrm rnrm
  rw [Ker.sumsq_coe x r hx, max_eq_left (EReal.coe_nonneg.mpr (rq_nonneg r i)), Ideal.sqrt_coe,
    if_neg (not_lt.mpr (rq_nonneg r i)), hc]
  exact (EReal.coe_strictMono.monotone.map_max).symm

theorem Ref.S_coe (i j : Fin 8192) : Ref.S x i j = ((rsim r i j / rnrm r ε i : ℝ) : EReal) := by
  unfold Ref.S
  rw [Ref.nrm_coe x r hx ε hε hc, sim_coe x r hx, Ideal.div_coe (ne_of_gt (rnrm_pos r hε i)), ← EReal.coe_mul,
    mul_one_div]

theorem Ker.S_coe (i j : Fin 8192) : Ker.S x i j = ((rsim r i j / rnrm r ε i : ℝ) : EReal) := by
  unfold Ker.S
  rw [Ker.nrm_coe x r hx ε hε hc, sim_coe x r hx, cOne_eq, Ideal.div_coe (ne_of_gt (rnrm_pos r hε i)), one_mul,
    ← EReal.coe_mul, mul_one_div]

theorem rS_abs_le_one (i j : Fin 8192) : |rsim r i j / rnrm r ε i| ≤ 1 :=
  Cert.Lib.abs_div_max_sqrt_le_one (fun j => rsim r i j) hε j

end

/-- For a matrix of finite entries both forms have one normalised similarity, the coercion of reals in [-1, 1]. -/
theorem S_real (x : Fin 8192 → Fin 192 → EReal) (hx : Finite x) :
    ∃ s : Fin 8192 → Fin 8192 → ℝ, (∀ i j, |s i j| ≤ 1) ∧ (∀ i j, Ref.S x i j = ((s i j : ℝ) : EReal)) ∧
      (∀ i j, Ker.S x i j = ((s i j : ℝ) : EReal)) := by
  obtain ⟨ε, hε, hc⟩ := cEps_pos
  have hr : ∀ i d, x i d = (((x i d).toReal : ℝ) : EReal) := fun i d =>
    (EReal.coe_toReal (hx i d).1 (hx i d).2).symm
  exact ⟨fun i j => rsim (fun i d => (x i d).toReal) i j / rnrm (fun i d => (x i d).toReal) ε i,
    fun i j => rS_abs_le_one x _ hr ε hε hc i j, fun i j => Ref.S_coe x _ hr ε hε hc i j,
    fun i j => Ker.S_coe x _ hr ε hε hc i j⟩

end Cert.Spec

end
-- ==== Proof.LibTileFold.lean ====
/-
  Reductions computed tile by tile.

  An index set covered by a two-parameter family `c b k` (tile `b`, position `k` in the tile): the least value, the
  greatest value and the sum over the whole set are those of the tiles' own least values, greatest values and sums.
  An accumulator that is updated once per tile, from a starting element `e` that is also what a step past the last tile
  contributes, ends as the reduction of `e` and all the tiles' values.
-/
import Mathlib.Algebra.BigOperators.Fin
import Mathlib.Data.Finset.Lattice.Fold
import Mathlib.Data.Fintype.BigOperators

namespace Cert.Lib

section Cover
variable {ι β κ : Type*} [Fintype ι] [Fintype β] [Fintype κ]

/-- The least value over a set covered by tiles is the least of the tiles' least values. -/
theorem inf_univ_of_cover {α : Type*} [SemilatticeInf α] [OrderTop α] (c : β → κ → ι)
    (hc : ∀ j, ∃ b k, c b k = j) (f : ι → α) :
    Finset.univ.inf f = Finset.univ.inf fun b => Finset.univ.inf fun k => f (c b k) := by
  refine eq_of_forall_le_iff fun a => ?_
  simp only [Finset.le_inf_iff, Finset.mem_univ, forall_true_left]
  constructor
  · intro h b k; exact h _
  · intro h j; obtain ⟨b, k, rfl⟩ := hc j; exact h b k

/-- The greatest value over a set covered by tiles is the greatest of the tiles' greatest values. -/
theorem sup_univ_of_cover {α : Type*} [SemilatticeSup α] [OrderBot α] (c : β → κ → ι)
    (hc : ∀ j, ∃ b k, c b k = j) (f : ι → α) :
    Finset.univ.sup f = Finset.univ.sup fun b => Finset.univ.sup fun k => f (c b k) := by
  refine eq_of_forall_ge_iff fun a => ?_
  simp only [Finset.sup_le_iff, Finset.mem_univ, forall_true_left]
  constructor
  · intro h b k; exact h _
  · intro h j; obtain ⟨b, k, rfl⟩ := hc j; exact h b k

/-- The sum over a set that the tiles partition is the sum of the tiles' sums. -/
theorem sum_univ_of_partition {M : Type*} [AddCommMonoid M] (c : β → κ → ι)
    (hc : Function.Bijective fun p : β × κ => c p.1 p.2) (f : ι → M) :
    ∑ j, f j = ∑ b, ∑ k, f (c b k) := by
  rw [← Fintype.sum_prod_type' fun b k => f (c b k)]
  exact (Fintype.sum_bijective (fun p : β × κ => c p.1 p.2) hc (fun p => f (c p.1 p.2)) f fun _ => rfl).symm

end Cover

section Fold
variable {α : Type*} [LinearOrder α] {m : ℕ}

/-- An accumulator that starts as the larger of `e` and the first tile's value and is raised by each later tile's value
(by `e` past the last tile) is, after the last tile, the least upper bound of `e` and all the tiles' values. -/
theorem foldMax_le_iff (e : α) (T : Fin (m + 1) → α) (acc : ℕ → α)
    (h0 : acc 0 = max e (T 0))
    (hs : ∀ b, acc (b + 1) = max (acc b) (if h : b + 1 < m + 1 then T ⟨b + 1, h⟩ else e)) (a : α) :
    acc m ≤ a ↔ e ≤ a ∧ ∀ b, T b ≤ a := by
  have key : ∀ n, acc n ≤ a ↔ e ≤ a ∧ ∀ b : Fin (m + 1), b.val ≤ n → T b ≤ a := by
    intro n
    induction n with
    | zero =>
      rw [h0, max_le_iff]
      refine and_congr_right fun _ => ⟨fun h b hb => ?_, fun h => h 0 (le_refl _)⟩
      have hb0 : b = 0 := Fin.ext (by simpa using hb)
      rw [hb0]; exact h
    | succ n ih =>
      rw [hs, max_le_iff, ih]
      constructor
      · rintro ⟨⟨he, h1⟩, h2⟩
        refine ⟨he, fun b hb => ?_⟩
        rcases Nat.lt_or_ge b.val (n + 1) with hlt | hge
        · exact h1 b (Nat.lt_succ_iff.mp hlt)
        · have hb' : b.val = n + 1 := le_antisymm hb hge
          have hlt : n + 1 < m + 1 := hb' ▸ b.isLt
          rw [dif_pos hlt] at h2
          have hbe : b = ⟨n + 1, hlt⟩ := Fin.ext hb'
          rw [hbe]; exact h2
      · rintro ⟨he, h⟩
        refine ⟨⟨he, fun b hb => h b (Nat.le_succ_of_le hb)⟩, ?_⟩
        by_cases hlt : n + 1 < m + 1
        · rw [dif_pos hlt]; exact h ⟨n + 1, hlt⟩ (le_refl _)
        · rw [dif_neg hlt]; exact he
  rw [key]
  exact and_congr_right fun _ => ⟨fun h b => h b (Nat.lt_succ_iff.mp b.isLt), fun h b _ => h b⟩

/-- An accumulator that starts as the smaller of `e` and the first tile's value and is lowered by each later tile's
value (by `e` past the last tile) is, after the last tile, the greatest lower bound of `e` and all the tiles' values. -/
theorem le_foldMin_iff (e : α) (T : Fin (m + 1) → α) (acc : ℕ → α)
    (h0 : acc 0 = min e (T 0))
    (hs : ∀ b, acc (b + 1) = min (acc b) (if h : b + 1 < m + 1 then T ⟨b + 1, h⟩ else e)) (a : α) :
    a ≤ acc m ↔ a ≤ e ∧ ∀ b, a ≤ T b := by
  have key : ∀ n, a ≤ acc n ↔ a ≤ e ∧ ∀ b : Fin (m + 1), b.val ≤ n → a ≤ T b := by
    intro n
    induction n with
    | zero =>
      rw [h0, le_min_iff]
      refine and_congr_right fun _ => ⟨fun h b hb => ?_, fun h => h 0 (le_refl _)⟩
      have hb0 : b = 0 := Fin.ext (by simpa using hb)
      rw [hb0]; exact h
    | succ n ih =>
      rw [hs, le_min_iff, ih]
      constructor
      · rintro ⟨⟨he, h1⟩, h2⟩
        refine ⟨he, fun b hb => ?_⟩
        rcases Nat.lt_or_ge b.val (n + 1) with hlt | hge
        · exact h1 b (Nat.lt_succ_iff.mp hlt)
        · have hb' : b.val = n + 1 := le_antisymm hb hge
          have hlt : n + 1 < m + 1 := hb' ▸ b.isLt
          rw [dif_pos hlt] at h2
          have hbe : b = ⟨n + 1, hlt⟩ := Fin.ext hb'
          rw [hbe]; exact h2
      · rintro ⟨he, h⟩
        refine ⟨⟨he, fun b hb => h b (Nat.le_succ_of_le hb)⟩, ?_⟩
        by_cases hlt : n + 1 < m + 1
        · rw [dif_pos hlt]; exact h ⟨n + 1, hlt⟩ (le_refl _)
        · rw [dif_neg hlt]; exact he
  rw [key]
  exact and_congr_right fun _ => ⟨fun h b => h b (Nat.lt_succ_iff.mp b.isLt), fun h b _ => h b⟩

end Fold

/-- An accumulator that starts as the first tile's value and grows by each later tile's value (by `0` past the last
tile) is, after the last tile, the sum of all the tiles' values. -/
theorem foldSum_eq {M : Type*} [AddCommMonoid M] {m : ℕ} (T : Fin (m + 1) → M) (acc : ℕ → M)
    (h0 : acc 0 = 0 + T 0)
    (hs : ∀ b, acc (b + 1) = acc b + (if h : b + 1 < m + 1 then T ⟨b + 1, h⟩ else 0)) :
    acc m = ∑ b, T b := by
  have key : ∀ n, acc n = ∑ b ∈ Finset.range (n + 1), (if h : b < m + 1 then T ⟨b, h⟩ else 0) := by
    intro n
    induction n with
    | zero =>
      rw [h0, zero_add, Finset.sum_range_one, dif_pos (Nat.succ_pos m)]
      exact congrArg T (Fin.ext rfl)
    | succ n ih => rw [hs, ih, Finset.sum_range_succ _ (n + 1)]
  rw [key, ← Fin.sum_univ_eq_sum_range (fun b => if h : b < m + 1 then T ⟨b, h⟩ else 0) (m + 1)]
  exact Finset.sum_congr rfl fun b _ => dif_pos b.isLt

end Cert.Lib
-- ==== Proof.SpecBridgeFolds.lean ====
/-
  The kernel form's tile-by-tile reductions are the reductions over all 8192 columns.

  Column j is position j % 1024 of tile j / 1024, so the eight tiles of 1024 columns partition the columns. Hence the
  two accumulators of the first pass end as the least positive term and the greatest negative term of the row, the two
  sums of the second pass as the sums over the row, and the two 0/1 flags as 1 exactly when some column of the row
  satisfies the flag's predicate.
-/
import proofs.«151531_j1219770712681_2_alg».proof.Proof.Spec
import proofs.«151531_j1219770712681_2_alg».proof.Proof.SpecBridgeConsts
import proofs.«151531_j1219770712681_2_alg».proof.Proof.LibTileFold

noncomputable section

namespace Cert.Spec

open Idealize.ShloMosaic
open scoped Classical

/-- The eight tiles of 1024 columns partition the 8192 columns. -/
theorem Ker.col_bijective : Function.Bijective fun p : Fin 8 × Fin 1024 => Ker.col p.1 p.2 := by
  constructor
  · rintro ⟨b, k⟩ ⟨b', k'⟩ h
    have h' : b.val * 1024 + k.val = b'.val * 1024 + k'.val := congrArg Fin.val h
    have hb : b.val = b'.val := by omega
    have hk : k.val = k'.val := by omega
    exact Prod.ext (Fin.ext hb) (Fin.ext hk)
  · intro j
    refine ⟨(⟨j.val / 1024, by omega⟩, ⟨j.val % 1024, Nat.mod_lt _ (by norm_num)⟩), Fin.ext ?_⟩
    show j.val / 1024 * 1024 + j.val % 1024 = j.val
    omega

/-- Every column lies in a tile. -/
theorem Ker.col_cover (j : Fin 8192) : ∃ b k, Ker.col b k = j := by
  obtain ⟨⟨b, k⟩, h⟩ := Ker.col_bijective.2 j
  exact ⟨b, k, h⟩

variable (x : Fin 8192 → Fin 192 → EReal) (lab : Fin 8192 → BitVec 32)

/-- The first pass's lower accumulator ends as the least positive term of the row. -/
theorem Ker.minPos_eq (i : Fin 8192) :
    Ker.minPos x lab i = Finset.univ.inf fun j => posTerm lab (Ker.S x) i j := by
  unfold Ker.minPos
  refine eq_of_forall_le_iff fun a => ?_
  rw [Cert.Lib.le_foldMin_iff (m := 7) ⊤
    (fun b => Finset.univ.inf fun k : Fin 1024 => posTerm lab (Ker.S x) i (Ker.col b k)) (Ker.accMin x lab i) rfl
    (fun _ => rfl) a, Cert.Lib.inf_univ_of_cover Ker.col Ker.col_cover]
  simp only [Finset.le_inf_iff, Finset.mem_univ, forall_true_left, le_top, true_and]

/-- The first pass's upper accumulator ends as the greatest negative term of the row. -/
theorem Ker.maxNeg_eq (i : Fin 8192) :
    Ker.maxNeg x lab i = Finset.univ.sup fun j => negTerm lab (Ker.S x) i j := by
  unfold Ker.maxNeg
  refine eq_of_forall_ge_iff fun a => ?_
  rw [Cert.Lib.foldMax_le_iff (m := 7) ⊥
    (fun b => Finset.univ.sup fun k : Fin 1024 => negTerm lab (Ker.S x) i (Ker.col b k)) (Ker.accMax x lab i) rfl
    (fun _ => rfl) a, Cert.Lib.sup_univ_of_cover Ker.col Ker.col_cover]
  simp only [Finset.sup_le_iff, Finset.mem_univ, forall_true_left, bot_le, true_and]

/-- The second pass's positive sum ends as the sum over the row. -/
theorem Ker.accPos_eq (i : Fin 8192) : Ker.accPos x lab i 7 = ∑ j, Ker.posVal x lab i j := by
  rw [Cert.Lib.foldSum_eq (m := 7) (fun b => 0 + ∑ k : Fin 1024, Ker.posVal x lab i (Ker.col b k))
    (Ker.accPos x lab i) rfl (fun _ => rfl), Cert.Lib.sum_univ_of_partition Ker.col Ker.col_bijective]
  simp only [zero_add]

/-- The second pass's negative sum ends as the sum over the row. -/
theorem Ker.accNeg_eq (i : Fin 8192) : Ker.accNeg x lab i 7 = ∑ j, Ker.negVal x lab i j := by
  rw [Cert.Lib.foldSum_eq (m := 7) (fun b => 0 + ∑ k : Fin 1024, Ker.negVal x lab i (Ker.col b k))
    (Ker.accNeg x lab i) rfl (fun _ => rfl), Cert.Lib.sum_univ_of_partition Ker.col Ker.col_bijective]
  simp only [zero_add]

/-- A tile's flag is 1 exactly when some column of the tile satisfies the predicate. -/
theorem Ker.flag_eq (Q : Fin 8192 → Prop) (b : Fin 8) :
    Ker.flag Q b = if ∃ k, Q (Ker.col b k) then 1 else 0 := by
  unfold Ker.flag
  have h : (0 : EReal) < max ⊥ (Finset.univ.sup fun k : Fin 1024 => if Q (Ker.col b k) then cOne else (0 : EReal)) ↔
      ∃ k, Q (Ker.col b k) := by
    rw [max_eq_right bot_le, Finset.lt_sup_iff]
    constructor
    · rintro ⟨k, _, hk⟩
      by_cases hQ : Q (Ker.col b k)
      · exact ⟨k, hQ⟩
      · rw [if_neg hQ] at hk; exact absurd hk (lt_irrefl _)
    · rintro ⟨k, hQ⟩
      refine ⟨k, Finset.mem_univ _, ?_⟩
      rw [if_pos hQ, cOne_eq]; exact zero_lt_one
  exact if_congr h rfl rfl

/-- A flag accumulator ends as 1 exactly when some column of the row satisfies the predicate. -/
theorem Ker.accHas_eq (Q : Fin 8192 → Prop) (acc : ℕ → EReal) (h0 : acc 0 = max 0 (Ker.flag Q 0))
    (hs : ∀ b, acc (b + 1) = max (acc b) (if h : b + 1 < 7 + 1 then Ker.flag Q ⟨b + 1, h⟩ else 0)) :
    acc 7 = if ∃ j, Q j then 1 else 0 := by
  refine eq_of_forall_ge_iff fun a => ?_
  rw [Cert.Lib.foldMax_le_iff (m := 7) 0 (Ker.flag Q) acc h0 hs a]
  by_cases hQ : ∃ j, Q j
  · rw [if_pos hQ]
    obtain ⟨j, hj⟩ := hQ
    obtain ⟨b, k, rfl⟩ := Ker.col_cover j
    constructor
    · rintro ⟨_, h⟩
      have hb := h b
      rwa [Ker.flag_eq, if_pos ⟨k, hj⟩] at hb
    · intro h
      refine ⟨le_trans zero_le_one h, fun b' => ?_⟩
      rw [Ker.flag_eq]
      by_cases hb' : ∃ k, Q (Ker.col b' k)
      · rw [if_pos hb']; exact h
      · rw [if_neg hb']; exact le_trans zero_le_one h
  · rw [if_neg hQ]
    constructor
    · exact fun h => h.1
    · intro h
      refine ⟨h, fun b => ?_⟩
      rw [Ker.flag_eq, if_neg (fun ⟨k, hk⟩ => hQ ⟨_, hk⟩)]; exact h

/-- The "some negative kept" flag of row i. -/
theorem Ker.accHasNeg_eq (i : Fin 8192) :
    Ker.accHasNeg x lab i 7 = if ∃ j, Ker.negKeep x lab i j then 1 else 0 :=
  Ker.accHas_eq (Ker.negKeep x lab i) (Ker.accHasNeg x lab i) rfl (fun _ => rfl)

/-- The "some positive kept" flag of row i. -/
theorem Ker.accHasPos_eq (i : Fin 8192) :
    Ker.accHasPos x lab i 7 = if ∃ j, Ker.posKeep x lab i j then 1 else 0 :=
  Ker.accHas_eq (Ker.posKeep x lab i) (Ker.accHasPos x lab i) rfl (fun _ => rfl)

end Cert.Spec

end
-- ==== Proof.LibERealCount.lean ====
/-
  Counting with extended-real 0/1 indicators.
-/
import proofs.«151531_j1219770712681_2_alg».proof.Proof.LibERealSum
import Mathlib.Algebra.BigOperators.Ring.Finset

namespace Cert.Lib

/-- The sum of the 0/1 indicators of a predicate over a finite set is the number of its elements that satisfy the
predicate, as the coercion of a natural number. -/
theorem ereal_sum_indicator {ι : Type*} (s : Finset ι) (p : ι → Prop) [DecidablePred p] :
    ∑ i ∈ s, (if p i then (1 : EReal) else 0) = (((s.filter p).card : ℝ) : EReal) := by
  have h : (∑ i ∈ s, if p i then (1 : ℝ) else 0) = ((s.filter p).card : ℝ) := Finset.sum_boole p s
  rw [← h, ereal_coe_sum]
  refine Finset.sum_congr rfl fun i _ => ?_
  by_cases hp : p i
  · rw [if_pos hp, if_pos hp, EReal.coe_one]
  · rw [if_neg hp, if_neg hp, EReal.coe_zero]

end Cert.Lib
-- ==== Proof.SpecBridge.lean ====
/-
  The kernel form and the reference form of the two results agree on a matrix of finite entries.

  Both forms have one normalised similarity S, the coercion of reals in [-1, 1]. So both exponents stay below the
  kernel's clamp at 40 (-2 (S - 1/2) ≤ 3 and 50 (S - 1/2) ≤ 25), the tile-by-tile reductions are the reductions over
  the whole row, and the 0/1 flags compared with 0 and with 1/2 say whether a column is kept. The count of rows with
  no kept negative is the sum of the 0/1 indicators.
-/
import proofs.«151531_j1219770712681_2_alg».proof.Proof.Spec
import proofs.«151531_j1219770712681_2_alg».proof.Proof.SpecBridgeConsts
import proofs.«151531_j1219770712681_2_alg».proof.Proof.SpecBridgeSim
import proofs.«151531_j1219770712681_2_alg».proof.Proof.SpecBridgeFolds
import proofs.«151531_j1219770712681_2_alg».proof.Proof.LibERealCount

noncomputable section

namespace Cert.Spec

open Idealize.ShloMosaic
open scoped Classical

/-- For t in [-1, 1] the positive exponent -2 (t - 1/2) is at most 3, below the clamp. -/
theorem clamp_pos (t : ℝ) (ht : |t| ≤ 1) :
    min (cM2 * ((t : EReal) - cHalf)) cForty = cM2 * ((t : EReal) - cHalf) := by
  rw [cM2_eq, cHalf_eq, cForty_eq, ← EReal.coe_sub, ← EReal.coe_mul]
  have h := abs_le.mp ht
  exact min_eq_left (EReal.coe_le_coe_iff.mpr (by linarith [h.1, h.2]))

/-- For t in [-1, 1] the negative exponent 50 (t - 1/2) is at most 25, below the clamp. -/
theorem clamp_neg (t : ℝ) (ht : |t| ≤ 1) :
    min (cFifty * ((t : EReal) - cHalf)) cForty = cFifty * ((t : EReal) - cHalf) := by
  rw [cFifty_eq, cHalf_eq, cForty_eq, ← EReal.coe_sub, ← EReal.coe_mul]
  have h := abs_le.mp ht
  exact min_eq_left (EReal.coe_le_coe_iff.mpr (by linarith [h.1, h.2]))

/-- A 0/1 indicator is positive exactly when its condition holds. -/
theorem zero_lt_indicator (p : Prop) [Decidable p] : (0 : EReal) < (if p then 1 else 0) ↔ p := by
  by_cases h : p
  · rw [if_pos h]; exact iff_of_true zero_lt_one h
  · rw [if_neg h]; exact iff_of_false (lt_irrefl _) h

/-- A 0/1 indicator is below 1/2 exactly when its condition fails. -/
theorem indicator_lt_half (p : Prop) [Decidable p] : (if p then (1 : EReal) else 0) < cHalf ↔ ¬ p := by
  rw [cHalf_eq]
  by_cases h : p
  · rw [if_pos h, ← EReal.coe_one, EReal.coe_lt_coe_iff]
    exact iff_of_false (by norm_num) (not_not.mpr h)
  · rw [if_neg h]
    exact iff_of_true (EReal.coe_pos.mpr (by norm_num)) h

theorem bridge (x : Fin 8192 → Fin 192 → EReal) (lab : Fin 8192 → BitVec 32) (hx : Cert.Spec.Finite x) :
    Cert.Spec.Ker.loss x lab = Cert.Spec.Ref.loss x lab ∧ Cert.Spec.Ker.prec1 x lab = Cert.Spec.Ref.prec1 x lab := by
  obtain ⟨s, hs1, hR, hK⟩ := S_real x hx
  have hS : Ker.S x = Ref.S x := by funext i j; rw [hK, hR]
  have hmin : ∀ i, Ker.minPos x lab i = Ref.minPos x lab i := fun i => by
    unfold Ref.minPos; rw [Ker.minPos_eq, hS]
  have hmax : ∀ i, Ker.maxNeg x lab i = Ref.maxNeg x lab i := fun i => by
    unfold Ref.maxNeg; rw [Ker.maxNeg_eq, hS]
  have hnk : ∀ i j, Ker.negKeep x lab i j ↔ Ref.negKeep x lab i j := fun i j => by
    unfold Ker.negKeep Ref.negKeep; rw [hmin, hS]
  have hpk : ∀ i j, Ker.posKeep x lab i j ↔ Ref.posKeep x lab i j := fun i j => by
    unfold Ker.posKeep Ref.posKeep; rw [hmax, hS]
  have hpv : ∀ i j, Ker.posVal x lab i j =
      if Ref.posKeep x lab i j then Ideal.exp (cM2 * (Ref.S x i j - cHalf)) else 0 := fun i j => by
    unfold Ker.posVal
    rw [hS, hR, clamp_pos (s i j) (hs1 i j)]
    exact if_congr (hpk i j) rfl rfl
  have hnv : ∀ i j, Ker.negVal x lab i j =
      if Ref.negKeep x lab i j then Ideal.exp (cFifty * (Ref.S x i j - cHalf)) else 0 := fun i j => by
    unfold Ker.negVal
    rw [hS, hR, clamp_neg (s i j) (hs1 i j)]
    exact if_congr (hnk i j) rfl rfl
  have hps : ∀ i, Ker.accPos x lab i 7 = Ref.posSum x lab i := fun i => by
    unfold Ref.posSum; rw [Ker.accPos_eq]; exact Finset.sum_congr rfl fun j _ => hpv i j
  have hns : ∀ i, Ker.accNeg x lab i 7 = Ref.negSum x lab i := fun i => by
    unfold Ref.negSum; rw [Ker.accNeg_eq]; exact Finset.sum_congr rfl fun j _ => hnv i j
  have hfn : ∀ i, Ker.accHasNeg x lab i 7 = if Ref.hasNeg x lab i then 1 else 0 := fun i => by
    rw [Ker.accHasNeg_eq]
    have h : (∃ j, Ker.negKeep x lab i j) ↔ Ref.hasNeg x lab i := exists_congr (hnk i)
    by_cases hh : Ref.hasNeg x lab i
    · rw [if_pos hh, if_pos (h.mpr hh)]
    · rw [if_neg hh, if_neg (fun hk => hh (h.mp hk))]
  have hfp : ∀ i, Ker.accHasPos x lab i 7 = if Ref.hasPos x lab i then 1 else 0 := fun i => by
    rw [Ker.accHasPos_eq]
    have h : (∃ j, Ker.posKeep x lab i j) ↔ Ref.hasPos x lab i := exists_congr (hpk i)
    by_cases hh : Ref.hasPos x lab i
    · rw [if_pos hh, if_pos (h.mpr hh)]
    · rw [if_neg hh, if_neg (fun hk => hh (h.mp hk))]
  have hrow : Ker.rowLoss x lab = Ref.rowLoss x lab := by
    funext i
    unfold Ker.rowLoss Ref.rowLoss
    rw [hps, hns, hfn, hfp]
    exact if_congr (and_congr (zero_lt_indicator _) (zero_lt_indicator _)) rfl rfl
  constructor
  · unfold Ker.loss Ref.loss
    rw [zero_add, hrow]
  · unfold Ker.prec1 Ref.prec1
    have hcount : ∑ i : Fin 8192, (if Ker.hasNegOut x lab i < cHalf then (1 : EReal) else 0) =
        (((Finset.univ.filter fun i : Fin 8192 => ¬ Ref.hasNeg x lab i).card : ℝ) : EReal) := by
      rw [← Cert.Lib.ereal_sum_indicator]
      refine Finset.sum_congr rfl fun i _ => ?_
      unfold Ker.hasNegOut
      rw [hfn]
      exact if_congr (indicator_lt_half _) rfl rfl
    rw [zero_add, hcount]

end Cert.Spec

end
-- ==== Proof.StatsPieces.lean ====
/-
  What the first kernel region's body leaves in each buffer, case by case, as the body's arithmetic of its loads:
  the least-positive accumulator ends at the minimum of what it held (the reset value at a first column tile) and
  the tile's row minimum, the greatest-negative accumulator likewise with the maximum; at a last column tile the
  outputs are the accumulators' new contents.
-/
import proofs.«151531_j1219770712681_2_alg».proof.Proof.StatsFrame
import Idealize.ShloMosaic.Lib.Pipeline.Value

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem canonMid0 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : ¬condLast i)
    (x0 : Vec F S512x192 .f32) (x1 : Vec F S1024x192 .f32) (x2 : Vec F S512x1 .i32) (x3 : Vec F S1x1024 .i32) (x4 : Vec F S512x1 .f32) (a0 a1 : Vec F S512x1 .f32) :
    View.canon (runMid (F := F) c i arg2 harg2 arg3 harg3 arg4 harg4 arg5 harg5 arg6 harg6 arg7 harg7 arg8 harg8 arg9 harg9 arg10 harg10 hc0 hc1 x0 x1 x2 x3 x4 a0 a1).1 = k0_pay1 (k0_pay8 x0 x1 x4 x2 x3 a0) := by
  unfold runMid
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

theorem canonMid1 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : ¬condLast i)
    (x0 : Vec F S512x192 .f32) (x1 : Vec F S1024x192 .f32) (x2 : Vec F S512x1 .i32) (x3 : Vec F S1x1024 .i32) (x4 : Vec F S512x1 .f32) (a0 a1 : Vec F S512x1 .f32) :
    View.canon (runMid (F := F) c i arg2 harg2 arg3 harg3 arg4 harg4 arg5 harg5 arg6 harg6 arg7 harg7 arg8 harg8 arg9 harg9 arg10 harg10 hc0 hc1 x0 x1 x2 x3 x4 a0 a1).2.1 = k0_pay2 (k0_pay7 x0 x1 x4 x2 x3) a1 := by
  unfold runMid
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

theorem canonFirst0 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : condFirst i) (hc1 : ¬condLast i)
    (x0 : Vec F S512x192 .f32) (x1 : Vec F S1024x192 .f32) (x2 : Vec F S512x1 .i32) (x3 : Vec F S1x1024 .i32) (x4 : Vec F S512x1 .f32) :
    View.canon (runFirst (F := F) c i arg2 harg2 arg3 harg3 arg4 harg4 arg5 harg5 arg6 harg6 arg7 harg7 arg8 harg8 arg9 harg9 arg10 harg10 hc0 hc1 x0 x1 x2 x3 x4).1 = k0_pay1 (k0_pay8 x0 x1 x4 x2 x3 (k0_pay3 (F := F))) := by
  unfold runFirst
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

theorem canonFirst1 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : condFirst i) (hc1 : ¬condLast i)
    (x0 : Vec F S512x192 .f32) (x1 : Vec F S1024x192 .f32) (x2 : Vec F S512x1 .i32) (x3 : Vec F S1x1024 .i32) (x4 : Vec F S512x1 .f32) :
    View.canon (runFirst (F := F) c i arg2 harg2 arg3 harg3 arg4 harg4 arg5 harg5 arg6 harg6 arg7 harg7 arg8 harg8 arg9 harg9 arg10 harg10 hc0 hc1 x0 x1 x2 x3 x4).2.1 = k0_pay2 (k0_pay7 x0 x1 x4 x2 x3) (k0_pay4 (F := F)) := by
  unfold runFirst
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

theorem canonLast0 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : condLast i)
    (x0 : Vec F S512x192 .f32) (x1 : Vec F S1024x192 .f32) (x2 : Vec F S512x1 .i32) (x3 : Vec F S1x1024 .i32) (x4 : Vec F S512x1 .f32) (a0 a1 : Vec F S512x1 .f32) :
    View.canon (runLast (F := F) c i arg2 harg2 arg3 harg3 arg4 harg4 arg5 harg5 arg6 harg6 arg7 harg7 arg8 harg8 arg9 harg9 arg10 harg10 hc0 hc1 x0 x1 x2 x3 x4 a0 a1).2.2.1 = k0_pay1 (k0_pay8 x0 x1 x4 x2 x3 a0) := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

theorem canonLast1 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : condLast i)
    (x0 : Vec F S512x192 .f32) (x1 : Vec F S1024x192 .f32) (x2 : Vec F S512x1 .i32) (x3 : Vec F S1x1024 .i32) (x4 : Vec F S512x1 .f32) (a0 a1 : Vec F S512x1 .f32) :
    View.canon (runLast (F := F) c i arg2 harg2 arg3 harg3 arg4 harg4 arg5 harg5 arg6 harg6 arg7 harg7 arg8 harg8 arg9 harg9 arg10 harg10 hc0 hc1 x0 x1 x2 x3 x4 a0 a1).2.2.2.1 = k0_pay2 (k0_pay7 x0 x1 x4 x2 x3) a1 := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

theorem canonLastO0 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : condLast i)
    (x0 : Vec F S512x192 .f32) (x1 : Vec F S1024x192 .f32) (x2 : Vec F S512x1 .i32) (x3 : Vec F S1x1024 .i32) (x4 : Vec F S512x1 .f32) (a0 a1 : Vec F S512x1 .f32) :
    View.canon (runLast (F := F) c i arg2 harg2 arg3 harg3 arg4 harg4 arg5 harg5 arg6 harg6 arg7 harg7 arg8 harg8 arg9 harg9 arg10 harg10 hc0 hc1 x0 x1 x2 x3 x4 a0 a1).1 = k0_pay1 (k0_pay8 x0 x1 x4 x2 x3 a0) := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

theorem canonLastO1 (c : Dev nD) (i : grid0.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬condFirst i) (hc1 : condLast i)
    (x0 : Vec F S512x192 .f32) (x1 : Vec F S1024x192 .f32) (x2 : Vec F S512x1 .i32) (x3 : Vec F S1x1024 .i32) (x4 : Vec F S512x1 .f32) (a0 a1 : Vec F S512x1 .f32) :
    View.canon (runLast (F := F) c i arg2 harg2 arg3 harg3 arg4 harg4 arg5 harg5 arg6 harg6 arg7 harg7 arg8 harg8 arg9 harg9 arg10 harg10 hc0 hc1 x0 x1 x2 x3 x4 a0 a1).2.1 = k0_pay2 (k0_pay7 x0 x1 x4 x2 x3) a1 := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread,
    View.ld_unit_zero (S := S512x192) hz, View.ld_unit_zero (S := S1024x192) hz, View.ld_unit_zero (S := S512x1) hz, View.ld_unit_zero (S := S1x1024) hz,
    View.readCov_unit_zero (S := S512x1) _ hz]

end Cert.KernelIdeal.Stats

end
-- ==== Proof.StatsPoint.lean ====
/-
  The first kernel region point by point: each accumulator after a point as the body's arithmetic of the point's input blocks and of what the point before left; the outputs at a last column tile are the accumulators' new contents.
-/
import proofs.«151531_j1219770712681_2_alg».proof.Proof.StatsPieces

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem acc0_first (c : Dev nD) (t : Fin cfg0.N) (h0 : t.val % 8 = 0) :
    (accAt V c t.val t.isLt).1 = k0_pay1 (k0_pay8 (iblk V c 0 t) (iblk V c 1 t) (iblk V c 4 t) (iblk V c 2 t) (iblk V c 3 t) (k0_pay3 (F := F))) := by
  have h1 : ¬t.val % 8 = 7 := by omega
  rw [accAt_first V c t h0 h1]
  dsimp only
  rw [View.read_writes_eq_canon _ _ _ (coverFirst0 V c t h0 h1)]
  exact canonFirst0 ..

theorem acc0_later (c : Dev nD) (t : Fin cfg0.N) (h0 : ¬t.val % 8 = 0) :
    (accAt V c t.val t.isLt).1 = k0_pay1 (k0_pay8 (iblk V c 0 t) (iblk V c 1 t) (iblk V c 4 t) (iblk V c 2 t) (iblk V c 3 t) (accBefore V c t).1) := by
  by_cases h1 : t.val % 8 = 7
  · rw [accAt_last V c t h0 h1]
    dsimp only
    rw [View.read_writes_eq_canon _ _ _ (coverLast0 V c t h0 h1 _ _)]
    exact canonLast0 ..
  · rw [accAt_mid V c t h0 h1]
    dsimp only
    rw [View.read_writes_eq_canon _ _ _ (coverMid0 V c t h0 h1 _ _)]
    exact canonMid0 ..

theorem acc1_first (c : Dev nD) (t : Fin cfg0.N) (h0 : t.val % 8 = 0) :
    (accAt V c t.val t.isLt).2 = k0_pay2 (k0_pay7 (iblk V c 0 t) (iblk V c 1 t) (iblk V c 4 t) (iblk V c 2 t) (iblk V c 3 t)) (k0_pay4 (F := F)) := by
  have h1 : ¬t.val % 8 = 7 := by omega
  rw [accAt_first V c t h0 h1]
  dsimp only
  rw [View.read_writes_eq_canon _ _ _ (coverFirst1 V c t h0 h1)]
  exact canonFirst1 ..

theorem acc1_later (c : Dev nD) (t : Fin cfg0.N) (h0 : ¬t.val % 8 = 0) :
    (accAt V c t.val t.isLt).2 = k0_pay2 (k0_pay7 (iblk V c 0 t) (iblk V c 1 t) (iblk V c 4 t) (iblk V c 2 t) (iblk V c 3 t)) (accBefore V c t).2 := by
  by_cases h1 : t.val % 8 = 7
  · rw [accAt_last V c t h0 h1]
    dsimp only
    rw [View.read_writes_eq_canon _ _ _ (coverLast1 V c t h0 h1 _ _)]
    exact canonLast1 ..
  · rw [accAt_mid V c t h0 h1]
    dsimp only
    rw [View.read_writes_eq_canon _ _ _ (coverMid1 V c t h0 h1 _ _)]
    exact canonMid1 ..

theorem out0_last (c : Dev nD) (t : Fin cfg0.N) (h1 : t.val % 8 = 7) :
    (outAt V c t).1 = k0_pay1 (k0_pay8 (iblk V c 0 t) (iblk V c 1 t) (iblk V c 4 t) (iblk V c 2 t) (iblk V c 3 t) (accBefore V c t).1) := by
  have h0 : ¬t.val % 8 = 0 := by omega
  rw [outAt_last V c t h0 h1]
  dsimp only
  rw [View.read_writes_eq_canon _ _ _ (coverLastO0 V c t h0 h1 _ _)]
  exact canonLastO0 ..

theorem out1_last (c : Dev nD) (t : Fin cfg0.N) (h1 : t.val % 8 = 7) :
    (outAt V c t).2 = k0_pay2 (k0_pay7 (iblk V c 0 t) (iblk V c 1 t) (iblk V c 4 t) (iblk V c 2 t) (iblk V c 3 t)) (accBefore V c t).2 := by
  have h0 : ¬t.val % 8 = 0 := by omega
  rw [outAt_last V c t h0 h1]
  dsimp only
  rw [View.read_writes_eq_canon _ _ _ (coverLastO1 V c t h0 h1 _ _)]
  exact canonLastO1 ..

end Cert.KernelIdeal.Stats

end
-- ==== Proof.StatsBlocks.lean ====
/-
  The first kernel region's blocks and output arrays, at any contents `V` of the core's buffers when the region
  is entered. Point t of the 16 x 8 grid is row tile t / 8 and column tile t % 8. A row-tile window's block at t is
  rows 512 (t / 8) … 512 (t / 8) + 511 of its array; a column-tile window's block is rows (of the row matrix) or
  columns (of the label row) 1024 (t % 8) … 1024 (t % 8) + 1023. Each output array is written back at the last
  column tile of every row tile, and those sixteen blocks of 512 rows tile its 8192 rows: row i ends holding row
  i % 512 of what point 8 (i / 512) + 7 stored.
-/
import proofs.«151531_j1219770712681_2_alg».proof.Proof.StatsBody
import Idealize.ShloMosaic.Lib.Pipeline.Value
import Idealize.ShloMosaic.Lib.ValueIdx

set_option maxRecDepth 16384

noncomputable section

namespace Cert.KernelIdeal.Stats

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The index maps, decided once over the grid -/

/-- Window 0 moves with the row tile. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- Window 1 moves with the column tile. -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
/-- Window 2 moves with the row tile. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
/-- Window 3 moves with the column tile. -/
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
/-- Window 4 moves with the row tile. -/
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
/-- Window 5 moves with the row tile. -/
theorem idx5 : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)
/-- Window 6 moves with the row tile. -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-! ## The rows and columns a point's blocks hold -/

theorem rowBound (t : Fin cfg0.N) (r : Fin 512) : 512 * (t.val / 8) + r.val < 8192 := by
  have hN : cfg0.N = 128 := N_0
  have := t.isLt; have := r.isLt; omega

theorem colBound (t : Fin cfg0.N) (k : Fin 1024) : 1024 * (t.val % 8) + k.val < 8192 := by
  have := k.isLt; omega

/-! ## Each input window's block, read off its array -/

/-- Window 0's block at point `t` is rows 512 (t / 8) … of the row matrix. -/
theorem iblk0_apply (c : Dev nD) (t : Fin cfg0.N) (r : Fin 512) (d : Fin 192) :
    (iblk V c 0 t : Vec F S512x192 .f32) (ix2 r d)
      = (V c main_v0 : S8192x192.Idx → Elt F .f32) (ix2 (⟨512 * (t.val / 8) + r.val, rowBound t r⟩ : Fin 8192) d) := by
  obtain ⟨h0, h1⟩ := idx0 t
  unfold iblk
  rw [View.read_apply]
  show V c main_v0 _ = V c main_v0 _
  refine congrArg _ ?_
  funext a
  apply Fin.ext
  match a with
  | ⟨0, _⟩ => show win0_0.index t (0 : Fin 2) * 512 + 1 * r.val = 512 * (t.val / 8) + r.val; rw [h0]; omega
  | ⟨1, _⟩ => show win0_0.index t (1 : Fin 2) * 192 + 1 * d.val = d.val; rw [h1]; omega

/-- Window 1's block at point `t` is rows 1024 (t % 8) … of the row matrix. -/
theorem iblk1_apply (c : Dev nD) (t : Fin cfg0.N) (k : Fin 1024) (d : Fin 192) :
    (iblk V c 1 t : Vec F S1024x192 .f32) (ix2 k d)
      = (V c main_v0 : S8192x192.Idx → Elt F .f32) (ix2 (⟨1024 * (t.val % 8) + k.val, colBound t k⟩ : Fin 8192) d) := by
  obtain ⟨h0, h1⟩ := idx1 t
  unfold iblk
  rw [View.read_apply]
  show V c main_v0 _ = V c main_v0 _
  refine congrArg _ ?_
  funext a
  apply Fin.ext
  match a with
  | ⟨0, _⟩ => show win0_1.index t (0 : Fin 2) * 1024 + 1 * k.val = 1024 * (t.val % 8) + k.val; rw [h0]; omega
  | ⟨1, _⟩ => show win0_1.index t (1 : Fin 2) * 192 + 1 * d.val = d.val; rw [h1]; omega

/-- Window 2's block at point `t` is the labels of rows 512 (t / 8) …, as a column. -/
theorem iblk2_apply (c : Dev nD) (t : Fin cfg0.N) (r : Fin 512) :
    (iblk V c 2 t : Vec F S512x1 .i32) (ix2 r (0 : Fin 1))
      = (V c main_v3 : S8192x1.Idx → Elt F .i32) (ix2 (⟨512 * (t.val / 8) + r.val, rowBound t r⟩ : Fin 8192) (0 : Fin 1)) := by
  obtain ⟨h0, h1⟩ := idx2 t
  unfold iblk
  rw [View.read_apply]
  show V c main_v3 _ = V c main_v3 _
  refine congrArg _ ?_
  funext a
  apply Fin.ext
  match a with
  | ⟨0, _⟩ => show win0_2.index t (0 : Fin 2) * 512 + 1 * r.val = 512 * (t.val / 8) + r.val; rw [h0]; omega
  | ⟨1, _⟩ => show win0_2.index t (1 : Fin 2) * 1 + 1 * 0 = 0; rw [h1]

/-- Window 3's block at point `t` is the labels of columns 1024 (t % 8) …, as a row. -/
theorem iblk3_apply (c : Dev nD) (t : Fin cfg0.N) (k : Fin 1024) :
    (iblk V c 3 t : Vec F S1x1024 .i32) (ix2 (0 : Fin 1) k)
      = (V c main_v4 : S1x8192.Idx → Elt F .i32) (ix2 (0 : Fin 1) (⟨1024 * (t.val % 8) + k.val, colBound t k⟩ : Fin 8192)) := by
  obtain ⟨h0, h1⟩ := idx3 t
  unfold iblk
  rw [View.read_apply]
  show V c main_v4 _ = V c main_v4 _
  refine congrArg _ ?_
  funext a
  apply Fin.ext
  match a with
  | ⟨0, _⟩ => show win0_3.index t (0 : Fin 2) * 1 + 1 * 0 = 0; rw [h0]
  | ⟨1, _⟩ => show win0_3.index t (1 : Fin 2) * 1024 + 1 * k.val = 1024 * (t.val % 8) + k.val; rw [h1]; omega

/-- Window 4's block at point `t` is the norms of rows 512 (t / 8) …, as a column. -/
theorem iblk4_apply (c : Dev nD) (t : Fin cfg0.N) (r : Fin 512) :
    (iblk V c 4 t : Vec F S512x1 .f32) (ix2 r (0 : Fin 1))
      = (V c main_v15 : S8192x1.Idx → Elt F .f32) (ix2 (⟨512 * (t.val / 8) + r.val, rowBound t r⟩ : Fin 8192) (0 : Fin 1)) := by
  obtain ⟨h0, h1⟩ := idx4 t
  unfold iblk
  rw [View.read_apply]
  show V c main_v15 _ = V c main_v15 _
  refine congrArg _ ?_
  funext a
  apply Fin.ext
  match a with
  | ⟨0, _⟩ => show win0_4.index t (0 : Fin 2) * 512 + 1 * r.val = 512 * (t.val / 8) + r.val; rw [h0]; omega
  | ⟨1, _⟩ => show win0_4.index t (1 : Fin 2) * 1 + 1 * 0 = 0; rw [h1]

/-! ## The output arrays after the region -/

/-- The last column tile of the row tile that holds row `n`. -/
theorem lastBound (n : ℕ) (h : n < 8192) : 8 * (n / 512) + 7 < cfg0.N := by
  have hN : cfg0.N = 128 := N_0
  omega

theorem modBound (n : ℕ) : n % 512 < 512 := Nat.mod_lt _ (by decide)

/-- What output array 0 ends holding: row `i` is row `i % 512` of what the last column tile of row tile
    `i / 512` stored. -/
def arrO0 (c : Dev nD) : S8192x1.Idx → Elt F .f32 := fun j =>
  ((outAt V c ⟨8 * ((j 0).val / 512) + 7, lastBound _ (j 0).isLt⟩).1 : Vec F S512x1 .f32)
    (ix2 (⟨(j 0).val % 512, modBound _⟩ : Fin 512) (0 : Fin 1))

/-- At a row of a last column tile's block it is that point's stored row. -/
theorem arrO0_at (c : Dev nD) (t : Fin cfg0.N) (h7 : t.val % 8 = 7) (y : S512x1.Idx) (j : S8192x1.Idx)
    (hj : (j 0).val = 512 * (t.val / 8) + (y 0).val) :
    arrO0 V c j = ((outAt V c t).1 : Vec F S512x1 .f32) y := by
  have hy0 : (y 0).val < 512 := (y 0).isLt
  have hy1 : (y 1).val < 1 := (y 1).isLt
  have e1 : (⟨8 * ((j 0).val / 512) + 7, lastBound _ (j 0).isLt⟩ : Fin cfg0.N) = t :=
    Fin.ext (by show 8 * ((j 0).val / 512) + 7 = t.val; omega)
  have e2 : (ix2 (⟨(j 0).val % 512, modBound _⟩ : Fin 512) (0 : Fin 1) : S512x1.Idx) = y := by
    funext a
    apply Fin.ext
    match a with
    | ⟨0, _⟩ => show (j 0).val % 512 = (y 0).val; omega
    | ⟨1, _⟩ => show 0 = (y 1).val; omega
  unfold arrO0
  rw [e1, e2]

/-- What a last column tile writes back is its block of that array: the block is not cut, and its row `y` is row
    512 (t / 8) + y of the array. -/
theorem flushed0_eq (c : Dev nD) (t : Fin cfg0.N) (hf : (cfg0.win 5).flush t = true) :
    (dat V c).flushed 5 t = ((cfg0.win 5).blk t).view.read (Elt F) (arrO0 V c) := by
  have h7 : t.val % 8 = 7 := (flush0_5 t).mp hf
  obtain ⟨h0, h1⟩ := idx5 t
  show (cfg0.win 5).cut (grid0.coords t) ((dat V c).after 5 t) = _
  rw [afterO0]
  funext y
  rw [View.read_apply]
  show ((outAt V c t).1 : Vec F S512x1 .f32) y = arrO0 V c (((cfg0.win 5).blk t).view.emb y)
  refine (arrO0_at V c t h7 y _ ?_).symm
  show win0_5.index t (0 : Fin 2) * 512 + 1 * (y 0).val = 512 * (t.val / 8) + (y 0).val
  rw [h0]; omega

/-- Every row of the array is in the block of the last column tile of its row tile. -/
theorem cover0 (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ : ∃ t : Fin cfg0.N, t.val = 8 * ((i 0).val / 512) + 7 := ⟨⟨_, lastBound _ hi0⟩, rfl⟩
  obtain ⟨h0, h1⟩ := idx5 t
  refine ⟨t, (flush0_5 t).mpr (by omega), ?_⟩
  show i ∈ ((View.whole main_v16_0).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [h0]; omega
  | ⟨1, _⟩ =>
    show win0_5.index t (1 : Fin 2) * 1 ≤ (i 1).val ∧ (i 1).val < win0_5.index t (1 : Fin 2) * 1 + 1
    rw [h1]; omega

/-- Output array 0 after the region. -/
theorem arrO0_eq (c : Dev nD) : (dat V c).arrAt 5 cfg0.N = arrO0 V c :=
  (dat V c).arrAt_eq_of_cover 5 (arrO0 V c) (flushed0_eq V c) cover0

/-- Row `i` of output array 0 after the region: row `i % 512` of what point 8 (i / 512) + 7 stored. -/
theorem arr0_apply (c : Dev nD) (i : Fin 8192) :
    ((dat V c).arrAt 5 cfg0.N : S8192x1.Idx → Elt F .f32) (ix2 i (0 : Fin 1))
      = ((outAt V c ⟨8 * (i.val / 512) + 7, lastBound _ i.isLt⟩).1 : Vec F S512x1 .f32)
          (ix2 (⟨i.val % 512, modBound _⟩ : Fin 512) (0 : Fin 1)) := by
  rw [arrO0_eq]
  rfl

/-- What output array 1 ends holding: row `i` is row `i % 512` of what the last column tile of row tile
    `i / 512` stored. -/
def arrO1 (c : Dev nD) : S8192x1.Idx → Elt F .f32 := fun j =>
  ((outAt V c ⟨8 * ((j 0).val / 512) + 7, lastBound _ (j 0).isLt⟩).2 : Vec F S512x1 .f32)
    (ix2 (⟨(j 0).val % 512, modBound _⟩ : Fin 512) (0 : Fin 1))

/-- At a row of a last column tile's block it is that point's stored row. -/
theorem arrO1_at (c : Dev nD) (t : Fin cfg0.N) (h7 : t.val % 8 = 7) (y : S512x1.Idx) (j : S8192x1.Idx)
    (hj : (j 0).val = 512 * (t.val / 8) + (y 0).val) :
    arrO1 V c j = ((outAt V c t).2 : Vec F S512x1 .f32) y := by
  have hy0 : (y 0).val < 512 := (y 0).isLt
  have hy1 : (y 1).val < 1 := (y 1).isLt
  have e1 : (⟨8 * ((j 0).val / 512) + 7, lastBound _ (j 0).isLt⟩ : Fin cfg0.N) = t :=
    Fin.ext (by show 8 * ((j 0).val / 512) + 7 = t.val; omega)
  have e2 : (ix2 (⟨(j 0).val % 512, modBound _⟩ : Fin 512) (0 : Fin 1) : S512x1.Idx) = y := by
    funext a
    apply Fin.ext
    match a with
    | ⟨0, _⟩ => show (j 0).val % 512 = (y 0).val; omega
    | ⟨1, _⟩ => show 0 = (y 1).val; omega
  unfold arrO1
  rw [e1, e2]

/-- What a last column tile writes back is its block of that array: the block is not cut, and its row `y` is row
    512 (t / 8) + y of the array. -/
theorem flushed1_eq (c : Dev nD) (t : Fin cfg0.N) (hf : (cfg0.win 6).flush t = true) :
    (dat V c).flushed 6 t = ((cfg0.win 6).blk t).view.read (Elt F) (arrO1 V c) := by
  have h7 : t.val % 8 = 7 := (flush0_6 t).mp hf
  obtain ⟨h0, h1⟩ := idx6 t
  show (cfg0.win 6).cut (grid0.coords t) ((dat V c).after 6 t) = _
  rw [afterO1]
  funext y
  rw [View.read_apply]
  show ((outAt V c t).2 : Vec F S512x1 .f32) y = arrO1 V c (((cfg0.win 6).blk t).view.emb y)
  refine (arrO1_at V c t h7 y _ ?_).symm
  show win0_6.index t (0 : Fin 2) * 512 + 1 * (y 0).val = 512 * (t.val / 8) + (y 0).val
  rw [h0]; omega

/-- Every row of the array is in the block of the last column tile of its row tile. -/
theorem cover1 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  obtain ⟨t, ht⟩ : ∃ t : Fin cfg0.N, t.val = 8 * ((i 0).val / 512) + 7 := ⟨⟨_, lastBound _ hi0⟩, rfl⟩
  obtain ⟨h0, h1⟩ := idx6 t
  refine ⟨t, (flush0_6 t).mpr (by omega), ?_⟩
  show i ∈ ((View.whole main_v16_1).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [h0]; omega
  | ⟨1, _⟩ =>
    show win0_6.index t (1 : Fin 2) * 1 ≤ (i 1).val ∧ (i 1).val < win0_6.index t (1 : Fin 2) * 1 + 1
    rw [h1]; omega

/-- Output array 1 after the region. -/
theorem arrO1_eq (c : Dev nD) : (dat V c).arrAt 6 cfg0.N = arrO1 V c :=
  (dat V c).arrAt_eq_of_cover 6 (arrO1 V c) (flushed1_eq V c) cover1

/-- Row `i` of output array 1 after the region: row `i % 512` of what point 8 (i / 512) + 7 stored. -/
theorem arr1_apply (c : Dev nD) (i : Fin 8192) :
    ((dat V c).arrAt 6 cfg0.N : S8192x1.Idx → Elt F .f32) (ix2 i (0 : Fin 1))
      = ((outAt V c ⟨8 * (i.val / 512) + 7, lastBound _ i.isLt⟩).2 : Vec F S512x1 .f32)
          (ix2 (⟨i.val % 512, modBound _⟩ : Fin 512) (0 : Fin 1)) := by
  rw [arrO1_eq]
  rfl

end Cert.KernelIdeal.Stats

end
-- ==== Proof.SpecTile.lean ====
/-
  One tile of the kernel's computation, as functions of the blocks a grid point reads: 512 rows against 1024 columns.
  `xq`, `lq`, `nq` are the row tile's rows, labels and norms, `xk`, `lk` the column tile's rows and labels; in the
  second pass `mp`, `mn` are the rows' least positive and greatest negative similarity from the first pass.
-/
import proofs.«151531_j1219770712681_2_alg».proof.Proof.Spec

noncomputable section

namespace Cert.Spec.Tile

open Idealize.ShloMosaic
open scoped Classical

variable (xq : Fin 512 → Fin 192 → EReal) (xk : Fin 1024 → Fin 192 → EReal) (lq : Fin 512 → BitVec 32) (lk : Fin 1024 → BitVec 32)
  (nq : Fin 512 → EReal)

/-- The normalised similarity of row r and column k of the tile: the inner product times the reciprocal of the row's norm. -/
def S (r : Fin 512) (k : Fin 1024) : EReal := (∑ d : Fin 192, xq r d * xk k d) * Ideal.div cOne (nq r)
def pos (r : Fin 512) (k : Fin 1024) : Prop := lq r = lk k ∧ S xq xk nq r k < cCut
def neg (r : Fin 512) (k : Fin 1024) : Prop := ¬ lq r = lk k
/-- The first pass's two row reductions over the tile. -/
def tileMin (r : Fin 512) : EReal := Finset.univ.inf fun k : Fin 1024 => if pos xq xk lq lk nq r k then S xq xk nq r k else ⊤
def tileMax (r : Fin 512) : EReal := Finset.univ.sup fun k : Fin 1024 => if neg lq lk r k then S xq xk nq r k else ⊥

variable (mp mn : Fin 512 → EReal)

def negKeep (r : Fin 512) (k : Fin 1024) : Prop := neg lq lk r k ∧ mp r - cMargin < S xq xk nq r k
def posKeep (r : Fin 512) (k : Fin 1024) : Prop := pos xq xk lq lk nq r k ∧ S xq xk nq r k < mn r + cMargin
def posVal (r : Fin 512) (k : Fin 1024) : EReal :=
  if posKeep xq xk lq lk nq mn r k then Ideal.exp (min (cM2 * (S xq xk nq r k - cHalf)) cForty) else 0
def negVal (r : Fin 512) (k : Fin 1024) : EReal :=
  if negKeep xq xk lq lk nq mp r k then Ideal.exp (min (cFifty * (S xq xk nq r k - cHalf)) cForty) else 0
/-- The second pass's four row reductions over the tile. -/
def tilePos (r : Fin 512) : EReal := ∑ k : Fin 1024, posVal xq xk lq lk nq mn r k
def tileNeg (r : Fin 512) : EReal := ∑ k : Fin 1024, negVal xq xk lq lk nq mp r k
def flagNeg (r : Fin 512) : EReal :=
  if (0 : EReal) < Finset.univ.sup (fun k : Fin 1024 => if negKeep xq xk lq lk nq mp r k then cOne else (0 : EReal)) then 1 else 0
def flagPos (r : Fin 512) : EReal :=
  if (0 : EReal) < Finset.univ.sup (fun k : Fin 1024 => if posKeep xq xk lq lk nq mn r k then cOne else (0 : EReal)) then 1 else 0

/-- The row loss from the four accumulators' final values. -/
def rowLoss (aP aN aHN aHP : EReal) : EReal :=
  if (0 : EReal) < aHN ∧ (0 : EReal) < aHP then cHalf * Ideal.log1p aP + cC02 * Ideal.log1p aN else 0

end Cert.Spec.Tile

end
-- ==== Proof.KerPayBase.lean ====
/-
  The blocks a grid point reads, as functions of row and column numbers, and the operations of the kernel bodies that are
  not pointwise, read at an index: a column of 512 values viewed as a 512 x 1 array, a 512 x 1 array repeated along 1024
  columns, the minimum, maximum and sum of each row of a 512 x 1024 array, and the product of a 512 x 192 array with the
  transpose of a 1024 x 192 array.
-/
import proofs.«151531_j1219770712681_2_alg».proof.Proof.Gen.KernelIdeal.Skeleton
import proofs.«151531_j1219770712681_2_alg».proof.Proof.SpecTile
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The blocks as functions of row and column numbers -/

/-- The row block's rows. -/
abbrev xq (x0 : Vec Ideal S512x192 .f32) : Fin 512 → Fin 192 → EReal := fun r d => x0 (ix2 r d)
/-- The column block's rows. -/
abbrev xk (x1 : Vec Ideal S1024x192 .f32) : Fin 1024 → Fin 192 → EReal := fun k d => x1 (ix2 k d)
/-- The row block's labels. -/
abbrev lq (x2 : Vec Ideal S512x1 .i32) : Fin 512 → BitVec 32 := fun r => x2 (ix2 r (0 : Fin 1))
/-- The column block's labels. -/
abbrev lk (x3 : Vec Ideal S1x1024 .i32) : Fin 1024 → BitVec 32 := fun k => x3 (ix2 (0 : Fin 1) k)
/-- The row block's norms. -/
abbrev nq (x4 : Vec Ideal S512x1 .f32) : Fin 512 → EReal := fun r => x4 (ix2 r (0 : Fin 1))
/-- The row block's least positive similarities. -/
abbrev mp (x5 : Vec Ideal S512x1 .f32) : Fin 512 → EReal := fun r => x5 (ix2 r (0 : Fin 1))
/-- The row block's greatest negative similarities. -/
abbrev mn (x6 : Vec Ideal S512x1 .f32) : Fin 512 → EReal := fun r => x6 (ix2 r (0 : Fin 1))

/-! ## Layout operations at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Row reductions of a 512 x 1024 array at an index -/

/-- Row `r` with column `k` put back is the index `(r, k)`. -/
theorem lift_row (h : S512x1024.Reduces [1] S512) (r : Fin 512) (k : Fin 1024) : h.lift (ix1 r) k = ix2 r k :=
  funext fun a => Fin.ext (by match a with | ⟨0, _⟩ => rfl | ⟨1, _⟩ => rfl)

/-- The word of positive infinity denotes the top element. -/
theorem ofBits_posInf : Ideal.ofBits .f32 0x7F800000#32 = ⊤ := by simp [Ideal.ofBits, Ideal.ieee]
/-- The word of negative infinity denotes the bottom element. -/
theorem ofBits_negInf : Ideal.ofBits .f32 0xFF800000#32 = ⊥ := by simp [Ideal.ofBits, Ideal.ieee]

/-- A row sum: the sum over the row's 1024 columns. -/
theorem rowSum_apply (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 1024, src (ix2 r k) :=
  (Ideal.multiReduction_add_single src _ h hφ hacc (ix1 r)).trans
    (Finset.sum_congr rfl fun k _ => congrArg src (lift_row h r k))

/-- A row maximum from negative infinity: the greatest of the row's 1024 entries. -/
theorem rowMax_apply (src : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = Finset.univ.sup fun k : Fin 1024 => src (ix2 r k) := by
  refine (Ideal.multiReduction_maximumf_single src _ h hφ hacc (ix1 r)).trans ?_
  refine eq_of_forall_ge_iff fun c => ?_
  rw [Finset.fold_max_le, Finset.sup_le_iff]
  have e : ∀ k : Fin 1024, src (h.lift (ix1 r) k) = src (ix2 r k) := fun k => congrArg src (lift_row h r k)
  constructor
  · rintro ⟨_, hk⟩ k _
    exact (e k).symm.trans_le (hk k (Finset.mem_univ _))
  · intro hk
    refine ⟨?_, fun k _ => ?_⟩
    · show Ideal.ofBits .f32 0xFF800000#32 ≤ c
      rw [ofBits_negInf]; exact bot_le
    · exact (e k).trans_le (hk k (Finset.mem_univ _))

/-- A row minimum from positive infinity: the least of the row's 1024 entries. -/
theorem rowMin_apply (src : FVec Ideal S512x1024 .f32) (h : S512x1024.Reduces [1] S512) (hφ : FKind.Formats .f32)
    (hacc : (0x7F800000#32 : BitVec 32) = FKind.minimumf.neutral .f32 hφ) (r : Fin 512) :
    multiReduction .minimumf [1] S512 src 0x7F800000#32 h hφ hacc (ix1 r)
      = Finset.univ.inf fun k : Fin 1024 => src (ix2 r k) := by
  refine (multiReduction_minimumf_eq_fold src _ h hφ hacc (ix1 r)).trans ?_
  refine (h.fold_filter_drop_single _ _ src (ix1 r)).trans ?_
  show Finset.fold min (Ideal.ofBits .f32 0x7F800000#32) (src ∘ h.lift (ix1 r)) Finset.univ = _
  refine eq_of_forall_le_iff fun c => ?_
  rw [Finset.le_fold_min, Finset.le_inf_iff]
  have e : ∀ k : Fin 1024, src (h.lift (ix1 r) k) = src (ix2 r k) := fun k => congrArg src (lift_row h r k)
  constructor
  · rintro ⟨_, hk⟩ k _
    exact (hk k (Finset.mem_univ _)).trans_eq (e k)
  · intro hk
    refine ⟨?_, fun k _ => ?_⟩
    · rw [ofBits_posInf]; exact le_top
    · exact (hk k (Finset.mem_univ _)).trans_eq (e k).symm

/-! ## The product with the transposed column block at an index -/

/-- The first operand's index has the output's row … -/
theorem lhs_row (j : S512x1024.Idx) (q : dot_S512x192_S1024x192_S512x1024_1_1_0_0_n_n.contr.Idx) : (dot_S512x192_S1024x192_S512x1024_1_1_0_0_n_n.lhsIdx j q 0).val = (j 0).val := by
  unfold DotDims.lhsIdx
  rw [dif_neg (show ¬(0 : Fin S512x192.rank) ∈ dot_S512x192_S1024x192_S512x1024_1_1_0_0_n_n.lhsBatch by decide), dif_pos (show (0 : Fin S512x192.rank) ∈ dot_S512x192_S1024x192_S512x1024_1_1_0_0_n_n.lhsNonContracting by decide)]
  rfl
/-- … and the contraction's coordinate. -/
theorem lhs_contr (j : S512x1024.Idx) (q : dot_S512x192_S1024x192_S512x1024_1_1_0_0_n_n.contr.Idx) : (dot_S512x192_S1024x192_S512x1024_1_1_0_0_n_n.lhsIdx j q 1).val = (q ⟨0, by decide⟩).val :=
  dot_S512x192_S1024x192_S512x1024_1_1_0_0_n_n.lhsIdx_val_of_single rfl j q
/-- The second operand's index has the output's column as its row … -/
theorem rhs_row (j : S512x1024.Idx) (q : dot_S512x192_S1024x192_S512x1024_1_1_0_0_n_n.contr.Idx) : (dot_S512x192_S1024x192_S512x1024_1_1_0_0_n_n.rhsIdx j q 0).val = (j 1).val := by
  unfold DotDims.rhsIdx
  rw [dif_neg (show ¬(0 : Fin S1024x192.rank) ∈ dot_S512x192_S1024x192_S512x1024_1_1_0_0_n_n.rhsBatch by decide), dif_pos (show (0 : Fin S1024x192.rank) ∈ dot_S512x192_S1024x192_S512x1024_1_1_0_0_n_n.rhsNonContracting by decide)]
  rfl
/-- … and the contraction's coordinate. -/
theorem rhs_contr (j : S512x1024.Idx) (q : dot_S512x192_S1024x192_S512x1024_1_1_0_0_n_n.contr.Idx) : (dot_S512x192_S1024x192_S512x1024_1_1_0_0_n_n.rhsIdx j q 1).val = (q ⟨0, by decide⟩).val :=
  dot_S512x192_S1024x192_S512x1024_1_1_0_0_n_n.rhsIdx_val_of_single rfl j q

/-- Entry `(r, k)` of the product accumulated into zero is the inner product of row `r` and row `k`. -/
theorem matmul_apply (A : FVec Ideal S512x192 .f32) (B : FVec Ideal S1024x192 .f32) (r : Fin 512) (k : Fin 1024) :
    matmul dot_S512x192_S1024x192_S512x1024_1_1_0_0_n_n none A B (constant (F := Ideal) S512x1024 .f32 0x00000000#32) (ix2 r k)
      = ∑ d : Fin 192, A (ix2 r d) * B (ix2 k d) := by
  simp only [matmul]
  rw [Ideal.matmul_constant_zero_apply, ← Equiv.sum_comp (contrEquiv1 dot_S512x192_S1024x192_S512x1024_1_1_0_0_n_n 192 rfl rfl).symm]
  refine Finset.sum_congr rfl fun d _ => ?_
  have hd := contrEquiv1_symm_val dot_S512x192_S1024x192_S512x1024_1_1_0_0_n_n 192 rfl rfl d
  have el : dot_S512x192_S1024x192_S512x1024_1_1_0_0_n_n.lhsIdx (ix2 r k) ((contrEquiv1 dot_S512x192_S1024x192_S512x1024_1_1_0_0_n_n 192 rfl rfl).symm d) = ix2 r d := funext fun a => Fin.ext (by
    match a with
    | ⟨0, _⟩ => exact lhs_row _ _
    | ⟨1, _⟩ => exact (lhs_contr _ _).trans hd)
  have er : dot_S512x192_S1024x192_S512x1024_1_1_0_0_n_n.rhsIdx (ix2 r k) ((contrEquiv1 dot_S512x192_S1024x192_S512x1024_1_1_0_0_n_n 192 rfl rfl).symm d) = ix2 k d := funext fun a => Fin.ext (by
    match a with
    | ⟨0, _⟩ => exact rhs_row _ _
    | ⟨1, _⟩ => exact (rhs_contr _ _).trans hd)
  rw [el, er]

end Cert.KernelIdeal.Pay

end
-- ==== Proof.KerPayTile.lean ====
/-
  The two arrays every row reduction of the kernel bodies is taken over, read at an index: the normalised similarity of
  row r of the row block and row k of the column block, and the bit "the two rows carry one label"; and how one-bit
  comparisons, conjunctions, negations and selections read as propositions and conditionals.
-/
import proofs.«151531_j1219770712681_2_alg».proof.Proof.KerPayBase

noncomputable section

namespace Cert.KernelIdeal.Pay

open Idealize.ShloMosaic Idealize.ShloMosaic.ValueIdx Cert.KernelIdeal Cert.KernelIdeal.Gen
open Cert.Spec

/-! ## Bits as propositions -/

/-- The equality bit of two words is set exactly when they are equal. -/
theorem cmpi_eq_one (a b : BitVec 32) : IntOp.cmpi .eq a b = 1#1 ↔ a = b := by
  show BitVec.ofBool (a == b) = 1#1 ↔ a = b
  by_cases h : a = b
  · have hb : (a == b) = true := beq_iff_eq.mpr h
    rw [hb]; exact iff_of_true rfl h
  · have hb : (a == b) = false := beq_eq_false_iff_ne.mpr h
    rw [hb]; exact iff_of_false (by decide) h

/-- The "less than" bit of two extended reals is set exactly when the first is below the second. -/
theorem cmp_olt_one (x y : EReal) : Ideal.cmp .olt x y = 1#1 ↔ x < y := by
  unfold Ideal.cmp
  by_cases h : x < y
  · simp [h]
  · simp [h]

/-- The "greater than" bit of two extended reals is set exactly when the second is below the first. -/
theorem cmp_ogt_one (x y : EReal) : Ideal.cmp .ogt x y = 1#1 ↔ y < x := by
  unfold Ideal.cmp
  by_cases h : y < x
  · simp [h]
  · simp [h]

/-- A conjunction of bits is set exactly when both are. -/
theorem andi_one (c d : BitVec 1) : IntOp.andi c d = 1#1 ↔ c = 1#1 ∧ d = 1#1 := by
  revert c d; decide

/-- A bit flipped is set exactly when it was not. -/
theorem xori_one (c : BitVec 1) : IntOp.xori c 1#1 = 1#1 ↔ ¬ c = 1#1 := by
  revert c; decide

/-- A selection on a bit that is set exactly when `P` holds is the conditional on `P`, whatever decides `P`. -/
theorem select_eq_ite {α : Type} {m : BitVec 1} {P : Prop} {inst : Decidable P} (h : m = 1#1 ↔ P) {a a' b b' : α}
    (ha : a = a') (hb : b = b') : Scalar.select m a b = @ite α P inst a' b' := by
  subst ha; subst hb
  unfold Scalar.select
  by_cases hP : P
  · rw [if_pos hP]; exact if_pos (h.mpr hP)
  · rw [if_neg hP]; exact if_neg (fun hm => hP (h.mp hm))

/-! ## The similarity and the label bit at an index -/

/-- The similarity payload of the first body at `(r, k)`. -/
theorem k0_sim_apply (x0 : Vec Ideal S512x192 .f32) (x1 : Vec Ideal S1024x192 .f32) (x4 : Vec Ideal S512x1 .f32)
    (r : Fin 512) (k : Fin 1024) :
    k0_pay5 (F := Ideal) x0 x1 x4 (ix2 r k) = Tile.S (xq x0) (xk x1) (nq x4) r k := by
  show (matmul dot_S512x192_S1024x192_S512x1024_1_1_0_0_n_n none (shapeCast S512x192 x0 shapeCasts_S512x192_S512x192)
      (shapeCast S1024x192 x1 shapeCasts_S1024x192_S1024x192) (constant (F := Ideal) S512x1024 .f32 0x00000000#32) (ix2 r k))
    * (broadcastTo S512x1024 (divf (broadcast S512x1 (Scalar.ofBits (F := Ideal) .f32 0x3F800000#32))
        (shapeCast S512x1 x4 shapeCasts_S512x1_S512x1)) broadcasts_S512x1_S512x1024 (ix2 r k)) = _
  rw [shapeCast_self, shapeCast_self, shapeCast_self, matmul_apply, broadcastTo_a1_ab_apply]
  rfl

/-- The similarity payload of the second body is the first body's. -/
theorem k1_sim_apply (x0 : Vec Ideal S512x192 .f32) (x1 : Vec Ideal S1024x192 .f32) (x4 : Vec Ideal S512x1 .f32)
    (r : Fin 512) (k : Fin 1024) :
    k1_pay8 (F := Ideal) x0 x1 x4 (ix2 r k) = Tile.S (xq x0) (xk x1) (nq x4) r k :=
  k0_sim_apply x0 x1 x4 r k

/-- The label bit of the first body at `(r, k)`. -/
theorem k0_label_apply (x2 : Vec Ideal S512x1 .i32) (x3 : Vec Ideal S1x1024 .i32) (r : Fin 512) (k : Fin 1024) :
    k0_pay6 (F := Ideal) x2 x3 (ix2 r k) = IntOp.cmpi .eq (lq x2 r) (lk x3 k) := by
  show IntOp.cmpi .eq
      (broadcastTo S512x1024 (shapeCast S512x1 x2 shapeCasts_S512x1_S512x1) broadcasts_S512x1_S512x1024 (ix2 r k))
      (broadcastTo S512x1024 (shapeCast S1x1024 x3 shapeCasts_S1x1024_S1x1024) broadcasts_S1x1024_S512x1024 (ix2 r k)) = _
  rw [shapeCast_self, shapeCast_self, broadcastTo_a1_ab_apply, broadcastTo_1b_ab_apply]

/-- The label bit of the second body is the first body's. -/
theorem k1_label_apply (x2 : Vec Ideal S512x1 .i32) (x3 : Vec Ideal S1x1024 .i32) (r : Fin 512) (k : Fin 1024) :
    k1_pay9 (F := Ideal) x2 x3 (ix2 r k) = IntOp.cmpi .eq (lq x2 r) (lk x3 k) :=
  k0_label_apply x2 x3 r k

end Cert.KernelIdeal.Pay

end
-- ==== Proof.KerPayStats.lean ====
/-
  What the first kernel body stores, at row r of its 512 x 1 blocks: the two resets write the top and the bottom
  element, and the two updates lower the first accumulator by the tile's least positive similarity and raise the second
  by the tile's greatest negative similarity.
-/
import proofs.«151531_j1219770712681_2_alg».proof.Proof.KerPayTile

noncomputable section

namespace Cert.KernelIdeal.Pay

open Idealize.ShloMosaic Idealize.ShloMosaic.ValueIdx Cert.KernelIdeal Cert.KernelIdeal.Gen
open Cert.Spec

/-- The reset of the lower accumulator writes the top element. -/
theorem k0_resetMin_apply (r : Fin 512) : k0_pay3 (F := Ideal) (ix2 r (0 : Fin 1)) = ⊤ := by
  show shapeCast S512x1 (broadcast S512x1 (Scalar.ofBits (F := Ideal) .f32 0x7F800000#32)) shapeCasts_S512x1_S512x1
    (ix2 r (0 : Fin 1)) = _
  rw [shapeCast_self]
  exact ofBits_posInf

/-- The reset of the upper accumulator writes the bottom element. -/
theorem k0_resetMax_apply (r : Fin 512) : k0_pay4 (F := Ideal) (ix2 r (0 : Fin 1)) = ⊥ := by
  show shapeCast S512x1 (broadcast S512x1 (Scalar.ofBits (F := Ideal) .f32 0xFF800000#32)) shapeCasts_S512x1_S512x1
    (ix2 r (0 : Fin 1)) = _
  rw [shapeCast_self]
  exact ofBits_negInf

/-- The positive mask of the first body at `(r, k)`: same label and similarity below the cut-off. -/
theorem k0_posMask_iff (x0 : Vec Ideal S512x192 .f32) (x1 : Vec Ideal S1024x192 .f32) (x4 : Vec Ideal S512x1 .f32)
    (x2 : Vec Ideal S512x1 .i32) (x3 : Vec Ideal S1x1024 .i32) (r : Fin 512) (k : Fin 1024) :
    IntOp.andi (k0_pay6 (F := Ideal) x2 x3 (ix2 r k))
        (Ideal.cmp .olt (k0_pay5 (F := Ideal) x0 x1 x4 (ix2 r k)) (Ideal.ofBits .f32 0x3F7FFF58#32)) = 1#1
      ↔ Tile.pos (xq x0) (xk x1) (lq x2) (lk x3) (nq x4) r k := by
  rw [k0_sim_apply, k0_label_apply]
  exact (andi_one _ _).trans (and_congr (cmpi_eq_one _ _) (cmp_olt_one _ _))

/-- The update of the lower accumulator: the smaller of its contents and the tile's least positive similarity. -/
theorem k0_storeMin_apply (x0 : Vec Ideal S512x192 .f32) (x1 : Vec Ideal S1024x192 .f32) (x4 : Vec Ideal S512x1 .f32)
    (x2 : Vec Ideal S512x1 .i32) (x3 : Vec Ideal S1x1024 .i32) (a : Vec Ideal S512x1 .f32) (r : Fin 512) :
    k0_pay1 (F := Ideal) (k0_pay8 x0 x1 x4 x2 x3 a) (ix2 r (0 : Fin 1))
      = min (a (ix2 r (0 : Fin 1))) (Tile.tileMin (xq x0) (xk x1) (lq x2) (lk x3) (nq x4) r) := by
  show shapeCast S512x1 (k0_pay8 (F := Ideal) x0 x1 x4 x2 x3 a) shapeCasts_S512x1_S512x1 (ix2 r (0 : Fin 1)) = _
  rw [shapeCast_self]
  show min (a (ix2 r (0 : Fin 1)))
    (shapeCast S512x1 (multiReduction (F := Ideal) .minimumf [1] S512 _ 0x7F800000#32 reduces_S512x1024_S512 (.inl rfl) rfl)
      shapeCasts_S512_S512x1 (ix2 r (0 : Fin 1))) = _
  rw [shapeCast_a_a1_apply]
  refine congrArg (min _) ((rowMin_apply _ reduces_S512x1024_S512 (.inl rfl) rfl r).trans ?_)
  unfold Tile.tileMin
  refine congrArg (Finset.inf Finset.univ) (funext fun k => ?_)
  exact select_eq_ite (k0_posMask_iff x0 x1 x4 x2 x3 r k) (k0_sim_apply x0 x1 x4 r k) ofBits_posInf

/-- The negative mask of the first body at `(r, k)`: different labels. -/
theorem k0_negMask_iff (x2 : Vec Ideal S512x1 .i32) (x3 : Vec Ideal S1x1024 .i32) (r : Fin 512) (k : Fin 1024) :
    IntOp.xori (k0_pay6 (F := Ideal) x2 x3 (ix2 r k)) 1#1 = 1#1 ↔ Tile.neg (lq x2) (lk x3) r k := by
  rw [k0_label_apply]
  exact (xori_one _).trans (not_congr (cmpi_eq_one _ _))

/-- The tile's greatest negative similarity, as the first body computes it for row r. -/
theorem k0_rowMax_apply (x0 : Vec Ideal S512x192 .f32) (x1 : Vec Ideal S1024x192 .f32) (x4 : Vec Ideal S512x1 .f32)
    (x2 : Vec Ideal S512x1 .i32) (x3 : Vec Ideal S1x1024 .i32) (r : Fin 512) :
    k0_pay7 (F := Ideal) x0 x1 x4 x2 x3 (ix2 r (0 : Fin 1))
      = Tile.tileMax (xq x0) (xk x1) (lq x2) (lk x3) (nq x4) r := by
  show shapeCast S512x1 (multiReduction (F := Ideal) .maximumf [1] S512 _ 0xFF800000#32 reduces_S512x1024_S512 (.inl rfl) rfl)
    shapeCasts_S512_S512x1 (ix2 r (0 : Fin 1)) = _
  rw [shapeCast_a_a1_apply]
  refine (rowMax_apply _ reduces_S512x1024_S512 (.inl rfl) rfl r).trans ?_
  unfold Tile.tileMax
  refine congrArg (Finset.sup Finset.univ) (funext fun k => ?_)
  exact select_eq_ite (k0_negMask_iff x2 x3 r k) (k0_sim_apply x0 x1 x4 r k) ofBits_negInf

/-- The update of the upper accumulator: the larger of its contents and the tile's greatest negative similarity. -/
theorem k0_storeMax_apply (x0 : Vec Ideal S512x192 .f32) (x1 : Vec Ideal S1024x192 .f32) (x4 : Vec Ideal S512x1 .f32)
    (x2 : Vec Ideal S512x1 .i32) (x3 : Vec Ideal S1x1024 .i32) (a : Vec Ideal S512x1 .f32) (r : Fin 512) :
    k0_pay2 (F := Ideal) (k0_pay7 x0 x1 x4 x2 x3) a (ix2 r (0 : Fin 1))
      = max (a (ix2 r (0 : Fin 1))) (Tile.tileMax (xq x0) (xk x1) (lq x2) (lk x3) (nq x4) r) := by
  show shapeCast S512x1 (maximumf (F := Ideal) (φ := .f32) a _) shapeCasts_S512x1_S512x1 (ix2 r (0 : Fin 1)) = _
  rw [shapeCast_self]
  exact congrArg (max (a (ix2 r (0 : Fin 1)))) (k0_rowMax_apply x0 x1 x4 x2 x3 r)

end Cert.KernelIdeal.Pay

end
-- ==== Proof.SpecTileGlobal.lean ====
/-
  The tile forms at the blocks of the whole matrix are the kernel form's tile terms.

  Row tile rt holds rows 512 rt + r and column tile b holds columns 1024 b + k. With the blocks read off the whole
  matrix, the labels, the norms and the first pass's two row results, one tile's reductions are the kernel form's
  per-tile terms, and a sequence that follows the kernel form's tile-by-tile recursion is the kernel form's accumulator.
-/
import proofs.«151531_j1219770712681_2_alg».proof.Proof.Spec
import proofs.«151531_j1219770712681_2_alg».proof.Proof.SpecTile

noncomputable section

namespace Cert.Spec

open Idealize.ShloMosaic
open scoped Classical

/-- Row r of row tile rt. -/
def row (rt : Fin 16) (r : Fin 512) : Fin 8192 := ⟨512 * rt.val + r.val, by omega⟩

section Blocks
variable (x : Fin 8192 → Fin 192 → EReal) (lab : Fin 8192 → BitVec 32) (rt : Fin 16) (b : Fin 8) (r : Fin 512)

/-- The normalised similarity of a tile is the kernel form's at the tile's rows and columns. -/
theorem tile_S_eq (k : Fin 1024) :
    Tile.S (fun r d => x (row rt r) d) (fun k d => x (Ker.col b k) d) (fun r => Ker.nrm x (row rt r)) r k
      = Ker.S x (row rt r) (Ker.col b k) := rfl

theorem tile_tileMin_eq :
    Tile.tileMin (fun r d => x (row rt r) d) (fun k d => x (Ker.col b k) d) (fun r => lab (row rt r))
        (fun k => lab (Ker.col b k)) (fun r => Ker.nrm x (row rt r)) r
      = Finset.univ.inf fun k : Fin 1024 => posTerm lab (Ker.S x) (row rt r) (Ker.col b k) := rfl

theorem tile_tileMax_eq :
    Tile.tileMax (fun r d => x (row rt r) d) (fun k d => x (Ker.col b k) d) (fun r => lab (row rt r))
        (fun k => lab (Ker.col b k)) (fun r => Ker.nrm x (row rt r)) r
      = Finset.univ.sup fun k : Fin 1024 => negTerm lab (Ker.S x) (row rt r) (Ker.col b k) := rfl

theorem tile_tilePos_eq :
    Tile.tilePos (fun r d => x (row rt r) d) (fun k d => x (Ker.col b k) d) (fun r => lab (row rt r))
        (fun k => lab (Ker.col b k)) (fun r => Ker.nrm x (row rt r)) (fun r => Ker.maxNeg x lab (row rt r)) r
      = ∑ k : Fin 1024, Ker.posVal x lab (row rt r) (Ker.col b k) := rfl

theorem tile_tileNeg_eq :
    Tile.tileNeg (fun r d => x (row rt r) d) (fun k d => x (Ker.col b k) d) (fun r => lab (row rt r))
        (fun k => lab (Ker.col b k)) (fun r => Ker.nrm x (row rt r)) (fun r => Ker.minPos x lab (row rt r)) r
      = ∑ k : Fin 1024, Ker.negVal x lab (row rt r) (Ker.col b k) := rfl

theorem tile_flagNeg_eq :
    Tile.flagNeg (fun r d => x (row rt r) d) (fun k d => x (Ker.col b k) d) (fun r => lab (row rt r))
        (fun k => lab (Ker.col b k)) (fun r => Ker.nrm x (row rt r)) (fun r => Ker.minPos x lab (row rt r)) r
      = Ker.flag (Ker.negKeep x lab (row rt r)) b := by
  unfold Ker.flag
  rw [max_eq_right bot_le]
  rfl

theorem tile_flagPos_eq :
    Tile.flagPos (fun r d => x (row rt r) d) (fun k d => x (Ker.col b k) d) (fun r => lab (row rt r))
        (fun k => lab (Ker.col b k)) (fun r => Ker.nrm x (row rt r)) (fun r => Ker.maxNeg x lab (row rt r)) r
      = Ker.flag (Ker.posKeep x lab (row rt r)) b := by
  unfold Ker.flag
  rw [max_eq_right bot_le]
  rfl

end Blocks

section Steps
variable (x : Fin 8192 → Fin 192 → EReal) (lab : Fin 8192 → BitVec 32) (i : Fin 8192)

/-- Two sequences with one start and one step over the eight tiles agree on the eight tiles. -/
theorem seq_eq_of_steps {α : Type*} (op : α → α → α) (T : (b : ℕ) → b < 8 → α) (a a' : ℕ → α) (h0 : a 0 = a' 0)
    (hs : ∀ (b : ℕ) (h : b + 1 < 8), a (b + 1) = op (a b) (T (b + 1) h))
    (hs' : ∀ (b : ℕ) (h : b + 1 < 8), a' (b + 1) = op (a' b) (T (b + 1) h)) : ∀ b, b < 8 → a b = a' b := by
  intro b
  induction b with
  | zero => exact fun _ => h0
  | succ n ih => intro h; rw [hs n h, hs' n h, ih (Nat.lt_of_succ_lt h)]

/-- A sequence lowered tile by tile from the top element by the tiles' least positive terms is the kernel form's. -/
theorem accMin_of_steps (a : ℕ → EReal)
    (h0 : a 0 = min ⊤ (Finset.univ.inf fun k : Fin 1024 => posTerm lab (Ker.S x) i (Ker.col 0 k)))
    (hs : ∀ (b : ℕ) (h : b + 1 < 8),
      a (b + 1) = min (a b) (Finset.univ.inf fun k : Fin 1024 => posTerm lab (Ker.S x) i (Ker.col ⟨b + 1, h⟩ k))) :
    ∀ b, b < 8 → a b = Ker.accMin x lab i b :=
  seq_eq_of_steps min (fun b h => Finset.univ.inf fun k : Fin 1024 => posTerm lab (Ker.S x) i (Ker.col ⟨b, h⟩ k)) a
    (Ker.accMin x lab i) h0 hs (fun b h => by simp only [Ker.accMin, dif_pos h])

/-- A sequence raised tile by tile from the bottom element by the tiles' greatest negative terms is the kernel form's. -/
theorem accMax_of_steps (a : ℕ → EReal)
    (h0 : a 0 = max ⊥ (Finset.univ.sup fun k : Fin 1024 => negTerm lab (Ker.S x) i (Ker.col 0 k)))
    (hs : ∀ (b : ℕ) (h : b + 1 < 8),
      a (b + 1) = max (a b) (Finset.univ.sup fun k : Fin 1024 => negTerm lab (Ker.S x) i (Ker.col ⟨b + 1, h⟩ k))) :
    ∀ b, b < 8 → a b = Ker.accMax x lab i b :=
  seq_eq_of_steps max (fun b h => Finset.univ.sup fun k : Fin 1024 => negTerm lab (Ker.S x) i (Ker.col ⟨b, h⟩ k)) a
    (Ker.accMax x lab i) h0 hs (fun b h => by simp only [Ker.accMax, dif_pos h])

/-- A sequence that starts as 0 plus the first tile's sum of kept positives and grows by each later tile's is the
kernel form's. -/
theorem accPos_of_steps (a : ℕ → EReal)
    (h0 : a 0 = 0 + ∑ k : Fin 1024, Ker.posVal x lab i (Ker.col 0 k))
    (hs : ∀ (b : ℕ) (h : b + 1 < 8), a (b + 1) = a b + ∑ k : Fin 1024, Ker.posVal x lab i (Ker.col ⟨b + 1, h⟩ k)) :
    ∀ b, b < 8 → a b = Ker.accPos x lab i b :=
  seq_eq_of_steps (· + ·) (fun b h => ∑ k : Fin 1024, Ker.posVal x lab i (Ker.col ⟨b, h⟩ k)) a
    (Ker.accPos x lab i) (by rw [h0]; simp only [Ker.accPos, zero_add]) hs
    (fun b h => by simp only [Ker.accPos, dif_pos h, zero_add])

/-- The same for the kept negatives. -/
theorem accNeg_of_steps (a : ℕ → EReal)
    (h0 : a 0 = 0 + ∑ k : Fin 1024, Ker.negVal x lab i (Ker.col 0 k))
    (hs : ∀ (b : ℕ) (h : b + 1 < 8), a (b + 1) = a b + ∑ k : Fin 1024, Ker.negVal x lab i (Ker.col ⟨b + 1, h⟩ k)) :
    ∀ b, b < 8 → a b = Ker.accNeg x lab i b :=
  seq_eq_of_steps (· + ·) (fun b h => ∑ k : Fin 1024, Ker.negVal x lab i (Ker.col ⟨b, h⟩ k)) a
    (Ker.accNeg x lab i) (by rw [h0]; simp only [Ker.accNeg, zero_add]) hs
    (fun b h => by simp only [Ker.accNeg, dif_pos h, zero_add])

/-- A sequence raised tile by tile from 0 by the tiles' "a negative kept" flags is the kernel form's. -/
theorem accHasNeg_of_steps (a : ℕ → EReal)
    (h0 : a 0 = max 0 (Ker.flag (Ker.negKeep x lab i) 0))
    (hs : ∀ (b : ℕ) (h : b + 1 < 8), a (b + 1) = max (a b) (Ker.flag (Ker.negKeep x lab i) ⟨b + 1, h⟩)) :
    ∀ b, b < 8 → a b = Ker.accHasNeg x lab i b :=
  seq_eq_of_steps max (fun b h => Ker.flag (Ker.negKeep x lab i) ⟨b, h⟩) a
    (Ker.accHasNeg x lab i) h0 hs (fun b h => by simp only [Ker.accHasNeg, dif_pos h])

/-- The same for the "a positive kept" flags. -/
theorem accHasPos_of_steps (a : ℕ → EReal)
    (h0 : a 0 = max 0 (Ker.flag (Ker.posKeep x lab i) 0))
    (hs : ∀ (b : ℕ) (h : b + 1 < 8), a (b + 1) = max (a b) (Ker.flag (Ker.posKeep x lab i) ⟨b + 1, h⟩)) :
    ∀ b, b < 8 → a b = Ker.accHasPos x lab i b :=
  seq_eq_of_steps max (fun b h => Ker.flag (Ker.posKeep x lab i) ⟨b, h⟩) a
    (Ker.accHasPos x lab i) h0 hs (fun b h => by simp only [Ker.accHasPos, dif_pos h])

/-- The row loss formed from the four final accumulators is the kernel form's row loss. -/
theorem tile_rowLoss_eq :
    Tile.rowLoss (Ker.accPos x lab i 7) (Ker.accNeg x lab i 7) (Ker.accHasNeg x lab i 7) (Ker.accHasPos x lab i 7)
      = Ker.rowLoss x lab i := rfl

end Steps

end Cert.Spec

end
-- ==== Proof.KerHostStages.lean ====
/-
  The kernel program's host stages as functions of the argument arrays: the reshaped rows, the repeated labels as a
  column and as a row, the Gram matrix, the rows times the Gram matrix, each row's squared norm through it, and the
  floored norm; after the two regions, the mean of the first region result and the scaled count read off the second.
  Each buffer between the program's items holds its stage.
-/
import proofs.«151531_j1219770712681_2_alg».proof.Proof.Gen.KernelIdeal.Regions
import Idealize.ShloMosaic.Lib.StableHlo.Run
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.StableHlo

abbrev Feat : Type := (⟨S4096x2x192, .f32⟩ : BufTy).Contents (Elt Ideal)
abbrev Lab : Type := (⟨S4096, .i32⟩ : BufTy).Contents (Elt Ideal)
abbrev Col : Type := (⟨S8192x1, .f32⟩ : BufTy).Contents (Elt Ideal)

/-- The reshaped rows. -/
def sRows (x0 : Feat) : (⟨S8192x192, .f32⟩ : BufTy).Contents (Elt Ideal) :=
  shapeCast _ x0 shapeCasts_S4096x2x192_S8192x192
/-- Each label twice. -/
def sLab (x1 : Lab) : (⟨S8192, .i32⟩ : BufTy).Contents (Elt Ideal) :=
  shapeCast _ (broadcastInDim S4096x2 ![0] bcast_S4096_S4096x2_0 x1) shapeCasts_S4096x2_S8192
/-- The labels as a column. -/
def sLabCol (x1 : Lab) : (⟨S8192x1, .i32⟩ : BufTy).Contents (Elt Ideal) :=
  shapeCast _ (sLab x1) shapeCasts_S8192_S8192x1
/-- The labels as a row. -/
def sLabRow (x1 : Lab) : (⟨S1x8192, .i32⟩ : BufTy).Contents (Elt Ideal) :=
  shapeCast _ (sLab x1) shapeCasts_S8192_S1x8192
/-- The transposed rows. -/
def sRowsT (x0 : Feat) : (⟨S192x8192, .f32⟩ : BufTy).Contents (Elt Ideal) :=
  transpose S192x8192 [1, 0] (sRows x0) transposes_S8192x192_S192x8192_1_0
/-- The Gram matrix. -/
def sGram (x0 : Feat) : (⟨S192x192, .f32⟩ : BufTy).Contents (Elt Ideal) :=
  Host.dotGeneral (F := Ideal) (φ₁ := .f32) (φ₂ := .f32) dot_S192x8192_S8192x192_S192x192_1_0_0_1_n_n (some .fp32) (sRowsT x0) (sRows x0)
/-- The rows times the Gram matrix. -/
def sH (x0 : Feat) : (⟨S8192x192, .f32⟩ : BufTy).Contents (Elt Ideal) :=
  Host.dotGeneral (F := Ideal) (φ₁ := .f32) (φ₂ := .f32) dot_S8192x192_S192x192_S8192x192_1_0_0_1_n_n (some .fp32) (sRows x0) (sGram x0)
/-- Each row's squared norm, from zero. -/
def sSq (x0 : Feat) : (⟨S8192, .f32⟩ : BufTy).Contents (Elt Ideal) :=
  Host.reduceAdd (F := Ideal) (mulf (sH x0) (sRows x0)) (constant (F := Ideal) S_ .f32 0x00000000#32) reducesTo_S8192x192_S8192_d1 h_S_
/-- The floored norm. -/
def sNrm (x0 : Feat) : Col :=
  maximumf (Host.sqrt (F := Ideal) (maximumf (broadcastInDim S8192x1 ![0] bcast_S8192_S8192x1_0 (sSq x0))
      (broadcastInDim S8192x1 ![] bcast_S_S8192x1 (constant (F := Ideal) S_ .f32 0x00000000#32))))
    (broadcastInDim S8192x1 ![] bcast_S_S8192x1 (constant (F := Ideal) S_ .f32 0x2B8CBCCC#32))
/-- The mean of a column. -/
def sMean (y : Col) : (⟨S_, .f32⟩ : BufTy).Contents (Elt Ideal) :=
  Host.divf (F := Ideal) (Host.reduceAdd (F := Ideal) y (constant (F := Ideal) S_ .f32 0x00000000#32) reducesTo_S8192x1_S_d0_1 h_S_)
    (constant (F := Ideal) S_ .f32 0x46000000#32)
/-- The percentage of a column's entries below one half. -/
def sPct (y : Col) : (⟨S_, .f32⟩ : BufTy).Contents (Elt Ideal) :=
  Host.divf (F := Ideal) (mulf (Host.reduceAdd (F := Ideal)
      (uitofp .f32 (cmpf .olt y (broadcastInDim S8192x1 ![] bcast_S_S8192x1 (constant (F := Ideal) S_ .f32 0x3F000000#32))))
      (constant (F := Ideal) S_ .f32 0x00000000#32) reducesTo_S8192x1_S_d0_1 h_S_) (constant (F := Ideal) S_ .f32 0x42C80000#32))
    (constant (F := Ideal) S_ .f32 0x46000000#32)

variable (m : (ℓ : Loc nD τ sig) → Buf (Elt Ideal) ℓ) (c : Dev nD)

theorem V1_rows : V1 m c main_v0 = sRows (m ((c.tc : Thread nD τ).loc main_arg0)) := by
  dsimp only [V1, hostOps0]; after_results; rfl

theorem V1_labCol : V1 m c main_v3 = sLabCol (m ((c.tc : Thread nD τ).loc main_arg1)) := by
  dsimp only [V1, hostOps0]; after_results; rfl

theorem V1_labRow : V1 m c main_v4 = sLabRow (m ((c.tc : Thread nD τ).loc main_arg1)) := by
  dsimp only [V1, hostOps0]; after_results; rfl

theorem V1_nrm : V1 m c main_v15 = sNrm (m ((c.tc : Thread nD τ).loc main_arg0)) := by
  dsimp only [V1, hostOps0]; after_results; rfl

variable (outs : Outs (F := Ideal))

theorem V3_out0 : V3 m outs c main_v17_0 = outs 3 main_v17_0 c := by
  dsimp only [V3]
  rw [Function.update_of_ne (StableHlo.devRef_ne_of_ne (by decide)), Function.update_self]

theorem V3_out1 : V3 m outs c main_v17_1 = outs 3 main_v17_1 c := by
  dsimp only [V3]
  rw [Function.update_self]

theorem V4_loss : V4 m outs c main_v19 = sMean (outs 3 main_v17_0 c) := by
  rw [← V3_out0 m c outs]
  dsimp only [V4, hostOps2]; after_results; rfl

theorem V4_prec1 : V4 m outs c main_v25 = sPct (outs 3 main_v17_1 c) := by
  rw [← V3_out1 m c outs]
  dsimp only [V4, hostOps2]; after_results; rfl

end Cert.KernelIdeal.HostValue

end
-- ==== Proof.KerHostArgs.lean ====
/-
  The kernel program's reshaped rows and repeated labels read at coordinates: row i of the reshaped array is the
  (i / 2, i % 2) row of the feature array, and the label column and the label row both carry label i / 2 at i.
-/
import proofs.«151531_j1219770712681_2_alg».proof.Proof.KerHostStages
import proofs.«151531_j1219770712681_2_alg».proof.Proof.SpecArgs
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem
open Idealize.ShloMosaic.ValueIdx

theorem sRows_at (x0 : Feat) (i : Fin 8192) (d : Fin 192) : sRows x0 (ix2 i d) = Cert.Spec.rowsOf x0 i d := by
  unfold sRows Cert.Spec.rowsOf
  exact shapeCast_apply x0 shapeCasts_S4096x2x192_S8192x192 (ix2 i d) _ (by
    rewrite [Shape.rowMajor_val_three, Shape.rowMajor_val_two]
    show (i.val / 2 * 2 + i.val % 2) * 192 + d.val = i.val * 192 + d.val
    omega)

theorem sLab_at (x1 : Lab) (i : Fin 8192) : sLab x1 (ix1 i) = Cert.Spec.labelsOf x1 i := by
  unfold sLab Cert.Spec.labelsOf
  refine (shapeCast_apply _ shapeCasts_S4096x2_S8192 (ix1 i)
    (ix2 (⟨i.val / 2, by omega⟩ : Fin 4096) (⟨i.val % 2, by omega⟩ : Fin 2)) (by
      rewrite [Shape.rowMajor_val_two, Shape.rowMajor_val_one]
      show i.val / 2 * 2 + i.val % 2 = i.val
      omega)).trans ?_
  exact broadcastInDim_apply _ bcast_S4096_S4096x2_0 x1 _ (ix1 (⟨i.val / 2, by omega⟩ : Fin 4096)) (fun a => match a with
    | ⟨0, _⟩ => by show i.val / 2 = if (4096 : Nat) = 1 then 0 else i.val / 2; rw [if_neg (by decide)])

theorem sLabCol_at (x1 : Lab) (i : Fin 8192) : sLabCol x1 (ix2 i (0 : Fin 1)) = Cert.Spec.labelsOf x1 i := by
  unfold sLabCol
  exact (shapeCast_apply (sLab x1) shapeCasts_S8192_S8192x1 (ix2 i (0 : Fin 1)) (ix1 i) (by
    rewrite [Shape.rowMajor_val_one, Shape.rowMajor_val_two]
    show i.val = i.val * 1 + 0
    omega)).trans (sLab_at x1 i)

theorem sLabRow_at (x1 : Lab) (j : Fin 8192) : sLabRow x1 (ix2 (0 : Fin 1) j) = Cert.Spec.labelsOf x1 j := by
  unfold sLabRow
  exact (shapeCast_apply (sLab x1) shapeCasts_S8192_S1x8192 (ix2 (0 : Fin 1) j) (ix1 j) (by
    rewrite [Shape.rowMajor_val_one, Shape.rowMajor_val_two]
    show j.val = 0 * 8192 + j.val
    omega)).trans (sLab_at x1 j)

variable (m : (ℓ : Loc nD τ sig) → Buf (Elt Ideal) ℓ) (c : Dev nD)

/-- Row i of the reshaped array. -/
theorem rows_at (i : Fin 8192) (d : Fin 192) :
    (V1 m c main_v0 : S8192x192.Idx → EReal) (ix2 i d) = Cert.Spec.rowsOf (m ((c.tc : Thread nD τ).loc main_arg0)) i d := by
  rw [V1_rows]; exact sRows_at _ i d

/-- The label column at row i. -/
theorem labrow_at (i : Fin 8192) :
    (V1 m c main_v3 : S8192x1.Idx → BitVec 32) (ix2 i (0 : Fin 1)) = Cert.Spec.labelsOf (m ((c.tc : Thread nD τ).loc main_arg1)) i := by
  rw [V1_labCol]; exact sLabCol_at _ i

/-- The label row at column j. -/
theorem labcol_at (j : Fin 8192) :
    (V1 m c main_v4 : S1x8192.Idx → BitVec 32) (ix2 (0 : Fin 1) j) = Cert.Spec.labelsOf (m ((c.tc : Thread nD τ).loc main_arg1)) j := by
  rw [V1_labRow]; exact sLabRow_at _ j

end Cert.KernelIdeal.HostValue

end
-- ==== Proof.KerHostNorm.lean ====
/-
  The kernel program's floored row norm read at a row: the Gram matrix of the rows, the rows times it, each row's
  squared norm as the sum over the columns of that product times the row (from zero), clamped at zero below, its
  square root, floored at the small constant.
-/
import proofs.«151531_j1219770712681_2_alg».proof.Proof.KerHostArgs
import proofs.«151531_j1219770712681_2_alg».proof.Proof.Spec
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.ValueIdx

theorem gramDot_lhs0 (i : S192x192.Idx) (q : dot_S192x8192_S8192x192_S192x192_1_0_0_1_n_n.contr.Idx) : (dot_S192x8192_S8192x192_S192x192_1_0_0_1_n_n.lhsIdx i q 0).val = (i 0).val := by
  unfold DotDims.lhsIdx
  rw [dif_neg (show ¬(0 : Fin S192x8192.rank) ∈ dot_S192x8192_S8192x192_S192x192_1_0_0_1_n_n.lhsBatch by decide), dif_pos (show (0 : Fin S192x8192.rank) ∈ dot_S192x8192_S8192x192_S192x192_1_0_0_1_n_n.lhsNonContracting by decide)]
  rfl
theorem gramDot_lhs1 (i : S192x192.Idx) (q : dot_S192x8192_S8192x192_S192x192_1_0_0_1_n_n.contr.Idx) : (dot_S192x8192_S8192x192_S192x192_1_0_0_1_n_n.lhsIdx i q 1).val = (q ⟨0, by decide⟩).val :=
  dot_S192x8192_S8192x192_S192x192_1_0_0_1_n_n.lhsIdx_val_of_single rfl i q
theorem gramDot_rhs0 (i : S192x192.Idx) (q : dot_S192x8192_S8192x192_S192x192_1_0_0_1_n_n.contr.Idx) : (dot_S192x8192_S8192x192_S192x192_1_0_0_1_n_n.rhsIdx i q 0).val = (q ⟨0, by decide⟩).val :=
  dot_S192x8192_S8192x192_S192x192_1_0_0_1_n_n.rhsIdx_val_of_single rfl i q
theorem gramDot_rhs1 (i : S192x192.Idx) (q : dot_S192x8192_S8192x192_S192x192_1_0_0_1_n_n.contr.Idx) : (dot_S192x8192_S8192x192_S192x192_1_0_0_1_n_n.rhsIdx i q 1).val = (i 1).val := by
  unfold DotDims.rhsIdx
  rw [dif_neg (show ¬(1 : Fin S8192x192.rank) ∈ dot_S192x8192_S8192x192_S192x192_1_0_0_1_n_n.rhsBatch by decide), dif_pos (show (1 : Fin S8192x192.rank) ∈ dot_S192x8192_S8192x192_S192x192_1_0_0_1_n_n.rhsNonContracting by decide)]
  rfl

/-- The product read at (a, b): the sum over the contracted coordinate. -/
theorem gramDot_at (y0 : (⟨S192x8192, .f32⟩ : BufTy).Contents (Elt Ideal)) (y1 : (⟨S8192x192, .f32⟩ : BufTy).Contents (Elt Ideal))
    (a : Fin 192) (b : Fin 192) :
    Host.dotGeneral (F := Ideal) (φ₁ := .f32) (φ₂ := .f32) dot_S192x8192_S8192x192_S192x192_1_0_0_1_n_n (some .fp32) y0 y1 (ix2 a b)
      = ∑ k : Fin 8192, y0 (ix2 a k) * y1 (ix2 k b) := by
  simp only [Host.dotGeneral]
  rw [Ideal.dotGeneral_apply, ← Equiv.sum_comp (ValueIdx.contrEquiv1 dot_S192x8192_S8192x192_S192x192_1_0_0_1_n_n 8192 rfl rfl).symm]
  refine Finset.sum_congr rfl fun k _ => ?_
  have hk := ValueIdx.contrEquiv1_symm_val dot_S192x8192_S8192x192_S192x192_1_0_0_1_n_n 8192 rfl rfl k
  have el : dot_S192x8192_S8192x192_S192x192_1_0_0_1_n_n.lhsIdx (ix2 a b) ((ValueIdx.contrEquiv1 dot_S192x8192_S8192x192_S192x192_1_0_0_1_n_n 8192 rfl rfl).symm k) = ix2 a k := funext fun t => Fin.ext (by
    match t with
    | ⟨0, _⟩ => exact gramDot_lhs0 _ _
    | ⟨1, _⟩ => exact (gramDot_lhs1 _ _).trans hk)
  have er : dot_S192x8192_S8192x192_S192x192_1_0_0_1_n_n.rhsIdx (ix2 a b) ((ValueIdx.contrEquiv1 dot_S192x8192_S8192x192_S192x192_1_0_0_1_n_n 8192 rfl rfl).symm k) = ix2 k b := funext fun t => Fin.ext (by
    match t with
    | ⟨0, _⟩ => exact (gramDot_rhs0 _ _).trans hk
    | ⟨1, _⟩ => exact gramDot_rhs1 _ _)
  rw [el, er]

theorem hrowDot_lhs0 (i : S8192x192.Idx) (q : dot_S8192x192_S192x192_S8192x192_1_0_0_1_n_n.contr.Idx) : (dot_S8192x192_S192x192_S8192x192_1_0_0_1_n_n.lhsIdx i q 0).val = (i 0).val := by
  unfold DotDims.lhsIdx
  rw [dif_neg (show ¬(0 : Fin S8192x192.rank) ∈ dot_S8192x192_S192x192_S8192x192_1_0_0_1_n_n.lhsBatch by decide), dif_pos (show (0 : Fin S8192x192.rank) ∈ dot_S8192x192_S192x192_S8192x192_1_0_0_1_n_n.lhsNonContracting by decide)]
  rfl
theorem hrowDot_lhs1 (i : S8192x192.Idx) (q : dot_S8192x192_S192x192_S8192x192_1_0_0_1_n_n.contr.Idx) : (dot_S8192x192_S192x192_S8192x192_1_0_0_1_n_n.lhsIdx i q 1).val = (q ⟨0, by decide⟩).val :=
  dot_S8192x192_S192x192_S8192x192_1_0_0_1_n_n.lhsIdx_val_of_single rfl i q
theorem hrowDot_rhs0 (i : S8192x192.Idx) (q : dot_S8192x192_S192x192_S8192x192_1_0_0_1_n_n.contr.Idx) : (dot_S8192x192_S192x192_S8192x192_1_0_0_1_n_n.rhsIdx i q 0).val = (q ⟨0, by decide⟩).val :=
  dot_S8192x192_S192x192_S8192x192_1_0_0_1_n_n.rhsIdx_val_of_single rfl i q
theorem hrowDot_rhs1 (i : S8192x192.Idx) (q : dot_S8192x192_S192x192_S8192x192_1_0_0_1_n_n.contr.Idx) : (dot_S8192x192_S192x192_S8192x192_1_0_0_1_n_n.rhsIdx i q 1).val = (i 1).val := by
  unfold DotDims.rhsIdx
  rw [dif_neg (show ¬(1 : Fin S192x192.rank) ∈ dot_S8192x192_S192x192_S8192x192_1_0_0_1_n_n.rhsBatch by decide), dif_pos (show (1 : Fin S192x192.rank) ∈ dot_S8192x192_S192x192_S8192x192_1_0_0_1_n_n.rhsNonContracting by decide)]
  rfl

/-- The product read at (a, b): the sum over the contracted coordinate. -/
theorem hrowDot_at (y0 : (⟨S8192x192, .f32⟩ : BufTy).Contents (Elt Ideal)) (y1 : (⟨S192x192, .f32⟩ : BufTy).Contents (Elt Ideal))
    (a : Fin 8192) (b : Fin 192) :
    Host.dotGeneral (F := Ideal) (φ₁ := .f32) (φ₂ := .f32) dot_S8192x192_S192x192_S8192x192_1_0_0_1_n_n (some .fp32) y0 y1 (ix2 a b)
      = ∑ k : Fin 192, y0 (ix2 a k) * y1 (ix2 k b) := by
  simp only [Host.dotGeneral]
  rw [Ideal.dotGeneral_apply, ← Equiv.sum_comp (ValueIdx.contrEquiv1 dot_S8192x192_S192x192_S8192x192_1_0_0_1_n_n 192 rfl rfl).symm]
  refine Finset.sum_congr rfl fun k _ => ?_
  have hk := ValueIdx.contrEquiv1_symm_val dot_S8192x192_S192x192_S8192x192_1_0_0_1_n_n 192 rfl rfl k
  have el : dot_S8192x192_S192x192_S8192x192_1_0_0_1_n_n.lhsIdx (ix2 a b) ((ValueIdx.contrEquiv1 dot_S8192x192_S192x192_S8192x192_1_0_0_1_n_n 192 rfl rfl).symm k) = ix2 a k := funext fun t => Fin.ext (by
    match t with
    | ⟨0, _⟩ => exact hrowDot_lhs0 _ _
    | ⟨1, _⟩ => exact (hrowDot_lhs1 _ _).trans hk)
  have er : dot_S8192x192_S192x192_S8192x192_1_0_0_1_n_n.rhsIdx (ix2 a b) ((ValueIdx.contrEquiv1 dot_S8192x192_S192x192_S8192x192_1_0_0_1_n_n 192 rfl rfl).symm k) = ix2 k b := funext fun t => Fin.ext (by
    match t with
    | ⟨0, _⟩ => exact (hrowDot_rhs0 _ _).trans hk
    | ⟨1, _⟩ => exact hrowDot_rhs1 _ _)
  rw [el, er]

/-- A sum from zero over the columns of a row. -/
theorem rowsum_at (y : (⟨S8192x192, .f32⟩ : BufTy).Contents (Elt Ideal)) (i : Fin 8192) :
    Host.reduceAdd (F := Ideal) y (constant (F := Ideal) S_ .f32 0x00000000#32) reducesTo_S8192x192_S8192_d1 h_S_ (ix1 i)
      = ∑ d : Fin 192, y (ix2 i d) := by
  simp only [Host.reduceAdd, Ideal.hostReduceAdd_def]
  rw [Ideal.hostReduceAdd_single reducesTo_S8192x192_S8192_d1 (by decide)]
  have e0 : (constant (F := Ideal) S_ .f32 0x00000000#32) (Shape.Idx.first h_S_) = 0 := Ideal.ofBits_zero_f32
  rw [e0, zero_add]
  exact Finset.sum_congr rfl fun k _ => congrArg y (funext fun a => Fin.ext (by match a with | ⟨0, _⟩ => rfl | ⟨1, _⟩ => rfl))

variable (x0 : Feat)

theorem sRowsT_at (e : Fin 192) (k : Fin 8192) : sRowsT x0 (ix2 e k) = Cert.Spec.rowsOf x0 k e := by
  unfold sRowsT
  exact (transpose_apply [1, 0] (sRows x0) transposes_S8192x192_S192x8192_1_0 (ix2 e k) (ix2 k e) (fun b => match b with
    | ⟨0, _⟩ => rfl
    | ⟨1, _⟩ => rfl)).trans (sRows_at x0 k e)

theorem sGram_at (e d : Fin 192) : sGram x0 (ix2 e d) = Cert.Spec.Ker.gram (Cert.Spec.rowsOf x0) e d := by
  unfold sGram Cert.Spec.Ker.gram
  rw [gramDot_at]
  exact Finset.sum_congr rfl fun k _ => by rw [sRowsT_at, sRows_at]

theorem sH_at (i : Fin 8192) (d : Fin 192) : sH x0 (ix2 i d) = Cert.Spec.Ker.hrow (Cert.Spec.rowsOf x0) i d := by
  unfold sH Cert.Spec.Ker.hrow
  rw [hrowDot_at]
  exact Finset.sum_congr rfl fun e _ => by rw [sRows_at, sGram_at]

theorem sSq_at (i : Fin 8192) :
    sSq x0 (ix1 i) = ∑ d : Fin 192, Cert.Spec.Ker.hrow (Cert.Spec.rowsOf x0) i d * Cert.Spec.rowsOf x0 i d := by
  unfold sSq
  rw [rowsum_at]
  exact Finset.sum_congr rfl fun d _ => by
    show sH x0 (ix2 i d) * sRows x0 (ix2 i d) = _
    rw [sH_at, sRows_at]

theorem sNrm_at (i : Fin 8192) : sNrm x0 (ix2 i (0 : Fin 1)) = Cert.Spec.Ker.nrm (Cert.Spec.rowsOf x0) i := by
  have h1 : sNrm x0 (ix2 i (0 : Fin 1)) = max (Ideal.sqrt (max
      (broadcastInDim S8192x1 ![0] bcast_S8192_S8192x1_0 (sSq x0) (ix2 i (0 : Fin 1)))
      (broadcastInDim S8192x1 ![] bcast_S_S8192x1 (constant (F := Ideal) S_ .f32 0x00000000#32) (ix2 i (0 : Fin 1)))))
      (broadcastInDim S8192x1 ![] bcast_S_S8192x1 (constant (F := Ideal) S_ .f32 0x2B8CBCCC#32) (ix2 i (0 : Fin 1))) := rfl
  have hs : broadcastInDim S8192x1 ![0] bcast_S8192_S8192x1_0 (sSq x0) (ix2 i (0 : Fin 1)) = sSq x0 (ix1 i) :=
    broadcastInDim_apply _ bcast_S8192_S8192x1_0 (sSq x0) (ix2 i (0 : Fin 1)) (ix1 i) (fun a => match a with
      | ⟨0, _⟩ => by show i.val = if (8192 : Nat) = 1 then 0 else i.val; rw [if_neg (by decide)])
  have hz : broadcastInDim S8192x1 ![] bcast_S_S8192x1 (constant (F := Ideal) S_ .f32 0x00000000#32) (ix2 i (0 : Fin 1)) = 0 :=
    (broadcastInDim_apply _ bcast_S_S8192x1 (constant (F := Ideal) S_ .f32 0x00000000#32) (ix2 i (0 : Fin 1)) ix0
      (fun a => a.elim0)).trans Ideal.ofBits_zero_f32
  have he : broadcastInDim S8192x1 ![] bcast_S_S8192x1 (constant (F := Ideal) S_ .f32 0x2B8CBCCC#32) (ix2 i (0 : Fin 1))
      = Cert.Spec.cEps :=
    broadcastInDim_apply _ bcast_S_S8192x1 (constant (F := Ideal) S_ .f32 0x2B8CBCCC#32) (ix2 i (0 : Fin 1)) ix0 (fun a => a.elim0)
  rw [h1, hs, hz, he, sSq_at]
  rfl

variable (m : (ℓ : Loc nD τ sig) → Buf (Elt Ideal) ℓ) (c : Dev nD)

/-- The floored norm of row i. -/
theorem nrm_at (i : Fin 8192) :
    (V1 m c main_v15 : S8192x1.Idx → EReal) (ix2 i (0 : Fin 1))
      = Cert.Spec.Ker.nrm (Cert.Spec.rowsOf (m ((c.tc : Thread nD τ).loc main_arg0))) i := by
  rw [V1_nrm]; exact sNrm_at _ i

end Cert.KernelIdeal.HostValue

end
-- ==== Proof.KerValStats.lean ====
/-
  The first kernel region's two output arrays at the ideal instance: row i of the first is the least positive
  similarity of row i as the kernel form computes it (the minimum folded over the eight column tiles from the top
  element), row i of the second the greatest negative similarity.
-/
import proofs.«151531_j1219770712681_2_alg».proof.Proof.Gen.KernelIdeal.Regions
import proofs.«151531_j1219770712681_2_alg».proof.Proof.StatsPoint
import proofs.«151531_j1219770712681_2_alg».proof.Proof.StatsBlocks
import proofs.«151531_j1219770712681_2_alg».proof.Proof.KerPayStats
import proofs.«151531_j1219770712681_2_alg».proof.Proof.SpecTileGlobal
import proofs.«151531_j1219770712681_2_alg».proof.Proof.KerHostArgs
import proofs.«151531_j1219770712681_2_alg».proof.Proof.KerHostNorm

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec
open scoped Classical

variable (m : (ℓ : Loc nD τ sig) → Buf (Elt Ideal) ℓ) (c : Dev nD)

/-- The row matrix and the row labels the arguments give. -/
abbrev X : Fin 8192 → Fin 192 → EReal := Cert.Spec.rowsOf (m ((c.tc : Thread nD τ).loc main_arg0))
abbrev LB : Fin 8192 → BitVec 32 := Cert.Spec.labelsOf (m ((c.tc : Thread nD τ).loc main_arg1))

/-- The core's buffers when the first region is entered. -/
abbrev Va : (c : Dev nD) → (b : Ref sig .tc) → Buf (Elt Ideal) ((c : Thread nD τ).loc b) := fun c b => V1 m c b

/-! ## The blocks of a point of row tile rt and column tile b -/

section Blocks
variable (t : Fin cfg0.N) (rt : Fin 16) (b : Fin 8) (hrt : t.val / 8 = rt.val) (hb : t.val % 8 = b.val)
include hrt hb

theorem sblk0 : Pay.xq (Stats.iblk (Va m) c 0 t) = fun r d => (X m c) (row rt r) d := by
  funext r d
  refine (Stats.iblk0_apply (Va m) c t r d).trans ((HostValue.rows_at m c _ d).trans ?_)
  rw [show (⟨512 * (t.val / 8) + r.val, Stats.rowBound t r⟩ : Fin 8192) = row rt r from Fin.ext (by simp only [row]; omega)]

theorem sblk1 : Pay.xk (Stats.iblk (Va m) c 1 t) = fun k d => (X m c) (Ker.col b k) d := by
  funext k d
  refine (Stats.iblk1_apply (Va m) c t k d).trans ((HostValue.rows_at m c _ d).trans ?_)
  rw [show (⟨1024 * (t.val % 8) + k.val, Stats.colBound t k⟩ : Fin 8192) = Ker.col b k from Fin.ext (by simp only [Ker.col]; omega)]

theorem sblk2 : Pay.lq (Stats.iblk (Va m) c 2 t) = fun r => (LB m c) (row rt r) := by
  funext r
  refine (Stats.iblk2_apply (Va m) c t r).trans ((HostValue.labrow_at m c _).trans ?_)
  rw [show (⟨512 * (t.val / 8) + r.val, Stats.rowBound t r⟩ : Fin 8192) = row rt r from Fin.ext (by simp only [row]; omega)]

theorem sblk3 : Pay.lk (Stats.iblk (Va m) c 3 t) = fun k => (LB m c) (Ker.col b k) := by
  funext k
  refine (Stats.iblk3_apply (Va m) c t k).trans ((HostValue.labcol_at m c _).trans ?_)
  rw [show (⟨1024 * (t.val % 8) + k.val, Stats.colBound t k⟩ : Fin 8192) = Ker.col b k from Fin.ext (by simp only [Ker.col]; omega)]

theorem sblk4 : Pay.nq (Stats.iblk (Va m) c 4 t) = fun r => Ker.nrm (X m c) (row rt r) := by
  funext r
  refine (Stats.iblk4_apply (Va m) c t r).trans ((HostValue.nrm_at m c _).trans ?_)
  rw [show (⟨512 * (t.val / 8) + r.val, Stats.rowBound t r⟩ : Fin 8192) = row rt r from Fin.ext (by simp only [row]; omega)]

/-- The tile's row minimum at the point's blocks is the kernel form's over the tile's columns. -/
theorem stileMin (r : Fin 512) :
    Tile.tileMin (Pay.xq (Stats.iblk (Va m) c 0 t)) (Pay.xk (Stats.iblk (Va m) c 1 t)) (Pay.lq (Stats.iblk (Va m) c 2 t))
        (Pay.lk (Stats.iblk (Va m) c 3 t)) (Pay.nq (Stats.iblk (Va m) c 4 t)) r
      = Finset.univ.inf fun k : Fin 1024 => posTerm (LB m c) (Ker.S (X m c)) (row rt r) (Ker.col b k) := by
  rw [sblk0 m c t rt b hrt hb, sblk1 m c t rt b hrt hb, sblk2 m c t rt b hrt hb, sblk3 m c t rt b hrt hb, sblk4 m c t rt b hrt hb]
  exact tile_tileMin_eq (X m c) (LB m c) rt b r

theorem stileMax (r : Fin 512) :
    Tile.tileMax (Pay.xq (Stats.iblk (Va m) c 0 t)) (Pay.xk (Stats.iblk (Va m) c 1 t)) (Pay.lq (Stats.iblk (Va m) c 2 t))
        (Pay.lk (Stats.iblk (Va m) c 3 t)) (Pay.nq (Stats.iblk (Va m) c 4 t)) r
      = Finset.univ.sup fun k : Fin 1024 => negTerm (LB m c) (Ker.S (X m c)) (row rt r) (Ker.col b k) := by
  rw [sblk0 m c t rt b hrt hb, sblk1 m c t rt b hrt hb, sblk2 m c t rt b hrt hb, sblk3 m c t rt b hrt hb, sblk4 m c t rt b hrt hb]
  exact tile_tileMax_eq (X m c) (LB m c) rt b r

end Blocks

/-! ## The accumulators over a row tile's eight points -/

theorem ptBound (rt : Fin 16) (n : ℕ) (hn : n < 8) : 8 * rt.val + n < cfg0.N := by
  have hN : cfg0.N = 128 := N_0
  have := rt.isLt; omega

theorem accAt_congr {n n' : ℕ} (h : n = n') (hn : n < cfg0.N) (hn' : n' < cfg0.N) :
    Stats.accAt (Va m) c n hn = Stats.accAt (Va m) c n' hn' := by subst h; rfl

/-- Row r of the accumulator after column tile n of row tile rt. -/
def seqMin (rt : Fin 16) (r : Fin 512) (n : ℕ) : EReal :=
  if hn : n < 8 then ((Stats.accAt (Va m) c (8 * rt.val + n) (ptBound rt n hn)).1 : Vec Ideal S512x1 .f32) (ix2 r (0 : Fin 1)) else 0

theorem seqMin_zero (rt : Fin 16) (r : Fin 512) :
    seqMin m c rt r 0 = min ⊤ (Finset.univ.inf fun k : Fin 1024 => posTerm (LB m c) (Ker.S (X m c)) (row rt r) (Ker.col 0 k)) := by
  have h0 : (⟨8 * rt.val + 0, ptBound rt 0 (by decide)⟩ : Fin cfg0.N).val % 8 = 0 := by show (8 * rt.val + 0) % 8 = 0; omega
  unfold seqMin; rw [dif_pos (by decide : 0 < 8)]
  refine (congrFun (Stats.acc0_first (Va m) c ⟨8 * rt.val + 0, ptBound rt 0 (by decide)⟩ h0) (ix2 r (0 : Fin 1))).trans ?_
  refine (Pay.k0_storeMin_apply _ _ _ _ _ _ r).trans ?_
  rw [Pay.k0_resetMin_apply, stileMin m c ⟨8 * rt.val + 0, ptBound rt 0 (by decide)⟩ rt 0
    (by show (8 * rt.val + 0) / 8 = rt.val; omega) (by show (8 * rt.val + 0) % 8 = ((0 : Fin 8) : ℕ); simp) r]

theorem seqMin_succ (rt : Fin 16) (r : Fin 512) (n : ℕ) (h : n + 1 < 8) :
    seqMin m c rt r (n + 1) = min (seqMin m c rt r n) (Finset.univ.inf fun k : Fin 1024 => posTerm (LB m c) (Ker.S (X m c)) (row rt r) (Ker.col ⟨n + 1, h⟩ k)) := by
  have hne : ¬(⟨8 * rt.val + (n + 1), ptBound rt (n + 1) h⟩ : Fin cfg0.N).val % 8 = 0 := by show ¬(8 * rt.val + (n + 1)) % 8 = 0; omega
  unfold seqMin; rw [dif_pos h, dif_pos (by omega : n < 8)]
  refine (congrFun (Stats.acc0_later (Va m) c ⟨8 * rt.val + (n + 1), ptBound rt (n + 1) h⟩ hne) (ix2 r (0 : Fin 1))).trans ?_
  refine (Pay.k0_storeMin_apply _ _ _ _ _ _ r).trans ?_
  rw [stileMin m c ⟨8 * rt.val + (n + 1), ptBound rt (n + 1) h⟩ rt ⟨n + 1, h⟩
    (by show (8 * rt.val + (n + 1)) / 8 = rt.val; omega) (by show (8 * rt.val + (n + 1)) % 8 = n + 1; omega) r]
  rw [show Stats.accBefore (Va m) c ⟨8 * rt.val + (n + 1), ptBound rt (n + 1) h⟩ = Stats.accAt (Va m) c (8 * rt.val + n) (ptBound rt n (by omega))
    from accAt_congr m c (by show 8 * rt.val + (n + 1) - 1 = 8 * rt.val + n; omega) _ _]

theorem accMin_val (rt : Fin 16) (r : Fin 512) (n : ℕ) (hn : n < 8) :
    ((Stats.accAt (Va m) c (8 * rt.val + n) (ptBound rt n hn)).1 : Vec Ideal S512x1 .f32) (ix2 r (0 : Fin 1)) = Ker.accMin (X m c) (LB m c) (row rt r) n := by
  have h := accMin_of_steps (X m c) (LB m c) (row rt r) (seqMin m c rt r) (seqMin_zero m c rt r) (fun b hb => seqMin_succ m c rt r b hb) n hn
  unfold seqMin at h; rwa [dif_pos hn] at h

/-- Row r of the accumulator after column tile n of row tile rt. -/
def seqMax (rt : Fin 16) (r : Fin 512) (n : ℕ) : EReal :=
  if hn : n < 8 then ((Stats.accAt (Va m) c (8 * rt.val + n) (ptBound rt n hn)).2 : Vec Ideal S512x1 .f32) (ix2 r (0 : Fin 1)) else 0

theorem seqMax_zero (rt : Fin 16) (r : Fin 512) :
    seqMax m c rt r 0 = max ⊥ (Finset.univ.sup fun k : Fin 1024 => negTerm (LB m c) (Ker.S (X m c)) (row rt r) (Ker.col 0 k)) := by
  have h0 : (⟨8 * rt.val + 0, ptBound rt 0 (by decide)⟩ : Fin cfg0.N).val % 8 = 0 := by show (8 * rt.val + 0) % 8 = 0; omega
  unfold seqMax; rw [dif_pos (by decide : 0 < 8)]
  refine (congrFun (Stats.acc1_first (Va m) c ⟨8 * rt.val + 0, ptBound rt 0 (by decide)⟩ h0) (ix2 r (0 : Fin 1))).trans ?_
  refine (Pay.k0_storeMax_apply _ _ _ _ _ _ r).trans ?_
  rw [Pay.k0_resetMax_apply, stileMax m c ⟨8 * rt.val + 0, ptBound rt 0 (by decide)⟩ rt 0
    (by show (8 * rt.val + 0) / 8 = rt.val; omega) (by show (8 * rt.val + 0) % 8 = ((0 : Fin 8) : ℕ); simp) r]

theorem seqMax_succ (rt : Fin 16) (r : Fin 512) (n : ℕ) (h : n + 1 < 8) :
    seqMax m c rt r (n + 1) = max (seqMax m c rt r n) (Finset.univ.sup fun k : Fin 1024 => negTerm (LB m c) (Ker.S (X m c)) (row rt r) (Ker.col ⟨n + 1, h⟩ k)) := by
  have hne : ¬(⟨8 * rt.val + (n + 1), ptBound rt (n + 1) h⟩ : Fin cfg0.N).val % 8 = 0 := by show ¬(8 * rt.val + (n + 1)) % 8 = 0; omega
  unfold seqMax; rw [dif_pos h, dif_pos (by omega : n < 8)]
  refine (congrFun (Stats.acc1_later (Va m) c ⟨8 * rt.val + (n + 1), ptBound rt (n + 1) h⟩ hne) (ix2 r (0 : Fin 1))).trans ?_
  refine (Pay.k0_storeMax_apply _ _ _ _ _ _ r).trans ?_
  rw [stileMax m c ⟨8 * rt.val + (n + 1), ptBound rt (n + 1) h⟩ rt ⟨n + 1, h⟩
    (by show (8 * rt.val + (n + 1)) / 8 = rt.val; omega) (by show (8 * rt.val + (n + 1)) % 8 = n + 1; omega) r]
  rw [show Stats.accBefore (Va m) c ⟨8 * rt.val + (n + 1), ptBound rt (n + 1) h⟩ = Stats.accAt (Va m) c (8 * rt.val + n) (ptBound rt n (by omega))
    from accAt_congr m c (by show 8 * rt.val + (n + 1) - 1 = 8 * rt.val + n; omega) _ _]

theorem accMax_val (rt : Fin 16) (r : Fin 512) (n : ℕ) (hn : n < 8) :
    ((Stats.accAt (Va m) c (8 * rt.val + n) (ptBound rt n hn)).2 : Vec Ideal S512x1 .f32) (ix2 r (0 : Fin 1)) = Ker.accMax (X m c) (LB m c) (row rt r) n := by
  have h := accMax_of_steps (X m c) (LB m c) (row rt r) (seqMax m c rt r) (seqMax_zero m c rt r) (fun b hb => seqMax_succ m c rt r b hb) n hn
  unfold seqMax at h; rwa [dif_pos hn] at h

/-! ## The two output arrays -/

theorem minpos_arr (i : Fin 8192) :
    ((Stats.dat (Va m) c).arrAt 5 cfg0.N : S8192x1.Idx → EReal) (ix2 i (0 : Fin 1)) = Ker.minPos (X m c) (LB m c) i := by
  have hi := i.isLt
  have h7 : (⟨8 * (i.val / 512) + 7, Stats.lastBound _ i.isLt⟩ : Fin cfg0.N).val % 8 = 7 := by show (8 * (i.val / 512) + 7) % 8 = 7; omega
  have hn0 : ¬(⟨8 * (i.val / 512) + 7, Stats.lastBound _ i.isLt⟩ : Fin cfg0.N).val % 8 = 0 := by show ¬(8 * (i.val / 512) + 7) % 8 = 0; omega
  rw [Stats.arr0_apply, Stats.out0_last (Va m) c ⟨8 * (i.val / 512) + 7, Stats.lastBound _ i.isLt⟩ h7, ← Stats.acc0_later (Va m) c ⟨8 * (i.val / 512) + 7, Stats.lastBound _ i.isLt⟩ hn0]
  have h := accMin_val m c ⟨i.val / 512, by omega⟩ ⟨i.val % 512, Nat.mod_lt _ (by decide)⟩ 7 (by decide)
  rw [show row ⟨i.val / 512, by omega⟩ ⟨i.val % 512, Nat.mod_lt _ (by decide)⟩ = i from Fin.ext (by simp only [row]; omega)] at h
  exact h

theorem maxneg_arr (i : Fin 8192) :
    ((Stats.dat (Va m) c).arrAt 6 cfg0.N : S8192x1.Idx → EReal) (ix2 i (0 : Fin 1)) = Ker.maxNeg (X m c) (LB m c) i := by
  have hi := i.isLt
  have h7 : (⟨8 * (i.val / 512) + 7, Stats.lastBound _ i.isLt⟩ : Fin cfg0.N).val % 8 = 7 := by show (8 * (i.val / 512) + 7) % 8 = 7; omega
  have hn0 : ¬(⟨8 * (i.val / 512) + 7, Stats.lastBound _ i.isLt⟩ : Fin cfg0.N).val % 8 = 0 := by show ¬(8 * (i.val / 512) + 7) % 8 = 0; omega
  rw [Stats.arr1_apply, Stats.out1_last (Va m) c ⟨8 * (i.val / 512) + 7, Stats.lastBound _ i.isLt⟩ h7, ← Stats.acc1_later (Va m) c ⟨8 * (i.val / 512) + 7, Stats.lastBound _ i.isLt⟩ hn0]
  have h := accMax_val m c ⟨i.val / 512, by omega⟩ ⟨i.val % 512, Nat.mod_lt _ (by decide)⟩ 7 (by decide)
  rw [show row ⟨i.val / 512, by omega⟩ ⟨i.val % 512, Nat.mod_lt _ (by decide)⟩ = i from Fin.ext (by simp only [row]; omega)] at h
  exact h

end Cert.KernelIdeal.Val

end
-- ==== Proof.LossPieces.lean ====
/-
  What the second kernel region's body leaves in each buffer, case by case, as the body's arithmetic of its loads:
  each accumulator ends at what it held (zero at a first column tile) updated with the tile; at a last column tile
  the first output is the row loss of the accumulators' new contents and the second the new "a negative was kept" flag.
-/
import proofs.«151531_j1219770712681_2_alg».proof.Proof.LossFrame
import Idealize.ShloMosaic.Lib.Pipeline.Value

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The accumulators' new contents: the sum of the kept positives' exponentials, of the kept negatives', and the two
    flags, each from the tile's blocks and the accumulator's old contents `a`. -/
abbrev updPos (x0 : Vec F S512x192 .f32) (x1 : Vec F S1024x192 .f32) (x2 : Vec F S512x1 .i32) (x3 : Vec F S1x1024 .i32) (x4 x5 x6 : Vec F S512x1 .f32) (a : Vec F S512x1 .f32) : FVec F S512x1 .f32 :=
  k1_pay15 (k1_pay8 x0 x1 x4) (k1_pay10 x0 x1 x4 x2 x3) (k1_pay11 x6) (k1_pay13 (F := F)) a
abbrev updNeg (x0 : Vec F S512x192 .f32) (x1 : Vec F S1024x192 .f32) (x2 : Vec F S512x1 .i32) (x3 : Vec F S1x1024 .i32) (x4 x5 x6 : Vec F S512x1 .f32) (a : Vec F S512x1 .f32) : FVec F S512x1 .f32 :=
  k1_pay16 (k1_pay8 x0 x1 x4) (k1_pay12 x0 x1 x4 x2 x3 x5) a
abbrev updHasNeg (x0 : Vec F S512x192 .f32) (x1 : Vec F S1024x192 .f32) (x2 : Vec F S512x1 .i32) (x3 : Vec F S1x1024 .i32) (x4 x5 x6 : Vec F S512x1 .f32) (a : Vec F S512x1 .f32) : FVec F S512x1 .f32 :=
  k1_pay1 (k1_pay12 x0 x1 x4 x2 x3 x5) a (FloatOps.ofBits .f32 0x3F800000#32)
abbrev updHasPos (x0 : Vec F S512x192 .f32) (x1 : Vec F S1024x192 .f32) (x2 : Vec F S512x1 .i32) (x3 : Vec F S1x1024 .i32) (x4 x5 x6 : Vec F S512x1 .f32) (a : Vec F S512x1 .f32) : FVec F S512x1 .f32 :=
  k1_pay2 (k1_pay14 (k1_pay8 x0 x1 x4) (k1_pay10 x0 x1 x4 x2 x3) (k1_pay11 x6) (k1_pay13 (F := F))) a

theorem canonMid0 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : ¬condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runMid (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).1 = updPos x0 x1 x2 x3 x4 x5 x6 a0 := by
  unfold runMid
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonMid1 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : ¬condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runMid (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.1 = updNeg x0 x1 x2 x3 x4 x5 x6 a1 := by
  unfold runMid
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonMid2 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : ¬condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runMid (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.2.1 = updHasNeg x0 x1 x2 x3 x4 x5 x6 a2 := by
  unfold runMid
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonMid3 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : ¬condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runMid (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.2.2.1 = updHasPos x0 x1 x2 x3 x4 x5 x6 a3 := by
  unfold runMid
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonFirst0 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : condFirst i) (hc1 : ¬condLast i)
    (x0 : Vec F S512x192 .f32) (x1 : Vec F S1024x192 .f32) (x2 : Vec F S512x1 .i32) (x3 : Vec F S1x1024 .i32) (x4 x5 x6 : Vec F S512x1 .f32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 = updPos x0 x1 x2 x3 x4 x5 x6 (k1_pay4 (F := F)) := by
  unfold runFirst
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonFirst1 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : condFirst i) (hc1 : ¬condLast i)
    (x0 : Vec F S512x192 .f32) (x1 : Vec F S1024x192 .f32) (x2 : Vec F S512x1 .i32) (x3 : Vec F S1x1024 .i32) (x4 x5 x6 : Vec F S512x1 .f32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 = updNeg x0 x1 x2 x3 x4 x5 x6 (k1_pay5 (F := F)) := by
  unfold runFirst
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonFirst2 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : condFirst i) (hc1 : ¬condLast i)
    (x0 : Vec F S512x192 .f32) (x1 : Vec F S1024x192 .f32) (x2 : Vec F S512x1 .i32) (x3 : Vec F S1x1024 .i32) (x4 x5 x6 : Vec F S512x1 .f32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1 = updHasNeg x0 x1 x2 x3 x4 x5 x6 (k1_pay6 (F := F)) := by
  unfold runFirst
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonFirst3 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : condFirst i) (hc1 : ¬condLast i)
    (x0 : Vec F S512x192 .f32) (x1 : Vec F S1024x192 .f32) (x2 : Vec F S512x1 .i32) (x3 : Vec F S1x1024 .i32) (x4 x5 x6 : Vec F S512x1 .f32) :
    View.canon (runFirst (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 = updHasPos x0 x1 x2 x3 x4 x5 x6 (k1_pay7 (F := F)) := by
  unfold runFirst
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonLast0 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.2.1 = updPos x0 x1 x2 x3 x4 x5 x6 a0 := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonLast1 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.2.2.1 = updNeg x0 x1 x2 x3 x4 x5 x6 a1 := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonLast2 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.2.2.2.1 = updHasNeg x0 x1 x2 x3 x4 x5 x6 a2 := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonLast3 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.2.2.2.2.1 = updHasPos x0 x1 x2 x3 x4 x5 x6 a3 := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonLastO0 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).1 = k1_pay3 (updHasNeg x0 x1 x2 x3 x4 x5 x6 a2) (updHasPos x0 x1 x2 x3 x4 x5 x6 a3) (updPos x0 x1 x2 x3 x4 x5 x6 a0) (updNeg x0 x1 x2 x3 x4 x5 x6 a1) := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

theorem canonLastO1 (c : Dev nD) (i : grid1.Coords) (arg2 : Memref sig .tc .vmem S512x192 .f32) (harg2 : arg2.IsWhole) (arg3 : Memref sig .tc .vmem S1024x192 .f32) (harg3 : arg3.IsWhole) (arg4 : Memref sig .tc .vmem S512x1 .i32) (harg4 : arg4.IsWhole) (arg5 : Memref sig .tc .vmem S1x1024 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (hc0 : ¬condFirst i) (hc1 : condLast i)
    (x0 : Vec F S512x192 .f32) (x1 : Vec F S1024x192 .f32) (x2 : Vec F S512x1 .i32) (x3 : Vec F S1x1024 .i32) (x4 x5 x6 : Vec F S512x1 .f32) (a0 a1 a2 a3 : Vec F S512x1 .f32) :
    View.canon (runLast (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 a0 a1 a2 a3).2.1 = updHasNeg x0 x1 x2 x3 x4 x5 x6 a2 := by
  unfold runLast
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x192) hz, View.ld_unit_zero (S := S1024x192) hz, View.ld_unit_zero (S := S512x1) hz, View.ld_unit_zero (S := S1x1024) hz,
    View.readCov_unit_zero (S := S512x1) _ hz]
  try rfl

end Cert.KernelIdeal.Loss

end
-- ==== Proof.LossPoint.lean ====
/-
  The second kernel region point by point: each accumulator after a point as the body's arithmetic of the point's input blocks and of what the point before left; at a last column tile the first output is the row loss of the accumulators' new contents and the second the new "a negative was kept" flag.
-/
import proofs.«151531_j1219770712681_2_alg».proof.Proof.LossPieces

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem acc0_first (c : Dev nD) (t : Fin cfg1.N) (h0 : t.val % 8 = 0) :
    (accAt V c t.val t.isLt).1 = updPos (iblk V c 0 t) (iblk V c 1 t) (iblk V c 2 t) (iblk V c 3 t) (iblk V c 4 t) (iblk V c 5 t) (iblk V c 6 t) (k1_pay4 (F := F)) := by
  have h1 : ¬t.val % 8 = 7 := by omega
  rw [accAt_first V c t h0 h1]
  dsimp only
  rw [View.read_writes_eq_canon _ _ _ (coverFirst0 V c t h0 h1)]
  exact canonFirst0 ..

theorem acc0_later (c : Dev nD) (t : Fin cfg1.N) (h0 : ¬t.val % 8 = 0) :
    (accAt V c t.val t.isLt).1 = updPos (iblk V c 0 t) (iblk V c 1 t) (iblk V c 2 t) (iblk V c 3 t) (iblk V c 4 t) (iblk V c 5 t) (iblk V c 6 t) (accBefore V c t).1 := by
  by_cases h1 : t.val % 8 = 7
  · rw [accAt_last V c t h0 h1]
    dsimp only
    rw [View.read_writes_eq_canon _ _ _ (coverLast0 V c t h0 h1 _ _ _ _)]
    exact canonLast0 ..
  · rw [accAt_mid V c t h0 h1]
    dsimp only
    rw [View.read_writes_eq_canon _ _ _ (coverMid0 V c t h0 h1 _ _ _ _)]
    exact canonMid0 ..

theorem acc1_first (c : Dev nD) (t : Fin cfg1.N) (h0 : t.val % 8 = 0) :
    (accAt V c t.val t.isLt).2.1 = updNeg (iblk V c 0 t) (iblk V c 1 t) (iblk V c 2 t) (iblk V c 3 t) (iblk V c 4 t) (iblk V c 5 t) (iblk V c 6 t) (k1_pay5 (F := F)) := by
  have h1 : ¬t.val % 8 = 7 := by omega
  rw [accAt_first V c t h0 h1]
  dsimp only
  rw [View.read_writes_eq_canon _ _ _ (coverFirst1 V c t h0 h1)]
  exact canonFirst1 ..

theorem acc1_later (c : Dev nD) (t : Fin cfg1.N) (h0 : ¬t.val % 8 = 0) :
    (accAt V c t.val t.isLt).2.1 = updNeg (iblk V c 0 t) (iblk V c 1 t) (iblk V c 2 t) (iblk V c 3 t) (iblk V c 4 t) (iblk V c 5 t) (iblk V c 6 t) (accBefore V c t).2.1 := by
  by_cases h1 : t.val % 8 = 7
  · rw [accAt_last V c t h0 h1]
    dsimp only
    rw [View.read_writes_eq_canon _ _ _ (coverLast1 V c t h0 h1 _ _ _ _)]
    exact canonLast1 ..
  · rw [accAt_mid V c t h0 h1]
    dsimp only
    rw [View.read_writes_eq_canon _ _ _ (coverMid1 V c t h0 h1 _ _ _ _)]
    exact canonMid1 ..

theorem acc2_first (c : Dev nD) (t : Fin cfg1.N) (h0 : t.val % 8 = 0) :
    (accAt V c t.val t.isLt).2.2.1 = updHasNeg (iblk V c 0 t) (iblk V c 1 t) (iblk V c 2 t) (iblk V c 3 t) (iblk V c 4 t) (iblk V c 5 t) (iblk V c 6 t) (k1_pay6 (F := F)) := by
  have h1 : ¬t.val % 8 = 7 := by omega
  rw [accAt_first V c t h0 h1]
  dsimp only
  rw [View.read_writes_eq_canon _ _ _ (coverFirst2 V c t h0 h1)]
  exact canonFirst2 ..

theorem acc2_later (c : Dev nD) (t : Fin cfg1.N) (h0 : ¬t.val % 8 = 0) :
    (accAt V c t.val t.isLt).2.2.1 = updHasNeg (iblk V c 0 t) (iblk V c 1 t) (iblk V c 2 t) (iblk V c 3 t) (iblk V c 4 t) (iblk V c 5 t) (iblk V c 6 t) (accBefore V c t).2.2.1 := by
  by_cases h1 : t.val % 8 = 7
  · rw [accAt_last V c t h0 h1]
    dsimp only
    rw [View.read_writes_eq_canon _ _ _ (coverLast2 V c t h0 h1 _ _ _ _)]
    exact canonLast2 ..
  · rw [accAt_mid V c t h0 h1]
    dsimp only
    rw [View.read_writes_eq_canon _ _ _ (coverMid2 V c t h0 h1 _ _ _ _)]
    exact canonMid2 ..

theorem acc3_first (c : Dev nD) (t : Fin cfg1.N) (h0 : t.val % 8 = 0) :
    (accAt V c t.val t.isLt).2.2.2 = updHasPos (iblk V c 0 t) (iblk V c 1 t) (iblk V c 2 t) (iblk V c 3 t) (iblk V c 4 t) (iblk V c 5 t) (iblk V c 6 t) (k1_pay7 (F := F)) := by
  have h1 : ¬t.val % 8 = 7 := by omega
  rw [accAt_first V c t h0 h1]
  dsimp only
  rw [View.read_writes_eq_canon _ _ _ (coverFirst3 V c t h0 h1)]
  exact canonFirst3 ..

theorem acc3_later (c : Dev nD) (t : Fin cfg1.N) (h0 : ¬t.val % 8 = 0) :
    (accAt V c t.val t.isLt).2.2.2 = updHasPos (iblk V c 0 t) (iblk V c 1 t) (iblk V c 2 t) (iblk V c 3 t) (iblk V c 4 t) (iblk V c 5 t) (iblk V c 6 t) (accBefore V c t).2.2.2 := by
  by_cases h1 : t.val % 8 = 7
  · rw [accAt_last V c t h0 h1]
    dsimp only
    rw [View.read_writes_eq_canon _ _ _ (coverLast3 V c t h0 h1 _ _ _ _)]
    exact canonLast3 ..
  · rw [accAt_mid V c t h0 h1]
    dsimp only
    rw [View.read_writes_eq_canon _ _ _ (coverMid3 V c t h0 h1 _ _ _ _)]
    exact canonMid3 ..

theorem out0_last (c : Dev nD) (t : Fin cfg1.N) (h1 : t.val % 8 = 7) :
    (outAt V c t).1 = k1_pay3 (updHasNeg (iblk V c 0 t) (iblk V c 1 t) (iblk V c 2 t) (iblk V c 3 t) (iblk V c 4 t) (iblk V c 5 t) (iblk V c 6 t) (accBefore V c t).2.2.1) (updHasPos (iblk V c 0 t) (iblk V c 1 t) (iblk V c 2 t) (iblk V c 3 t) (iblk V c 4 t) (iblk V c 5 t) (iblk V c 6 t) (accBefore V c t).2.2.2) (updPos (iblk V c 0 t) (iblk V c 1 t) (iblk V c 2 t) (iblk V c 3 t) (iblk V c 4 t) (iblk V c 5 t) (iblk V c 6 t) (accBefore V c t).1) (updNeg (iblk V c 0 t) (iblk V c 1 t) (iblk V c 2 t) (iblk V c 3 t) (iblk V c 4 t) (iblk V c 5 t) (iblk V c 6 t) (accBefore V c t).2.1) := by
  have h0 : ¬t.val % 8 = 0 := by omega
  rw [outAt_last V c t h0 h1]
  dsimp only
  rw [View.read_writes_eq_canon _ _ _ (coverLastO0 V c t h0 h1 _ _ _ _)]
  exact canonLastO0 ..

theorem out1_last (c : Dev nD) (t : Fin cfg1.N) (h1 : t.val % 8 = 7) :
    (outAt V c t).2 = updHasNeg (iblk V c 0 t) (iblk V c 1 t) (iblk V c 2 t) (iblk V c 3 t) (iblk V c 4 t) (iblk V c 5 t) (iblk V c 6 t) (accBefore V c t).2.2.1 := by
  have h0 : ¬t.val % 8 = 0 := by omega
  rw [outAt_last V c t h0 h1]
  dsimp only
  rw [View.read_writes_eq_canon _ _ _ (coverLastO1 V c t h0 h1 _ _ _ _)]
  exact canonLastO1 ..

end Cert.KernelIdeal.Loss

end
-- ==== Proof.LossBlocks.lean ====
/-
  The second kernel region's blocks and output arrays, at any contents `V` of the core's buffers when the region
  is entered. Point t of the 16 x 8 grid is row tile t / 8 and column tile t % 8. A row-tile window's block at t is
  rows 512 (t / 8) … 512 (t / 8) + 511 of its array; a column-tile window's block is rows (of the row matrix) or
  columns (of the label row) 1024 (t % 8) … 1024 (t % 8) + 1023. Each output array is written back at the last
  column tile of every row tile, and those sixteen blocks of 512 rows tile its 8192 rows: row i ends holding row
  i % 512 of what point 8 (i / 512) + 7 stored.
-/
import proofs.«151531_j1219770712681_2_alg».proof.Proof.LossBody
import Idealize.ShloMosaic.Lib.Pipeline.Value
import Idealize.ShloMosaic.Lib.ValueIdx

set_option maxRecDepth 16384

noncomputable section

namespace Cert.KernelIdeal.Loss

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The index maps, decided once over the grid -/

/-- Window 0 moves with the row tile. -/
theorem idx0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
/-- Window 1 moves with the column tile. -/
theorem idx1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
/-- Window 2 moves with the row tile. -/
theorem idx2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
/-- Window 3 moves with the column tile. -/
theorem idx3 : ∀ t : Fin cfg1.N, win1_3.index t (0 : Fin 2) = 0 ∧ win1_3.index t (1 : Fin 2) = t.val % 8 :=
  (by decide +kernel : ∀ t : Fin grid1.N, win1_3.index t (0 : Fin 2) = 0 ∧ win1_3.index t (1 : Fin 2) = t.val % 8)
/-- Window 4 moves with the row tile. -/
theorem idx4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)
/-- Window 5 moves with the row tile. -/
theorem idx5 : ∀ t : Fin cfg1.N, win1_5.index t (0 : Fin 2) = t.val / 8 ∧ win1_5.index t (1 : Fin 2) = 0 :=
  (by decide +kernel : ∀ t : Fin grid1.N, win1_5.index t (0 : Fin 2) = t.val / 8 ∧ win1_5.index t (1 : Fin 2) = 0)
/-- Window 6 moves with the row tile. -/
theorem idx6 : ∀ t : Fin cfg1.N, win1_6.index t (0 : Fin 2) = t.val / 8 ∧ win1_6.index t (1 : Fin 2) = 0 :=
  (by decide +kernel : ∀ t : Fin grid1.N, win1_6.index t (0 : Fin 2) = t.val / 8 ∧ win1_6.index t (1 : Fin 2) = 0)
/-- Window 7 moves with the row tile. -/
theorem idx7 : ∀ t : Fin cfg1.N, win1_7.index t (0 : Fin 2) = t.val / 8 ∧ win1_7.index t (1 : Fin 2) = 0 :=
  (by decide +kernel : ∀ t : Fin grid1.N, win1_7.index t (0 : Fin 2) = t.val / 8 ∧ win1_7.index t (1 : Fin 2) = 0)
/-- Window 8 moves with the row tile. -/
theorem idx8 : ∀ t : Fin cfg1.N, win1_8.index t (0 : Fin 2) = t.val / 8 ∧ win1_8.index t (1 : Fin 2) = 0 :=
  (by decide +kernel : ∀ t : Fin grid1.N, win1_8.index t (0 : Fin 2) = t.val / 8 ∧ win1_8.index t (1 : Fin 2) = 0)

/-! ## The rows and columns a point's blocks hold -/

theorem rowBound (t : Fin cfg1.N) (r : Fin 512) : 512 * (t.val / 8) + r.val < 8192 := by
  have hN : cfg1.N = 128 := N_1
  have := t.isLt; have := r.isLt; omega

theorem colBound (t : Fin cfg1.N) (k : Fin 1024) : 1024 * (t.val % 8) + k.val < 8192 := by
  have := k.isLt; omega

/-! ## Each input window's block, read off its array -/

/-- Window 0's block at point `t` is rows 512 (t / 8) … of the row matrix. -/
theorem iblk0_apply (c : Dev nD) (t : Fin cfg1.N) (r : Fin 512) (d : Fin 192) :
    (iblk V c 0 t : Vec F S512x192 .f32) (ix2 r d)
      = (V c main_v0 : S8192x192.Idx → Elt F .f32) (ix2 (⟨512 * (t.val / 8) + r.val, rowBound t r⟩ : Fin 8192) d) := by
  obtain ⟨h0, h1⟩ := idx0 t
  unfold iblk
  rw [View.read_apply]
  show V c main_v0 _ = V c main_v0 _
  refine congrArg _ ?_
  funext a
  apply Fin.ext
  match a with
  | ⟨0, _⟩ => show win1_0.index t (0 : Fin 2) * 512 + 1 * r.val = 512 * (t.val / 8) + r.val; rw [h0]; omega
  | ⟨1, _⟩ => show win1_0.index t (1 : Fin 2) * 192 + 1 * d.val = d.val; rw [h1]; omega

/-- Window 1's block at point `t` is rows 1024 (t % 8) … of the row matrix. -/
theorem iblk1_apply (c : Dev nD) (t : Fin cfg1.N) (k : Fin 1024) (d : Fin 192) :
    (iblk V c 1 t : Vec F S1024x192 .f32) (ix2 k d)
      = (V c main_v0 : S8192x192.Idx → Elt F .f32) (ix2 (⟨1024 * (t.val % 8) + k.val, colBound t k⟩ : Fin 8192) d) := by
  obtain ⟨h0, h1⟩ := idx1 t
  unfold iblk
  rw [View.read_apply]
  show V c main_v0 _ = V c main_v0 _
  refine congrArg _ ?_
  funext a
  apply Fin.ext
  match a with
  | ⟨0, _⟩ => show win1_1.index t (0 : Fin 2) * 1024 + 1 * k.val = 1024 * (t.val % 8) + k.val; rw [h0]; omega
  | ⟨1, _⟩ => show win1_1.index t (1 : Fin 2) * 192 + 1 * d.val = d.val; rw [h1]; omega

/-- Window 2's block at point `t` is the labels of rows 512 (t / 8) …, as a column. -/
theorem iblk2_apply (c : Dev nD) (t : Fin cfg1.N) (r : Fin 512) :
    (iblk V c 2 t : Vec F S512x1 .i32) (ix2 r (0 : Fin 1))
      = (V c main_v3 : S8192x1.Idx → Elt F .i32) (ix2 (⟨512 * (t.val / 8) + r.val, rowBound t r⟩ : Fin 8192) (0 : Fin 1)) := by
  obtain ⟨h0, h1⟩ := idx2 t
  unfold iblk
  rw [View.read_apply]
  show V c main_v3 _ = V c main_v3 _
  refine congrArg _ ?_
  funext a
  apply Fin.ext
  match a with
  | ⟨0, _⟩ => show win1_2.index t (0 : Fin 2) * 512 + 1 * r.val = 512 * (t.val / 8) + r.val; rw [h0]; omega
  | ⟨1, _⟩ => show win1_2.index t (1 : Fin 2) * 1 + 1 * 0 = 0; rw [h1]

/-- Window 3's block at point `t` is the labels of columns 1024 (t % 8) …, as a row. -/
theorem iblk3_apply (c : Dev nD) (t : Fin cfg1.N) (k : Fin 1024) :
    (iblk V c 3 t : Vec F S1x1024 .i32) (ix2 (0 : Fin 1) k)
      = (V c main_v4 : S1x8192.Idx → Elt F .i32) (ix2 (0 : Fin 1) (⟨1024 * (t.val % 8) + k.val, colBound t k⟩ : Fin 8192)) := by
  obtain ⟨h0, h1⟩ := idx3 t
  unfold iblk
  rw [View.read_apply]
  show V c main_v4 _ = V c main_v4 _
  refine congrArg _ ?_
  funext a
  apply Fin.ext
  match a with
  | ⟨0, _⟩ => show win1_3.index t (0 : Fin 2) * 1 + 1 * 0 = 0; rw [h0]
  | ⟨1, _⟩ => show win1_3.index t (1 : Fin 2) * 1024 + 1 * k.val = 1024 * (t.val % 8) + k.val; rw [h1]; omega

/-- Window 4's block at point `t` is the norms of rows 512 (t / 8) …, as a column. -/
theorem iblk4_apply (c : Dev nD) (t : Fin cfg1.N) (r : Fin 512) :
    (iblk V c 4 t : Vec F S512x1 .f32) (ix2 r (0 : Fin 1))
      = (V c main_v15 : S8192x1.Idx → Elt F .f32) (ix2 (⟨512 * (t.val / 8) + r.val, rowBound t r⟩ : Fin 8192) (0 : Fin 1)) := by
  obtain ⟨h0, h1⟩ := idx4 t
  unfold iblk
  rw [View.read_apply]
  show V c main_v15 _ = V c main_v15 _
  refine congrArg _ ?_
  funext a
  apply Fin.ext
  match a with
  | ⟨0, _⟩ => show win1_4.index t (0 : Fin 2) * 512 + 1 * r.val = 512 * (t.val / 8) + r.val; rw [h0]; omega
  | ⟨1, _⟩ => show win1_4.index t (1 : Fin 2) * 1 + 1 * 0 = 0; rw [h1]

/-- Window 5's block at point `t` is the first region's first result of rows 512 (t / 8) …, as a column. -/
theorem iblk5_apply (c : Dev nD) (t : Fin cfg1.N) (r : Fin 512) :
    (iblk V c 5 t : Vec F S512x1 .f32) (ix2 r (0 : Fin 1))
      = (V c main_v16_0 : S8192x1.Idx → Elt F .f32) (ix2 (⟨512 * (t.val / 8) + r.val, rowBound t r⟩ : Fin 8192) (0 : Fin 1)) := by
  obtain ⟨h0, h1⟩ := idx5 t
  unfold iblk
  rw [View.read_apply]
  show V c main_v16_0 _ = V c main_v16_0 _
  refine congrArg _ ?_
  funext a
  apply Fin.ext
  match a with
  | ⟨0, _⟩ => show win1_5.index t (0 : Fin 2) * 512 + 1 * r.val = 512 * (t.val / 8) + r.val; rw [h0]; omega
  | ⟨1, _⟩ => show win1_5.index t (1 : Fin 2) * 1 + 1 * 0 = 0; rw [h1]

/-- Window 6's block at point `t` is the first region's second result of rows 512 (t / 8) …, as a column. -/
theorem iblk6_apply (c : Dev nD) (t : Fin cfg1.N) (r : Fin 512) :
    (iblk V c 6 t : Vec F S512x1 .f32) (ix2 r (0 : Fin 1))
      = (V c main_v16_1 : S8192x1.Idx → Elt F .f32) (ix2 (⟨512 * (t.val / 8) + r.val, rowBound t r⟩ : Fin 8192) (0 : Fin 1)) := by
  obtain ⟨h0, h1⟩ := idx6 t
  unfold iblk
  rw [View.read_apply]
  show V c main_v16_1 _ = V c main_v16_1 _
  refine congrArg _ ?_
  funext a
  apply Fin.ext
  match a with
  | ⟨0, _⟩ => show win1_6.index t (0 : Fin 2) * 512 + 1 * r.val = 512 * (t.val / 8) + r.val; rw [h0]; omega
  | ⟨1, _⟩ => show win1_6.index t (1 : Fin 2) * 1 + 1 * 0 = 0; rw [h1]

/-! ## The output arrays after the region -/

/-- The last column tile of the row tile that holds row `n`. -/
theorem lastBound (n : ℕ) (h : n < 8192) : 8 * (n / 512) + 7 < cfg1.N := by
  have hN : cfg1.N = 128 := N_1
  omega

theorem modBound (n : ℕ) : n % 512 < 512 := Nat.mod_lt _ (by decide)

/-- What output array 0 ends holding: row `i` is row `i % 512` of what the last column tile of row tile
    `i / 512` stored. -/
def arrO0 (c : Dev nD) : S8192x1.Idx → Elt F .f32 := fun j =>
  ((outAt V c ⟨8 * ((j 0).val / 512) + 7, lastBound _ (j 0).isLt⟩).1 : Vec F S512x1 .f32)
    (ix2 (⟨(j 0).val % 512, modBound _⟩ : Fin 512) (0 : Fin 1))

/-- At a row of a last column tile's block it is that point's stored row. -/
theorem arrO0_at (c : Dev nD) (t : Fin cfg1.N) (h7 : t.val % 8 = 7) (y : S512x1.Idx) (j : S8192x1.Idx)
    (hj : (j 0).val = 512 * (t.val / 8) + (y 0).val) :
    arrO0 V c j = ((outAt V c t).1 : Vec F S512x1 .f32) y := by
  have hy0 : (y 0).val < 512 := (y 0).isLt
  have hy1 : (y 1).val < 1 := (y 1).isLt
  have e1 : (⟨8 * ((j 0).val / 512) + 7, lastBound _ (j 0).isLt⟩ : Fin cfg1.N) = t :=
    Fin.ext (by show 8 * ((j 0).val / 512) + 7 = t.val; omega)
  have e2 : (ix2 (⟨(j 0).val % 512, modBound _⟩ : Fin 512) (0 : Fin 1) : S512x1.Idx) = y := by
    funext a
    apply Fin.ext
    match a with
    | ⟨0, _⟩ => show (j 0).val % 512 = (y 0).val; omega
    | ⟨1, _⟩ => show 0 = (y 1).val; omega
  unfold arrO0
  rw [e1, e2]

/-- What a last column tile writes back is its block of that array: the block is not cut, and its row `y` is row
    512 (t / 8) + y of the array. -/
theorem flushed0_eq (c : Dev nD) (t : Fin cfg1.N) (hf : (cfg1.win 7).flush t = true) :
    (dat V c).flushed 7 t = ((cfg1.win 7).blk t).view.read (Elt F) (arrO0 V c) := by
  have h7 : t.val % 8 = 7 := (flush1_7 t).mp hf
  obtain ⟨h0, h1⟩ := idx7 t
  show (cfg1.win 7).cut (grid1.coords t) ((dat V c).after 7 t) = _
  rw [afterO0]
  funext y
  rw [View.read_apply]
  show ((outAt V c t).1 : Vec F S512x1 .f32) y = arrO0 V c (((cfg1.win 7).blk t).view.emb y)
  refine (arrO0_at V c t h7 y _ ?_).symm
  show win1_7.index t (0 : Fin 2) * 512 + 1 * (y 0).val = 512 * (t.val / 8) + (y 0).val
  rw [h0]; omega

/-- Every row of the array is in the block of the last column tile of its row tile. -/
theorem cover0 (i : S8192x1.Idx) :
    ∃ t : Fin cfg1.N, (cfg1.win 7).flush t = true ∧ i ∈ ((cfg1.win 7).blk t).view.set := by
  have hi0 : (i 0).val < 8192 := (i 0).isLt
  have hi1 : (i 1).val < 1 := (i 1).isLt
  obtain ⟨t, ht⟩ : ∃ t : Fin cfg1.N, t.val = 8 * ((i 0).val / 512) + 7 := ⟨⟨_, lastBound _ hi0⟩, rfl⟩
  obtain ⟨h0, h1⟩ := idx7 t
  refine ⟨t, (flush1_7 t).mpr (by omega), ?_⟩
  show i ∈ ((View.whole main_v17_0).slice (win1_7.rect t)).set
  rw [View.set_slice_whole, Rect.mem_set_unit]
  intro a
  match a with
  | ⟨0, _⟩ =>
    show win1_7.index t (0 : Fin 2) * 512 ≤ (i 0).val ∧ (i 0).val < win1_7.index t (0 : Fin 2) * 512 + 512
    rw [h0]; omega
  | ⟨1, _⟩ =>
    show win1_7.index t (1 : Fin 2) * 1 ≤ (i 1).val ∧ (i 1).val < win1_7.index t (1 : Fin 2) * 1 + 1
    rw [h1]; omega

/-- Output array 0 after the region. -/
theorem arrO0_eq (c : Dev nD) : (dat V c).arrAt 7 cfg1.N = arrO0 V c :=
  (dat V c).arrAt_eq_of_cover 7 (arrO0 V c) (flushed0_eq V c) cover0

/-- Row `i` of output array 0 after the region: row `i % 512` of what point 8 (i / 512) + 7 stored. -/
theorem arr0_apply (c : Dev nD) (i : Fin 8192) :
    ((dat V c).arrAt 7 cfg1.N : S8192x1.Idx → Elt F .f32) (ix2 i (0 : Fin 1))
      = ((outAt V c ⟨8 * (i.val / 512) + 7, lastBound _ i.isLt⟩).1 : Vec F S512x1 .f32)
          (ix2 (⟨i.val % 512, modBound _⟩ : Fin 512) (0 : Fin 1)) := by
  rw [arrO0_eq]
  rfl

/-- What output array 1 ends holding: row `i` is row `i % 512` of what the last column tile of row tile
    `i / 512` stored. -/
def arrO1 (c : Dev nD) : S8192x1.Idx → Elt F .f32 := fun j =>
  ((outAt V c ⟨8 * ((j 0).val / 512) + 7, lastBound _ (j 0).isLt⟩).2 : Vec F S512x1 .f32)
    (ix2 (⟨(j 0).val % 512, modBound _⟩ : Fin 512) (0 : Fin 1))

/-- At a row of a last column tile's block it is that point's stored row. -/
theorem arrO1_at (c : Dev nD) (t : Fin cfg1.N) (h7 : t.val % 8 = 7) (y : S512x1.Idx) (j : S8192x1.Idx)
    (hj : (j 0).val = 512 * (t.val / 8) + (y 0).val) :
    arrO1 V c j = ((outAt V c t).2 : Vec F S512x1 .f32) y := by
  have hy0 : (y 0).val < 512 := (y 0).isLt
  have hy1 : (y 1).val < 1 := (y 1).isLt
  have e1 : (⟨8 * ((j 0).val / 512) + 7, lastBound _ (j 0).isLt⟩ : Fin cfg1.N) = t :=
    Fin.ext (by show 8 * ((j 0).val / 512) + 7 = t.val; omega)
  have e2 : (ix2 (⟨(j 0).val % 512, modBound _⟩ : Fin 512) (0 : Fin 1) : S512x1.Idx) = y := by
    funext a
    apply Fin.ext
    match a with
    | ⟨0, _⟩ => show (j 0).val % 512 = (y 0).val; omega
    | ⟨1, _⟩ => show 0 = (y 1).val; omega
  unfold arrO1
  rw [e1, e2]

/-- What a last column tile writes back is its block of that array: the block is not cut, and its row `y` is row
    512 (t / 8) + y of the array. -/
theorem flushed1_eq (c : Dev nD) (t : Fin cfg1.N) (hf : (cfg1.win 8).flush t = true) :
    (dat V c).flushed 8 t = ((cfg1.win 8).blk t).view.read (Elt F) (arrO1 V c) := by
  have h7 : t.val % 8 = 7 := (flush1_8 t).mp hf
  obtain ⟨h0, h1⟩ := idx8 t
  show (cfg1.win 8).cut (grid1.coords t) ((dat V c).after 8 t) = _
  rw [afterO1]
  funext y
  rw [View.read_apply]
  show ((outAt V c t).2 : Vec F S512x1 .f32) y = arrO1 V c (((cfg1.win 8).blk t).view.emb y)
  refine (arrO1_at V c t h7 y _ ?_).symm
  show win1_8.index t (0 : Fin 2) * 512 + 1 * (y 0).val = 512 * (t.val / 8) + (y 0).val
  rw [h0]; omega

/-- Every row of the array is in the block of the last column tile of its row tile. -/
theorem cover1 (i : S8192x1.Idx) :
    ∃ t : Fin cfg1.N, (cfg1.win 8).flush t = true ∧ i ∈ ((cfg1.win 8).blk t).view.set := by
  have hi0 : (i 0).val < 8192 := (i 0).isLt
  have hi1 : (i 1).val < 1 := (i 1).isLt
  obtain ⟨t, ht⟩ : ∃ t : Fin cfg1.N, t.val = 8 * ((i 0).val / 512) + 7 := ⟨⟨_, lastBound _ hi0⟩, rfl⟩
  obtain ⟨h0, h1⟩ := idx8 t
  refine ⟨t, (flush1_8 t).mpr (by omega), ?_⟩
  show i ∈ ((View.whole main_v17_1).slice (win1_8.rect t)).set
  rw [View.set_slice_whole, Rect.mem_set_unit]
  intro a
  match a with
  | ⟨0, _⟩ =>
    show win1_8.index t (0 : Fin 2) * 512 ≤ (i 0).val ∧ (i 0).val < win1_8.index t (0 : Fin 2) * 512 + 512
    rw [h0]; omega
  | ⟨1, _⟩ =>
    show win1_8.index t (1 : Fin 2) * 1 ≤ (i 1).val ∧ (i 1).val < win1_8.index t (1 : Fin 2) * 1 + 1
    rw [h1]; omega

/-- Output array 1 after the region. -/
theorem arrO1_eq (c : Dev nD) : (dat V c).arrAt 8 cfg1.N = arrO1 V c :=
  (dat V c).arrAt_eq_of_cover 8 (arrO1 V c) (flushed1_eq V c) cover1

/-- Row `i` of output array 1 after the region: row `i % 512` of what point 8 (i / 512) + 7 stored. -/
theorem arr1_apply (c : Dev nD) (i : Fin 8192) :
    ((dat V c).arrAt 8 cfg1.N : S8192x1.Idx → Elt F .f32) (ix2 i (0 : Fin 1))
      = ((outAt V c ⟨8 * (i.val / 512) + 7, lastBound _ i.isLt⟩).2 : Vec F S512x1 .f32)
          (ix2 (⟨i.val % 512, modBound _⟩ : Fin 512) (0 : Fin 1)) := by
  rw [arrO1_eq]
  rfl

end Cert.KernelIdeal.Loss

end
-- ==== Proof.KerPayFinal.lean ====
/-
  What the second kernel body stores, at row r of its 512 x 1 blocks: the four resets write zero; the two sums grow by
  the tile's sums of the kept positives' and kept negatives' exponentials; the two flags are raised to 1 when the tile
  has a kept negative, a kept positive; and the row loss is formed from the four accumulators' final contents.
-/
import proofs.«151531_j1219770712681_2_alg».proof.Proof.KerPayTile

noncomputable section

namespace Cert.KernelIdeal.Pay

open Idealize.ShloMosaic Idealize.ShloMosaic.ValueIdx Cert.KernelIdeal Cert.KernelIdeal.Gen
open Cert.Spec

/-- The zero word denotes zero. -/
theorem scalar_zero : Scalar.ofBits (F := Ideal) .f32 0x00000000#32 = (0 : EReal) := Ideal.ofBits_zero_f32

/-! ## The four resets -/

theorem k1_resetPos_apply (r : Fin 512) : k1_pay4 (F := Ideal) (ix2 r (0 : Fin 1)) = 0 := by
  show shapeCast S512x1 (broadcast S512x1 (Scalar.ofBits (F := Ideal) .f32 0x00000000#32)) shapeCasts_S512x1_S512x1
    (ix2 r (0 : Fin 1)) = _
  rw [shapeCast_self]; exact scalar_zero

theorem k1_resetNeg_apply (r : Fin 512) : k1_pay5 (F := Ideal) (ix2 r (0 : Fin 1)) = 0 := by
  show shapeCast S512x1 (broadcast S512x1 (Scalar.ofBits (F := Ideal) .f32 0x00000000#32)) shapeCasts_S512x1_S512x1
    (ix2 r (0 : Fin 1)) = _
  rw [shapeCast_self]; exact scalar_zero

theorem k1_resetHasNeg_apply (r : Fin 512) : k1_pay6 (F := Ideal) (ix2 r (0 : Fin 1)) = 0 := by
  show shapeCast S512x1 (broadcast S512x1 (Scalar.ofBits (F := Ideal) .f32 0x00000000#32)) shapeCasts_S512x1_S512x1
    (ix2 r (0 : Fin 1)) = _
  rw [shapeCast_self]; exact scalar_zero

theorem k1_resetHasPos_apply (r : Fin 512) : k1_pay7 (F := Ideal) (ix2 r (0 : Fin 1)) = 0 := by
  show shapeCast S512x1 (broadcast S512x1 (Scalar.ofBits (F := Ideal) .f32 0x00000000#32)) shapeCasts_S512x1_S512x1
    (ix2 r (0 : Fin 1)) = _
  rw [shapeCast_self]; exact scalar_zero

/-! ## The masks of the second body -/

section Masks
variable (x0 : Vec Ideal S512x192 .f32) (x1 : Vec Ideal S1024x192 .f32) (x4 : Vec Ideal S512x1 .f32)
  (x2 : Vec Ideal S512x1 .i32) (x3 : Vec Ideal S1x1024 .i32) (x5 x6 : Vec Ideal S512x1 .f32) (r : Fin 512) (k : Fin 1024)

/-- The positive mask at `(r, k)`. -/
theorem k1_posMask_iff :
    k1_pay10 (F := Ideal) x0 x1 x4 x2 x3 (ix2 r k) = 1#1 ↔ Tile.pos (xq x0) (xk x1) (lq x2) (lk x3) (nq x4) r k := by
  show IntOp.andi (k1_pay9 (F := Ideal) x2 x3 (ix2 r k))
    (Ideal.cmp .olt (k1_pay8 (F := Ideal) x0 x1 x4 (ix2 r k)) (Ideal.ofBits .f32 0x3F7FFF58#32)) = 1#1 ↔ _
  rw [k1_sim_apply, k1_label_apply]
  exact (andi_one _ _).trans (and_congr (cmpi_eq_one _ _) (cmp_olt_one _ _))

/-- The kept-negative mask at `(r, k)`. -/
theorem k1_negKeepMask_iff :
    k1_pay12 (F := Ideal) x0 x1 x4 x2 x3 x5 (ix2 r k) = 1#1
      ↔ Tile.negKeep (xq x0) (xk x1) (lq x2) (lk x3) (nq x4) (mp x5) r k := by
  show IntOp.andi (IntOp.xori (k1_pay9 (F := Ideal) x2 x3 (ix2 r k)) 1#1)
    (Ideal.cmp .ogt (k1_pay8 (F := Ideal) x0 x1 x4 (ix2 r k))
      (broadcastTo S512x1024 (subf (shapeCast S512x1 x5 shapeCasts_S512x1_S512x1)
        (broadcast S512x1 (Scalar.ofBits (F := Ideal) .f32 0x3DCCCCCD#32))) broadcasts_S512x1_S512x1024 (ix2 r k))) = 1#1 ↔ _
  rw [k1_sim_apply, k1_label_apply, broadcastTo_a1_ab_apply, shapeCast_self]
  exact (andi_one _ _).trans (and_congr ((xori_one _).trans (not_congr (cmpi_eq_one _ _))) (cmp_ogt_one _ _))

/-- The kept-positive mask at `(r, k)`. -/
theorem k1_posKeepMask_iff :
    k1_pay14 (F := Ideal) (k1_pay8 x0 x1 x4) (k1_pay10 x0 x1 x4 x2 x3) (k1_pay11 x6) k1_pay13 (ix2 r k) = 1#1
      ↔ Tile.posKeep (xq x0) (xk x1) (lq x2) (lk x3) (nq x4) (mn x6) r k := by
  show IntOp.andi (k1_pay10 (F := Ideal) x0 x1 x4 x2 x3 (ix2 r k))
    (Ideal.cmp .olt (k1_pay8 (F := Ideal) x0 x1 x4 (ix2 r k))
      (broadcastTo S512x1024 (addf (shapeCast S512x1 x6 shapeCasts_S512x1_S512x1)
        (broadcast S512x1 (Scalar.ofBits (F := Ideal) .f32 0x3DCCCCCD#32))) broadcasts_S512x1_S512x1024 (ix2 r k))) = 1#1 ↔ _
  rw [k1_sim_apply, broadcastTo_a1_ab_apply, shapeCast_self]
  exact (andi_one _ _).trans (and_congr (k1_posMask_iff x0 x1 x4 x2 x3 r k) (cmp_olt_one _ _))

end Masks

/-! ## The two sums -/

/-- The update of the sum of kept positives: its contents plus the tile's sum. -/
theorem k1_storePos_apply (x0 : Vec Ideal S512x192 .f32) (x1 : Vec Ideal S1024x192 .f32) (x4 : Vec Ideal S512x1 .f32)
    (x2 : Vec Ideal S512x1 .i32) (x3 : Vec Ideal S1x1024 .i32) (x6 a : Vec Ideal S512x1 .f32) (r : Fin 512) :
    k1_pay15 (F := Ideal) (k1_pay8 x0 x1 x4) (k1_pay10 x0 x1 x4 x2 x3) (k1_pay11 x6) k1_pay13 a (ix2 r (0 : Fin 1))
      = a (ix2 r (0 : Fin 1)) + Tile.tilePos (xq x0) (xk x1) (lq x2) (lk x3) (nq x4) (mn x6) r := by
  show shapeCast S512x1 (addf a (shapeCast S512x1 (multiReduction (F := Ideal) .add [1] S512 _ 0x00000000#32
    reduces_S512x1024_S512 (.inl rfl) rfl) shapeCasts_S512_S512x1)) shapeCasts_S512x1_S512x1 (ix2 r (0 : Fin 1)) = _
  rw [shapeCast_self]
  refine congrArg (a (ix2 r (0 : Fin 1)) + ·) ?_
  rw [shapeCast_a_a1_apply]
  refine (rowSum_apply _ reduces_S512x1024_S512 (.inl rfl) rfl r).trans ?_
  unfold Tile.tilePos
  refine Finset.sum_congr rfl fun k _ => ?_
  unfold Tile.posVal
  refine select_eq_ite (k1_posKeepMask_iff x0 x1 x4 x2 x3 x6 r k) ?_ Ideal.ofBits_zero_f32
  show Ideal.exp (min (Ideal.ofBits .f32 0xC0000000#32 * (k1_pay8 (F := Ideal) x0 x1 x4 (ix2 r k) - Ideal.ofBits .f32 0x3F000000#32))
    (Ideal.ofBits .f32 0x42200000#32)) = _
  rw [k1_sim_apply]
  rfl

/-- The update of the sum of kept negatives: its contents plus the tile's sum. -/
theorem k1_storeNeg_apply (x0 : Vec Ideal S512x192 .f32) (x1 : Vec Ideal S1024x192 .f32) (x4 : Vec Ideal S512x1 .f32)
    (x2 : Vec Ideal S512x1 .i32) (x3 : Vec Ideal S1x1024 .i32) (x5 a : Vec Ideal S512x1 .f32) (r : Fin 512) :
    k1_pay16 (F := Ideal) (k1_pay8 x0 x1 x4) (k1_pay12 x0 x1 x4 x2 x3 x5) a (ix2 r (0 : Fin 1))
      = a (ix2 r (0 : Fin 1)) + Tile.tileNeg (xq x0) (xk x1) (lq x2) (lk x3) (nq x4) (mp x5) r := by
  show shapeCast S512x1 (addf a (shapeCast S512x1 (multiReduction (F := Ideal) .add [1] S512 _ 0x00000000#32
    reduces_S512x1024_S512 (.inl rfl) rfl) shapeCasts_S512_S512x1)) shapeCasts_S512x1_S512x1 (ix2 r (0 : Fin 1)) = _
  rw [shapeCast_self]
  refine congrArg (a (ix2 r (0 : Fin 1)) + ·) ?_
  rw [shapeCast_a_a1_apply]
  refine (rowSum_apply _ reduces_S512x1024_S512 (.inl rfl) rfl r).trans ?_
  unfold Tile.tileNeg
  refine Finset.sum_congr rfl fun k _ => ?_
  unfold Tile.negVal
  refine select_eq_ite (k1_negKeepMask_iff x0 x1 x4 x2 x3 x5 r k) ?_ Ideal.ofBits_zero_f32
  show Ideal.exp (min (Ideal.ofBits .f32 0x42480000#32 * (k1_pay8 (F := Ideal) x0 x1 x4 (ix2 r k) - Ideal.ofBits .f32 0x3F000000#32))
    (Ideal.ofBits .f32 0x42200000#32)) = _
  rw [k1_sim_apply]
  rfl

/-! ## The two flags -/

/-- A bit widened to a word and read as a signed integer is 1 when set and 0 when not. -/
theorem sitofp_extui_bit (c : BitVec 1) :
    FloatOps.sitofp (F := Ideal) .f32 (c.setWidth 32) = if c = 1#1 then (1 : EReal) else 0 := by
  rcases BitVec.eq_zero_or_eq_one c with h | h
  · subst h
    have e : ((0#1 : BitVec 1).setWidth 32).toInt = 0 := by decide
    show ((((0#1 : BitVec 1).setWidth 32).toInt : ℝ) : EReal) = _
    rw [e, if_neg (by decide)]; simp
  · subst h
    have e : ((1#1 : BitVec 1).setWidth 32).toInt = 1 := by decide
    show ((((1#1 : BitVec 1).setWidth 32).toInt : ℝ) : EReal) = _
    rw [e, if_pos rfl]; simp

/-- The flag of a row from the row's maximum `s` of 0/1 indicators: 1 when `s` is positive, else 0. -/
theorem flag_of_rowMax (mr : FVec Ideal S512 .f32) (r : Fin 512) {Q : Prop} {instF : Decidable Q} (s : EReal)
    (hs : mr (ix1 r) = s) (hQ : (0 : EReal) < s ↔ Q) (hc : S512.ShapeCasts S512x1) (hlt : 1 < 32) :
    sitofp (F := Ideal) .f32 (extui 32 (shapeCast S512x1
        (cmpf .ogt mr (broadcast S512 (Scalar.ofBits (F := Ideal) .f32 0x00000000#32))) hc) hlt) (ix2 r (0 : Fin 1))
      = @ite EReal Q instF 1 0 := by
  show FloatOps.sitofp (F := Ideal) .f32 ((shapeCast S512x1
      (cmpf .ogt mr (broadcast S512 (Scalar.ofBits (F := Ideal) .f32 0x00000000#32))) hc (ix2 r (0 : Fin 1))).setWidth 32) = _
  rw [shapeCast_a_a1_apply, sitofp_extui_bit]
  have hbit : cmpf .ogt mr (broadcast S512 (Scalar.ofBits (F := Ideal) .f32 0x00000000#32)) (ix1 r) = 1#1 ↔ Q :=
    (cmp_ogt_one _ _).trans ((iff_of_eq (congrArg₂ (· < ·) Ideal.ofBits_zero_f32 hs)).trans hQ)
  by_cases hq : Q
  · rw [if_pos hq]; exact if_pos (hbit.mpr hq)
  · rw [if_neg hq]; exact if_neg (fun hm => hq (hbit.mp hm))

/-- The update of the "a negative kept" flag: the larger of its contents and the tile's flag. -/
theorem k1_storeHasNeg_apply (x0 : Vec Ideal S512x192 .f32) (x1 : Vec Ideal S1024x192 .f32) (x4 : Vec Ideal S512x1 .f32)
    (x2 : Vec Ideal S512x1 .i32) (x3 : Vec Ideal S1x1024 .i32) (x5 a : Vec Ideal S512x1 .f32) (r : Fin 512) :
    k1_pay1 (F := Ideal) (k1_pay12 x0 x1 x4 x2 x3 x5) a (Scalar.ofBits (F := Ideal) .f32 0x3F800000#32) (ix2 r (0 : Fin 1))
      = max (a (ix2 r (0 : Fin 1))) (Tile.flagNeg (xq x0) (xk x1) (lq x2) (lk x3) (nq x4) (mp x5) r) := by
  show shapeCast S512x1 (maximumf (F := Ideal) (φ := .f32) a _) shapeCasts_S512x1_S512x1 (ix2 r (0 : Fin 1)) = _
  rw [shapeCast_self]
  refine congrArg (max (a (ix2 r (0 : Fin 1)))) ?_
  unfold Tile.flagNeg
  exact flag_of_rowMax _ r _
    ((rowMax_apply _ reduces_S512x1024_S512 (.inl rfl) rfl r).trans (congrArg (Finset.sup Finset.univ)
      (funext fun k => select_eq_ite (k1_negKeepMask_iff x0 x1 x4 x2 x3 x5 r k) rfl Ideal.ofBits_zero_f32)))
    Iff.rfl shapeCasts_S512_S512x1 natLt_1_32

/-- The update of the "a positive kept" flag: the larger of its contents and the tile's flag. -/
theorem k1_storeHasPos_apply (x0 : Vec Ideal S512x192 .f32) (x1 : Vec Ideal S1024x192 .f32) (x4 : Vec Ideal S512x1 .f32)
    (x2 : Vec Ideal S512x1 .i32) (x3 : Vec Ideal S1x1024 .i32) (x6 a : Vec Ideal S512x1 .f32) (r : Fin 512) :
    k1_pay2 (F := Ideal) (k1_pay14 (k1_pay8 x0 x1 x4) (k1_pay10 x0 x1 x4 x2 x3) (k1_pay11 x6) k1_pay13) a (ix2 r (0 : Fin 1))
      = max (a (ix2 r (0 : Fin 1))) (Tile.flagPos (xq x0) (xk x1) (lq x2) (lk x3) (nq x4) (mn x6) r) := by
  show shapeCast S512x1 (maximumf (F := Ideal) (φ := .f32) a _) shapeCasts_S512x1_S512x1 (ix2 r (0 : Fin 1)) = _
  rw [shapeCast_self]
  refine congrArg (max (a (ix2 r (0 : Fin 1)))) ?_
  unfold Tile.flagPos
  exact flag_of_rowMax _ r _
    ((rowMax_apply _ reduces_S512x1024_S512 (.inl rfl) rfl r).trans (congrArg (Finset.sup Finset.univ)
      (funext fun k => select_eq_ite (k1_posKeepMask_iff x0 x1 x4 x2 x3 x6 r k) rfl Ideal.ofBits_zero_f32)))
    Iff.rfl shapeCasts_S512_S512x1 natLt_1_32

/-! ## The row loss -/

/-- The row-loss store: the row loss of the four accumulators' contents. -/
theorem k1_rowLoss_apply (hn hp ps ng : Vec Ideal S512x1 .f32) (r : Fin 512) :
    k1_pay3 (F := Ideal) hn hp ps ng (ix2 r (0 : Fin 1))
      = Tile.rowLoss (ps (ix2 r (0 : Fin 1))) (ng (ix2 r (0 : Fin 1))) (hn (ix2 r (0 : Fin 1))) (hp (ix2 r (0 : Fin 1))) := by
  unfold Tile.rowLoss
  refine select_eq_ite (m := IntOp.andi (Ideal.cmp .ogt (hn (ix2 r (0 : Fin 1))) (Ideal.ofBits .f32 0x00000000#32))
      (Ideal.cmp .ogt (hp (ix2 r (0 : Fin 1))) (Ideal.ofBits .f32 0x00000000#32))) ?_ rfl Ideal.ofBits_zero_f32
  rw [Ideal.ofBits_zero_f32]
  exact (andi_one _ _).trans (and_congr (cmp_ogt_one _ _) (cmp_ogt_one _ _))

end Cert.KernelIdeal.Pay

end
-- ==== Proof.KerHostResults.lean ====
/-
  The kernel program's two results as functions of what the second region leaves: the mean of its first result
  column, and one hundred times the number of entries of its second result column below one half, over the number
  of rows. A reduction of an 8192 x 1 array over both axes is the sum over the rows.
-/
import proofs.«151531_j1219770712681_2_alg».proof.Proof.KerHostStages
import proofs.«151531_j1219770712681_2_alg».proof.Proof.RefFolds
import proofs.«151531_j1219770712681_2_alg».proof.Proof.Spec
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.SL.Sem
open Idealize.ShloMosaic.ValueIdx

/-- A sum over the 8192 x 1 index set is the sum over the rows. -/
theorem sum_col (y : S8192x1.Idx → EReal) : ∑ j : S8192x1.Idx, y j = ∑ i : Fin 8192, y (ix2 i (0 : Fin 1)) := by
  rw [sum_idx2]
  exact Finset.sum_congr rfl fun i _ => Fin.sum_univ_one _

/-- A sum of a column from zero over both axes. -/
theorem reduce_col (y : Col) (j : S_.Idx) :
    Host.reduceAdd (F := Ideal) y (constant (F := Ideal) S_ .f32 0x00000000#32) reducesTo_S8192x1_S_d0_1 h_S_ j
      = 0 + ∑ i : Fin 8192, y (ix2 i (0 : Fin 1)) := by
  have h : Host.reduceAdd (F := Ideal) y (constant (F := Ideal) S_ .f32 0x00000000#32) reducesTo_S8192x1_S_d0_1 h_S_ j
      = Ideal.ofBits .f32 0x00000000#32 + ∑ k : S8192x1.Idx, y k := by
    simp only [Host.reduceAdd, Ideal.hostReduceAdd_def]
    exact Ideal.hostReduceAdd_total reducesTo_S8192x1_S_d0_1 (fun b => b.elim0) y _ j
  rw [h, Ideal.ofBits_zero_f32, sum_col]

/-- "Below" as the number 0 or 1. -/
theorem below_flag (a h : EReal) :
    (((FloatOps.cmpf (F := Ideal) (φ := .f32) .olt a h).toNat : ℝ) : EReal) = if a < h then (1 : EReal) else 0 := by
  by_cases hlt : a < h
  · rw [if_pos hlt, (Cert.ReferenceIdeal.RefValue.cmp_olt a h).mpr hlt]; simp
  · rw [if_neg hlt, eq_zero_of_ne_one (fun hc => hlt ((Cert.ReferenceIdeal.RefValue.cmp_olt a h).mp hc))]; simp

theorem sMean_eq (y : Col) :
    sMean y = fun _ => Ideal.div (0 + ∑ i : Fin 8192, y (ix2 i (0 : Fin 1))) Cert.Spec.cN := by
  funext j
  have h1 : sMean y j = Ideal.div (Host.reduceAdd (F := Ideal) y (constant (F := Ideal) S_ .f32 0x00000000#32)
      reducesTo_S8192x1_S_d0_1 h_S_ j) (Ideal.ofBits .f32 0x46000000#32) := rfl
  rw [h1, reduce_col]
  rfl

theorem sPct_eq (y : Col) :
    sPct y = fun _ => Ideal.div ((0 + ∑ i : Fin 8192, if y (ix2 i (0 : Fin 1)) < Cert.Spec.cHalf then (1 : EReal) else 0)
      * Cert.Spec.cHundred) Cert.Spec.cN := by
  funext j
  have h1 : sPct y j = Ideal.div (Host.reduceAdd (F := Ideal)
      (uitofp .f32 (cmpf .olt y (broadcastInDim S8192x1 ![] bcast_S_S8192x1 (constant (F := Ideal) S_ .f32 0x3F000000#32))))
      (constant (F := Ideal) S_ .f32 0x00000000#32) reducesTo_S8192x1_S_d0_1 h_S_ j * Ideal.ofBits .f32 0x42C80000#32)
      (Ideal.ofBits .f32 0x46000000#32) := rfl
  rw [h1, reduce_col]
  have h2 : ∀ i : Fin 8192,
      (uitofp (F := Ideal) .f32 (cmpf .olt y (broadcastInDim S8192x1 ![] bcast_S_S8192x1 (constant (F := Ideal) S_ .f32 0x3F000000#32))))
        (ix2 i (0 : Fin 1)) = if y (ix2 i (0 : Fin 1)) < Cert.Spec.cHalf then (1 : EReal) else 0 := by
    intro i
    have hb : broadcastInDim S8192x1 ![] bcast_S_S8192x1 (constant (F := Ideal) S_ .f32 0x3F000000#32) (ix2 i (0 : Fin 1))
        = Cert.Spec.cHalf :=
      broadcastInDim_apply _ bcast_S_S8192x1 (constant (F := Ideal) S_ .f32 0x3F000000#32) _ ix0 (fun a => a.elim0)
    show (((FloatOps.cmpf (F := Ideal) (φ := .f32) .olt (y (ix2 i (0 : Fin 1)))
      (broadcastInDim S8192x1 ![] bcast_S_S8192x1 (constant (F := Ideal) S_ .f32 0x3F000000#32) (ix2 i (0 : Fin 1)))).toNat : ℝ) : EReal) = _
    rw [hb, below_flag]
  simp only [h2]
  rfl

variable (m : (ℓ : Loc nD τ sig) → Buf (Elt Ideal) ℓ) (c : Dev nD) (outs : Outs (F := Ideal))

/-- The first result, where the second region leaves the column y in its first result buffer. -/
theorem loss_eq (y : S8192x1.Idx → EReal) (hy : outs 3 main_v17_0 c = y) :
    V4 m outs c main_v19 = fun _ => Ideal.div (0 + ∑ i : Fin 8192, y (ix2 i (0 : Fin 1))) Cert.Spec.cN := by
  rw [V4_loss, hy]; exact sMean_eq y

/-- The second result, where the second region leaves the column y in its second result buffer. -/
theorem prec1_eq (y : S8192x1.Idx → EReal) (hy : outs 3 main_v17_1 c = y) :
    V4 m outs c main_v25 = fun _ => Ideal.div ((0 + ∑ i : Fin 8192,
      if y (ix2 i (0 : Fin 1)) < Cert.Spec.cHalf then (1 : EReal) else 0) * Cert.Spec.cHundred) Cert.Spec.cN := by
  rw [V4_prec1, hy]; exact sPct_eq y

end Cert.KernelIdeal.HostValue

end
-- ==== Proof.KerValLoss.lean ====
/-
  The second kernel region's two output arrays at the ideal instance, and with them the program's two results: row i
  of the first array is the kernel form's row loss of row i (the two sums of exponentials over the kept pairs and the
  two "any kept" flags accumulated over the eight column tiles, from zero), row i of the second the kernel form's
  "a negative was kept" flag; the first result is the kernel form's mean row loss, the second its percentage.
-/
import proofs.«151531_j1219770712681_2_alg».proof.Proof.MainRun
import proofs.«151531_j1219770712681_2_alg».proof.Proof.KerValStats
import proofs.«151531_j1219770712681_2_alg».proof.Proof.LossPoint
import proofs.«151531_j1219770712681_2_alg».proof.Proof.LossBlocks
import proofs.«151531_j1219770712681_2_alg».proof.Proof.KerPayFinal
import proofs.«151531_j1219770712681_2_alg».proof.Proof.KerHostResults

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem
open Idealize.ShloMosaic.Pipeline (Dat)
open Cert.Spec
open scoped Classical

variable (m : (ℓ : Loc nD τ sig) → Buf (Elt Ideal) ℓ) (c : Dev nD)

/-- The core's buffers when the second region is entered. -/
abbrev Vb : (c : Dev nD) → (b : Ref sig .tc) → Buf (Elt Ideal) ((c : Thread nD τ).loc b) := Run.V2r (F := Ideal) m

/-- A buffer the first region does not write is as the host operations before it left it. -/
theorem Vb_of (r : Ref sig .tc) (h : r ∉ ([main_v16_0, main_v16_1] : List (Ref sig .tc))) : Vb m c r = V1 m c r :=
  V2_of m (fun _ r c => Run.outsStats m c r) c r h

/-- The first region's first output array is what the second region finds in its sixth window's array. -/
theorem Vb_minpos : Vb m c main_v16_0 = (Stats.dat (Va m) c).arrAt 5 cfg0.N := (Run.hF0 m c 5).symm

/-- The first region's second output array is what the second region finds in its seventh window's array. -/
theorem Vb_maxneg : Vb m c main_v16_1 = (Stats.dat (Va m) c).arrAt 6 cfg0.N := (Run.hF0 m c 6).symm

/-! ## The blocks of a point of row tile rt and column tile b -/

section Blocks
variable (t : Fin cfg1.N) (rt : Fin 16) (b : Fin 8) (hrt : t.val / 8 = rt.val) (hb : t.val % 8 = b.val)
include hrt hb

theorem lblk0 : Pay.xq (Loss.iblk (Vb m) c 0 t) = fun r d => (X m c) (row rt r) d := by
  funext r d
  refine (Loss.iblk0_apply (Vb m) c t r d).trans ?_
  rw [Vb_of m c main_v0 (by decide)]
  refine (HostValue.rows_at m c _ d).trans ?_
  rw [show (⟨512 * (t.val / 8) + r.val, Loss.rowBound t r⟩ : Fin 8192) = row rt r from Fin.ext (by simp only [row]; omega)]

theorem lblk1 : Pay.xk (Loss.iblk (Vb m) c 1 t) = fun k d => (X m c) (Ker.col b k) d := by
  funext k d
  refine (Loss.iblk1_apply (Vb m) c t k d).trans ?_
  rw [Vb_of m c main_v0 (by decide)]
  refine (HostValue.rows_at m c _ d).trans ?_
  rw [show (⟨1024 * (t.val % 8) + k.val, Loss.colBound t k⟩ : Fin 8192) = Ker.col b k from Fin.ext (by simp only [Ker.col]; omega)]

theorem lblk2 : Pay.lq (Loss.iblk (Vb m) c 2 t) = fun r => (LB m c) (row rt r) := by
  funext r
  refine (Loss.iblk2_apply (Vb m) c t r).trans ?_
  rw [Vb_of m c main_v3 (by decide)]
  refine (HostValue.labrow_at m c _).trans ?_
  rw [show (⟨512 * (t.val / 8) + r.val, Loss.rowBound t r⟩ : Fin 8192) = row rt r from Fin.ext (by simp only [row]; omega)]

theorem lblk3 : Pay.lk (Loss.iblk (Vb m) c 3 t) = fun k => (LB m c) (Ker.col b k) := by
  funext k
  refine (Loss.iblk3_apply (Vb m) c t k).trans ?_
  rw [Vb_of m c main_v4 (by decide)]
  refine (HostValue.labcol_at m c _).trans ?_
  rw [show (⟨1024 * (t.val % 8) + k.val, Loss.colBound t k⟩ : Fin 8192) = Ker.col b k from Fin.ext (by simp only [Ker.col]; omega)]

theorem lblk4 : Pay.nq (Loss.iblk (Vb m) c 4 t) = fun r => Ker.nrm (X m c) (row rt r) := by
  funext r
  refine (Loss.iblk4_apply (Vb m) c t r).trans ?_
  rw [Vb_of m c main_v15 (by decide)]
  refine (HostValue.nrm_at m c _).trans ?_
  rw [show (⟨512 * (t.val / 8) + r.val, Loss.rowBound t r⟩ : Fin 8192) = row rt r from Fin.ext (by simp only [row]; omega)]

theorem lblk5 : Pay.mp (Loss.iblk (Vb m) c 5 t) = fun r => Ker.minPos (X m c) (LB m c) (row rt r) := by
  funext r
  refine (Loss.iblk5_apply (Vb m) c t r).trans ?_
  rw [Vb_minpos m c]
  refine (minpos_arr m c _).trans ?_
  rw [show (⟨512 * (t.val / 8) + r.val, Loss.rowBound t r⟩ : Fin 8192) = row rt r from Fin.ext (by simp only [row]; omega)]

theorem lblk6 : Pay.mn (Loss.iblk (Vb m) c 6 t) = fun r => Ker.maxNeg (X m c) (LB m c) (row rt r) := by
  funext r
  refine (Loss.iblk6_apply (Vb m) c t r).trans ?_
  rw [Vb_maxneg m c]
  refine (maxneg_arr m c _).trans ?_
  rw [show (⟨512 * (t.val / 8) + r.val, Loss.rowBound t r⟩ : Fin 8192) = row rt r from Fin.ext (by simp only [row]; omega)]

/-- The tile's sum over the kept positives at the point's blocks is the kernel form's over the tile's columns. -/
theorem ltilePos (r : Fin 512) :
    Tile.tilePos (Pay.xq (Loss.iblk (Vb m) c 0 t)) (Pay.xk (Loss.iblk (Vb m) c 1 t)) (Pay.lq (Loss.iblk (Vb m) c 2 t)) (Pay.lk (Loss.iblk (Vb m) c 3 t)) (Pay.nq (Loss.iblk (Vb m) c 4 t)) (Pay.mn (Loss.iblk (Vb m) c 6 t)) r
      = ∑ k : Fin 1024, Ker.posVal (X m c) (LB m c) (row rt r) (Ker.col b k) := by
  rw [lblk0 m c t rt b hrt hb, lblk1 m c t rt b hrt hb, lblk2 m c t rt b hrt hb, lblk3 m c t rt b hrt hb, lblk4 m c t rt b hrt hb, lblk6 m c t rt b hrt hb]
  exact tile_tilePos_eq (X m c) (LB m c) rt b r

theorem ltileNeg (r : Fin 512) :
    Tile.tileNeg (Pay.xq (Loss.iblk (Vb m) c 0 t)) (Pay.xk (Loss.iblk (Vb m) c 1 t)) (Pay.lq (Loss.iblk (Vb m) c 2 t)) (Pay.lk (Loss.iblk (Vb m) c 3 t)) (Pay.nq (Loss.iblk (Vb m) c 4 t)) (Pay.mp (Loss.iblk (Vb m) c 5 t)) r
      = ∑ k : Fin 1024, Ker.negVal (X m c) (LB m c) (row rt r) (Ker.col b k) := by
  rw [lblk0 m c t rt b hrt hb, lblk1 m c t rt b hrt hb, lblk2 m c t rt b hrt hb, lblk3 m c t rt b hrt hb, lblk4 m c t rt b hrt hb, lblk5 m c t rt b hrt hb]
  exact tile_tileNeg_eq (X m c) (LB m c) rt b r

theorem lflagNeg (r : Fin 512) :
    Tile.flagNeg (Pay.xq (Loss.iblk (Vb m) c 0 t)) (Pay.xk (Loss.iblk (Vb m) c 1 t)) (Pay.lq (Loss.iblk (Vb m) c 2 t)) (Pay.lk (Loss.iblk (Vb m) c 3 t)) (Pay.nq (Loss.iblk (Vb m) c 4 t)) (Pay.mp (Loss.iblk (Vb m) c 5 t)) r
      = Ker.flag (Ker.negKeep (X m c) (LB m c) (row rt r)) b := by
  rw [lblk0 m c t rt b hrt hb, lblk1 m c t rt b hrt hb, lblk2 m c t rt b hrt hb, lblk3 m c t rt b hrt hb, lblk4 m c t rt b hrt hb, lblk5 m c t rt b hrt hb]
  exact tile_flagNeg_eq (X m c) (LB m c) rt b r

theorem lflagPos (r : Fin 512) :
    Tile.flagPos (Pay.xq (Loss.iblk (Vb m) c 0 t)) (Pay.xk (Loss.iblk (Vb m) c 1 t)) (Pay.lq (Loss.iblk (Vb m) c 2 t)) (Pay.lk (Loss.iblk (Vb m) c 3 t)) (Pay.nq (Loss.iblk (Vb m) c 4 t)) (Pay.mn (Loss.iblk (Vb m) c 6 t)) r
      = Ker.flag (Ker.posKeep (X m c) (LB m c) (row rt r)) b := by
  rw [lblk0 m c t rt b hrt hb, lblk1 m c t rt b hrt hb, lblk2 m c t rt b hrt hb, lblk3 m c t rt b hrt hb, lblk4 m c t rt b hrt hb, lblk6 m c t rt b hrt hb]
  exact tile_flagPos_eq (X m c) (LB m c) rt b r

end Blocks

/-! ## The accumulators over a row tile's eight points -/

theorem lptBound (rt : Fin 16) (n : ℕ) (hn : n < 8) : 8 * rt.val + n < cfg1.N := by
  have hN : cfg1.N = 128 := N_1
  have := rt.isLt; omega

theorem laccAt_congr {n n' : ℕ} (h : n = n') (hn : n < cfg1.N) (hn' : n' < cfg1.N) :
    Loss.accAt (Vb m) c n hn = Loss.accAt (Vb m) c n' hn' := by subst h; rfl

/-- Row r of the accumulator after column tile n of row tile rt. -/
def seqPos (rt : Fin 16) (r : Fin 512) (n : ℕ) : EReal :=
  if hn : n < 8 then ((Loss.accAt (Vb m) c (8 * rt.val + n) (lptBound rt n hn)).1 : Vec Ideal S512x1 .f32) (ix2 r (0 : Fin 1)) else 0

theorem seqPos_zero (rt : Fin 16) (r : Fin 512) :
    seqPos m c rt r 0 = 0 + ∑ k : Fin 1024, Ker.posVal (X m c) (LB m c) (row rt r) (Ker.col 0 k) := by
  have h0 : (⟨8 * rt.val + 0, lptBound rt 0 (by decide)⟩ : Fin cfg1.N).val % 8 = 0 := by show (8 * rt.val + 0) % 8 = 0; omega
  unfold seqPos; rw [dif_pos (by decide : 0 < 8)]
  refine (congrFun (Loss.acc0_first (Vb m) c ⟨8 * rt.val + 0, lptBound rt 0 (by decide)⟩ h0) (ix2 r (0 : Fin 1))).trans
    ((Pay.k1_storePos_apply _ _ _ _ _ _ _ r).trans ?_)
  rw [Pay.k1_resetPos_apply, ltilePos m c ⟨8 * rt.val + 0, lptBound rt 0 (by decide)⟩ rt 0
    (by show (8 * rt.val + 0) / 8 = rt.val; omega) (by show (8 * rt.val + 0) % 8 = ((0 : Fin 8) : ℕ); simp) r]

theorem seqPos_succ (rt : Fin 16) (r : Fin 512) (n : ℕ) (h : n + 1 < 8) :
    seqPos m c rt r (n + 1) = seqPos m c rt r n + ∑ k : Fin 1024, Ker.posVal (X m c) (LB m c) (row rt r) (Ker.col ⟨n + 1, h⟩ k) := by
  have hne : ¬(⟨8 * rt.val + (n + 1), lptBound rt (n + 1) h⟩ : Fin cfg1.N).val % 8 = 0 := by show ¬(8 * rt.val + (n + 1)) % 8 = 0; omega
  unfold seqPos; rw [dif_pos h, dif_pos (by omega : n < 8)]
  refine (congrFun (Loss.acc0_later (Vb m) c ⟨8 * rt.val + (n + 1), lptBound rt (n + 1) h⟩ hne) (ix2 r (0 : Fin 1))).trans
    ((Pay.k1_storePos_apply _ _ _ _ _ _ _ r).trans ?_)
  rw [ltilePos m c ⟨8 * rt.val + (n + 1), lptBound rt (n + 1) h⟩ rt ⟨n + 1, h⟩
    (by show (8 * rt.val + (n + 1)) / 8 = rt.val; omega) (by show (8 * rt.val + (n + 1)) % 8 = n + 1; omega) r]
  rw [show Loss.accBefore (Vb m) c ⟨8 * rt.val + (n + 1), lptBound rt (n + 1) h⟩ = Loss.accAt (Vb m) c (8 * rt.val + n) (lptBound rt n (by omega))
    from laccAt_congr m c (by show 8 * rt.val + (n + 1) - 1 = 8 * rt.val + n; omega) _ _]

theorem accPos_val (rt : Fin 16) (r : Fin 512) (n : ℕ) (hn : n < 8) :
    ((Loss.accAt (Vb m) c (8 * rt.val + n) (lptBound rt n hn)).1 : Vec Ideal S512x1 .f32) (ix2 r (0 : Fin 1)) = Ker.accPos (X m c) (LB m c) (row rt r) n := by
  have h := accPos_of_steps (X m c) (LB m c) (row rt r) (seqPos m c rt r) (seqPos_zero m c rt r) (fun b hb => seqPos_succ m c rt r b hb) n hn
  unfold seqPos at h; rwa [dif_pos hn] at h

/-- Row r of the accumulator after column tile n of row tile rt. -/
def seqNeg (rt : Fin 16) (r : Fin 512) (n : ℕ) : EReal :=
  if hn : n < 8 then ((Loss.accAt (Vb m) c (8 * rt.val + n) (lptBound rt n hn)).2.1 : Vec Ideal S512x1 .f32) (ix2 r (0 : Fin 1)) else 0

theorem seqNeg_zero (rt : Fin 16) (r : Fin 512) :
    seqNeg m c rt r 0 = 0 + ∑ k : Fin 1024, Ker.negVal (X m c) (LB m c) (row rt r) (Ker.col 0 k) := by
  have h0 : (⟨8 * rt.val + 0, lptBound rt 0 (by decide)⟩ : Fin cfg1.N).val % 8 = 0 := by show (8 * rt.val + 0) % 8 = 0; omega
  unfold seqNeg; rw [dif_pos (by decide : 0 < 8)]
  refine (congrFun (Loss.acc1_first (Vb m) c ⟨8 * rt.val + 0, lptBound rt 0 (by decide)⟩ h0) (ix2 r (0 : Fin 1))).trans
    ((Pay.k1_storeNeg_apply _ _ _ _ _ _ _ r).trans ?_)
  rw [Pay.k1_resetNeg_apply, ltileNeg m c ⟨8 * rt.val + 0, lptBound rt 0 (by decide)⟩ rt 0
    (by show (8 * rt.val + 0) / 8 = rt.val; omega) (by show (8 * rt.val + 0) % 8 = ((0 : Fin 8) : ℕ); simp) r]

theorem seqNeg_succ (rt : Fin 16) (r : Fin 512) (n : ℕ) (h : n + 1 < 8) :
    seqNeg m c rt r (n + 1) = seqNeg m c rt r n + ∑ k : Fin 1024, Ker.negVal (X m c) (LB m c) (row rt r) (Ker.col ⟨n + 1, h⟩ k) := by
  have hne : ¬(⟨8 * rt.val + (n + 1), lptBound rt (n + 1) h⟩ : Fin cfg1.N).val % 8 = 0 := by show ¬(8 * rt.val + (n + 1)) % 8 = 0; omega
  unfold seqNeg; rw [dif_pos h, dif_pos (by omega : n < 8)]
  refine (congrFun (Loss.acc1_later (Vb m) c ⟨8 * rt.val + (n + 1), lptBound rt (n + 1) h⟩ hne) (ix2 r (0 : Fin 1))).trans
    ((Pay.k1_storeNeg_apply _ _ _ _ _ _ _ r).trans ?_)
  rw [ltileNeg m c ⟨8 * rt.val + (n + 1), lptBound rt (n + 1) h⟩ rt ⟨n + 1, h⟩
    (by show (8 * rt.val + (n + 1)) / 8 = rt.val; omega) (by show (8 * rt.val + (n + 1)) % 8 = n + 1; omega) r]
  rw [show Loss.accBefore (Vb m) c ⟨8 * rt.val + (n + 1), lptBound rt (n + 1) h⟩ = Loss.accAt (Vb m) c (8 * rt.val + n) (lptBound rt n (by omega))
    from laccAt_congr m c (by show 8 * rt.val + (n + 1) - 1 = 8 * rt.val + n; omega) _ _]

theorem accNeg_val (rt : Fin 16) (r : Fin 512) (n : ℕ) (hn : n < 8) :
    ((Loss.accAt (Vb m) c (8 * rt.val + n) (lptBound rt n hn)).2.1 : Vec Ideal S512x1 .f32) (ix2 r (0 : Fin 1)) = Ker.accNeg (X m c) (LB m c) (row rt r) n := by
  have h := accNeg_of_steps (X m c) (LB m c) (row rt r) (seqNeg m c rt r) (seqNeg_zero m c rt r) (fun b hb => seqNeg_succ m c rt r b hb) n hn
  unfold seqNeg at h; rwa [dif_pos hn] at h

/-- Row r of the accumulator after column tile n of row tile rt. -/
def seqHasNeg (rt : Fin 16) (r : Fin 512) (n : ℕ) : EReal :=
  if hn : n < 8 then ((Loss.accAt (Vb m) c (8 * rt.val + n) (lptBound rt n hn)).2.2.1 : Vec Ideal S512x1 .f32) (ix2 r (0 : Fin 1)) else 0

theorem seqHasNeg_zero (rt : Fin 16) (r : Fin 512) :
    seqHasNeg m c rt r 0 = max 0 (Ker.flag (Ker.negKeep (X m c) (LB m c) (row rt r)) 0) := by
  have h0 : (⟨8 * rt.val + 0, lptBound rt 0 (by decide)⟩ : Fin cfg1.N).val % 8 = 0 := by show (8 * rt.val + 0) % 8 = 0; omega
  unfold seqHasNeg; rw [dif_pos (by decide : 0 < 8)]
  refine (congrFun (Loss.acc2_first (Vb m) c ⟨8 * rt.val + 0, lptBound rt 0 (by decide)⟩ h0) (ix2 r (0 : Fin 1))).trans
    ((Pay.k1_storeHasNeg_apply _ _ _ _ _ _ _ r).trans ?_)
  rw [Pay.k1_resetHasNeg_apply, lflagNeg m c ⟨8 * rt.val + 0, lptBound rt 0 (by decide)⟩ rt 0
    (by show (8 * rt.val + 0) / 8 = rt.val; omega) (by show (8 * rt.val + 0) % 8 = ((0 : Fin 8) : ℕ); simp) r]

theorem seqHasNeg_succ (rt : Fin 16) (r : Fin 512) (n : ℕ) (h : n + 1 < 8) :
    seqHasNeg m c rt r (n + 1) = max (seqHasNeg m c rt r n) (Ker.flag (Ker.negKeep (X m c) (LB m c) (row rt r)) ⟨n + 1, h⟩) := by
  have hne : ¬(⟨8 * rt.val + (n + 1), lptBound rt (n + 1) h⟩ : Fin cfg1.N).val % 8 = 0 := by show ¬(8 * rt.val + (n + 1)) % 8 = 0; omega
  unfold seqHasNeg; rw [dif_pos h, dif_pos (by omega : n < 8)]
  refine (congrFun (Loss.acc2_later (Vb m) c ⟨8 * rt.val + (n + 1), lptBound rt (n + 1) h⟩ hne) (ix2 r (0 : Fin 1))).trans
    ((Pay.k1_storeHasNeg_apply _ _ _ _ _ _ _ r).trans ?_)
  rw [lflagNeg m c ⟨8 * rt.val + (n + 1), lptBound rt (n + 1) h⟩ rt ⟨n + 1, h⟩
    (by show (8 * rt.val + (n + 1)) / 8 = rt.val; omega) (by show (8 * rt.val + (n + 1)) % 8 = n + 1; omega) r]
  rw [show Loss.accBefore (Vb m) c ⟨8 * rt.val + (n + 1), lptBound rt (n + 1) h⟩ = Loss.accAt (Vb m) c (8 * rt.val + n) (lptBound rt n (by omega))
    from laccAt_congr m c (by show 8 * rt.val + (n + 1) - 1 = 8 * rt.val + n; omega) _ _]

theorem accHasNeg_val (rt : Fin 16) (r : Fin 512) (n : ℕ) (hn : n < 8) :
    ((Loss.accAt (Vb m) c (8 * rt.val + n) (lptBound rt n hn)).2.2.1 : Vec Ideal S512x1 .f32) (ix2 r (0 : Fin 1)) = Ker.accHasNeg (X m c) (LB m c) (row rt r) n := by
  have h := accHasNeg_of_steps (X m c) (LB m c) (row rt r) (seqHasNeg m c rt r) (seqHasNeg_zero m c rt r) (fun b hb => seqHasNeg_succ m c rt r b hb) n hn
  unfold seqHasNeg at h; rwa [dif_pos hn] at h

/-- Row r of the accumulator after column tile n of row tile rt. -/
def seqHasPos (rt : Fin 16) (r : Fin 512) (n : ℕ) : EReal :=
  if hn : n < 8 then ((Loss.accAt (Vb m) c (8 * rt.val + n) (lptBound rt n hn)).2.2.2 : Vec Ideal S512x1 .f32) (ix2 r (0 : Fin 1)) else 0

theorem seqHasPos_zero (rt : Fin 16) (r : Fin 512) :
    seqHasPos m c rt r 0 = max 0 (Ker.flag (Ker.posKeep (X m c) (LB m c) (row rt r)) 0) := by
  have h0 : (⟨8 * rt.val + 0, lptBound rt 0 (by decide)⟩ : Fin cfg1.N).val % 8 = 0 := by show (8 * rt.val + 0) % 8 = 0; omega
  unfold seqHasPos; rw [dif_pos (by decide : 0 < 8)]
  refine (congrFun (Loss.acc3_first (Vb m) c ⟨8 * rt.val + 0, lptBound rt 0 (by decide)⟩ h0) (ix2 r (0 : Fin 1))).trans
    ((Pay.k1_storeHasPos_apply _ _ _ _ _ _ _ r).trans ?_)
  rw [Pay.k1_resetHasPos_apply, lflagPos m c ⟨8 * rt.val + 0, lptBound rt 0 (by decide)⟩ rt 0
    (by show (8 * rt.val + 0) / 8 = rt.val; omega) (by show (8 * rt.val + 0) % 8 = ((0 : Fin 8) : ℕ); simp) r]

theorem seqHasPos_succ (rt : Fin 16) (r : Fin 512) (n : ℕ) (h : n + 1 < 8) :
    seqHasPos m c rt r (n + 1) = max (seqHasPos m c rt r n) (Ker.flag (Ker.posKeep (X m c) (LB m c) (row rt r)) ⟨n + 1, h⟩) := by
  have hne : ¬(⟨8 * rt.val + (n + 1), lptBound rt (n + 1) h⟩ : Fin cfg1.N).val % 8 = 0 := by show ¬(8 * rt.val + (n + 1)) % 8 = 0; omega
  unfold seqHasPos; rw [dif_pos h, dif_pos (by omega : n < 8)]
  refine (congrFun (Loss.acc3_later (Vb m) c ⟨8 * rt.val + (n + 1), lptBound rt (n + 1) h⟩ hne) (ix2 r (0 : Fin 1))).trans
    ((Pay.k1_storeHasPos_apply _ _ _ _ _ _ _ r).trans ?_)
  rw [lflagPos m c ⟨8 * rt.val + (n + 1), lptBound rt (n + 1) h⟩ rt ⟨n + 1, h⟩
    (by show (8 * rt.val + (n + 1)) / 8 = rt.val; omega) (by show (8 * rt.val + (n + 1)) % 8 = n + 1; omega) r]
  rw [show Loss.accBefore (Vb m) c ⟨8 * rt.val + (n + 1), lptBound rt (n + 1) h⟩ = Loss.accAt (Vb m) c (8 * rt.val + n) (lptBound rt n (by omega))
    from laccAt_congr m c (by show 8 * rt.val + (n + 1) - 1 = 8 * rt.val + n; omega) _ _]

theorem accHasPos_val (rt : Fin 16) (r : Fin 512) (n : ℕ) (hn : n < 8) :
    ((Loss.accAt (Vb m) c (8 * rt.val + n) (lptBound rt n hn)).2.2.2 : Vec Ideal S512x1 .f32) (ix2 r (0 : Fin 1)) = Ker.accHasPos (X m c) (LB m c) (row rt r) n := by
  have h := accHasPos_of_steps (X m c) (LB m c) (row rt r) (seqHasPos m c rt r) (seqHasPos_zero m c rt r) (fun b hb => seqHasPos_succ m c rt r b hb) n hn
  unfold seqHasPos at h; rwa [dif_pos hn] at h

/-! ## The two output arrays -/

theorem rowloss_arr (i : Fin 8192) :
    ((Loss.dat (Vb m) c).arrAt 7 cfg1.N : S8192x1.Idx → EReal) (ix2 i (0 : Fin 1)) = Ker.rowLoss (X m c) (LB m c) i := by
  have hi := i.isLt
  have h7 : (⟨8 * (i.val / 512) + 7, Loss.lastBound _ i.isLt⟩ : Fin cfg1.N).val % 8 = 7 := by show (8 * (i.val / 512) + 7) % 8 = 7; omega
  have hn0 : ¬(⟨8 * (i.val / 512) + 7, Loss.lastBound _ i.isLt⟩ : Fin cfg1.N).val % 8 = 0 := by show ¬(8 * (i.val / 512) + 7) % 8 = 0; omega
  have hrow : row ⟨i.val / 512, by omega⟩ ⟨i.val % 512, Nat.mod_lt _ (by decide)⟩ = i := Fin.ext (by simp only [row]; omega)
  have hP := accPos_val m c ⟨i.val / 512, by omega⟩ ⟨i.val % 512, Nat.mod_lt _ (by decide)⟩ 7 (by decide)
  have hN := accNeg_val m c ⟨i.val / 512, by omega⟩ ⟨i.val % 512, Nat.mod_lt _ (by decide)⟩ 7 (by decide)
  have hHN := accHasNeg_val m c ⟨i.val / 512, by omega⟩ ⟨i.val % 512, Nat.mod_lt _ (by decide)⟩ 7 (by decide)
  have hHP := accHasPos_val m c ⟨i.val / 512, by omega⟩ ⟨i.val % 512, Nat.mod_lt _ (by decide)⟩ 7 (by decide)
  rw [hrow] at hP hN hHN hHP
  have key : Tile.rowLoss (((Loss.accAt (Vb m) c (8 * (⟨i.val / 512, by omega⟩ : Fin 16).val + 7) (lptBound ⟨i.val / 512, by omega⟩ 7 (by decide))).1 : Vec Ideal S512x1 .f32) (ix2 (⟨i.val % 512, Nat.mod_lt _ (by decide)⟩ : Fin 512) (0 : Fin 1))) (((Loss.accAt (Vb m) c (8 * (⟨i.val / 512, by omega⟩ : Fin 16).val + 7) (lptBound ⟨i.val / 512, by omega⟩ 7 (by decide))).2.1 : Vec Ideal S512x1 .f32) (ix2 (⟨i.val % 512, Nat.mod_lt _ (by decide)⟩ : Fin 512) (0 : Fin 1)))
      (((Loss.accAt (Vb m) c (8 * (⟨i.val / 512, by omega⟩ : Fin 16).val + 7) (lptBound ⟨i.val / 512, by omega⟩ 7 (by decide))).2.2.1 : Vec Ideal S512x1 .f32) (ix2 (⟨i.val % 512, Nat.mod_lt _ (by decide)⟩ : Fin 512) (0 : Fin 1))) (((Loss.accAt (Vb m) c (8 * (⟨i.val / 512, by omega⟩ : Fin 16).val + 7) (lptBound ⟨i.val / 512, by omega⟩ 7 (by decide))).2.2.2 : Vec Ideal S512x1 .f32) (ix2 (⟨i.val % 512, Nat.mod_lt _ (by decide)⟩ : Fin 512) (0 : Fin 1)))
      = Ker.rowLoss (X m c) (LB m c) i := by
    rw [hP, hN, hHN, hHP]
    exact tile_rowLoss_eq (X m c) (LB m c) i
  rw [Loss.arr0_apply, Loss.out0_last (Vb m) c ⟨8 * (i.val / 512) + 7, Loss.lastBound _ i.isLt⟩ h7,
    ← Loss.acc0_later (Vb m) c ⟨8 * (i.val / 512) + 7, Loss.lastBound _ i.isLt⟩ hn0, ← Loss.acc1_later (Vb m) c ⟨8 * (i.val / 512) + 7, Loss.lastBound _ i.isLt⟩ hn0,
    ← Loss.acc2_later (Vb m) c ⟨8 * (i.val / 512) + 7, Loss.lastBound _ i.isLt⟩ hn0, ← Loss.acc3_later (Vb m) c ⟨8 * (i.val / 512) + 7, Loss.lastBound _ i.isLt⟩ hn0,
    Pay.k1_rowLoss_apply]
  exact key

theorem hasneg_arr (i : Fin 8192) :
    ((Loss.dat (Vb m) c).arrAt 8 cfg1.N : S8192x1.Idx → EReal) (ix2 i (0 : Fin 1)) = Ker.hasNegOut (X m c) (LB m c) i := by
  have hi := i.isLt
  have h7 : (⟨8 * (i.val / 512) + 7, Loss.lastBound _ i.isLt⟩ : Fin cfg1.N).val % 8 = 7 := by show (8 * (i.val / 512) + 7) % 8 = 7; omega
  have hn0 : ¬(⟨8 * (i.val / 512) + 7, Loss.lastBound _ i.isLt⟩ : Fin cfg1.N).val % 8 = 0 := by show ¬(8 * (i.val / 512) + 7) % 8 = 0; omega
  have hrow : row ⟨i.val / 512, by omega⟩ ⟨i.val % 512, Nat.mod_lt _ (by decide)⟩ = i := Fin.ext (by simp only [row]; omega)
  have hHN := accHasNeg_val m c ⟨i.val / 512, by omega⟩ ⟨i.val % 512, Nat.mod_lt _ (by decide)⟩ 7 (by decide)
  rw [hrow] at hHN
  rw [Loss.arr1_apply, Loss.out1_last (Vb m) c ⟨8 * (i.val / 512) + 7, Loss.lastBound _ i.isLt⟩ h7, ← Loss.acc2_later (Vb m) c ⟨8 * (i.val / 512) + 7, Loss.lastBound _ i.isLt⟩ hn0]
  exact hHN

/-! ## The program's two results -/

theorem loss_val : V4 m (Run.outs m) c main_v19 = fun _ => Ker.loss (X m c) (LB m c) := by
  rw [HostValue.loss_eq m c (Run.outs m) ((Loss.dat (Vb m) c).arrAt 7 cfg1.N) (Run.outs_loss0 m c)]
  funext _
  exact congrArg (fun s : EReal => Ideal.div (0 + s) cN) (Finset.sum_congr rfl fun i _ => rowloss_arr m c i)

theorem prec1_val : V4 m (Run.outs m) c main_v25 = fun _ => Ker.prec1 (X m c) (LB m c) := by
  rw [HostValue.prec1_eq m c (Run.outs m) ((Loss.dat (Vb m) c).arrAt 8 cfg1.N) (Run.outs_loss1 m c)]
  funext _
  refine congrArg (fun s : EReal => Ideal.div ((0 + s) * cHundred) cN) (Finset.sum_congr rfl fun i _ => ?_)
  rw [hasneg_arr m c i]

end Cert.KernelIdeal.Val

end
-- ==== Proof.KerHostFinite.lean ====
/-
  From the precondition to "every entry is a real number": the precondition's reduction by "and" over all entries of
  the bit "the absolute value is below the top element" is 1, so every such bit is 1; and an extended real whose
  absolute value is below the top element is neither infinite.
-/
import proofs.«151531_j1219770712681_2_alg».proof.Defs
import proofs.«151531_j1219770712681_2_alg».proof.Proof.Gen.Pre_finite_inputs
import proofs.«151531_j1219770712681_2_alg».proof.Proof.Spec
import proofs.«151531_j1219770712681_2_alg».proof.Proof.SpecArgs
import proofs.«151531_j1219770712681_2_alg».proof.Proof.RefFolds
import Idealize.ShloMosaic.Lib.ReduceAll
import Idealize.ShloMosaic.Lib.Pipeline.Value
import Idealize.ShloMosaic.Lib.ValueIdx

noncomputable section

namespace Cert.KernelIdeal.HostValue

open Idealize.ShloMosaic Idealize.ShloMosaic.TcCoe Idealize.SL.Sem Idealize.ShloMosaic.ValueIdx

instance subsingleton_scalar_idx : Subsingleton Cert.Pre_finite_inputs.S_.Idx := ⟨fun _ _ => funext fun d => d.elim0⟩

/-- An extended real whose absolute value is below the top element is a real. -/
theorem finite_of_abs_lt (x : EReal) (h : max x (-x) < ⊤) : x ≠ ⊤ ∧ x ≠ ⊥ := by
  constructor
  · rintro rfl; simp at h
  · rintro rfl; simp at h

/-- Under the precondition every entry of the feature array is a real. -/
theorem entries_finite (x0 : FVec Ideal Cert.Pre_finite_inputs.S4096x2x192 .f32) (x1 : IVec Cert.Pre_finite_inputs.S4096 32)
    (h : Cert.Pre_finite_inputs.fn (F := Ideal) x0 x1 = fun _ => 1#1)
    (k : Cert.Pre_finite_inputs.S4096x2x192.Idx) : x0 k ≠ ⊤ ∧ x0 k ≠ ⊥ := by
  have h0 := congrFun h ix0
  dsimp only [Cert.Pre_finite_inputs.fn] at h0
  have hk := Host.reduce_andi_all _ _ _ _ ix0 h0 k
  have hlt := (Cert.ReferenceIdeal.RefValue.cmp_olt (Host.absf x0 k) _).mp hk
  have hb : broadcastInDim Cert.Pre_finite_inputs.S4096x2x192 ![] Cert.Pre_finite_inputs.Facts.bcast_S_S4096x2x192
      (constant (F := Ideal) Cert.Pre_finite_inputs.S_ .f32 0x7F800000#32) k = ⊤ := by
    rw [broadcastInDim_apply _ Cert.Pre_finite_inputs.Facts.bcast_S_S4096x2x192 _ k ix0 (fun a => a.elim0)]
    show Ideal.ofBits .f32 0x7F800000#32 = ⊤
    simp [Ideal.ofBits, Ideal.ieee]
  rw [hb] at hlt
  exact finite_of_abs_lt (x0 k) hlt

/-- Under the kernel program's precondition the row matrix is finite, on every device. -/
theorem finite_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Spec.Finite (Cert.Spec.rowsOf (m ((c.tc : Thread Cert.KernelIdeal.nD Cert.KernelIdeal.τ).loc Cert.KernelIdeal.main_arg0))) := by
  intro i d
  exact entries_finite _ _ (hpre c) _

end Cert.KernelIdeal.HostValue

end
-- ==== Proof.lean ====
/-
  The proof of the certificate's claim. The kernel normalises each row of the similarity matrix f fᵀ by the row's
  Euclidean norm, which it computes through the Gram matrix fᵀf (the squared norm of row i is f_i (fᵀf) f_iᵀ), and
  mines the hardest positive and negative per row in a first pass over 16 x 8 tiles, then sums the kept exponentials
  and raises the "anything kept" flags in a second pass; the reference does the same on the whole 8192 x 8192 matrix.
  At the ideal instance, with finite features, both return the same mean row loss and the same percentage of rows with
  no kept negative: the Gram identity makes the two norms one real number, every similarity is at most 1 in absolute
  value so the kernel's clamps of the exponents at 40 do nothing, and every tiled fold is the reduction over the row.
  The three frames are runs of the programs: the kernel's two regions run point by point with their accumulators
  carried between the column tiles of a row tile; the reference is its host operations in order.
-/
import proofs.«151531_j1219770712681_2_alg».proof.Defs
import proofs.«151531_j1219770712681_2_alg».proof.Proof.Gen.Kernel
import proofs.«151531_j1219770712681_2_alg».proof.Proof.Gen.KernelIdeal
import proofs.«151531_j1219770712681_2_alg».proof.Proof.Gen.ReferenceIdeal
import proofs.«151531_j1219770712681_2_alg».proof.Proof.Gen.Pre_finite_inputs
import proofs.«151531_j1219770712681_2_alg».proof.Proof.BitsMainRun
import proofs.«151531_j1219770712681_2_alg».proof.Proof.MainRun
import proofs.«151531_j1219770712681_2_alg».proof.Proof.RefValue
import proofs.«151531_j1219770712681_2_alg».proof.Proof.SpecBridge
import proofs.«151531_j1219770712681_2_alg».proof.Proof.KerValLoss
import proofs.«151531_j1219770712681_2_alg».proof.Proof.KerHostFinite

noncomputable section

namespace Cert.Proof

open Idealize.ShloMosaic Idealize.ShloMosaic.TcCoe Idealize.SL.Sem

/-- The program as printed runs, and its argument arrays end as launched. -/
theorem frame_k : Cert.frame_Kernel (hKernel := Cert.Kernel.Gen.facts) (hPre_finite_inputs := Cert.Pre_finite_inputs.Gen.facts) :=
  fun m ρ _ => Cert.Kernel.Run.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference runs: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.RefValue.run_spec m ρ)

/-- Both programs end with the reference form's two results of the (shared) arguments: the kernel's run ends at the
    kernel form's, which is the reference form's for finite features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.Ref.loss (Cert.Spec.rowsOf (m ((c.tc : Thread Cert.KernelIdeal.nD Cert.KernelIdeal.τ).loc Cert.KernelIdeal.main_arg0)))
      (Cert.Spec.labelsOf (m ((c.tc : Thread Cert.KernelIdeal.nD Cert.KernelIdeal.τ).loc Cert.KernelIdeal.main_arg1))),
    fun c => fun _ => Cert.Spec.Ref.prec1 (Cert.Spec.rowsOf (m ((c.tc : Thread Cert.KernelIdeal.nD Cert.KernelIdeal.τ).loc Cert.KernelIdeal.main_arg0)))
      (Cert.Spec.labelsOf (m ((c.tc : Thread Cert.KernelIdeal.nD Cert.KernelIdeal.τ).loc Cert.KernelIdeal.main_arg1))), ?_, ?_⟩
  · refine (θ_run Cert.KernelIdeal.defs _ _).mono (fun r h c => ?_) (Cert.KernelIdeal.Run.run_all (F := Ideal) m ρ)
    have hb := Cert.Spec.bridge _ (Cert.Spec.labelsOf (m ((c.tc : Thread Cert.KernelIdeal.nD Cert.KernelIdeal.τ).loc Cert.KernelIdeal.main_arg1)))
      (Cert.KernelIdeal.HostValue.finite_of_pre m hpre c)
    refine ⟨?_, ?_, ?_, ?_⟩
    · refine (h c _ (Cert.KernelIdeal.Run.mem_uc Cert.KernelIdeal.main_v19 (by decide))).trans ((Cert.KernelIdeal.Val.loss_val m c).trans ?_)
      rw [hb.1]
    · refine (h c _ (Cert.KernelIdeal.Run.mem_uc Cert.KernelIdeal.main_v25 (by decide))).trans ((Cert.KernelIdeal.Val.prec1_val m c).trans ?_)
      rw [hb.2]
    · exact (h c _ (Cert.KernelIdeal.Run.mem_uc Cert.KernelIdeal.main_arg0 (by decide))).trans (Cert.KernelIdeal.Gen.V4_main_arg0 m (Cert.KernelIdeal.Run.outs m) c)
    · exact (h c _ (Cert.KernelIdeal.Run.mem_uc Cert.KernelIdeal.main_arg1 (by decide))).trans (Cert.KernelIdeal.Gen.V4_main_arg1 m (Cert.KernelIdeal.Run.outs m) c)
  · refine (θ_run Cert.ReferenceIdeal.defs _ _).mono (fun r h c => ?_) (Cert.ReferenceIdeal.RefValue.run_spec m' ρ')
    obtain ⟨h1, h2, h3, h4⟩ := h c
    refine ⟨?_, ?_, h3, h4⟩
    · rw [h1, (hagree c).1, (hagree c).2] <;> rfl
    · rw [h2, (hagree c).1, (hagree c).2] <;> rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
